-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x16 : Shape := ⟨2, ![1000000, 16]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_v45 : IVec S_ 1) (main_v50 : IVec S16384 1) : IVec S_ 1 :=
  let main_c_19 : IVec S_ 1 := constantI S_ 1 1#1
  let main_v51 : IVec S_ 1 := (fun x v => Host.reduce IntOp.andi x v reducesTo_S16384_S_d0 h_S_) main_v50 main_c_19
  let main_v52 : IVec S_ 1 := andi main_v45 main_v51
  main_v52

def fn_part2 {F : FTy → Type} [FloatOps F] (main_arg0 : IVec S16384 32) (main_arg1 : IVec S16384 32) (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S16384 32 := broadcastInDim S16384 ![] bcast_S_S16384 main_c_14
  let main_v40 : IVec S16384 1 := cmpi .sge main_arg0 main_v39
  let main_c_15 : IVec S_ 32 := constantI S_ 32 999999#32
  let main_v41 : IVec S16384 32 := broadcastInDim S16384 ![] bcast_S_S16384 main_c_15
  let main_v42 : IVec S16384 1 := cmpi .sle main_arg0 main_v41
  let main_v43 : IVec S16384 1 := andi main_v40 main_v42
  let main_c_16 : IVec S_ 1 := constantI S_ 1 1#1
  let main_v44 : IVec S_ 1 := (fun x v => Host.reduce IntOp.andi x v reducesTo_S16384_S_d0 h_S_) main_v43 main_c_16
  let main_v45 : IVec S_ 1 := andi main_v38 main_v44
  let main_c_17 : IVec S_ 32 := constantI S_ 32 0#32
  let main_v46 : IVec S16384 32 := broadcastInDim S16384 ![] bcast_S_S16384 main_c_17
  let main_v47 : IVec S16384 1 := cmpi .sge main_arg1 main_v46
  let main_c_18 : IVec S_ 32 := constantI S_ 32 999999#32
  let main_v48 : IVec S16384 32 := broadcastInDim S16384 ![] bcast_S_S16384 main_c_18
  let main_v49 : IVec S16384 1 := cmpi .sle main_arg1 main_v48
  let main_v50 : IVec S16384 1 := andi main_v47 main_v49
  fn_part3 (F := F) main_v45 main_v50

def fn_part1 {F : FTy → Type} [FloatOps F] (main_arg0 : IVec S16384 32) (main_arg1 : IVec S16384 32) (main_arg6 : FVec F S64x32 .f32) (main_arg7 : FVec F S32 .f32) (main_arg8 : FVec F S32x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg8
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg0 main_arg1 main_arg9 main_v33

def fn {F : FTy → Type} [FloatOps F] (main_arg0 : IVec S16384 32) (main_arg1 : IVec S16384 32) (main_arg2 : FVec F S1000000x16 .f32) (main_arg3 : FVec F S1000000x16 .f32) (main_arg4 : FVec F S32x64 .f32) (main_arg5 : FVec F S64 .f32) (main_arg6 : FVec F S64x32 .f32) (main_arg7 : FVec F S32 .f32) (main_arg8 : FVec F S32x1 .f32) (main_arg9 : FVec F S1 .f32) : IVec S_ 1 :=
  let main_v0 : FVec F S1000000x16 .f32 := Host.absf main_arg2
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S1000000x16 .f32 := Host.absf main_arg3
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg6 main_arg7 main_arg8 main_arg9 main_v13 main_v16
-- ==== Kernel.lean ====
abbrev S16384 : Shape := ⟨1, ![16384]⟩
abbrev S1000000x16 : Shape := ⟨2, ![1000000, 16]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16x1000000 : Shape := ⟨2, ![16, 1000000]⟩
abbrev S16384x16 : Shape := ⟨2, ![16384, 16]⟩
abbrev S512 : Shape := ⟨1, ![512]⟩
abbrev S512x16 : Shape := ⟨2, ![512, 16]⟩
abbrev S_ : Shape := ⟨0, ![]⟩
abbrev S16 : Shape := ⟨1, ![16]⟩
abbrev S1x16 : Shape := ⟨2, ![1, 16]⟩
abbrev S16x64 : Shape := ⟨2, ![16, 64]⟩
abbrev S1x64 : Shape := ⟨2, ![1, 64]⟩
abbrev S1x32 : Shape := ⟨2, ![1, 32]⟩
abbrev S1x1 : Shape := ⟨2, ![1, 1]⟩
abbrev S16384x1 : Shape := ⟨2, ![16384, 1]⟩
abbrev S2048x16 : Shape := ⟨2, ![2048, 16]⟩
abbrev S2048x1 : Shape := ⟨2, ![2048, 1]⟩
abbrev S2048x64 : Shape := ⟨2, ![2048, 64]⟩
abbrev S2048x32 : Shape := ⟨2, ![2048, 32]⟩

abbrev nBuf : Table → Nat
  | .hbm => 25
  | .local .tc .vmem => 13
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x16, .f32⟩
  | .hbm, ⟨3, _⟩ => ⟨S1000000x16, .f32⟩
  | .hbm, ⟨4, _⟩ => ⟨S32x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S16x1000000, .f32⟩
  | .hbm, ⟨11, _⟩ => ⟨S16x1000000, .f32⟩
  | .hbm, ⟨12, _⟩ => ⟨S16x1000000, .f32⟩
  | .hbm, ⟨13, _⟩ => ⟨S16x1000000, .f32⟩
  | .hbm, ⟨14, _⟩ => ⟨S1000000x16, .f32⟩
  | .hbm, ⟨15, _⟩ => ⟨S1000000x16, .f32⟩
  | .hbm, ⟨16, _⟩ => ⟨S16384x16, .f32⟩
  | .hbm, ⟨17, _⟩ => ⟨S16384x16, .f32⟩
  | .hbm, ⟨18, _⟩ => ⟨S16x64, .f32⟩
  | .hbm, ⟨19, _⟩ => ⟨S16x64, .f32⟩
  | .hbm, ⟨20, _⟩ => ⟨S1x64, .f32⟩
  | .hbm, ⟨21, _⟩ => ⟨S1x32, .f32⟩
  | .hbm, ⟨22, _⟩ => ⟨S1x1, .f32⟩
  | .hbm, ⟨23, _⟩ => ⟨S16384x1, .f32⟩
  | .hbm, ⟨24, _⟩ => ⟨S16384, .f32⟩
  | .local .tc .vmem, ⟨0, _⟩ => ⟨S2048x16, .f32⟩
  | .local .tc .vmem, ⟨1, _⟩ => ⟨S2048x16, .f32⟩
  | .local .tc .vmem, ⟨2, _⟩ => ⟨S2048x16, .f32⟩
  | .local .tc .vmem, ⟨3, _⟩ => ⟨S2048x16, .f32⟩
  | .local .tc .vmem, ⟨4, _⟩ => ⟨S16x64, .f32⟩
  | .local .tc .vmem, ⟨5, _⟩ => ⟨S16x64, .f32⟩
  | .local .tc .vmem, ⟨6, _⟩ => ⟨S1x64, .f32⟩
  | .local .tc .vmem, ⟨7, _⟩ => ⟨S64x32, .f32⟩
  | .local .tc .vmem, ⟨8, _⟩ => ⟨S1x32, .f32⟩
  | .local .tc .vmem, ⟨9, _⟩ => ⟨S32x1, .f32⟩
  | .local .tc .vmem, ⟨10, _⟩ => ⟨S1x1, .f32⟩
  | .local .tc .vmem, ⟨11, _⟩ => ⟨S2048x1, .f32⟩
  | .local .tc .vmem, ⟨12, _⟩ => ⟨S2048x1, .f32⟩
  | .local .scVector .vmem, ⟨0, _⟩ => ⟨S512, .i32⟩
  | .local .scVector .vmem, ⟨1, _⟩ => ⟨S512x16, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_arg0_scv : Ref sig .scVector := ⟨.hbm, 0, rfl⟩
abbrev main_arg1_scv : Ref sig .scVector := ⟨.hbm, 1, rfl⟩
abbrev main_v3_scv : Ref sig .scVector := ⟨.hbm, 14, rfl⟩
abbrev main_v4_scv : Ref sig .scVector := ⟨.hbm, 15, rfl⟩
abbrev main_v5_0_scv : Ref sig .scVector := ⟨.hbm, 16, rfl⟩
abbrev main_v5_1_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg9_1 : Ref sig .tc := ⟨.vmem, 12, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg11 : BitVec 32 := Scf.iv c0_i32_0 c1_i32 k0_t1
  let c16_i32 : BitVec 32 := 16#32
  let v7 : BitVec 32 := Scalar.muli arg11 c16_i32
  let v8 : Index := Scalar.indexCast v7
  ![v8.toNat]
def k0_off3 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c16_i32_17 : BitVec 32 := 16#32
  let v13 : BitVec 32 := Scalar.muli arg11 c16_i32_17
  let c0_i32_18 : BitVec 32 := 0#32
  let v14 : BitVec 32 := Scalar.addi v13 c0_i32_18
  let c0_i32_19 : BitVec 32 := 0#32
  ![v14.toNat, 0]
def k0_off4 (v12 : BitVec 32) : Fin 2 → Nat :=
  let c0_i32_20 : BitVec 32 := 0#32
  ![v12.toNat, 0]

def k0_chk1 (v12 : BitVec 32) : Prop :=
  (∀ a, (k0_off4 v12) a + S1x16.size a ≤ S1000000x16.size a)
instance k0_chk1.dec : ∀ (v12 : BitVec 32), Decidable (k0_chk1 v12) := fun v12 => decidable_of_iff' _ (Iff.of_eq (k0_chk1.eq_1 v12))
theorem k0_off4_inb : ∀ (v12 : BitVec 32) (k0_hw1 : k0_chk1 v12), ∀ a, (k0_off4 v12) a + S1x16.size a ≤ S1000000x16.size a := fun v12 k0_hw1 => k0_hw1

def k0_off5 (k0_t1 : Fin k0_t1_loop.trips) (c0_i32_18 : BitVec 32) : Fin 2 → Nat :=
  let c0_i32_0 : BitVec 32 := 0#32
  let c1_i32 : BitVec 32 := 1#32
  let arg11 : BitVec 32 := Scf.iv c0_i32_0 c1_i32 k0_t1
  let c16_i32_17 : BitVec 32 := 16#32
  let v13 : BitVec 32 := Scalar.muli arg11 c16_i32_17
  let v14 : BitVec 32 := Scalar.addi v13 c0_i32_18
  let c0_i32_21 : BitVec 32 := 0#32
  ![v14.toNat, 0]
def k0_off6 (v20 : BitVec 32) : Fin 2 → Nat :=
  let c0_i32_26 : BitVec 32 := 0#32
  ![v20.toNat, 0]

def k0_chk2 (v20 : BitVec 32) : Prop :=
  (∀ a, (k0_off6 v20) a + S1x16.size a ≤ S1000000x16.size a)
instance k0_chk2.dec : ∀ (v20 : BitVec 32), Decidable (k0_chk2 v20) := fun v20 => decidable_of_iff' _ (Iff.of_eq (k0_chk2.eq_1 v20))
theorem k0_off6_inb : ∀ (v20 : BitVec 32) (k0_hw2 : k0_chk2 v20), ∀ a, (k0_off6 v20) a + S1x16.size a ≤ S1000000x16.size a := fun v20 k0_hw2 => k0_hw2

def k0_off7 (k0_t1 : Fin k0_t1_loop.trips) (c1_i32_24 : BitVec 32) : Fin 2 → Nat :=
  let c0_i32_0 : BitVec 32 := 0#32
  let c1_i32 : BitVec 32 := 1#32
  let arg11 : BitVec 32 := Scf.iv c0_i32_0 c1_i32 k0_t1
  let c16_i32_23 : BitVec 32 := 16#32
  let v21 : BitVec 32 := Scalar.muli arg11 c16_i32_23
  let v22 : BitVec 32 := Scalar.addi v21 c1_i32_24
  let c0_i32_27 : BitVec 32 := 0#32
  ![v22.toNat, 0]
def k0_off8 (v28 : BitVec 32) : Fin 2 → Nat :=
  let c0_i32_32 : BitVec 32 := 0#32
  ![v28.toNat, 0]

def k0_chk3 (v28 : BitVec 32) : Prop :=
  (∀ a, (k0_off8 v28) a + S1x16.size a ≤ S1000000x16.size a)
instance k0_chk3.dec : ∀ (v28 : BitVec 32), Decidable (k0_chk3 v28) := fun v28 => decidable_of_iff' _ (Iff.of_eq (k0_chk3.eq_1 v28))
theorem k0_off8_inb : ∀ (v28 : BitVec 32) (k0_hw3 : k0_chk3 v28), ∀ a, (k0_off8 v28) a + S1x16.size a ≤ S1000000x16.size a := fun v28 k0_hw3 => k0_hw3

def k0_off9 (k0_t1 : Fin k0_t1_loop.trips) (c2_i32_30 : BitVec 32) : Fin 2 → Nat :=
  let c0_i32_0 : BitVec 32 := 0#32
  let c1_i32 : BitVec 32 := 1#32
  let arg11 : BitVec 32 := Scf.iv c0_i32_0 c1_i32 k0_t1
  let c16_i32_29 : BitVec 32 := 16#32
  let v29 : BitVec 32 := Scalar.muli arg11 c16_i32_29
  let v30 : BitVec 32 := Scalar.addi v29 c2_i32_30
  let c0_i32_33 : BitVec 32 := 0#32
  ![v30.toNat, 0]
def k0_off10 (v36 : BitVec 32) : Fin 2 → Nat :=
  let c0_i32_37 : BitVec 32 := 0#32
  ![v36.toNat, 0]

def k0_chk4 (v36 : BitVec 32) : Prop :=
  (∀ a, (k0_off10 v36) a + S1x16.size a ≤ S1000000x16.size a)
instance k0_chk4.dec : ∀ (v36 : BitVec 32), Decidable (k0_chk4 v36) := fun v36 => decidable_of_iff' _ (Iff.of_eq (k0_chk4.eq_1 v36))
theorem k0_off10_inb : ∀ (v36 : BitVec 32) (k0_hw4 : k0_chk4 v36), ∀ a, (k0_off10 v36) a + S1x16.size a ≤ S1000000x16.size a := fun v36 k0_hw4 => k0_hw4

def k0_off11 (k0_t1 : Fin k0_t1_loop.trips) (c3_i32 : BitVec 32) : Fin 2 → Nat :=
  let c0_i32_0 : BitVec 32 := 0#32
  let c1_i32 : BitVec 32 := 1#32
  let arg11 : BitVec 32 := Scf.iv c0_i32_0 c1_i32 k0_t1
  let c16_i32_35 : BitVec 32 := 16#32
  let v37 : BitVec 32 := Scalar.muli arg11 c16_i32_35
  let v38 : BitVec 32 := Scalar.addi v37 c3_i32
  let c0_i32_38 : BitVec 32 := 0#32
  ![v38.toNat, 0]
def k0_off12 (v44 : BitVec 32) : Fin 2 → Nat :=
  let c0_i32_42 : BitVec 32 := 0#32
  ![v44.toNat, 0]

def k0_chk5 (v44 : BitVec 32) : Prop :=
  (∀ a, (k0_off12 v44) a + S1x16.size a ≤ S1000000x16.size a)
instance k0_chk5.dec : ∀ (v44 : BitVec 32), Decidable (k0_chk5 v44) := fun v44 => decidable_of_iff' _ (Iff.of_eq (k0_chk5.eq_1 v44))
theorem k0_off12_inb : ∀ (v44 : BitVec 32) (k0_hw5 : k0_chk5 v44), ∀ a, (k0_off12 v44) a + S1x16.size a ≤ S1000000x16.size a := fun v44 k0_hw5 => k0_hw5

def k0_off13 (k0_t1 : Fin k0_t1_loop.trips) (c4_i32 : BitVec 32) : Fin 2 → Nat :=
  let c0_i32_0 : BitVec 32 := 0#32
  let c1_i32 : BitVec 32 := 1#32
  let arg11 : BitVec 32 := Scf.iv c0_i32_0 c1_i32 k0_t1
  let c16_i32_40 : BitVec 32 := 16#32
  let v45 : BitVec 32 := Scalar.muli arg11 c16_i32_40
  let v46 : BitVec 32 := Scalar.addi v45 c4_i32
  let c0_i32_43 : BitVec 32 := 0#32
  ![v46.toNat, 0]
def k0_off14 (v52 : BitVec 32) : Fin 2 → Nat :=
  let c0_i32_47 : BitVec 32 := 0#32
  ![v52.toNat, 0]

def k0_chk6 (v52 : BitVec 32) : Prop :=
  (∀ a, (k0_off14 v52) a + S1x16.size a ≤ S1000000x16.size a)
instance k0_chk6.dec : ∀ (v52 : BitVec 32), Decidable (k0_chk6 v52) := fun v52 => decidable_of_iff' _ (Iff.of_eq (k0_chk6.eq_1 v52))
theorem k0_off14_inb : ∀ (v52 : BitVec 32) (k0_hw6 : k0_chk6 v52), ∀ a, (k0_off14 v52) a + S1x16.size a ≤ S1000000x16.size a := fun v52 k0_hw6 => k0_hw6

def k0_off15 (k0_t1 : Fin k0_t1_loop.trips) (c5_i32 : BitVec 32) : Fin 2 → Nat :=
  let c0_i32_0 : BitVec 32 := 0#32
  let c1_i32 : BitVec 32 := 1#32
  let arg11 : BitVec 32 := Scf.iv c0_i32_0 c1_i32 k0_t1
  let c16_i32_45 : BitVec 32 := 16#32
  let v53 : BitVec 32 := Scalar.muli arg11 c16_i32_45
  let v54 : BitVec 32 := Scalar.addi v53 c5_i32
  let c0_i32_48 : BitVec 32 := 0#32
  ![v54.toNat, 0]
def k0_off16 (v60 : BitVec 32) : Fin 2 → Nat :=
  let c0_i32_52 : BitVec 32 := 0#32
  ![v60.toNat, 0]

def k0_chk7 (v60 : BitVec 32) : Prop :=
  (∀ a, (k0_off16 v60) a + S1x16.size a ≤ S1000000x16.size a)
instance k0_chk7.dec : ∀ (v60 : BitVec 32), Decidable (k0_chk7 v60) := fun v60 => decidable_of_iff' _ (Iff.of_eq (k0_chk7.eq_1 v60))
theorem k0_off16_inb : ∀ (v60 : BitVec 32) (k0_hw7 : k0_chk7 v60), ∀ a, (k0_off16 v60) a + S1x16.size a ≤ S1000000x16.size a := fun v60 k0_hw7 => k0_hw7

def k0_off17 (k0_t1 : Fin k0_t1_loop.trips) (c6_i32 : BitVec 32) : Fin 2 → Nat :=
  let c0_i32_0 : BitVec 32 := 0#32
  let c1_i32 : BitVec 32 := 1#32
  let arg11 : BitVec 32 := Scf.iv c0_i32_0 c1_i32 k0_t1
  let c16_i32_50 : BitVec 32 := 16#32
  let v61 : BitVec 32 := Scalar.muli arg11 c16_i32_50
  let v62 : BitVec 32 := Scalar.addi v61 c6_i32
  let c0_i32_53 : BitVec 32 := 0#32
  ![v62.toNat, 0]
def k0_off18 (v68 : BitVec 32) : Fin 2 → Nat :=
  let c0_i32_57 : BitVec 32 := 0#32
  ![v68.toNat, 0]

def k0_chk8 (v68 : BitVec 32) : Prop :=
  (∀ a, (k0_off18 v68) a + S1x16.size a ≤ S1000000x16.size a)
instance k0_chk8.dec : ∀ (v68 : BitVec 32), Decidable (k0_chk8 v68) := fun v68 => decidable_of_iff' _ (Iff.of_eq (k0_chk8.eq_1 v68))
theorem k0_off18_inb : ∀ (v68 : BitVec 32) (k0_hw8 : k0_chk8 v68), ∀ a, (k0_off18 v68) a + S1x16.size a ≤ S1000000x16.size a := fun v68 k0_hw8 => k0_hw8

def k0_off19 (k0_t1 : Fin k0_t1_loop.trips) (c7_i32 : BitVec 32) : Fin 2 → Nat :=
  let c0_i32_0 : BitVec 32 := 0#32
  let c1_i32 : BitVec 32 := 1#32
  let arg11 : BitVec 32 := Scf.iv c0_i32_0 c1_i32 k0_t1
  let c16_i32_55 : BitVec 32 := 16#32
  let v69 : BitVec 32 := Scalar.muli arg11 c16_i32_55
  let v70 : BitVec 32 := Scalar.addi v69 c7_i32
  let c0_i32_58 : BitVec 32 := 0#32
  ![v70.toNat, 0]
def k0_off20 (v76 : BitVec 32) : Fin 2 → Nat :=
  let c0_i32_62 : BitVec 32 := 0#32
  ![v76.toNat, 0]

def k0_chk9 (v76 : BitVec 32) : Prop :=
  (∀ a, (k0_off20 v76) a + S1x16.size a ≤ S1000000x16.size a)
instance k0_chk9.dec : ∀ (v76 : BitVec 32), Decidable (k0_chk9 v76) := fun v76 => decidable_of_iff' _ (Iff.of_eq (k0_chk9.eq_1 v76))
theorem k0_off20_inb : ∀ (v76 : BitVec 32) (k0_hw9 : k0_chk9 v76), ∀ a, (k0_off20 v76) a + S1x16.size a ≤ S1000000x16.size a := fun v76 k0_hw9 => k0_hw9

def k0_off21 (k0_t1 : Fin k0_t1_loop.trips) (c8_i32 : BitVec 32) : Fin 2 → Nat :=
  let c0_i32_0 : BitVec 32 := 0#32
  let c1_i32 : BitVec 32 := 1#32
  let arg11 : BitVec 32 := Scf.iv c0_i32_0 c1_i32 k0_t1
  let c16_i32_60 : BitVec 32 := 16#32
  let v77 : BitVec 32 := Scalar.muli arg11 c16_i32_60
  let v78 : BitVec 32 := Scalar.addi v77 c8_i32
  let c0_i32_63 : BitVec 32 := 0#32
  ![v78.toNat, 0]
def k0_off22 (v84 : BitVec 32) : Fin 2 → Nat :=
  let c0_i32_67 : BitVec 32 := 0#32
  ![v84.toNat, 0]

def k0_chk10 (v84 : BitVec 32) : Prop :=
  (∀ a, (k0_off22 v84) a + S1x16.size a ≤ S1000000x16.size a)
instance k0_chk10.dec : ∀ (v84 : BitVec 32), Decidable (k0_chk10 v84) := fun v84 => decidable_of_iff' _ (Iff.of_eq (k0_chk10.eq_1 v84))
theorem k0_off22_inb : ∀ (v84 : BitVec 32) (k0_hw10 : k0_chk10 v84), ∀ a, (k0_off22 v84) a + S1x16.size a ≤ S1000000x16.size a := fun v84 k0_hw10 => k0_hw10

def k0_off23 (k0_t1 : Fin k0_t1_loop.trips) (c9_i32 : BitVec 32) : Fin 2 → Nat :=
  let c0_i32_0 : BitVec 32 := 0#32
  let c1_i32 : BitVec 32 := 1#32
  let arg11 : BitVec 32 := Scf.iv c0_i32_0 c1_i32 k0_t1
  let c16_i32_65 : BitVec 32 := 16#32
  let v85 : BitVec 32 := Scalar.muli arg11 c16_i32_65
  let v86 : BitVec 32 := Scalar.addi v85 c9_i32
  let c0_i32_68 : BitVec 32 := 0#32
  ![v86.toNat, 0]
def k0_off24 (v92 : BitVec 32) : Fin 2 → Nat :=
  let c0_i32_72 : BitVec 32 := 0#32
  ![v92.toNat, 0]

def k0_chk11 (v92 : BitVec 32) : Prop :=
  (∀ a, (k0_off24 v92) a + S1x16.size a ≤ S1000000x16.size a)
instance k0_chk11.dec : ∀ (v92 : BitVec 32), Decidable (k0_chk11 v92) := fun v92 => decidable_of_iff' _ (Iff.of_eq (k0_chk11.eq_1 v92))
theorem k0_off24_inb : ∀ (v92 : BitVec 32) (k0_hw11 : k0_chk11 v92), ∀ a, (k0_off24 v92) a + S1x16.size a ≤ S1000000x16.size a := fun v92 k0_hw11 => k0_hw11

def k0_off25 (k0_t1 : Fin k0_t1_loop.trips) (c10_i32 : BitVec 32) : Fin 2 → Nat :=
  let c0_i32_0 : BitVec 32 := 0#32
  let c1_i32 : BitVec 32 := 1#32
  let arg11 : BitVec 32 := Scf.iv c0_i32_0 c1_i32 k0_t1
  let c16_i32_70 : BitVec 32 := 16#32
  let v93 : BitVec 32 := Scalar.muli arg11 c16_i32_70
  let v94 : BitVec 32 := Scalar.addi v93 c10_i32
  let c0_i32_73 : BitVec 32 := 0#32
  ![v94.toNat, 0]
def k0_off26 (v100 : BitVec 32) : Fin 2 → Nat :=
  let c0_i32_77 : BitVec 32 := 0#32
  ![v100.toNat, 0]

def k0_chk12 (v100 : BitVec 32) : Prop :=
  (∀ a, (k0_off26 v100) a + S1x16.size a ≤ S1000000x16.size a)
instance k0_chk12.dec : ∀ (v100 : BitVec 32), Decidable (k0_chk12 v100) := fun v100 => decidable_of_iff' _ (Iff.of_eq (k0_chk12.eq_1 v100))
theorem k0_off26_inb : ∀ (v100 : BitVec 32) (k0_hw12 : k0_chk12 v100), ∀ a, (k0_off26 v100) a + S1x16.size a ≤ S1000000x16.size a := fun v100 k0_hw12 => k0_hw12

def k0_off27 (k0_t1 : Fin k0_t1_loop.trips) (c11_i32 : BitVec 32) : Fin 2 → Nat :=
  let c0_i32_0 : BitVec 32 := 0#32
  let c1_i32 : BitVec 32 := 1#32
  let arg11 : BitVec 32 := Scf.iv c0_i32_0 c1_i32 k0_t1
  let c16_i32_75 : BitVec 32 := 16#32
  let v101 : BitVec 32 := Scalar.muli arg11 c16_i32_75
  let v102 : BitVec 32 := Scalar.addi v101 c11_i32
  let c0_i32_78 : BitVec 32 := 0#32
  ![v102.toNat, 0]
def k0_off28 (v108 : BitVec 32) : Fin 2 → Nat :=
  let c0_i32_82 : BitVec 32 := 0#32
  ![v108.toNat, 0]

def k0_chk13 (v108 : BitVec 32) : Prop :=
  (∀ a, (k0_off28 v108) a + S1x16.size a ≤ S1000000x16.size a)
instance k0_chk13.dec : ∀ (v108 : BitVec 32), Decidable (k0_chk13 v108) := fun v108 => decidable_of_iff' _ (Iff.of_eq (k0_chk13.eq_1 v108))
theorem k0_off28_inb : ∀ (v108 : BitVec 32) (k0_hw13 : k0_chk13 v108), ∀ a, (k0_off28 v108) a + S1x16.size a ≤ S1000000x16.size a := fun v108 k0_hw13 => k0_hw13

def k0_off29 (k0_t1 : Fin k0_t1_loop.trips) (c12_i32 : BitVec 32) : Fin 2 → Nat :=
  let c0_i32_0 : BitVec 32 := 0#32
  let c1_i32 : BitVec 32 := 1#32
  let arg11 : BitVec 32 := Scf.iv c0_i32_0 c1_i32 k0_t1
  let c16_i32_80 : BitVec 32 := 16#32
  let v109 : BitVec 32 := Scalar.muli arg11 c16_i32_80
  let v110 : BitVec 32 := Scalar.addi v109 c12_i32
  let c0_i32_83 : BitVec 32 := 0#32
  ![v110.toNat, 0]
def k0_off30 (v116 : BitVec 32) : Fin 2 → Nat :=
  let c0_i32_87 : BitVec 32 := 0#32
  ![v116.toNat, 0]

def k0_chk14 (v116 : BitVec 32) : Prop :=
  (∀ a, (k0_off30 v116) a + S1x16.size a ≤ S1000000x16.size a)
instance k0_chk14.dec : ∀ (v116 : BitVec 32), Decidable (k0_chk14 v116) := fun v116 => decidable_of_iff' _ (Iff.of_eq (k0_chk14.eq_1 v116))
theorem k0_off30_inb : ∀ (v116 : BitVec 32) (k0_hw14 : k0_chk14 v116), ∀ a, (k0_off30 v116) a + S1x16.size a ≤ S1000000x16.size a := fun v116 k0_hw14 => k0_hw14

def k0_off31 (k0_t1 : Fin k0_t1_loop.trips) (c13_i32 : BitVec 32) : Fin 2 → Nat :=
  let c0_i32_0 : BitVec 32 := 0#32
  let c1_i32 : BitVec 32 := 1#32
  let arg11 : BitVec 32 := Scf.iv c0_i32_0 c1_i32 k0_t1
  let c16_i32_85 : BitVec 32 := 16#32
  let v117 : BitVec 32 := Scalar.muli arg11 c16_i32_85
  let v118 : BitVec 32 := Scalar.addi v117 c13_i32
  let c0_i32_88 : BitVec 32 := 0#32
  ![v118.toNat, 0]
def k0_off32 (v124 : BitVec 32) : Fin 2 → Nat :=
  let c0_i32_92 : BitVec 32 := 0#32
  ![v124.toNat, 0]

def k0_chk15 (v124 : BitVec 32) : Prop :=
  (∀ a, (k0_off32 v124) a + S1x16.size a ≤ S1000000x16.size a)
instance k0_chk15.dec : ∀ (v124 : BitVec 32), Decidable (k0_chk15 v124) := fun v124 => decidable_of_iff' _ (Iff.of_eq (k0_chk15.eq_1 v124))
theorem k0_off32_inb : ∀ (v124 : BitVec 32) (k0_hw15 : k0_chk15 v124), ∀ a, (k0_off32 v124) a + S1x16.size a ≤ S1000000x16.size a := fun v124 k0_hw15 => k0_hw15

def k0_off33 (k0_t1 : Fin k0_t1_loop.trips) (c14_i32 : BitVec 32) : Fin 2 → Nat :=
  let c0_i32_0 : BitVec 32 := 0#32
  let c1_i32 : BitVec 32 := 1#32
  let arg11 : BitVec 32 := Scf.iv c0_i32_0 c1_i32 k0_t1
  let c16_i32_90 : BitVec 32 := 16#32
  let v125 : BitVec 32 := Scalar.muli arg11 c16_i32_90
  let v126 : BitVec 32 := Scalar.addi v125 c14_i32
  let c0_i32_93 : BitVec 32 := 0#32
  ![v126.toNat, 0]
def k0_off34 (v132 : BitVec 32) : Fin 2 → Nat :=
  let c0_i32_97 : BitVec 32 := 0#32
  ![v132.toNat, 0]

def k0_chk16 (v132 : BitVec 32) : Prop :=
  (∀ a, (k0_off34 v132) a + S1x16.size a ≤ S1000000x16.size a)
instance k0_chk16.dec : ∀ (v132 : BitVec 32), Decidable (k0_chk16 v132) := fun v132 => decidable_of_iff' _ (Iff.of_eq (k0_chk16.eq_1 v132))
theorem k0_off34_inb : ∀ (v132 : BitVec 32) (k0_hw16 : k0_chk16 v132), ∀ a, (k0_off34 v132) a + S1x16.size a ≤ S1000000x16.size a := fun v132 k0_hw16 => k0_hw16

def k0_off35 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c16_i32_95 : BitVec 32 := 16#32
  let v133 : BitVec 32 := Scalar.muli arg11 c16_i32_95
  let c15_i32 : BitVec 32 := 15#32
  let v134 : BitVec 32 := Scalar.addi v133 c15_i32
  let c0_i32_98 : BitVec 32 := 0#32
  ![v134.toNat, 0]
@[reducible] def k0_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
def k0_off36 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_17_r1 : BitVec 32 := 0#32
  ![v2.toNat, 0]
@[reducible] def k0_t3_loop : Scf.Loop 32 :=
  let c0_i32_8 : BitVec 32 := 0#32
  let c32_i32_9 : BitVec 32 := 32#32
  let v5 : BitVec 32 := Scalar.addi c0_i32_8 c32_i32_9
  let c1_i32_10 : BitVec 32 := 1#32
  ⟨c0_i32_8, v5, c1_i32_10⟩
def k0_off37 (k0_t3 : Fin k0_t3_loop.trips) : Fin 1 → Nat :=
  let c0_i32_8 : BitVec 32 := 0#32
  let c1_i32_10 : BitVec 32 := 1#32
  let arg11 : BitVec 32 := Scf.iv c0_i32_8 c1_i32_10 k0_t3
  let c16_i32 : BitVec 32 := 16#32
  let v7 : BitVec 32 := Scalar.muli arg11 c16_i32
  let v8 : Index := Scalar.indexCast v7
  ![v8.toNat]
def k0_off38 (k0_t3 : Fin k0_t3_loop.trips) : Fin 2 → Nat :=
  let c0_i32_8 : BitVec 32 := 0#32
  let c1_i32_10 : BitVec 32 := 1#32
  let arg11 : BitVec 32 := Scf.iv c0_i32_8 c1_i32_10 k0_t3
  let c16_i32_17 : BitVec 32 := 16#32
  let v13 : BitVec 32 := Scalar.muli arg11 c16_i32_17
  let c0_i32_18 : BitVec 32 := 0#32
  let v14 : BitVec 32 := Scalar.addi v13 c0_i32_18
  let c0_i32_19 : BitVec 32 := 0#32
  ![v14.toNat, 0]
def k0_off39 (v12 : BitVec 32) : Fin 2 → Nat :=
  let c0_i32_20 : BitVec 32 := 0#32
  ![v12.toNat, 0]

def k0_chk17 (v12 : BitVec 32) : Prop :=
  (∀ a, (k0_off39 v12) a + S1x16.size a ≤ S1000000x16.size a)
instance k0_chk17.dec : ∀ (v12 : BitVec 32), Decidable (k0_chk17 v12) := fun v12 => decidable_of_iff' _ (Iff.of_eq (k0_chk17.eq_1 v12))
theorem k0_off39_inb : ∀ (v12 : BitVec 32) (k0_hw17 : k0_chk17 v12), ∀ a, (k0_off39 v12) a + S1x16.size a ≤ S1000000x16.size a := fun v12 k0_hw17 => k0_hw17

def k0_off40 (k0_t3 : Fin k0_t3_loop.trips) (c0_i32_18 : BitVec 32) : Fin 2 → Nat :=
  let c0_i32_8 : BitVec 32 := 0#32
  let c1_i32_10 : BitVec 32 := 1#32
  let arg11 : BitVec 32 := Scf.iv c0_i32_8 c1_i32_10 k0_t3
  let c16_i32_17 : BitVec 32 := 16#32
  let v13 : BitVec 32 := Scalar.muli arg11 c16_i32_17
  let v14 : BitVec 32 := Scalar.addi v13 c0_i32_18
  let c0_i32_21 : BitVec 32 := 0#32
  ![v14.toNat, 0]
def k0_off41 (v20 : BitVec 32) : Fin 2 → Nat :=
  let c0_i32_26 : BitVec 32 := 0#32
  ![v20.toNat, 0]

def k0_chk18 (v20 : BitVec 32) : Prop :=
  (∀ a, (k0_off41 v20) a + S1x16.size a ≤ S1000000x16.size a)
instance k0_chk18.dec : ∀ (v20 : BitVec 32), Decidable (k0_chk18 v20) := fun v20 => decidable_of_iff' _ (Iff.of_eq (k0_chk18.eq_1 v20))
theorem k0_off41_inb : ∀ (v20 : BitVec 32) (k0_hw18 : k0_chk18 v20), ∀ a, (k0_off41 v20) a + S1x16.size a ≤ S1000000x16.size a := fun v20 k0_hw18 => k0_hw18

def k0_off42 (k0_t3 : Fin k0_t3_loop.trips) (c1_i32_24 : BitVec 32) : Fin 2 → Nat :=
  let c0_i32_8 : BitVec 32 := 0#32
  let c1_i32_10 : BitVec 32 := 1#32
  let arg11 : BitVec 32 := Scf.iv c0_i32_8 c1_i32_10 k0_t3
  let c16_i32_23 : BitVec 32 := 16#32
  let v21 : BitVec 32 := Scalar.muli arg11 c16_i32_23
  let v22 : BitVec 32 := Scalar.addi v21 c1_i32_24
  let c0_i32_27 : BitVec 32 := 0#32
  ![v22.toNat, 0]
def k0_off43 (v28 : BitVec 32) : Fin 2 → Nat :=
  let c0_i32_32 : BitVec 32 := 0#32
  ![v28.toNat, 0]

def k0_chk19 (v28 : BitVec 32) : Prop :=
  (∀ a, (k0_off43 v28) a + S1x16.size a ≤ S1000000x16.size a)
instance k0_chk19.dec : ∀ (v28 : BitVec 32), Decidable (k0_chk19 v28) := fun v28 => decidable_of_iff' _ (Iff.of_eq (k0_chk19.eq_1 v28))
theorem k0_off43_inb : ∀ (v28 : BitVec 32) (k0_hw19 : k0_chk19 v28), ∀ a, (k0_off43 v28) a + S1x16.size a ≤ S1000000x16.size a := fun v28 k0_hw19 => k0_hw19

def k0_off44 (k0_t3 : Fin k0_t3_loop.trips) (c2_i32_30 : BitVec 32) : Fin 2 → Nat :=
  let c0_i32_8 : BitVec 32 := 0#32
  let c1_i32_10 : BitVec 32 := 1#32
  let arg11 : BitVec 32 := Scf.iv c0_i32_8 c1_i32_10 k0_t3
  let c16_i32_29 : BitVec 32 := 16#32
  let v29 : BitVec 32 := Scalar.muli arg11 c16_i32_29
  let v30 : BitVec 32 := Scalar.addi v29 c2_i32_30
  let c0_i32_33 : BitVec 32 := 0#32
  ![v30.toNat, 0]
def k0_off45 (v36 : BitVec 32) : Fin 2 → Nat :=
  let c0_i32_37 : BitVec 32 := 0#32
  ![v36.toNat, 0]

def k0_chk20 (v36 : BitVec 32) : Prop :=
  (∀ a, (k0_off45 v36) a + S1x16.size a ≤ S1000000x16.size a)
instance k0_chk20.dec : ∀ (v36 : BitVec 32), Decidable (k0_chk20 v36) := fun v36 => decidable_of_iff' _ (Iff.of_eq (k0_chk20.eq_1 v36))
theorem k0_off45_inb : ∀ (v36 : BitVec 32) (k0_hw20 : k0_chk20 v36), ∀ a, (k0_off45 v36) a + S1x16.size a ≤ S1000000x16.size a := fun v36 k0_hw20 => k0_hw20

def k0_off46 (k0_t3 : Fin k0_t3_loop.trips) (c3_i32 : BitVec 32) : Fin 2 → Nat :=
  let c0_i32_8 : BitVec 32 := 0#32
  let c1_i32_10 : BitVec 32 := 1#32
  let arg11 : BitVec 32 := Scf.iv c0_i32_8 c1_i32_10 k0_t3
  let c16_i32_35 : BitVec 32 := 16#32
  let v37 : BitVec 32 := Scalar.muli arg11 c16_i32_35
  let v38 : BitVec 32 := Scalar.addi v37 c3_i32
  let c0_i32_38 : BitVec 32 := 0#32
  ![v38.toNat, 0]
def k0_off47 (v44 : BitVec 32) : Fin 2 → Nat :=
  let c0_i32_42 : BitVec 32 := 0#32
  ![v44.toNat, 0]

def k0_chk21 (v44 : BitVec 32) : Prop :=
  (∀ a, (k0_off47 v44) a + S1x16.size a ≤ S1000000x16.size a)
instance k0_chk21.dec : ∀ (v44 : BitVec 32), Decidable (k0_chk21 v44) := fun v44 => decidable_of_iff' _ (Iff.of_eq (k0_chk21.eq_1 v44))
theorem k0_off47_inb : ∀ (v44 : BitVec 32) (k0_hw21 : k0_chk21 v44), ∀ a, (k0_off47 v44) a + S1x16.size a ≤ S1000000x16.size a := fun v44 k0_hw21 => k0_hw21

def k0_off48 (k0_t3 : Fin k0_t3_loop.trips) (c4_i32 : BitVec 32) : Fin 2 → Nat :=
  let c0_i32_8 : BitVec 32 := 0#32
  let c1_i32_10 : BitVec 32 := 1#32
  let arg11 : BitVec 32 := Scf.iv c0_i32_8 c1_i32_10 k0_t3
  let c16_i32_40 : BitVec 32 := 16#32
  let v45 : BitVec 32 := Scalar.muli arg11 c16_i32_40
  let v46 : BitVec 32 := Scalar.addi v45 c4_i32
  let c0_i32_43 : BitVec 32 := 0#32
  ![v46.toNat, 0]
def k0_off49 (v52 : BitVec 32) : Fin 2 → Nat :=
  let c0_i32_47 : BitVec 32 := 0#32
  ![v52.toNat, 0]

def k0_chk22 (v52 : BitVec 32) : Prop :=
  (∀ a, (k0_off49 v52) a + S1x16.size a ≤ S1000000x16.size a)
instance k0_chk22.dec : ∀ (v52 : BitVec 32), Decidable (k0_chk22 v52) := fun v52 => decidable_of_iff' _ (Iff.of_eq (k0_chk22.eq_1 v52))
theorem k0_off49_inb : ∀ (v52 : BitVec 32) (k0_hw22 : k0_chk22 v52), ∀ a, (k0_off49 v52) a + S1x16.size a ≤ S1000000x16.size a := fun v52 k0_hw22 => k0_hw22

def k0_off50 (k0_t3 : Fin k0_t3_loop.trips) (c5_i32 : BitVec 32) : Fin 2 → Nat :=
  let c0_i32_8 : BitVec 32 := 0#32
  let c1_i32_10 : BitVec 32 := 1#32
  let arg11 : BitVec 32 := Scf.iv c0_i32_8 c1_i32_10 k0_t3
  let c16_i32_45 : BitVec 32 := 16#32
  let v53 : BitVec 32 := Scalar.muli arg11 c16_i32_45
  let v54 : BitVec 32 := Scalar.addi v53 c5_i32
  let c0_i32_48 : BitVec 32 := 0#32
  ![v54.toNat, 0]
def k0_off51 (v60 : BitVec 32) : Fin 2 → Nat :=
  let c0_i32_52 : BitVec 32 := 0#32
  ![v60.toNat, 0]

def k0_chk23 (v60 : BitVec 32) : Prop :=
  (∀ a, (k0_off51 v60) a + S1x16.size a ≤ S1000000x16.size a)
instance k0_chk23.dec : ∀ (v60 : BitVec 32), Decidable (k0_chk23 v60) := fun v60 => decidable_of_iff' _ (Iff.of_eq (k0_chk23.eq_1 v60))
theorem k0_off51_inb : ∀ (v60 : BitVec 32) (k0_hw23 : k0_chk23 v60), ∀ a, (k0_off51 v60) a + S1x16.size a ≤ S1000000x16.size a := fun v60 k0_hw23 => k0_hw23

def k0_off52 (k0_t3 : Fin k0_t3_loop.trips) (c6_i32 : BitVec 32) : Fin 2 → Nat :=
  let c0_i32_8 : BitVec 32 := 0#32
  let c1_i32_10 : BitVec 32 := 1#32
  let arg11 : BitVec 32 := Scf.iv c0_i32_8 c1_i32_10 k0_t3
  let c16_i32_50 : BitVec 32 := 16#32
  let v61 : BitVec 32 := Scalar.muli arg11 c16_i32_50
  let v62 : BitVec 32 := Scalar.addi v61 c6_i32
  let c0_i32_53 : BitVec 32 := 0#32
  ![v62.toNat, 0]
def k0_off53 (v68 : BitVec 32) : Fin 2 → Nat :=
  let c0_i32_57 : BitVec 32 := 0#32
  ![v68.toNat, 0]

def k0_chk24 (v68 : BitVec 32) : Prop :=
  (∀ a, (k0_off53 v68) a + S1x16.size a ≤ S1000000x16.size a)
instance k0_chk24.dec : ∀ (v68 : BitVec 32), Decidable (k0_chk24 v68) := fun v68 => decidable_of_iff' _ (Iff.of_eq (k0_chk24.eq_1 v68))
theorem k0_off53_inb : ∀ (v68 : BitVec 32) (k0_hw24 : k0_chk24 v68), ∀ a, (k0_off53 v68) a + S1x16.size a ≤ S1000000x16.size a := fun v68 k0_hw24 => k0_hw24

def k0_off54 (k0_t3 : Fin k0_t3_loop.trips) (c7_i32 : BitVec 32) : Fin 2 → Nat :=
  let c0_i32_8 : BitVec 32 := 0#32
  let c1_i32_10 : BitVec 32 := 1#32
  let arg11 : BitVec 32 := Scf.iv c0_i32_8 c1_i32_10 k0_t3
  let c16_i32_55 : BitVec 32 := 16#32
  let v69 : BitVec 32 := Scalar.muli arg11 c16_i32_55
  let v70 : BitVec 32 := Scalar.addi v69 c7_i32
  let c0_i32_58 : BitVec 32 := 0#32
  ![v70.toNat, 0]
def k0_off55 (v76 : BitVec 32) : Fin 2 → Nat :=
  let c0_i32_62 : BitVec 32 := 0#32
  ![v76.toNat, 0]

def k0_chk25 (v76 : BitVec 32) : Prop :=
  (∀ a, (k0_off55 v76) a + S1x16.size a ≤ S1000000x16.size a)
instance k0_chk25.dec : ∀ (v76 : BitVec 32), Decidable (k0_chk25 v76) := fun v76 => decidable_of_iff' _ (Iff.of_eq (k0_chk25.eq_1 v76))
theorem k0_off55_inb : ∀ (v76 : BitVec 32) (k0_hw25 : k0_chk25 v76), ∀ a, (k0_off55 v76) a + S1x16.size a ≤ S1000000x16.size a := fun v76 k0_hw25 => k0_hw25

def k0_off56 (k0_t3 : Fin k0_t3_loop.trips) (c8_i32 : BitVec 32) : Fin 2 → Nat :=
  let c0_i32_8 : BitVec 32 := 0#32
  let c1_i32_10 : BitVec 32 := 1#32
  let arg11 : BitVec 32 := Scf.iv c0_i32_8 c1_i32_10 k0_t3
  let c16_i32_60 : BitVec 32 := 16#32
  let v77 : BitVec 32 := Scalar.muli arg11 c16_i32_60
  let v78 : BitVec 32 := Scalar.addi v77 c8_i32
  let c0_i32_63 : BitVec 32 := 0#32
  ![v78.toNat, 0]
def k0_off57 (v84 : BitVec 32) : Fin 2 → Nat :=
  let c0_i32_67 : BitVec 32 := 0#32
  ![v84.toNat, 0]

def k0_chk26 (v84 : BitVec 32) : Prop :=
  (∀ a, (k0_off57 v84) a + S1x16.size a ≤ S1000000x16.size a)
instance k0_chk26.dec : ∀ (v84 : BitVec 32), Decidable (k0_chk26 v84) := fun v84 => decidable_of_iff' _ (Iff.of_eq (k0_chk26.eq_1 v84))
theorem k0_off57_inb : ∀ (v84 : BitVec 32) (k0_hw26 : k0_chk26 v84), ∀ a, (k0_off57 v84) a + S1x16.size a ≤ S1000000x16.size a := fun v84 k0_hw26 => k0_hw26

def k0_off58 (k0_t3 : Fin k0_t3_loop.trips) (c9_i32 : BitVec 32) : Fin 2 → Nat :=
  let c0_i32_8 : BitVec 32 := 0#32
  let c1_i32_10 : BitVec 32 := 1#32
  let arg11 : BitVec 32 := Scf.iv c0_i32_8 c1_i32_10 k0_t3
  let c16_i32_65 : BitVec 32 := 16#32
  let v85 : BitVec 32 := Scalar.muli arg11 c16_i32_65
  let v86 : BitVec 32 := Scalar.addi v85 c9_i32
  let c0_i32_68 : BitVec 32 := 0#32
  ![v86.toNat, 0]
def k0_off59 (v92 : BitVec 32) : Fin 2 → Nat :=
  let c0_i32_72 : BitVec 32 := 0#32
  ![v92.toNat, 0]

def k0_chk27 (v92 : BitVec 32) : Prop :=
  (∀ a, (k0_off59 v92) a + S1x16.size a ≤ S1000000x16.size a)
instance k0_chk27.dec : ∀ (v92 : BitVec 32), Decidable (k0_chk27 v92) := fun v92 => decidable_of_iff' _ (Iff.of_eq (k0_chk27.eq_1 v92))
theorem k0_off59_inb : ∀ (v92 : BitVec 32) (k0_hw27 : k0_chk27 v92), ∀ a, (k0_off59 v92) a + S1x16.size a ≤ S1000000x16.size a := fun v92 k0_hw27 => k0_hw27

def k0_off60 (k0_t3 : Fin k0_t3_loop.trips) (c10_i32 : BitVec 32) : Fin 2 → Nat :=
  let c0_i32_8 : BitVec 32 := 0#32
  let c1_i32_10 : BitVec 32 := 1#32
  let arg11 : BitVec 32 := Scf.iv c0_i32_8 c1_i32_10 k0_t3
  let c16_i32_70 : BitVec 32 := 16#32
  let v93 : BitVec 32 := Scalar.muli arg11 c16_i32_70
  let v94 : BitVec 32 := Scalar.addi v93 c10_i32
  let c0_i32_73 : BitVec 32 := 0#32
  ![v94.toNat, 0]
def k0_off61 (v100 : BitVec 32) : Fin 2 → Nat :=
  let c0_i32_77 : BitVec 32 := 0#32
  ![v100.toNat, 0]

def k0_chk28 (v100 : BitVec 32) : Prop :=
  (∀ a, (k0_off61 v100) a + S1x16.size a ≤ S1000000x16.size a)
instance k0_chk28.dec : ∀ (v100 : BitVec 32), Decidable (k0_chk28 v100) := fun v100 => decidable_of_iff' _ (Iff.of_eq (k0_chk28.eq_1 v100))
theorem k0_off61_inb : ∀ (v100 : BitVec 32) (k0_hw28 : k0_chk28 v100), ∀ a, (k0_off61 v100) a + S1x16.size a ≤ S1000000x16.size a := fun v100 k0_hw28 => k0_hw28

def k0_off62 (k0_t3 : Fin k0_t3_loop.trips) (c11_i32 : BitVec 32) : Fin 2 → Nat :=
  let c0_i32_8 : BitVec 32 := 0#32
  let c1_i32_10 : BitVec 32 := 1#32
  let arg11 : BitVec 32 := Scf.iv c0_i32_8 c1_i32_10 k0_t3
  let c16_i32_75 : BitVec 32 := 16#32
  let v101 : BitVec 32 := Scalar.muli arg11 c16_i32_75
  let v102 : BitVec 32 := Scalar.addi v101 c11_i32
  let c0_i32_78 : BitVec 32 := 0#32
  ![v102.toNat, 0]
def k0_off63 (v108 : BitVec 32) : Fin 2 → Nat :=
  let c0_i32_82 : BitVec 32 := 0#32
  ![v108.toNat, 0]

def k0_chk29 (v108 : BitVec 32) : Prop :=
  (∀ a, (k0_off63 v108) a + S1x16.size a ≤ S1000000x16.size a)
instance k0_chk29.dec : ∀ (v108 : BitVec 32), Decidable (k0_chk29 v108) := fun v108 => decidable_of_iff' _ (Iff.of_eq (k0_chk29.eq_1 v108))
theorem k0_off63_inb : ∀ (v108 : BitVec 32) (k0_hw29 : k0_chk29 v108), ∀ a, (k0_off63 v108) a + S1x16.size a ≤ S1000000x16.size a := fun v108 k0_hw29 => k0_hw29

def k0_off64 (k0_t3 : Fin k0_t3_loop.trips) (c12_i32 : BitVec 32) : Fin 2 → Nat :=
  let c0_i32_8 : BitVec 32 := 0#32
  let c1_i32_10 : BitVec 32 := 1#32
  let arg11 : BitVec 32 := Scf.iv c0_i32_8 c1_i32_10 k0_t3
  let c16_i32_80 : BitVec 32 := 16#32
  let v109 : BitVec 32 := Scalar.muli arg11 c16_i32_80
  let v110 : BitVec 32 := Scalar.addi v109 c12_i32
  let c0_i32_83 : BitVec 32 := 0#32
  ![v110.toNat, 0]
def k0_off65 (v116 : BitVec 32) : Fin 2 → Nat :=
  let c0_i32_87 : BitVec 32 := 0#32
  ![v116.toNat, 0]

def k0_chk30 (v116 : BitVec 32) : Prop :=
  (∀ a, (k0_off65 v116) a + S1x16.size a ≤ S1000000x16.size a)
instance k0_chk30.dec : ∀ (v116 : BitVec 32), Decidable (k0_chk30 v116) := fun v116 => decidable_of_iff' _ (Iff.of_eq (k0_chk30.eq_1 v116))
theorem k0_off65_inb : ∀ (v116 : BitVec 32) (k0_hw30 : k0_chk30 v116), ∀ a, (k0_off65 v116) a + S1x16.size a ≤ S1000000x16.size a := fun v116 k0_hw30 => k0_hw30

def k0_off66 (k0_t3 : Fin k0_t3_loop.trips) (c13_i32 : BitVec 32) : Fin 2 → Nat :=
  let c0_i32_8 : BitVec 32 := 0#32
  let c1_i32_10 : BitVec 32 := 1#32
  let arg11 : BitVec 32 := Scf.iv c0_i32_8 c1_i32_10 k0_t3
  let c16_i32_85 : BitVec 32 := 16#32
  let v117 : BitVec 32 := Scalar.muli arg11 c16_i32_85
  let v118 : BitVec 32 := Scalar.addi v117 c13_i32
  let c0_i32_88 : BitVec 32 := 0#32
  ![v118.toNat, 0]
def k0_off67 (v124 : BitVec 32) : Fin 2 → Nat :=
  let c0_i32_92 : BitVec 32 := 0#32
  ![v124.toNat, 0]

def k0_chk31 (v124 : BitVec 32) : Prop :=
  (∀ a, (k0_off67 v124) a + S1x16.size a ≤ S1000000x16.size a)
instance k0_chk31.dec : ∀ (v124 : BitVec 32), Decidable (k0_chk31 v124) := fun v124 => decidable_of_iff' _ (Iff.of_eq (k0_chk31.eq_1 v124))
theorem k0_off67_inb : ∀ (v124 : BitVec 32) (k0_hw31 : k0_chk31 v124), ∀ a, (k0_off67 v124) a + S1x16.size a ≤ S1000000x16.size a := fun v124 k0_hw31 => k0_hw31

def k0_off68 (k0_t3 : Fin k0_t3_loop.trips) (c14_i32 : BitVec 32) : Fin 2 → Nat :=
  let c0_i32_8 : BitVec 32 := 0#32
  let c1_i32_10 : BitVec 32 := 1#32
  let arg11 : BitVec 32 := Scf.iv c0_i32_8 c1_i32_10 k0_t3
  let c16_i32_90 : BitVec 32 := 16#32
  let v125 : BitVec 32 := Scalar.muli arg11 c16_i32_90
  let v126 : BitVec 32 := Scalar.addi v125 c14_i32
  let c0_i32_93 : BitVec 32 := 0#32
  ![v126.toNat, 0]
def k0_off69 (v132 : BitVec 32) : Fin 2 → Nat :=
  let c0_i32_97 : BitVec 32 := 0#32
  ![v132.toNat, 0]

def k0_chk32 (v132 : BitVec 32) : Prop :=
  (∀ a, (k0_off69 v132) a + S1x16.size a ≤ S1000000x16.size a)
instance k0_chk32.dec : ∀ (v132 : BitVec 32), Decidable (k0_chk32 v132) := fun v132 => decidable_of_iff' _ (Iff.of_eq (k0_chk32.eq_1 v132))
theorem k0_off69_inb : ∀ (v132 : BitVec 32) (k0_hw32 : k0_chk32 v132), ∀ a, (k0_off69 v132) a + S1x16.size a ≤ S1000000x16.size a := fun v132 k0_hw32 => k0_hw32

def k0_off70 (k0_t3 : Fin k0_t3_loop.trips) : Fin 2 → Nat :=
  let c0_i32_8 : BitVec 32 := 0#32
  let c1_i32_10 : BitVec 32 := 1#32
  let arg11 : BitVec 32 := Scf.iv c0_i32_8 c1_i32_10 k0_t3
  let c16_i32_95 : BitVec 32 := 16#32
  let v133 : BitVec 32 := Scalar.muli arg11 c16_i32_95
  let c15_i32 : BitVec 32 := 15#32
  let v134 : BitVec 32 := Scalar.addi v133 c15_i32
  let c0_i32_98 : BitVec 32 := 0#32
  ![v134.toNat, 0]
@[reducible] def k0_t4_loop : Scf.Loop 32 :=
  let c0_i32_13 : BitVec 32 := 0#32
  let c512_i32_14 : BitVec 32 := 512#32
  let v6 : BitVec 32 := Scalar.addi c0_i32_13 c512_i32_14
  let c1_i32_15 : BitVec 32 := 1#32
  ⟨c0_i32_13, v6, c1_i32_15⟩
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x16_S16x1000000_1_0 : S1000000x16.Transposes [1, 0] S16x1000000
  transposes_S16x1000000_S1000000x16_1_0 : S16x1000000.Transposes [1, 0] S1000000x16
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S512x16_S1x16_0_0 : ∀ a, (![0, 0] : Fin 2 → Nat) a + S1x16.size a ≤ S512x16.size a
  inb_S1000000x16_S1x16_0_0 : ∀ a, (![0, 0] : Fin 2 → Nat) a + S1x16.size a ≤ S1000000x16.size a
  slices_S32x64_S16x64_0_0 : S32x64.Slices ![0, 0] S16x64
  slices_S32x64_S16x64_16_0 : S32x64.Slices ![16, 0] S16x64
  shapeCasts_S64_S1x64 : S64.ShapeCasts S1x64
  shapeCasts_S32_S1x32 : S32.ShapeCasts S1x32
  shapeCasts_S1_S1x1 : S1.ShapeCasts S1x1
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  dot_S2048x16_S16x64_S2048x64_1_0_0_1_n_n_wf : DotDims.WF S2048x16 S16x64 S2048x64 [1] [0] [0] [1] [] []
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []
  hcc0_scratch2 : 0 + S_.numel ≤ 18
  hcc0_scoped0 : 1 + S_.numel ≤ 18
  hcc0_scoped1 : 2 + S_.numel ≤ 18
  hcc0_scoped2 : 3 + S_.numel ≤ 18
  hcc0_scoped3 : 4 + S_.numel ≤ 18
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S16.size a ≤ S512.size a
  k0_off3_inb : ∀ k0_t1 : Fin k0_t1_loop.trips, ∀ a, (k0_off3 k0_t1) a + S1x16.size a ≤ S512x16.size a
  k0_off5_inb : ∀ k0_t1 : Fin k0_t1_loop.trips, ∀ (r : Fin 2), ∀ a, (k0_off5 k0_t1 (BitVec.ofNat 32 r.val)) a + S1x16.size a ≤ S512x16.size a
  k0_off7_inb : ∀ k0_t1 : Fin k0_t1_loop.trips, ∀ (r : Fin 2), ∀ a, (k0_off7 k0_t1 (BitVec.ofNat 32 (1 + r.val))) a + S1x16.size a ≤ S512x16.size a
  k0_off9_inb : ∀ k0_t1 : Fin k0_t1_loop.trips, ∀ (r : Fin 2), ∀ a, (k0_off9 k0_t1 (BitVec.ofNat 32 (2 + r.val))) a + S1x16.size a ≤ S512x16.size a
  k0_off11_inb : ∀ k0_t1 : Fin k0_t1_loop.trips, ∀ (r : Fin 2), ∀ a, (k0_off11 k0_t1 (BitVec.ofNat 32 (3 + r.val))) a + S1x16.size a ≤ S512x16.size a
  k0_off13_inb : ∀ k0_t1 : Fin k0_t1_loop.trips, ∀ (r : Fin 2), ∀ a, (k0_off13 k0_t1 (BitVec.ofNat 32 (4 + r.val))) a + S1x16.size a ≤ S512x16.size a
  k0_off15_inb : ∀ k0_t1 : Fin k0_t1_loop.trips, ∀ (r : Fin 2), ∀ a, (k0_off15 k0_t1 (BitVec.ofNat 32 (5 + r.val))) a + S1x16.size a ≤ S512x16.size a
  k0_off17_inb : ∀ k0_t1 : Fin k0_t1_loop.trips, ∀ (r : Fin 2), ∀ a, (k0_off17 k0_t1 (BitVec.ofNat 32 (6 + r.val))) a + S1x16.size a ≤ S512x16.size a
  k0_off19_inb : ∀ k0_t1 : Fin k0_t1_loop.trips, ∀ (r : Fin 2), ∀ a, (k0_off19 k0_t1 (BitVec.ofNat 32 (7 + r.val))) a + S1x16.size a ≤ S512x16.size a
  k0_off21_inb : ∀ k0_t1 : Fin k0_t1_loop.trips, ∀ (r : Fin 2), ∀ a, (k0_off21 k0_t1 (BitVec.ofNat 32 (8 + r.val))) a + S1x16.size a ≤ S512x16.size a
  k0_off23_inb : ∀ k0_t1 : Fin k0_t1_loop.trips, ∀ (r : Fin 2), ∀ a, (k0_off23 k0_t1 (BitVec.ofNat 32 (9 + r.val))) a + S1x16.size a ≤ S512x16.size a
  k0_off25_inb : ∀ k0_t1 : Fin k0_t1_loop.trips, ∀ (r : Fin 2), ∀ a, (k0_off25 k0_t1 (BitVec.ofNat 32 (10 + r.val))) a + S1x16.size a ≤ S512x16.size a
  k0_off27_inb : ∀ k0_t1 : Fin k0_t1_loop.trips, ∀ (r : Fin 2), ∀ a, (k0_off27 k0_t1 (BitVec.ofNat 32 (11 + r.val))) a + S1x16.size a ≤ S512x16.size a
  k0_off29_inb : ∀ k0_t1 : Fin k0_t1_loop.trips, ∀ (r : Fin 2), ∀ a, (k0_off29 k0_t1 (BitVec.ofNat 32 (12 + r.val))) a + S1x16.size a ≤ S512x16.size a
  k0_off31_inb : ∀ k0_t1 : Fin k0_t1_loop.trips, ∀ (r : Fin 2), ∀ a, (k0_off31 k0_t1 (BitVec.ofNat 32 (13 + r.val))) a + S1x16.size a ≤ S512x16.size a
  k0_off33_inb : ∀ k0_t1 : Fin k0_t1_loop.trips, ∀ (r : Fin 2), ∀ a, (k0_off33 k0_t1 (BitVec.ofNat 32 (14 + r.val))) a + S1x16.size a ≤ S512x16.size a
  k0_off35_inb : ∀ k0_t1 : Fin k0_t1_loop.trips, ∀ a, (k0_off35 k0_t1) a + S1x16.size a ≤ S512x16.size a
  k0_t2_ok : k0_t2_loop.OK
  k0_off36_inb : ∀ i : grid0.Coords, ∀ a, (k0_off36 i) a + S512x16.size a ≤ S16384x16.size a
  k0_t3_ok : k0_t3_loop.OK
  k0_off37_inb : ∀ k0_t3 : Fin k0_t3_loop.trips, ∀ a, (k0_off37 k0_t3) a + S16.size a ≤ S512.size a
  k0_off38_inb : ∀ k0_t3 : Fin k0_t3_loop.trips, ∀ a, (k0_off38 k0_t3) a + S1x16.size a ≤ S512x16.size a
  k0_off40_inb : ∀ k0_t3 : Fin k0_t3_loop.trips, ∀ (r : Fin 2), ∀ a, (k0_off40 k0_t3 (BitVec.ofNat 32 r.val)) a + S1x16.size a ≤ S512x16.size a
  k0_off42_inb : ∀ k0_t3 : Fin k0_t3_loop.trips, ∀ (r : Fin 2), ∀ a, (k0_off42 k0_t3 (BitVec.ofNat 32 (1 + r.val))) a + S1x16.size a ≤ S512x16.size a
  k0_off44_inb : ∀ k0_t3 : Fin k0_t3_loop.trips, ∀ (r : Fin 2), ∀ a, (k0_off44 k0_t3 (BitVec.ofNat 32 (2 + r.val))) a + S1x16.size a ≤ S512x16.size a
  k0_off46_inb : ∀ k0_t3 : Fin k0_t3_loop.trips, ∀ (r : Fin 2), ∀ a, (k0_off46 k0_t3 (BitVec.ofNat 32 (3 + r.val))) a + S1x16.size a ≤ S512x16.size a
  k0_off48_inb : ∀ k0_t3 : Fin k0_t3_loop.trips, ∀ (r : Fin 2), ∀ a, (k0_off48 k0_t3 (BitVec.ofNat 32 (4 + r.val))) a + S1x16.size a ≤ S512x16.size a
  k0_off50_inb : ∀ k0_t3 : Fin k0_t3_loop.trips, ∀ (r : Fin 2), ∀ a, (k0_off50 k0_t3 (BitVec.ofNat 32 (5 + r.val))) a + S1x16.size a ≤ S512x16.size a
  k0_off52_inb : ∀ k0_t3 : Fin k0_t3_loop.trips, ∀ (r : Fin 2), ∀ a, (k0_off52 k0_t3 (BitVec.ofNat 32 (6 + r.val))) a + S1x16.size a ≤ S512x16.size a
  k0_off54_inb : ∀ k0_t3 : Fin k0_t3_loop.trips, ∀ (r : Fin 2), ∀ a, (k0_off54 k0_t3 (BitVec.ofNat 32 (7 + r.val))) a + S1x16.size a ≤ S512x16.size a
  k0_off56_inb : ∀ k0_t3 : Fin k0_t3_loop.trips, ∀ (r : Fin 2), ∀ a, (k0_off56 k0_t3 (BitVec.ofNat 32 (8 + r.val))) a + S1x16.size a ≤ S512x16.size a
  k0_off58_inb : ∀ k0_t3 : Fin k0_t3_loop.trips, ∀ (r : Fin 2), ∀ a, (k0_off58 k0_t3 (BitVec.ofNat 32 (9 + r.val))) a + S1x16.size a ≤ S512x16.size a
  k0_off60_inb : ∀ k0_t3 : Fin k0_t3_loop.trips, ∀ (r : Fin 2), ∀ a, (k0_off60 k0_t3 (BitVec.ofNat 32 (10 + r.val))) a + S1x16.size a ≤ S512x16.size a
  k0_off62_inb : ∀ k0_t3 : Fin k0_t3_loop.trips, ∀ (r : Fin 2), ∀ a, (k0_off62 k0_t3 (BitVec.ofNat 32 (11 + r.val))) a + S1x16.size a ≤ S512x16.size a
  k0_off64_inb : ∀ k0_t3 : Fin k0_t3_loop.trips, ∀ (r : Fin 2), ∀ a, (k0_off64 k0_t3 (BitVec.ofNat 32 (12 + r.val))) a + S1x16.size a ≤ S512x16.size a
  k0_off66_inb : ∀ k0_t3 : Fin k0_t3_loop.trips, ∀ (r : Fin 2), ∀ a, (k0_off66 k0_t3 (BitVec.ofNat 32 (13 + r.val))) a + S1x16.size a ≤ S512x16.size a
  k0_off68_inb : ∀ k0_t3 : Fin k0_t3_loop.trips, ∀ (r : Fin 2), ∀ a, (k0_off68 k0_t3 (BitVec.ofNat 32 (14 + r.val))) a + S1x16.size a ≤ S512x16.size a
  k0_off70_inb : ∀ k0_t3 : Fin k0_t3_loop.trips, ∀ a, (k0_off70 k0_t3) a + S1x16.size a ≤ S512x16.size a
  k0_t4_ok : k0_t4_loop.OK
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x16.size a ≤ S16384x16.size a
  hwx1_0 : ∀ i : grid1.Coords, EltTy.bits .f32 = 32 ∨ (Rect.block (s := S16384x16) S2048x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x16.size a ≤ S16384x16.size a
  hwx1_1 : ∀ i : grid1.Coords, EltTy.bits .f32 = 32 ∨ (Rect.block (s := S16384x16) S2048x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .f32 = 32 ∨ (Rect.block (s := S32x1) S32x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x1.size a ≤ S16384x1.size a
  hwx1_9 : ∀ i : grid1.Coords, EltTy.bits .f32 = 32 ∨ (Rect.block (s := S16384x1) S2048x1.size (cc1_transform_9 i) (hinb1_9 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
def dot_S2048x16_S16x64_S2048x64_1_0_0_1_n_n : DotDims S2048x16 S16x64 S2048x64 where
  lhsContracting := [1]
  rhsContracting := [0]
  lhsNonContracting := [0]
  rhsNonContracting := [1]
  lhsBatch := []
  rhsBatch := []
  wf := dot_S2048x16_S16x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win1_0 : Pipeline.Window sig grid1 :=
  Pipeline.Window.ofSpec (Memref.whole main_v5_0) S2048x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S2048x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v11) S2048x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S16384 : Shape := ⟨1, ![16384]⟩
abbrev S1000000x16 : Shape := ⟨2, ![1000000, 16]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x16 : Shape := ⟨2, ![16384, 16]⟩
abbrev S16384x32 : Shape := ⟨2, ![16384, 32]⟩
abbrev S16384x64 : Shape := ⟨2, ![16384, 64]⟩
abbrev S1x64 : Shape := ⟨2, ![1, 64]⟩
abbrev S1x32 : Shape := ⟨2, ![1, 32]⟩

abbrev nBuf : Space → Nat
  | .hbm => 84
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x16, .f32⟩
  | .hbm, ⟨3, _⟩ => ⟨S1000000x16, .f32⟩
  | .hbm, ⟨4, _⟩ => ⟨S32x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x16, .f32⟩
  | .hbm, ⟨29, _⟩ => ⟨S16384x16, .i1⟩
  | .hbm, ⟨30, _⟩ => ⟨S_, .f32⟩
  | .hbm, ⟨31, _⟩ => ⟨S16384x16, .f32⟩
  | .hbm, ⟨32, _⟩ => ⟨S16384x16, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x16, .f32⟩
  | .hbm, ⟨52, _⟩ => ⟨S16384x16, .i1⟩
  | .hbm, ⟨53, _⟩ => ⟨S_, .f32⟩
  | .hbm, ⟨54, _⟩ => ⟨S16384x16, .f32⟩
  | .hbm, ⟨55, _⟩ => ⟨S16384x16, .f32⟩
  | .hbm, ⟨56, _⟩ => ⟨S16384x32, .f32⟩
  | .hbm, ⟨57, _⟩ => ⟨S16384x64, .f32⟩
  | .hbm, ⟨58, _⟩ => ⟨S1x64, .f32⟩
  | .hbm, ⟨59, _⟩ => ⟨S16384x64, .f32⟩
  | .hbm, ⟨60, _⟩ => ⟨S16384x64, .f32⟩
  | .hbm, ⟨61, _⟩ => ⟨S_, .f32⟩
  | .hbm, ⟨62, _⟩ => ⟨S16384x64, .f32⟩
  | .hbm, ⟨63, _⟩ => ⟨S16384x64, .f32⟩
  | .hbm, ⟨64, _⟩ => ⟨S16384x32, .f32⟩
  | .hbm, ⟨65, _⟩ => ⟨S1x32, .f32⟩
  | .hbm, ⟨66, _⟩ => ⟨S16384x32, .f32⟩
  | .hbm, ⟨67, _⟩ => ⟨S16384x32, .f32⟩
  | .hbm, ⟨68, _⟩ => ⟨S_, .f32⟩
  | .hbm, ⟨69, _⟩ => ⟨S16384x32, .f32⟩
  | .hbm, ⟨70, _⟩ => ⟨S16384x32, .f32⟩
  | .hbm, ⟨71, _⟩ => ⟨S16384x1, .f32⟩
  | .hbm, ⟨72, _⟩ => ⟨S1x1, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_call2_cst : Ref sig .tc := ⟨.hbm, 61, rfl⟩
abbrev main_call2_v0 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_call3_cst : Ref sig .tc := ⟨.hbm, 68, rfl⟩
abbrev main_call3_v0 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_cst : Ref sig .tc := ⟨.hbm, 77, rfl⟩
abbrev main_v19 : Ref sig .tc := ⟨.hbm, 78, rfl⟩
abbrev main_v20 : Ref sig .tc := ⟨.hbm, 79, rfl⟩
abbrev main_cst_0 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x16_0 : S16384.BroadcastsInDim S16384x16 (![0] : Fin 1 → Fin S16384x16.rank)
  bcast_S_S16384x16 : S_.BroadcastsInDim S16384x16 (![] : Fin 0 → Fin S16384x16.rank)
  concatenates_S16384x16_S16384x16_S16384x32_d1 : Shape.Concatenates [S16384x16, S16384x16] S16384x32 1
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  shapeCasts_S16384x1_S16384 : S16384x1.ShapeCasts S16384
  gather_S1000000x16_S16384x1_S16384x16_1_0_n_n_0_1_116_wf : GatherDims.WF S1000000x16 S16384x1 S16384x16 [1] [0] [] [0] [] 1 ![1, 16]
  dot_S16384x32_S32x64_S16384x64_1_0_0_1_n_n_wf : DotDims.WF S16384x32 S32x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []

variable [Facts₀]

def gather_S1000000x16_S16384x1_S16384x16_1_0_n_n_0_1_116 : GatherDims S1000000x16 S16384x1 S16384x16 where
  offsetDims := [1]
  collapsedSliceDims := [0]
  operandBatchingDims := []
  startIndicesBatchingDims := []
  startIndexMap := [0]
  indexVectorDim := 1
  sliceSizes := ![1, 16]
  wf := gather_S1000000x16_S16384x1_S16384x16_1_0_n_n_0_1_116_wf
def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.Spec.lean ====
/-
  The function both programs compute, as one formula on the extended reals.

  For a batch row with user embedding `u` and item embedding `i` (sixteen entries each), the score is
  `σ(relu(relu(u·W1[0:16] + i·W1[16:32] + b1)·W2 + b2)·W3 + b3)`: three affine layers, the first one applied to the
  concatenation of the two embeddings and therefore a sum of two products over sixteen entries each,
  `relu x = max x 0`, `σ` the logistic function.  `G` is that score at every row of two gathered
  embedding matrices; `Gathered` says that a matrix holds, row by row, the rows of a table that a vector of
  indices names.
-/
import Idealize.ShloMosaic.PureOps.Ideal
import Idealize.ShloMosaic.Lib.ValueIdx

noncomputable section

namespace Cert.Proof.Spec

open Idealize.ShloMosaic Idealize.ShloMosaic.ValueIdx
open scoped BigOperators

/-- The first half of the first layer's rows: row `e` of a 32-row matrix. -/
abbrev lo (e : Fin 16) : Fin 32 := ⟨e.val, by omega⟩
/-- The second half: row `16 + e`. -/
abbrev hi (e : Fin 16) : Fin 32 := ⟨16 + e.val, by omega⟩

/-- The first layer at hidden unit `a`: the two embeddings against the two halves of `W1`, plus the bias. -/
def layer1 (u i : Fin 16 → EReal) (W1 : (⟨2, ![32, 64]⟩ : Shape).Idx → EReal) (b1 : (⟨1, ![64]⟩ : Shape).Idx → EReal)
    (a : Fin 64) : EReal :=
  ((∑ e : Fin 16, u e * W1 (ix2 (lo e) a)) + (∑ e : Fin 16, i e * W1 (ix2 (hi e) a))) + b1 (ix1 a)

/-- The second layer at hidden unit `k`, over the rectified first layer. -/
def layer2 (h1 : Fin 64 → EReal) (W2 : (⟨2, ![64, 32]⟩ : Shape).Idx → EReal) (b2 : (⟨1, ![32]⟩ : Shape).Idx → EReal)
    (k : Fin 32) : EReal :=
  (∑ a : Fin 64, max (h1 a) 0 * W2 (ix2 a k)) + b2 (ix1 k)

/-- The output layer over the rectified second layer, before the logistic function. -/
def layer3 (h2 : Fin 32 → EReal) (W3 : (⟨2, ![32, 1]⟩ : Shape).Idx → EReal) (b3 : (⟨1, ![1]⟩ : Shape).Idx → EReal) : EReal :=
  (∑ k : Fin 32, max (h2 k) 0 * W3 (ix2 k (0 : Fin 1))) + b3 (ix1 (0 : Fin 1))

/-- One row's score. -/
def score (u i : Fin 16 → EReal) (W1 : (⟨2, ![32, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 1]⟩ : Shape).Idx → EReal) (b3 : (⟨1, ![1]⟩ : Shape).Idx → EReal) : EReal :=
  Ideal.logistic (layer3 (layer2 (layer1 u i W1 b1) W2 b2) W3 b3)

/-- The row a batch index names, as a number below the batch size. -/
def rowOf (j : (⟨1, ![16384]⟩ : Shape).Idx) : Fin 16384 := j 0

@[simp] theorem rowOf_ix1 (r : Fin 16384) : rowOf (ix1 r) = r := rfl

/-- Every row's score, from the two gathered embedding matrices. -/
def G (U I : (⟨2, ![16384, 16]⟩ : Shape).Idx → EReal) (W1 : (⟨2, ![32, 64]⟩ : Shape).Idx → EReal)
    (b1 : (⟨1, ![64]⟩ : Shape).Idx → EReal) (W2 : (⟨2, ![64, 32]⟩ : Shape).Idx → EReal) (b2 : (⟨1, ![32]⟩ : Shape).Idx → EReal)
    (W3 : (⟨2, ![32, 1]⟩ : Shape).Idx → EReal) (b3 : (⟨1, ![1]⟩ : Shape).Idx → EReal) :
    (⟨1, ![16384]⟩ : Shape).Idx → EReal :=
  fun j => score (fun e => U (ix2 (rowOf j) e)) (fun e => I (ix2 (rowOf j) e)) W1 b1 W2 b2 W3 b3

/-- `U` holds, row by row, the rows of `t` named by `ids`: row `r` of `U` is row `ids r` of `t` (a word read
    as a natural number; the statement is about indices that name a row). -/
def Gathered {α : Type} (ids : (⟨1, ![16384]⟩ : Shape).Idx → BitVec 32) (t : (⟨2, ![1000000, 16]⟩ : Shape).Idx → α)
    (U : (⟨2, ![16384, 16]⟩ : Shape).Idx → α) : Prop :=
  ∀ (r : Fin 16384) (e : Fin 16) (h : (ids (ix1 r)).toNat < 1000000), U (ix2 r e) = t (ix2 ⟨(ids (ix1 r)).toNat, h⟩ e)

/-- Indices that all name rows determine the gathered matrix. -/
theorem Gathered.unique {α : Type} {ids : (⟨1, ![16384]⟩ : Shape).Idx → BitVec 32} {t : (⟨2, ![1000000, 16]⟩ : Shape).Idx → α}
    {U U' : (⟨2, ![16384, 16]⟩ : Shape).Idx → α} (hr : ∀ r : Fin 16384, (ids (ix1 r)).toNat < 1000000)
    (h : Gathered ids t U) (h' : Gathered ids t U') : U = U' := by
  funext j
  obtain ⟨p, q, rfl⟩ : ∃ (p : Fin 16384) (q : Fin 16), j = ix2 p q := ⟨j 0, j 1, eq_ix2 j⟩
  rw [h p q (hr _), h' p q (hr _)]

end Cert.Proof.Spec

end
-- ==== Proof.Common.lean ====
/-
  What the proofs about the kernel program share: the program as the launch theorem sees it, the ghost state, the
  arrays' names, the blocks of the batch that the thirty-two vector subcores work on, and what each subcore is
  handed and hands back.

  Worker `w = 2·s + c` (subcore `s` of SparseCore `c`) owns batch rows `512·w … 512·w + 511`: it reads those
  entries of the two index vectors, reads rows of the two tables (any rows: every subcore holds a read share of
  each whole table), and writes those rows of the two gathered matrices.
-/
import proofs.«212205_g31413390803091_cont_8to1_b_1662_24_alg».proof.KernelIdeal
import proofs.«212205_g31413390803091_cont_8to1_b_1662_24_alg».proof.Proof.Gen.KernelIdeal
import proofs.«212205_g31413390803091_cont_8to1_b_1662_24_alg».proof.Proof.Gen.KernelIdeal.Skeleton
import proofs.«212205_g31413390803091_cont_8to1_b_1662_24_alg».proof.Proof.Gen.KernelIdeal.Launch
import proofs.«212205_g31413390803091_cont_8to1_b_1662_24_alg».proof.Proof.Gen.KernelIdeal.Points
import proofs.«212205_g31413390803091_cont_8to1_b_1662_24_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the handshakes' rounds, the TensorCore pipeline's rounds, the transfers' counters -/

abbrev UH : Type := URounds (GSem nD τ sig) ℕ
abbrev UP : Type := URounds (GSem nD τ sig) Unit
abbrev UU : Type := (UH × UP) × Counters

local notation "𝕄" => MT nD τ sig (HIx 1) (Elt F) ℕ UU ℕ

def EH : Emb UH (MT nD τ sig (HIx 1) (Elt F) ℕ UU ℕ) :=
  ((Emb.inl : Emb UH (UH × UP)).trans (Emb.inl : Emb (UH × UP) UU)).trans
    (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UH × UP)).trans (Emb.inl : Emb (UH × UP) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

/-- The two index vectors, the two tables as @main hands them to the kernel, the two gathered matrices. -/
abbrev iLoc0 (d : Dev nD) : Loc nD τ sig := (SparseCore.T d).loc main_arg0
abbrev iLoc1 (d : Dev nD) : Loc nD τ sig := (SparseCore.T d).loc main_arg1
abbrev tLoc0 (d : Dev nD) : Loc nD τ sig := (SparseCore.T d).loc main_v3
abbrev tLoc1 (d : Dev nD) : Loc nD τ sig := (SparseCore.T d).loc main_v4
abbrev oLoc0 (d : Dev nD) : Loc nD τ sig := (SparseCore.T d).loc main_v5_0
abbrev oLoc1 (d : Dev nD) : Loc nD τ sig := (SparseCore.T d).loc main_v5_1

variable [FloatOps F]

/-- A table after @main's two transpositions (and the barrier between them): what the kernel reads. -/
def tabOf (x : FVec F S1000000x16 .f32) : FVec F S1000000x16 .f32 :=
  transpose S1000000x16 [1, 0] (transpose S16x1000000 [1, 0] x transposes_S1000000x16_S16x1000000_1_0) transposes_S16x1000000_S1000000x16_1_0

abbrev tab0 (d : Dev nD) : Buf (Elt F) (tLoc0 d) := tabOf (m ((SparseCore.T d).loc main_arg2))
abbrev tab1 (d : Dev nD) : Buf (Elt F) (tLoc1 d) := tabOf (m ((SparseCore.T d).loc main_arg3))

/-! ## The workers' blocks -/

/-- Worker number of subcore `s` of SparseCore `c`. -/
def wid (c : Fin τ.nSC) (s : Fin τ.nSub) : Fin 32 := ⟨2 * s.val + c.val, by have := c.isLt; have := s.isLt; simp only [τ] at *; omega⟩

theorem hdiv1 : 32 ∣ S16384.size 0 := ⟨512, rfl⟩
theorem hdiv2 : 32 ∣ S16384x16.size 0 := ⟨512, rfl⟩
/-- Entries `512·w … 512·w + 511` of a batch vector; rows `512·w … 512·w + 511` of a batch matrix. -/
abbrev blk1 (w : Fin 32) : Finset S16384.Idx := (Rect.part (s := S16384) (a₀ := 0) hdiv1 w).set
abbrev blk2 (w : Fin 32) : Finset S16384x16.Idx := (Rect.part (s := S16384x16) (a₀ := 0) hdiv2 w).set

/-- Rows `512·w … 512·w + 511` of `f` are the rows of `t` that those entries of `ids` name. -/
def RowsOf (ids : IVec S16384 32) (t : FVec F S1000000x16 .f32) (w : Fin 32) (f : FVec F S16384x16 .f32) : Prop :=
  ∀ (r : Fin 512) (e : Fin 16) (hr : 512 * w.val + r.val < 16384) (h : (ids (ix1 ⟨512 * w.val + r.val, hr⟩)).toNat < 1000000),
    f (ix2 ⟨512 * w.val + r.val, hr⟩ e) = t (ix2 ⟨(ids (ix1 ⟨512 * w.val + r.val, hr⟩)).toNat, h⟩ e)

/-- What the proof asks of the launch memory: every index names a row of its table. -/
def PreOK : Prop := ∀ (d : Dev nD) (j : S16384.Idx), (m (iLoc0 d) j).toNat ≤ 999999 ∧ (m (iLoc1 d) j).toNat ≤ 999999

/-- What a worker is handed: its entries of the two index vectors, a read share of each table, its rows of the two
    gathered matrices at whatever they hold. -/
def tileGo (d : Dev nD) (w : Fin 32) : sProp 𝕄 :=
  iprop((iLoc0 d ↦[blk1 w]{fullShare} m (iLoc0 d)) ∗ (iLoc1 d ↦[blk1 w]{fullShare} m (iLoc1 d))
    ∗ (tLoc0 d ↦{Transfers.shareTok fullShare 32 w} tab0 m d) ∗ (tLoc1 d ↦{Transfers.shareTok fullShare 32 w} tab1 m d)
    ∗ (∃ f, oLoc0 d ↦[blk2 w]{fullShare} f) ∗ (∃ f, oLoc1 d ↦[blk2 w]{fullShare} f))

/-- What it hands back: the same, its rows of the gathered matrices now the tables' rows its indices name. -/
def tileTd (d : Dev nD) (w : Fin 32) : sProp 𝕄 :=
  iprop((iLoc0 d ↦[blk1 w]{fullShare} m (iLoc0 d)) ∗ (iLoc1 d ↦[blk1 w]{fullShare} m (iLoc1 d))
    ∗ (tLoc0 d ↦{Transfers.shareTok fullShare 32 w} tab0 m d) ∗ (tLoc1 d ↦{Transfers.shareTok fullShare 32 w} tab1 m d)
    ∗ (∃ f, ⌜RowsOf (m (iLoc0 d)) (tab0 m d) w f⌝ ∗ oLoc0 d ↦[blk2 w]{fullShare} f)
    ∗ (∃ f, ⌜RowsOf (m (iLoc1 d)) (tab1 m d) w f⌝ ∗ oLoc1 d ↦[blk2 w]{fullShare} f))

instance tileGo_storable (d : Dev nD) (w : Fin 32) : BI.Storable (upEmb : UEmb _ 𝕄) (tileGo m d w) := by unfold tileGo; infer_instance
instance tileTd_storable (d : Dev nD) (w : Fin 32) : BI.Storable (upEmb : UEmb _ 𝕄) (tileTd m d w) := by unfold tileTd; infer_instance

/-- The call hands each SparseCore its sixteen workers' parts and takes them back. -/
def P : (K (F := F)).Pay (nD := nD) (Val := Elt F) (Name := ℕ) (U := UU) where
  st := fun q d c => match q with
    | 0 => bigSep Finset.univ fun i : Fin ((K (F := F)).nSub 0) => tileGo m d (wid ((K (F := F)).core 0 c) ((K (F := F)).sub 0 i))
  dn := fun q d c => match q with
    | 0 => bigSep Finset.univ fun i : Fin ((K (F := F)).nSub 0) => tileTd m d (wid ((K (F := F)).core 0 c) ((K (F := F)).sub 0 i))
  go := fun q d c i => match q with | 0 => tileGo m d (wid ((K (F := F)).core 0 c) ((K (F := F)).sub 0 i))
  td := fun q d c i => match q with | 0 => tileTd m d (wid ((K (F := F)).core 0 c) ((K (F := F)).sub 0 i))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-! ## The kernel's memrefs, as the body table passes them -/

abbrev iV0 : Memref sig .scVector .hbm S16384 .i32 := Memref.whole main_arg0_scv
abbrev iV1 : Memref sig .scVector .hbm S16384 .i32 := Memref.whole main_arg1_scv
abbrev tV0 : Memref sig .scVector .hbm S1000000x16 .f32 := Memref.whole main_v3_scv
abbrev tV1 : Memref sig .scVector .hbm S1000000x16 .f32 := Memref.whole main_v4_scv
abbrev oV0 : Memref sig .scVector .hbm S16384x16 .f32 := Memref.whole main_v5_0_scv
abbrev oV1 : Memref sig .scVector .hbm S16384x16 .f32 := Memref.whole main_v5_1_scv
/-- A worker's scratch: its 512 indices, its 512 gathered rows. -/
abbrev sIdx : Memref sig .scVector .vmem S512 .i32 := Memref.whole cc0_scratch0
abbrev sRows : Memref sig .scVector .vmem S512x16 .f32 := Memref.whole cc0_scratch1

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- The kernel function on the arrays and scratch the body table passes it. -/
abbrev tileProg (L : grid0.Coords) : Prog (TpuEff nD τ sig (Elt F) Λ₀ (.scVector (cV L) (jV L))) PUnit :=
  cc0__gather_sc L iV0 (Memref.isWhole_whole _) iV1 (Memref.isWhole_whole _) tV0 (Memref.isWhole_whole _) tV1 (Memref.isWhole_whole _)
    oV0 (Memref.isWhole_whole _) oV1 (Memref.isWhole_whole _) sIdx (Memref.isWhole_whole _) sRows (Memref.isWhole_whole _)
    cc0_scratch2 cc0_scoped0 cc0_scoped1 cc0_scoped2 cc0_scoped3

theorem defs₀_vector (c : Fin τ.nSC) (s : Fin τ.nSub) :
    defs₀ (F := F) (.scVector c s) 0 ()
      = SparseCore.onTile hcore0 hsub0 (fun c s => tileProg (F := F) (coordsV c s)) ⟨⟩ c s := rfl

/-! ## The dense layers on a block of 2048 rows, and on the whole batch -/

/-- Rows `2048·t … 2048·t + 2047` of a batch matrix of width `n`. -/
def rowsBlk {n : Nat} (t : Fin 8) (x : FVec F ⟨2, ![16384, n]⟩ .f32) : FVec F ⟨2, ![2048, n]⟩ .f32 :=
  fun y => x (ix2 (⟨2048 * t.val + (y 0).val, by have := (y 0).isLt; have := t.isLt; simp only [Matrix.cons_val_zero] at *; omega⟩ : Fin 16384) (⟨(y 1).val, (y 1).isLt⟩ : Fin n))

/-- The TensorCore kernel's result on the whole batch: block `t` of it is the kernel body's value on block `t` of the
    two gathered matrices and the (whole) weights. -/
def mlpAll (u i : FVec F S16384x16 .f32) (w1u w1i : FVec F S16x64 .f32) (b1 : FVec F S1x64 .f32) (w2 : FVec F S64x32 .f32)
    (b2 : FVec F S1x32 .f32) (w3 : FVec F S32x1 .f32) (b3 : FVec F S1x1 .f32) : FVec F S16384x1 .f32 :=
  fun j => k1_pay1 (F := F) (rowsBlk ⟨(j 0).val / 2048, by have := (j 0).isLt; simp only [Matrix.cons_val_zero] at *; omega⟩ u) w1u
      (rowsBlk ⟨(j 0).val / 2048, by have := (j 0).isLt; simp only [Matrix.cons_val_zero] at *; omega⟩ i) w1i b1 w2 b2 w3 b3
      (ix2 (⟨(j 0).val % 2048, Nat.mod_lt _ (by decide)⟩ : Fin 2048) (⟨(j 1).val, (j 1).isLt⟩ : Fin 1))

end Cert.Proof.KI

end
-- ==== Proof.Split.lean ====
/-
  The batch cut into the thirty-two workers' parts and put back together.

  A batch vector (or matrix) held whole is the thirty-two blocks of 512 entries (rows) held side by side; a table held
  whole is thirty-two read shares of it beside a remainder; and thirty-two blocks of a gathered matrix, each holding
  the table rows that its block of indices names, are one matrix holding the rows that all the indices name. Workers
  are numbered `2·s + c` over the two SparseCores `c` and their sixteen subcores `s`: a bijection onto `0 … 31`.
-/
import proofs.«212205_g31413390803091_cont_8to1_b_1662_24_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

/-! ## Workers are numbered bijectively -/

/-- The worker number of subcore `i` of SparseCore `c` of the call's grid. -/
def widOf (ci : Fin ((K (F := F)).nCore 0) × Fin ((K (F := F)).nSub 0)) : Fin 32 :=
  wid ((K (F := F)).core 0 ci.1) ((K (F := F)).sub 0 ci.2)

theorem widOf_val (ci : Fin ((K (F := F)).nCore 0) × Fin ((K (F := F)).nSub 0)) : (widOf (F := F) ci).val = 2 * ci.2.val + ci.1.val := rfl

theorem widOf_bijective : Function.Bijective (widOf (F := F)) := by
  constructor
  · rintro ⟨c, i⟩ ⟨c', i'⟩ h
    have hv : 2 * i.val + c.val = 2 * i'.val + c'.val := congrArg Fin.val h
    have hc : c.val < 2 := c.isLt
    have hc' : c'.val < 2 := c'.isLt
    exact Prod.ext (Fin.ext (show c.val = c'.val by omega)) (Fin.ext (show i.val = i'.val by omega))
  · intro w
    refine ⟨(⟨w.val % 2, Nat.mod_lt _ (by decide)⟩, ⟨w.val / 2, by have := w.isLt; show w.val / 2 < 16; omega⟩), Fin.ext ?_⟩
    show 2 * (w.val / 2) + w.val % 2 = w.val; omega

/-- A family over the workers, summed SparseCore by SparseCore and subcore by subcore, is the family summed over
    worker numbers. -/
theorem bigSep_workers (Φ : Fin 32 → sProp 𝕄) :
    (bigSep Finset.univ fun c : Fin ((K (F := F)).nCore 0) => bigSep Finset.univ fun i : Fin ((K (F := F)).nSub 0) =>
        Φ (wid ((K (F := F)).core 0 c) ((K (F := F)).sub 0 i)))
      = bigSep Finset.univ Φ := by
  show (bigSep Finset.univ fun c : Fin ((K (F := F)).nCore 0) => bigSep Finset.univ fun i : Fin ((K (F := F)).nSub 0) =>
      (fun ci : Fin ((K (F := F)).nCore 0) × Fin ((K (F := F)).nSub 0) => Φ (widOf (F := F) ci)) (c, i)) = _
  rw [← bigSep_univ_prod (fun ci : Fin ((K (F := F)).nCore 0) × Fin ((K (F := F)).nSub 0) => Φ (widOf (F := F) ci)),
    ← Finset.image_univ_of_surjective (widOf_bijective (F := F)).2,
    SparseCore.bigSep_image_of_injOn ((widOf_bijective (F := F)).1.injOn) Φ]

/-! ## Blocks -/

theorem blk1_disjoint : ∀ w ∈ (Finset.univ : Finset (Fin 32)), ∀ w' ∈ (Finset.univ : Finset (Fin 32)), w ≠ w' → Disjoint (blk1 w) (blk1 w') :=
  fun _ _ _ _ h => Rect.part_disjoint hdiv1 h
theorem blk1_cover : (Finset.univ : Finset (Fin 32)).biUnion blk1 = Finset.univ := Rect.biUnion_part hdiv1
theorem blk2_disjoint : ∀ w ∈ (Finset.univ : Finset (Fin 32)), ∀ w' ∈ (Finset.univ : Finset (Fin 32)), w ≠ w' → Disjoint (blk2 w) (blk2 w') :=
  fun _ _ _ _ h => Rect.part_disjoint hdiv2 h
theorem blk2_cover : (Finset.univ : Finset (Fin 32)).biUnion blk2 = Finset.univ := Rect.biUnion_part hdiv2

/-- Row `512·w + r` of a batch matrix lies in block `w`. -/
theorem mem_blk2 (w : Fin 32) (r : Fin 512) (e : Fin 16) (hr : 512 * w.val + r.val < 16384) :
    (ix2 (⟨512 * w.val + r.val, hr⟩ : Fin 16384) e : S16384x16.Idx) ∈ blk2 w := by
  refine Rect.mem_set_unit.mpr fun a => ?_
  unfold Shape.partIx Shape.partSize
  match a with
  | ⟨0, _⟩ =>
    simp only [↓reduceIte]
    show w.val * (16384 / 32) ≤ 512 * w.val + r.val ∧ 512 * w.val + r.val < w.val * (16384 / 32) + 16384 / 32
    have := r.isLt; omega
  | ⟨1, _⟩ =>
    have h10 : ((⟨1, by decide⟩ : Fin S16384x16.rank) = (0 : Fin S16384x16.rank)) = False := by decide
    simp only [h10, ↓reduceIte, Nat.zero_mul, Nat.zero_add]
    exact ⟨Nat.zero_le _, e.isLt⟩

variable (m : (ℓ : Loc nD τ sig) → Buf (Elt F) ℓ)

theorem iPts0_blocks (d : Dev nD) (f : Buf (Elt F) (iLoc0 d)) :
    (iLoc0 d ↦{fullShare} f : sProp 𝕄) = bigSep Finset.univ fun w : Fin 32 => iLoc0 d ↦[blk1 w]{fullShare} f := by
  rw [← pointsTo_biUnion Finset.univ (ℓ := iLoc0 d) blk1 blk1_disjoint, blk1_cover]
theorem iPts1_blocks (d : Dev nD) (f : Buf (Elt F) (iLoc1 d)) :
    (iLoc1 d ↦{fullShare} f : sProp 𝕄) = bigSep Finset.univ fun w : Fin 32 => iLoc1 d ↦[blk1 w]{fullShare} f := by
  rw [← pointsTo_biUnion Finset.univ (ℓ := iLoc1 d) blk1 blk1_disjoint, blk1_cover]
theorem oPts0_blocks (d : Dev nD) (f : Buf (Elt F) (oLoc0 d)) :
    (oLoc0 d ↦{fullShare} f : sProp 𝕄) = bigSep Finset.univ fun w : Fin 32 => oLoc0 d ↦[blk2 w]{fullShare} f := by
  rw [← pointsTo_biUnion Finset.univ (ℓ := oLoc0 d) blk2 blk2_disjoint, blk2_cover]
theorem oPts1_blocks (d : Dev nD) (f : Buf (Elt F) (oLoc1 d)) :
    (oLoc1 d ↦{fullShare} f : sProp 𝕄) = bigSep Finset.univ fun w : Fin 32 => oLoc1 d ↦[blk2 w]{fullShare} f := by
  rw [← pointsTo_biUnion Finset.univ (ℓ := oLoc1 d) blk2 blk2_disjoint, blk2_cover]

variable [FloatOps F]

/-- The whole-batch statement: `f` holds, row by row, the rows of `t` that `ids` names. -/
theorem gathered_of_rows {ids : IVec S16384 32} {t : FVec F S1000000x16 .f32} {f : FVec F S16384x16 .f32}
    (h : ∀ w : Fin 32, RowsOf ids t w f) : Spec.Gathered ids t f := by
  intro r e hlt
  have hw : r.val / 512 < 32 := by have := r.isLt; omega
  have hr : 512 * (⟨r.val / 512, hw⟩ : Fin 32).val + (⟨r.val % 512, Nat.mod_lt _ (by decide)⟩ : Fin 512).val < 16384 := by
    have := r.isLt; show 512 * (r.val / 512) + r.val % 512 < 16384; omega
  have hrr : (⟨512 * (⟨r.val / 512, hw⟩ : Fin 32).val + (⟨r.val % 512, Nat.mod_lt _ (by decide)⟩ : Fin 512).val, hr⟩ : Fin 16384) = r :=
    Fin.ext (by show 512 * (r.val / 512) + r.val % 512 = r.val; omega)
  have := h ⟨r.val / 512, hw⟩ ⟨r.val % 512, Nat.mod_lt _ (by decide)⟩ e hr
  rw [hrr] at this
  exact this hlt

/-- Thirty-two blocks of a gathered matrix, each at the rows its indices name, are one such matrix. -/
theorem out0_join (d : Dev nD) (ids : IVec S16384 32) (t : FVec F S1000000x16 .f32) :
    (bigSep Finset.univ fun w : Fin 32 => iprop(∃ f, ⌜RowsOf ids t w f⌝ ∗ oLoc0 d ↦[blk2 w]{fullShare} f))
      ⊢ (iprop(∃ f, ⌜Spec.Gathered ids t f⌝ ∗ oLoc0 d ↦{fullShare} f) : sProp 𝕄) := by
  refine (bigSep_exists_pi Finset.univ (fun (w : Fin 32) (f : Buf (Elt F) (oLoc0 d)) => iprop(⌜RowsOf ids t w f⌝ ∗ oLoc0 d ↦[blk2 w]{fullShare} f))).trans ?_
  iintro ⟨%fs, H⟩
  ihave H1 := (bigSep_pure_sep Finset.univ (fun w : Fin 32 => RowsOf ids t w (fs w)) (fun w => oLoc0 d ↦[blk2 w]{fullShare} fs w)) $$ H
  icases H1 with ⟨%hR, H⟩
  ihave H' := (pointsTo_biUnion_join Finset.univ blk2 fs (fs 0) blk2_disjoint) $$ H
  icases H' with ⟨%g, %hg, Hg⟩
  rw [blk2_cover]
  iexists g
  isplitr
  · ipureintro
    refine gathered_of_rows fun w r e hr hlt => ?_
    rw [hg w (Finset.mem_univ w) _ (mem_blk2 w r e hr)]
    exact hR w (Finset.mem_univ w) r e hr hlt
  · iexact Hg

theorem out1_join (d : Dev nD) (ids : IVec S16384 32) (t : FVec F S1000000x16 .f32) :
    (bigSep Finset.univ fun w : Fin 32 => iprop(∃ f, ⌜RowsOf ids t w f⌝ ∗ oLoc1 d ↦[blk2 w]{fullShare} f))
      ⊢ (iprop(∃ f, ⌜Spec.Gathered ids t f⌝ ∗ oLoc1 d ↦{fullShare} f) : sProp 𝕄) := by
  refine (bigSep_exists_pi Finset.univ (fun (w : Fin 32) (f : Buf (Elt F) (oLoc1 d)) => iprop(⌜RowsOf ids t w f⌝ ∗ oLoc1 d ↦[blk2 w]{fullShare} f))).trans ?_
  iintro ⟨%fs, H⟩
  ihave H1 := (bigSep_pure_sep Finset.univ (fun w : Fin 32 => RowsOf ids t w (fs w)) (fun w => oLoc1 d ↦[blk2 w]{fullShare} fs w)) $$ H
  icases H1 with ⟨%hR, H⟩
  ihave H' := (pointsTo_biUnion_join Finset.univ blk2 fs (fs 0) blk2_disjoint) $$ H
  icases H' with ⟨%g, %hg, Hg⟩
  rw [blk2_cover]
  iexists g
  isplitr
  · ipureintro
    refine gathered_of_rows fun w r e hr hlt => ?_
    rw [hg w (Finset.mem_univ w) _ (mem_blk2 w r e hr)]
    exact hR w (Finset.mem_univ w) r e hr hlt
  · iexact Hg

/-! ## The call's operands dealt to the workers, and the results gathered -/

/-- The remainder of a table's share after the thirty-two workers' read shares. -/
abbrev restShare : PosShare TreeShare := Transfers.shareDrop fullShare 32

theorem out0_split (d : Dev nD) (f0 : Buf (Elt F) (oLoc0 d)) :
    (oLoc0 d ↦{fullShare} f0 : sProp 𝕄) ⊢ bigSep Finset.univ fun w : Fin 32 => iprop(∃ f, oLoc0 d ↦[blk2 w]{fullShare} f) := by
  rw [oPts0_blocks]
  exact bigSep_mono fun w _ => exists_intro (Φ := fun f => (oLoc0 d ↦[blk2 w]{fullShare} f : sProp 𝕄)) f0
theorem out1_split (d : Dev nD) (f1 : Buf (Elt F) (oLoc1 d)) :
    (oLoc1 d ↦{fullShare} f1 : sProp 𝕄) ⊢ bigSep Finset.univ fun w : Fin 32 => iprop(∃ f, oLoc1 d ↦[blk2 w]{fullShare} f) := by
  rw [oPts1_blocks]
  exact bigSep_mono fun w _ => exists_intro (Φ := fun f => (oLoc1 d ↦[blk2 w]{fullShare} f : sProp 𝕄)) f1

/-- The six arrays whole are the workers' parts beside the tables' remainders. -/
theorem deal (d : Dev nD) (f0 : Buf (Elt F) (oLoc0 d)) (f1 : Buf (Elt F) (oLoc1 d)) :
    iprop((iLoc0 d ↦{fullShare} m (iLoc0 d)) ∗ (iLoc1 d ↦{fullShare} m (iLoc1 d)) ∗ (tLoc0 d ↦{fullShare} tab0 m d) ∗ (tLoc1 d ↦{fullShare} tab1 m d)
        ∗ (oLoc0 d ↦{fullShare} f0) ∗ (oLoc1 d ↦{fullShare} f1))
      ⊢ (iprop(((tLoc0 d ↦{restShare} tab0 m d) ∗ (tLoc1 d ↦{restShare} tab1 m d)) ∗ bigSep Finset.univ fun w : Fin 32 => tileGo m d w) : sProp 𝕄) := by
  unfold tileGo
  rw [bigSep_sep', bigSep_sep', bigSep_sep', bigSep_sep', bigSep_sep', iPts0_blocks, iPts1_blocks]
  iintro ⟨Hi0, Hi1, Ht0, Ht1, Ho0, Ho1⟩
  ihave Ht0' := (Transfers.pointsTo_toks_split (ℓ := tLoc0 d) (S := Finset.univ) (f := tab0 m d) fullShare 32) $$ Ht0
  ihave Ht1' := (Transfers.pointsTo_toks_split (ℓ := tLoc1 d) (S := Finset.univ) (f := tab1 m d) fullShare 32) $$ Ht1
  icases Ht0' with ⟨Hr0, Ht0⟩
  icases Ht1' with ⟨Hr1, Ht1⟩
  isplitl [Hr0 Hr1]
  · isplitl [Hr0]; · iexact Hr0
    iexact Hr1
  isplitl [Hi0]; · iexact Hi0
  isplitl [Hi1]; · iexact Hi1
  isplitl [Ht0]; · iexact Ht0
  isplitl [Ht1]; · iexact Ht1
  isplitl [Ho0]
  · iapply (out0_split d f0); iexact Ho0
  · iapply (out1_split d f1); iexact Ho1

/-- The workers' results beside the tables' remainders are the six arrays whole, the two gathered matrices at the rows
    the indices name. -/
theorem gather (d : Dev nD) :
    iprop(((tLoc0 d ↦{restShare} tab0 m d) ∗ (tLoc1 d ↦{restShare} tab1 m d)) ∗ bigSep Finset.univ fun w : Fin 32 => tileTd m d w)
      ⊢ (iprop((iLoc0 d ↦{fullShare} m (iLoc0 d)) ∗ (iLoc1 d ↦{fullShare} m (iLoc1 d)) ∗ (tLoc0 d ↦{fullShare} tab0 m d) ∗ (tLoc1 d ↦{fullShare} tab1 m d)
        ∗ (∃ f, ⌜Spec.Gathered (m (iLoc0 d)) (tab0 m d) f⌝ ∗ oLoc0 d ↦{fullShare} f)
        ∗ (∃ f, ⌜Spec.Gathered (m (iLoc1 d)) (tab1 m d) f⌝ ∗ oLoc1 d ↦{fullShare} f)) : sProp 𝕄) := by
  unfold tileTd
  rw [bigSep_sep', bigSep_sep', bigSep_sep', bigSep_sep', bigSep_sep', iPts0_blocks, iPts1_blocks]
  iintro ⟨⟨Hr0, Hr1⟩, Hi0, Hi1, Ht0, Ht1, Ho0, Ho1⟩
  isplitl [Hi0]; · iexact Hi0
  isplitl [Hi1]; · iexact Hi1
  isplitl [Hr0 Ht0]
  · iapply (Transfers.pointsTo_toks_join (ℓ := tLoc0 d) (S := Finset.univ) (f := tab0 m d) fullShare 32)
    isplitl [Hr0]; · iexact Hr0
    iexact Ht0
  isplitl [Hr1 Ht1]
  · iapply (Transfers.pointsTo_toks_join (ℓ := tLoc1 d) (S := Finset.univ) (f := tab1 m d) fullShare 32)
    isplitl [Hr1]; · iexact Hr1
    iexact Ht1
  isplitl [Ho0]
  · iapply (out0_join d (m (iLoc0 d)) (tab0 m d)); iexact Ho0
  · iapply (out1_join d (m (iLoc1 d)) (tab1 m d)); iexact Ho1

/-- What the call takes for the two SparseCores is the workers' parts; what it hands back, their results. -/
theorem st0_eq (d : Dev nD) : (bigSep Finset.univ fun c : Fin ((K (F := F)).nCore 0) => (P m).st 0 d c) = bigSep Finset.univ fun w : Fin 32 => tileGo m d w :=
  bigSep_workers (fun w => tileGo m d w)
theorem dn0_eq (d : Dev nD) : (bigSep Finset.univ fun c : Fin ((K (F := F)).nCore 0) => (P m).dn 0 d c) = bigSep Finset.univ fun w : Fin 32 => tileTd m d w :=
  bigSep_workers (fun w => tileTd m d w)

/-- A SparseCore's operands are its tasks' and its results theirs: nothing to split. -/
theorem vecSplit : (K (F := F)).VecSplit' (P m) 0 := by
  intro d c
  show (bigSep Finset.univ fun i : Fin ((K (F := F)).nSub 0) => tileGo m d (wid ((K (F := F)).core 0 c) ((K (F := F)).sub 0 i)))
    ⊢ |={Set.univ}=> iprop((bigSep Finset.univ fun i : Fin ((K (F := F)).nSub 0) => tileGo m d (wid ((K (F := F)).core 0 c) ((K (F := F)).sub 0 i)))
      ∗ ((bigSep Finset.univ fun i : Fin ((K (F := F)).nSub 0) => tileTd m d (wid ((K (F := F)).core 0 c) ((K (F := F)).sub 0 i)))
          -∗ (bigSep Finset.univ fun i : Fin ((K (F := F)).nSub 0) => tileTd m d (wid ((K (F := F)).core 0 c) ((K (F := F)).sub 0 i)))))
  iintro H; imodintro
  isplitl [H]; · iexact H
  iintro H; iexact H

end Cert.Proof.KI

end
-- ==== Proof.Host.lean ====
/-
  @main's host operations around the two kernels, as three straight lines, and what each array holds after them.

  Before the SparseCore call each table is transposed, passed through a barrier and transposed back; between the two
  kernels the first layer's weights are cut into their two halves of sixteen rows and the three biases are reshaped to
  rows; after the TensorCore kernel its one-column result is reshaped to a vector. The SparseCore call writes the two
  gathered matrices; the TensorCore kernel writes its result: the valuation is updated there.
-/
import proofs.«212205_g31413390803091_cont_8to1_b_1662_24_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.ShloMosaic.StableHlo
open Idealize.SL Idealize.SL.Sem

variable {F : FTy → Type} [FloatOps F]

/-- The three lines. -/
abbrev ops1 : List (HloOp τ sig (Elt F)) :=
  [ StableHlo.unary main_arg2 main_v0 ((transpose S16x1000000 [1, 0] · transposes_S1000000x16_S16x1000000_1_0) : (⟨S1000000x16, .f32⟩ : BufTy).Contents (Elt F) → (⟨S16x1000000, .f32⟩ : BufTy).Contents (Elt F)),
    StableHlo.unary main_arg3 main_v1 ((transpose S16x1000000 [1, 0] · transposes_S1000000x16_S16x1000000_1_0) : (⟨S1000000x16, .f32⟩ : BufTy).Contents (Elt F) → (⟨S16x1000000, .f32⟩ : BufTy).Contents (Elt F)),
    StableHlo.unary main_v0 main_v2_0 (id : (⟨S16x1000000, .f32⟩ : BufTy).Contents (Elt F) → (⟨S16x1000000, .f32⟩ : BufTy).Contents (Elt F)),
    StableHlo.unary main_v1 main_v2_1 (id : (⟨S16x1000000, .f32⟩ : BufTy).Contents (Elt F) → (⟨S16x1000000, .f32⟩ : BufTy).Contents (Elt F)),
    StableHlo.unary main_v2_0 main_v3 ((transpose S1000000x16 [1, 0] · transposes_S16x1000000_S1000000x16_1_0) : (⟨S16x1000000, .f32⟩ : BufTy).Contents (Elt F) → (⟨S1000000x16, .f32⟩ : BufTy).Contents (Elt F)),
    StableHlo.unary main_v2_1 main_v4 ((transpose S1000000x16 [1, 0] · transposes_S16x1000000_S1000000x16_1_0) : (⟨S16x1000000, .f32⟩ : BufTy).Contents (Elt F) → (⟨S1000000x16, .f32⟩ : BufTy).Contents (Elt F)) ]

abbrev ops2 : List (HloOp τ sig (Elt F)) :=
  [ StableHlo.unary main_arg4 main_v6 ((extractStridedSlice S16x64 ![0, 0] · slices_S32x64_S16x64_0_0) : (⟨S32x64, .f32⟩ : BufTy).Contents (Elt F) → (⟨S16x64, .f32⟩ : BufTy).Contents (Elt F)),
    StableHlo.unary main_arg4 main_v7 ((extractStridedSlice S16x64 ![16, 0] · slices_S32x64_S16x64_16_0) : (⟨S32x64, .f32⟩ : BufTy).Contents (Elt F) → (⟨S16x64, .f32⟩ : BufTy).Contents (Elt F)),
    StableHlo.reshape main_arg5 main_v8 rfl shapeCasts_S64_S1x64,
    StableHlo.reshape main_arg7 main_v9 rfl shapeCasts_S32_S1x32,
    StableHlo.reshape main_arg9 main_v10 rfl shapeCasts_S1_S1x1 ]

abbrev ops3 : List (HloOp τ sig (Elt F)) :=
  [ StableHlo.reshape main_v11 main_v12 rfl shapeCasts_S16384x1_S16384 ]

/-- @main is the first line, the SparseCore call, the second line, the TensorCore kernel, the third line. -/
theorem main_eq (d : Dev nD) :
    main (F := F) d = (seq ops1 >>= fun _ => sc.run d 0 >>= fun _ => seq ops2 >>= fun _ =>
      Prog.lift (.customCall (SparseCore.inner (Pipeline.entry 0)) ()) >>= fun _ => seq ops3 >>= fun _ => pure ⟨⟩) := by
  simp only [main, seq, bind_assoc, pure_bind]

/-! ## The arrays as device buffers, and the valuations along @main -/

abbrev rf (b : Ref sig .tc) : DevRef τ sig := Proc.devRef .tc b

/-- @main's arrays: the TensorCore's references that are not scoped. -/
def tcRefs : Finset (Ref sig .tc) := Finset.univ.filter fun b : Ref sig .tc => ¬ b.isScoped
def SALL : Finset (DevRef τ sig) := tcRefs.map ⟨Proc.devRef .tc, Proc.devRef_injective _⟩

theorem mem_SALL (b : Ref sig .tc) (h : b.isScoped = false) : rf b ∈ SALL :=
  Finset.mem_map_of_mem _ (Finset.mem_filter.mpr ⟨Finset.mem_univ _, by simp [h]⟩)

variable (m : (ℓ : Loc nD τ sig) → Buf (Elt F) ℓ)

/-- The launch contents. -/
def V0 (d : Dev nD) : Valuation τ sig (Elt F) := fun b => m (d, b)
/-- After the first line. -/
def A1 (d : Dev nD) : Valuation τ sig (Elt F) := after ops1 (V0 m d)
/-- After the SparseCore call, the gathered matrices at `f0`, `f1`. -/
def V2 (d : Dev nD) (f0 f1 : FVec F S16384x16 .f32) : Valuation τ sig (Elt F) :=
  Function.update (Function.update (A1 m d) (rf main_v5_0) f0) (rf main_v5_1) f1
/-- After the second line. -/
def A2 (d : Dev nD) (f0 f1 : FVec F S16384x16 .f32) : Valuation τ sig (Elt F) := after ops2 (V2 m d f0 f1)

/-- The two halves of the first layer's weights and the biases as rows, as the second line leaves them. -/
abbrev w1uOf (a4 : FVec F S32x64 .f32) : FVec F S16x64 .f32 := extractStridedSlice S16x64 ![0, 0] a4 slices_S32x64_S16x64_0_0
abbrev w1iOf (a4 : FVec F S32x64 .f32) : FVec F S16x64 .f32 := extractStridedSlice S16x64 ![16, 0] a4 slices_S32x64_S16x64_16_0
abbrev b1Of (a5 : FVec F S64 .f32) : FVec F S1x64 .f32 := shapeCast S1x64 a5 shapeCasts_S64_S1x64
abbrev b2Of (a7 : FVec F S32 .f32) : FVec F S1x32 .f32 := shapeCast S1x32 a7 shapeCasts_S32_S1x32
abbrev b3Of (a9 : FVec F S1 .f32) : FVec F S1x1 .f32 := shapeCast S1x1 a9 shapeCasts_S1_S1x1

/-- The kernel program's result, from the two gathered matrices and the weights. -/
def kRes (f0 f1 : FVec F S16384x16 .f32) (a4 : FVec F S32x64 .f32) (a5 : FVec F S64 .f32) (a6 : FVec F S64x32 .f32) (a7 : FVec F S32 .f32)
    (a8 : FVec F S32x1 .f32) (a9 : FVec F S1 .f32) : FVec F S16384 .f32 :=
  shapeCast S16384 (mlpAll f0 f1 (w1uOf a4) (w1iOf a4) (b1Of a5) a6 (b2Of a7) a8 (b3Of a9)) shapeCasts_S16384x1_S16384

/-- The TensorCore kernel's result on what the second line left. -/
def mlpOf (d : Dev nD) (f0 f1 : FVec F S16384x16 .f32) : FVec F S16384x1 .f32 :=
  mlpAll f0 f1 (w1uOf (m (d, rf main_arg4))) (w1iOf (m (d, rf main_arg4))) (b1Of (m (d, rf main_arg5))) (m (d, rf main_arg6))
    (b2Of (m (d, rf main_arg7))) (m (d, rf main_arg8)) (b3Of (m (d, rf main_arg9)))

/-- After the TensorCore kernel. -/
def V3 (d : Dev nD) (f0 f1 : FVec F S16384x16 .f32) : Valuation τ sig (Elt F) :=
  Function.update (A2 m d f0 f1) (rf main_v11) (mlpOf m d f0 f1)
/-- After the third line. -/
def A3 (d : Dev nD) (f0 f1 : FVec F S16384x16 .f32) : Valuation τ sig (Elt F) := after ops3 (V3 m d f0 f1)

/-! ### What the arrays hold along the way -/

theorem A1_arg0 (d : Dev nD) : A1 m d (rf main_arg0) = m (d, rf main_arg0) := by unfold A1; after_results; rfl
theorem A1_arg1 (d : Dev nD) : A1 m d (rf main_arg1) = m (d, rf main_arg1) := by unfold A1; after_results; rfl
theorem A1_v3 (d : Dev nD) : A1 m d (rf main_v3) = tabOf (m (d, rf main_arg2)) := by unfold A1; after_results; rfl
theorem A1_v4 (d : Dev nD) : A1 m d (rf main_v4) = tabOf (m (d, rf main_arg3)) := by unfold A1; after_results; rfl

theorem V2_o0 (d : Dev nD) (f0 f1 : FVec F S16384x16 .f32) : V2 m d f0 f1 (rf main_v5_0) = f0 := by
  unfold V2; rw [Function.update_of_ne (show rf main_v5_0 ≠ rf main_v5_1 by decide), Function.update_self]
theorem V2_o1 (d : Dev nD) (f0 f1 : FVec F S16384x16 .f32) : V2 m d f0 f1 (rf main_v5_1) = f1 := by
  unfold V2; rw [Function.update_self]
theorem V2_other (d : Dev nD) (f0 f1 : FVec F S16384x16 .f32) (b : DevRef τ sig) (h0 : b ≠ rf main_v5_0) (h1 : b ≠ rf main_v5_1) :
    V2 m d f0 f1 b = A1 m d b := by
  unfold V2; rw [Function.update_of_ne h1, Function.update_of_ne h0]

theorem A2_o0 (d : Dev nD) (f0 f1 : FVec F S16384x16 .f32) : A2 m d f0 f1 (rf main_v5_0) = f0 := by
  unfold A2; after_results; exact V2_o0 m d f0 f1
theorem A2_o1 (d : Dev nD) (f0 f1 : FVec F S16384x16 .f32) : A2 m d f0 f1 (rf main_v5_1) = f1 := by
  unfold A2; after_results; exact V2_o1 m d f0 f1

theorem A2_v6 (d : Dev nD) (f0 f1 : FVec F S16384x16 .f32) : A2 m d f0 f1 (rf main_v6) = w1uOf (m (d, rf main_arg4)) := by
  unfold A2; after_results
  rw [V2_other m d f0 f1 _ (by decide) (by decide)]; unfold A1; after_results; rfl
theorem A2_v7 (d : Dev nD) (f0 f1 : FVec F S16384x16 .f32) : A2 m d f0 f1 (rf main_v7) = w1iOf (m (d, rf main_arg4)) := by
  unfold A2; after_results
  rw [V2_other m d f0 f1 _ (by decide) (by decide)]; unfold A1; after_results; rfl
theorem A2_v8 (d : Dev nD) (f0 f1 : FVec F S16384x16 .f32) : A2 m d f0 f1 (rf main_v8) = b1Of (m (d, rf main_arg5)) := by
  unfold A2; after_results
  rw [V2_other m d f0 f1 _ (by decide) (by decide)]; unfold A1; after_results; rfl
theorem A2_v9 (d : Dev nD) (f0 f1 : FVec F S16384x16 .f32) : A2 m d f0 f1 (rf main_v9) = b2Of (m (d, rf main_arg7)) := by
  unfold A2; after_results
  rw [V2_other m d f0 f1 _ (by decide) (by decide)]; unfold A1; after_results; rfl
theorem A2_v10 (d : Dev nD) (f0 f1 : FVec F S16384x16 .f32) : A2 m d f0 f1 (rf main_v10) = b3Of (m (d, rf main_arg9)) := by
  unfold A2; after_results
  rw [V2_other m d f0 f1 _ (by decide) (by decide)]; unfold A1; after_results; rfl
theorem A2_arg6 (d : Dev nD) (f0 f1 : FVec F S16384x16 .f32) : A2 m d f0 f1 (rf main_arg6) = m (d, rf main_arg6) := by
  unfold A2; after_results
  rw [V2_other m d f0 f1 _ (by decide) (by decide)]; unfold A1; after_results; rfl
theorem A2_arg8 (d : Dev nD) (f0 f1 : FVec F S16384x16 .f32) : A2 m d f0 f1 (rf main_arg8) = m (d, rf main_arg8) := by
  unfold A2; after_results
  rw [V2_other m d f0 f1 _ (by decide) (by decide)]; unfold A1; after_results; rfl

/-- No line and no kernel writes an argument: it holds its launch contents to the end. -/
theorem A3_arg (d : Dev nD) (f0 f1 : FVec F S16384x16 .f32) (b : Ref sig .tc)
    (hb : b = main_arg0 ∨ b = main_arg1 ∨ b = main_arg2 ∨ b = main_arg3 ∨ b = main_arg4 ∨ b = main_arg5 ∨ b = main_arg6 ∨ b = main_arg7 ∨ b = main_arg8 ∨ b = main_arg9) :
    A3 m d f0 f1 (rf b) = m (d, rf b) := by
  rcases hb with rfl | rfl | rfl | rfl | rfl | rfl | rfl | rfl | rfl | rfl <;>
  · unfold A3; after_results
    unfold V3; rw [Function.update_of_ne (by decide)]
    unfold A2; after_results
    rw [V2_other m d f0 f1 _ (by decide) (by decide)]; unfold A1; after_results; rfl

/-- The result: the TensorCore kernel's column, reshaped. -/
theorem A3_v12 (d : Dev nD) (f0 f1 : FVec F S16384x16 .f32) :
    A3 m d f0 f1 (rf main_v12) = kRes f0 f1 (m (d, rf main_arg4)) (m (d, rf main_arg5)) (m (d, rf main_arg6)) (m (d, rf main_arg7)) (m (d, rf main_arg8)) (m (d, rf main_arg9)) := by
  unfold A3; after_results
  unfold V3; rw [Function.update_self]; rfl

end Cert.Proof.KI

end
-- ==== Proof.RegionGhost.lean ====
/-
  The dense layers' kernel region: the ghost state its staging cells need from the launch.

  The pipeline's staging buffers complete on DMA semaphores of the TensorCore (its cells).  The launch deals, per
  device, each cell's launch ghost state and the duty tokens of its rounds; the region's entry allocates the cells'
  invariants from them.
-/
import proofs.«212205_g31413390803091_cont_8to1_b_1662_24_alg».proof.Proof.Common
import Idealize.ShloMosaic.Lib.Pipeline.Sound

noncomputable section

namespace Cert.Proof.KI

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The launch element of the pipeline's rounds: every staging cell at its first round, every duty token. -/
abbrev regionInit : UP := initOf (Pipeline.cells cfgs Gen.cellOf_inj) (Pipeline.launchToks cfgs Gen.cellOf_inj)

/-- What the region on device `d` needs from the launch: its staging cells' launch ghost state and their duty tokens. -/
def RegionGhost (d : Dev nD) : sProp 𝕄 :=
  iprop(Pipeline.cellsGhost cfgs EP 0 d ∗ Pipeline.toksInit cfgs EP 0 d)

theorem bigSep_fin1 (Φ : Fin 1 → sProp 𝕄) : bigSep Finset.univ Φ = Φ 0 := by
  rw [show (Finset.univ : Finset (Fin 1)) = {0} from rfl, bigSep_singleton]

/-- The launch element funds every device's region. -/
theorem region_fund :
    BI.own ((EP : Emb UP 𝕄) regionInit) ⊢ iprop(|==> bigSep Finset.univ fun d : Dev nD => RegionGhost (F := F) d) := by
  refine (Pipeline.fund_ghost cfgs (EP : Emb UP 𝕄) Gen.cellOf_inj).trans (bupd_mono ?_)
  simp only [bigSep_fin1]
  unfold RegionGhost
  exact BI.Entails.refl _

end Cert.Proof.KI

end
-- ==== Proof.Iface.lean ====
/-
  The two kernels' proofs as statements: one vector subcore's task of the gather, and the TensorCore kernel's call
  with the value it leaves. The launch is proved from these two; each is proved in its own module.
-/
import proofs.«212205_g31413390803091_cont_8to1_b_1662_24_alg».proof.Proof.Common
import proofs.«212205_g31413390803091_cont_8to1_b_1662_24_alg».proof.Proof.RegionGhost

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- One worker's task at a symbolic place: from its entries of the index vectors, its read shares of the tables and
    its rows of the gathered matrices, to those rows at the table rows its indices name. -/
def TileBody (m : (ℓ : Loc nD τ sig) → Buf (Elt F) ℓ) : Prop :=
  ∀ (_ : (K (F := F)).Facts) (_ : PreOK m) (d : Dev nD) (L : grid0.Coords) (O : CellTallies nD τ sig (HIx 1)) (W : Waits sig (HIx 1)) (_ : ∀ g, O g none = 0),
    iprop(levAts (K (F := F)).L (K (F := F)).lev ∗ emp ∗ tileGo m d (wid (cV L) (jV L)) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tileTd m d (wid (cV L) (jV L)) ∗ scopedBufs (V d (cV L) (jV L)) ∗ scopedSems0 (V d (cV L) (jV L)) ∗ ∃ W', ⌜∀ p ∈ W', p ∈ W ∨ p.2 = none⌝ ∗ owes (V d (cV L) (jV L)) O W')

/-- The TensorCore kernel's call inside @main: from its nine operands whole (and its result array at anything), after
    the SparseCore call has returned, to the result array at the dense layers' value on the whole batch. -/
def RegionWp : Prop :=
  ∀ (d : Dev nD) (u i : FVec F S16384x16 .f32) (w1u w1i : FVec F S16x64 .f32) (b1 : FVec F S1x64 .f32) (w2 : FVec F S64x32 .f32)
    (b2 : FVec F S1x32 .f32) (w3 : FVec F S32x1 .f32) (b3 : FVec F S1x1 .f32) (Φ : PUnit → sProp 𝕄),
    iprop(levAts (K (F := F)).L (K (F := F)).lev ∗ (K (F := F)).tcSt EH d 1 ∗ boundary (SparseCore.T d) ∗ RegionGhost (F := F) d
        ∗ ((SparseCore.T d).loc main_v5_0 ↦{fullShare} u) ∗ ((SparseCore.T d).loc main_v5_1 ↦{fullShare} i) ∗ ((SparseCore.T d).loc main_v6 ↦{fullShare} w1u) ∗ ((SparseCore.T d).loc main_v7 ↦{fullShare} w1i)
        ∗ ((SparseCore.T d).loc main_v8 ↦{fullShare} b1) ∗ ((SparseCore.T d).loc main_arg6 ↦{fullShare} w2) ∗ ((SparseCore.T d).loc main_v9 ↦{fullShare} b2) ∗ ((SparseCore.T d).loc main_arg8 ↦{fullShare} w3)
        ∗ ((SparseCore.T d).loc main_v10 ↦{fullShare} b3) ∗ (∃ f, (SparseCore.T d).loc main_v11 ↦{fullShare} f)
        ∗ (iprop((K (F := F)).tcSt EH d 1 ∗ boundary (SparseCore.T d)
            ∗ ((SparseCore.T d).loc main_v5_0 ↦{fullShare} u) ∗ ((SparseCore.T d).loc main_v5_1 ↦{fullShare} i) ∗ ((SparseCore.T d).loc main_v6 ↦{fullShare} w1u) ∗ ((SparseCore.T d).loc main_v7 ↦{fullShare} w1i)
            ∗ ((SparseCore.T d).loc main_v8 ↦{fullShare} b1) ∗ ((SparseCore.T d).loc main_arg6 ↦{fullShare} w2) ∗ ((SparseCore.T d).loc main_v9 ↦{fullShare} b2) ∗ ((SparseCore.T d).loc main_arg8 ↦{fullShare} w3)
            ∗ ((SparseCore.T d).loc main_v10 ↦{fullShare} b3) ∗ ((SparseCore.T d).loc main_v11 ↦{fullShare} mlpAll u i w1u w1i b1 w2 b2 w3 b3)) -∗ Φ ⟨⟩))
      ⊢ wp frame (wpE ((K (F := F)).defs (D (F := F))) 𝒱 (SparseCore.T d) none) Set.univ (Prog.lift (.customCall (SparseCore.inner (Pipeline.entry 0)) ())) Φ

end Cert.Proof.KI

end
-- ==== Proof.Main.lean ====
/-
  The kernel program's run: the launch of its thirty-five threads.

  @main on the TensorCore runs its first line of host operations, hands the six arrays of the SparseCore call to the
  thirty-two vector subcores (each its block of the batch and a read share of the tables) and takes them back with
  the two gathered matrices filled, runs its second line, runs the TensorCore kernel over the batch in eight blocks,
  and reshapes the result. Every weakly fair execution of all the threads terminates; at the end the arguments hold
  what they held at the launch and the result is the dense layers' value on the gathered rows.
-/
import proofs.«212205_g31413390803091_cont_8to1_b_1662_24_alg».proof.Proof.Split
import proofs.«212205_g31413390803091_cont_8to1_b_1662_24_alg».proof.Proof.Host
import proofs.«212205_g31413390803091_cont_8to1_b_1662_24_alg».proof.Proof.Iface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)
open Idealize.ShloMosaic.ValueIdx

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## What the final memory holds -/

theorem held_agree (c : Thread nD τ) (Sx : Finset (DevRef τ sig)) (Vx : Valuation τ sig (Elt F)) (s' : Phys nD τ sig (Elt F)) :
    iprop((held c Sx Vx : sProp 𝕄) ∗ SI s') ⊢ (⌜∀ b ∈ Sx, s'.mem.mem (c.1, b) = Vx b⌝ : sProp 𝕄) := by
  classical
  induction Sx using Finset.induction_on with
  | empty => iintro -; ipureintro; intro b hb; exact absurd hb (Finset.notMem_empty _)
  | insert b Sx hb ih =>
    rw [show (held c (insert b Sx) Vx : sProp 𝕄) = iprop(((c.1, b) ↦{fullShare} Vx b) ∗ held c Sx Vx) from bigSep_insert hb]
    iintro ⟨⟨Hb, HS⟩, HSI⟩
    ihave H := (persistent_entails_right (SI_pointsTo_agree (st := s') (ℓ := (c.1, b)) (I := Finset.univ) (q := fullShare) (f := Vx b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | h
    · exact funext fun i => h1 i (Finset.mem_univ i)
    · exact h2 b' h

/-! ## The arrays of the two kernels, taken out of @main's arrays and put back -/

/-- The SparseCore call's six arrays; the TensorCore kernel's ten. -/
def T6 : Finset (DevRef τ sig) := {rf main_arg0, rf main_arg1, rf main_v3, rf main_v4, rf main_v5_0, rf main_v5_1}
def T10 : Finset (DevRef τ sig) :=
  {rf main_v5_0, rf main_v5_1, rf main_v6, rf main_v7, rf main_v8, rf main_arg6, rf main_v9, rf main_arg8, rf main_v10, rf main_v11}

theorem hT6 : T6 ⊆ SALL := by decide
theorem hT10 : T10 ⊆ SALL := by decide

theorem held_T6 (d : Dev nD) (W : Valuation τ sig (Elt F)) :
    (held (SparseCore.T d) T6 W : sProp 𝕄) = iprop(((d, rf main_arg0) ↦{fullShare} W (rf main_arg0)) ∗ ((d, rf main_arg1) ↦{fullShare} W (rf main_arg1))
      ∗ ((d, rf main_v3) ↦{fullShare} W (rf main_v3)) ∗ ((d, rf main_v4) ↦{fullShare} W (rf main_v4))
      ∗ ((d, rf main_v5_0) ↦{fullShare} W (rf main_v5_0)) ∗ ((d, rf main_v5_1) ↦{fullShare} W (rf main_v5_1))) := by
  unfold held T6
  rw [SparseCore.bigSep_insert' (by decide), SparseCore.bigSep_insert' (by decide), SparseCore.bigSep_insert' (by decide),
    SparseCore.bigSep_insert' (by decide), SparseCore.bigSep_insert' (by decide), bigSep_singleton]

theorem held_T10 (d : Dev nD) (W : Valuation τ sig (Elt F)) :
    (held (SparseCore.T d) T10 W : sProp 𝕄) = iprop(((d, rf main_v5_0) ↦{fullShare} W (rf main_v5_0)) ∗ ((d, rf main_v5_1) ↦{fullShare} W (rf main_v5_1))
      ∗ ((d, rf main_v6) ↦{fullShare} W (rf main_v6)) ∗ ((d, rf main_v7) ↦{fullShare} W (rf main_v7)) ∗ ((d, rf main_v8) ↦{fullShare} W (rf main_v8))
      ∗ ((d, rf main_arg6) ↦{fullShare} W (rf main_arg6)) ∗ ((d, rf main_v9) ↦{fullShare} W (rf main_v9)) ∗ ((d, rf main_arg8) ↦{fullShare} W (rf main_arg8))
      ∗ ((d, rf main_v10) ↦{fullShare} W (rf main_v10)) ∗ ((d, rf main_v11) ↦{fullShare} W (rf main_v11))) := by
  unfold held T10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable [FloatOps F]

/-- What the launch deals the TensorCore of its arrays is @main's arrays at the launch contents. -/
theorem unscoped_held (d : Dev nD) : (unscopedBufs d (fun b => m ((SparseCore.T d).loc b)) : sProp 𝕄) = held (SparseCore.T d) SALL (V0 m d) := by
  unfold unscopedBufs held SALL tcRefs
  rw [bigSep_map]
  rfl

/-- Before the SparseCore call: its six arrays at what the first line left, beside the rest. -/
theorem call_pre (d : Dev nD) :
    (held (SparseCore.T d) SALL (A1 m d) : sProp 𝕄) = iprop((((d, rf main_arg0) ↦{fullShare} m (d, rf main_arg0)) ∗ ((d, rf main_arg1) ↦{fullShare} m (d, rf main_arg1))
      ∗ ((d, rf main_v3) ↦{fullShare} tabOf (m (d, rf main_arg2))) ∗ ((d, rf main_v4) ↦{fullShare} tabOf (m (d, rf main_arg3)))
      ∗ ((d, rf main_v5_0) ↦{fullShare} A1 m d (rf main_v5_0)) ∗ ((d, rf main_v5_1) ↦{fullShare} A1 m d (rf main_v5_1))) ∗ held (SparseCore.T d) (SALL \ T6) (A1 m d)) := by
  rw [held_sub_split (SparseCore.T d) hT6 (A1 m d), held_T6, A1_arg0, A1_arg1, A1_v3, A1_v4]

/-- After it: the gathered matrices at `f0`, `f1`. -/
theorem call_post (d : Dev nD) (f0 f1 : FVec F S16384x16 .f32) :
    (held (SparseCore.T d) SALL (V2 m d f0 f1) : sProp 𝕄) = iprop((((d, rf main_arg0) ↦{fullShare} m (d, rf main_arg0)) ∗ ((d, rf main_arg1) ↦{fullShare} m (d, rf main_arg1))
      ∗ ((d, rf main_v3) ↦{fullShare} tabOf (m (d, rf main_arg2))) ∗ ((d, rf main_v4) ↦{fullShare} tabOf (m (d, rf main_arg3)))
      ∗ ((d, rf main_v5_0) ↦{fullShare} f0) ∗ ((d, rf main_v5_1) ↦{fullShare} f1)) ∗ held (SparseCore.T d) (SALL \ T6) (A1 m d)) := by
  rw [held_sub_split (SparseCore.T d) hT6 (V2 m d f0 f1), held_T6, V2_o0, V2_o1,
    V2_other m d f0 f1 (rf main_arg0) (by decide) (by decide), V2_other m d f0 f1 (rf main_arg1) (by decide) (by decide),
    V2_other m d f0 f1 (rf main_v3) (by decide) (by decide), V2_other m d f0 f1 (rf main_v4) (by decide) (by decide),
    A1_arg0, A1_arg1, A1_v3, A1_v4,
    held_congr (SparseCore.T d) (S := SALL \ T6) (V := V2 m d f0 f1) (V' := A1 m d) fun b hb =>
      V2_other m d f0 f1 b (fun e => (Finset.mem_sdiff.mp hb).2 (e ▸ (by decide : rf main_v5_0 ∈ T6)))
        (fun e => (Finset.mem_sdiff.mp hb).2 (e ▸ (by decide : rf main_v5_1 ∈ T6)))]

/-- Before the TensorCore kernel: its ten arrays at what the second line left, beside the rest. -/
theorem region_pre (d : Dev nD) (f0 f1 : FVec F S16384x16 .f32) :
    (held (SparseCore.T d) SALL (A2 m d f0 f1) : sProp 𝕄) = iprop((((d, rf main_v5_0) ↦{fullShare} f0) ∗ ((d, rf main_v5_1) ↦{fullShare} f1)
      ∗ ((d, rf main_v6) ↦{fullShare} w1uOf (m (d, rf main_arg4))) ∗ ((d, rf main_v7) ↦{fullShare} w1iOf (m (d, rf main_arg4))) ∗ ((d, rf main_v8) ↦{fullShare} b1Of (m (d, rf main_arg5)))
      ∗ ((d, rf main_arg6) ↦{fullShare} m (d, rf main_arg6)) ∗ ((d, rf main_v9) ↦{fullShare} b2Of (m (d, rf main_arg7))) ∗ ((d, rf main_arg8) ↦{fullShare} m (d, rf main_arg8))
      ∗ ((d, rf main_v10) ↦{fullShare} b3Of (m (d, rf main_arg9))) ∗ ((d, rf main_v11) ↦{fullShare} A2 m d f0 f1 (rf main_v11))) ∗ held (SparseCore.T d) (SALL \ T10) (A2 m d f0 f1)) := by
  rw [held_sub_split (SparseCore.T d) hT10 (A2 m d f0 f1), held_T10, A2_o0, A2_o1, A2_v6, A2_v7, A2_v8, A2_arg6, A2_v9, A2_arg8, A2_v10]

theorem V3_other (d : Dev nD) (f0 f1 : FVec F S16384x16 .f32) (b : DevRef τ sig) (h : b ≠ rf main_v11) : V3 m d f0 f1 b = A2 m d f0 f1 b := by
  unfold V3; rw [Function.update_of_ne h]
theorem V3_v11 (d : Dev nD) (f0 f1 : FVec F S16384x16 .f32) : V3 m d f0 f1 (rf main_v11) = mlpOf m d f0 f1 := by
  unfold V3; rw [Function.update_self]

/-- After it: its result at the dense layers' value. -/
theorem region_post (d : Dev nD) (f0 f1 : FVec F S16384x16 .f32) :
    (held (SparseCore.T d) SALL (V3 m d f0 f1) : sProp 𝕄) = iprop((((d, rf main_v5_0) ↦{fullShare} f0) ∗ ((d, rf main_v5_1) ↦{fullShare} f1)
      ∗ ((d, rf main_v6) ↦{fullShare} w1uOf (m (d, rf main_arg4))) ∗ ((d, rf main_v7) ↦{fullShare} w1iOf (m (d, rf main_arg4))) ∗ ((d, rf main_v8) ↦{fullShare} b1Of (m (d, rf main_arg5)))
      ∗ ((d, rf main_arg6) ↦{fullShare} m (d, rf main_arg6)) ∗ ((d, rf main_v9) ↦{fullShare} b2Of (m (d, rf main_arg7))) ∗ ((d, rf main_arg8) ↦{fullShare} m (d, rf main_arg8))
      ∗ ((d, rf main_v10) ↦{fullShare} b3Of (m (d, rf main_arg9))) ∗ ((d, rf main_v11) ↦{fullShare} mlpOf m d f0 f1)) ∗ held (SparseCore.T d) (SALL \ T10) (A2 m d f0 f1)) := by
  rw [held_sub_split (SparseCore.T d) hT10 (V3 m d f0 f1), held_T10, V3_v11,
    V3_other m d f0 f1 (rf main_v5_0) (by decide), V3_other m d f0 f1 (rf main_v5_1) (by decide), V3_other m d f0 f1 (rf main_v6) (by decide),
    V3_other m d f0 f1 (rf main_v7) (by decide), V3_other m d f0 f1 (rf main_v8) (by decide), V3_other m d f0 f1 (rf main_arg6) (by decide),
    V3_other m d f0 f1 (rf main_v9) (by decide), V3_other m d f0 f1 (rf main_arg8) (by decide), V3_other m d f0 f1 (rf main_v10) (by decide),
    A2_o0, A2_o1, A2_v6, A2_v7, A2_v8, A2_arg6, A2_v9, A2_arg8, A2_v10,
    held_congr (SparseCore.T d) (S := SALL \ T10) (V := V3 m d f0 f1) (V' := A2 m d f0 f1) fun b hb =>
      V3_other m d f0 f1 b (fun e => (Finset.mem_sdiff.mp hb).2 (e ▸ (by decide : rf main_v11 ∈ T10)))]

/-- The lines' operations only touch @main's arrays, and none allocates. -/
theorem pair_sub (x y : Ref sig .tc) (h : ({rf x, rf y} : Finset (DevRef τ sig)) ⊆ SALL) : ({rf x, rf y} : Finset (DevRef τ sig)) ⊆ SALL := h
theorem hS1 : ∀ op ∈ ops1 (F := F), op.bufs ⊆ SALL := by
  intro op hop
  simp only [List.mem_cons, List.not_mem_nil, or_false] at hop
  rcases hop with rfl | rfl | rfl | rfl | rfl | rfl
  · exact pair_sub main_arg2 main_v0 (by decide)
  · exact pair_sub main_arg3 main_v1 (by decide)
  · exact pair_sub main_v0 main_v2_0 (by decide)
  · exact pair_sub main_v1 main_v2_1 (by decide)
  · exact pair_sub main_v2_0 main_v3 (by decide)
  · exact pair_sub main_v2_1 main_v4 (by decide)
theorem hS2 : ∀ op ∈ ops2 (F := F), op.bufs ⊆ SALL := by
  intro op hop
  simp only [List.mem_cons, List.not_mem_nil, or_false] at hop
  rcases hop with rfl | rfl | rfl | rfl | rfl
  · exact pair_sub main_arg4 main_v6 (by decide)
  · exact pair_sub main_arg4 main_v7 (by decide)
  · exact pair_sub main_arg5 main_v8 (by decide)
  · exact pair_sub main_arg7 main_v9 (by decide)
  · exact pair_sub main_arg9 main_v10 (by decide)
theorem hS3 : ∀ op ∈ ops3 (F := F), op.bufs ⊆ SALL := by
  intro op hop
  simp only [List.mem_cons, List.not_mem_nil, or_false] at hop
  rcases hop with rfl
  exact pair_sub main_v11 main_v12 (by decide)
theorem hf1 : ∀ op ∈ ops1 (F := F), op.fresh = ∅ := by
  intro op hop
  simp only [List.mem_cons, List.not_mem_nil, or_false] at hop
  rcases hop with rfl | rfl | rfl | rfl | rfl | rfl <;> rfl
theorem hf2 : ∀ op ∈ ops2 (F := F), op.fresh = ∅ := by
  intro op hop
  simp only [List.mem_cons, List.not_mem_nil, or_false] at hop
  rcases hop with rfl | rfl | rfl | rfl | rfl <;> rfl
theorem hf3 : ∀ op ∈ ops3 (F := F), op.fresh = ∅ := by
  intro op hop
  simp only [List.mem_cons, List.not_mem_nil, or_false] at hop
  rcases hop with rfl
  rfl

/-! ## The vector subcores' obligation -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileBody m) (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile hF hpre d (coordsV ⟨_, hc.1⟩ ⟨_, hc.2⟩) O W hO).trans (wp_mono frame _ _ fun _ => obl_post)

/-! ## The launch element: the handshakes' rounds, the pipeline's rounds, the counters -/

def u₀ : UU := ((initOf (K (F := F)).hsCells (K (F := F)).hsToks, regionInit), 1)

omit [FloatOps F] in
theorem ownU_split (a : UH) (b : UP) (c : Counters) : (ownU ((a, b), c) : sProp 𝕄) ⊢ iprop(BI.own ((EH : Emb UH 𝕄) a) ∗ BI.own ((EP : Emb UP 𝕄) b)) := by
  have e1 : (ownU ((a, b), c) : sProp 𝕄) ⊢ iprop(BI.own ((EH : Emb UH 𝕄) a) ∗ ownU (((1 : UH), b), c)) :=
    BI.own_op_elim ((uEmb (nD := nD) (sig := sig) (Ix := HIx 1) (Val := Elt F) (Name := ℕ) (U := UU) (Lvl := ℕ)).toEmb.op_of_mem
      (Prod.mk_mem_op (Prod.mk_mem_op (URA.mem_op_one a) (URA.mem_one_op b)) (URA.mem_one_op c)))
  have e2 : (ownU (((1 : UH), b), c) : sProp 𝕄) ⊢ iprop(BI.own ((EP : Emb UP 𝕄) b) ∗ ownU (((1 : UH), (1 : UP)), c)) :=
    BI.own_op_elim ((uEmb (nD := nD) (sig := sig) (Ix := HIx 1) (Val := Elt F) (Name := ℕ) (U := UU) (Lvl := ℕ)).toEmb.op_of_mem
      (Prod.mk_mem_op (Prod.mk_mem_op (URA.mem_op_one (1 : UH)) (URA.mem_op_one b)) (URA.mem_one_op c)))
  iintro Hu
  ihave H := (e1) $$ Hu
  icases H with ⟨HH, Hy⟩
  ihave H2 := (e2) $$ Hy
  icases H2 with ⟨HP, -⟩
  isplitl [HH]; · iexact HH
  iexact HP

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own ((EH : Emb UH 𝕄) (initOf (K (F := F)).hsCells (K (F := F)).hsToks)) ∗ (bigSep Finset.univ fun d : Dev nD => RegionGhost (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (region_fund (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- What @main leaves: every array of its own at what the lines and the kernels left, the gathered matrices two
    matrices that hold the rows the indices name. -/
def FIN (d : Dev nD) : sProp 𝕄 :=
  iprop(∃ f0 f1, ⌜Spec.Gathered (m (d, rf main_arg0)) (tabOf (m (d, rf main_arg2))) f0 ∧ Spec.Gathered (m (d, rf main_arg1)) (tabOf (m (d, rf main_arg3))) f1⌝
    ∗ held (SparseCore.T d) SALL (A3 m d f0 f1))

set_option backward.isDefEq.respectTransparency.types false in
set_option maxHeartbeats 4000000 in
theorem hmain (hregion : RegionWp (F := F)) (κ : GSem nD τ sig → ℕ) (d : Dev nD) :
    iprop((K (F := F)).ctx EH (P m) κ ∗ (K (F := F)).tcSt EH d 0 ∗ (K (F := F)).tcRes m ρ d ∗ RegionGhost (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) SALL (V0 m d) from unscoped_held m d, main_eq]
  iintro ⟨#Hctx, Hst, ⟨Hb, Hheld, Hsems, -⟩, HG⟩
  ihave Hlev := ((K (F := F)).ctx_levAts κ) $$ Hctx
  -- the first line
  iapply (wp_seq (defs := (K (F := F)).defs (D (F := F))) 𝒱 none Set.univ d SALL _ (ops1 (F := F)) hS1 hf1 (V0 m d)) $$ [Hb Hheld]
  · isplitl [Hb] <;> iassumption
  iintro ⟨Hb, Hheld⟩
  ihave Hheld := (Entails.of_eq (show (held (d.tc : Thread nD τ) SALL (after (ops1 (F := F)) (V0 m d)) : sProp 𝕄) = held (SparseCore.T d) SALL (A1 m d) from rfl)) $$ Hheld
  -- the SparseCore call: its six arrays dealt to the thirty-two workers and gathered back
  ihave Hc := (Entails.of_eq (call_pre m d)) $$ Hheld
  icases Hc with ⟨⟨Hi0, Hi1, Ht0, Ht1, Ho0, Ho1⟩, Hrest⟩
  ihave Hd := (deal m d _ _) $$ [Hi0 Hi1 Ht0 Ht1 Ho0 Ho1]
  · isplitl [Hi0]; · iexact Hi0
    isplitl [Hi1]; · iexact Hi1
    isplitl [Ht0]; · iexact Ht0
    isplitl [Ht1]; · iexact Ht1
    isplitl [Ho0]; · iexact Ho0
    iexact Ho1
  icases Hd with ⟨Hr, Hgo⟩
  rw [wp_bind]
  iapply ((K (F := F)).wp_run (D (F := F)) 𝒱 (EH := EH) (P := P m) κ d 0) $$ [Hst Hgo Hr Hb Hrest Hsems HG]
  isplitr; · iexact Hctx
  isplitl [Hst]; · iexact Hst
  isplitl [Hgo]; · rw [st0_eq]; iexact Hgo
  iintro ⟨Hst, Hdn⟩
  ihave Hdn' := (Entails.of_eq (dn0_eq m d)) $$ Hdn
  ihave Hg := (gather m d) $$ [Hr Hdn']
  · isplitl [Hr] <;> iassumption
  icases Hg with ⟨Hi0, Hi1, Ht0, Ht1, ⟨%f0, %hg0, Ho0⟩, ⟨%f1, %hg1, Ho1⟩⟩
  ihave Hheld := (Entails.of_eq (call_post m d f0 f1).symm) $$ [Hi0 Hi1 Ht0 Ht1 Ho0 Ho1 Hrest]
  · isplitr [Hrest]
    · isplitl [Hi0]; · iexact Hi0
      isplitl [Hi1]; · iexact Hi1
      isplitl [Ht0]; · iexact Ht0
      isplitl [Ht1]; · iexact Ht1
      isplitl [Ho0]; · iexact Ho0
      iexact Ho1
    · iexact Hrest
  -- the second line
  iapply (wp_seq (defs := (K (F := F)).defs (D (F := F))) 𝒱 none Set.univ d SALL _ (ops2 (F := F)) hS2 hf2 (V2 m d f0 f1)) $$ [Hb Hheld]
  · isplitl [Hb] <;> iassumption
  iintro ⟨Hb, Hheld⟩
  ihave Hheld := (Entails.of_eq (show (held (d.tc : Thread nD τ) SALL (after (ops2 (F := F)) (V2 m d f0 f1)) : sProp 𝕄) = held (SparseCore.T d) SALL (A2 m d f0 f1) from rfl)) $$ Hheld
  -- the TensorCore kernel
  ihave Hr := (Entails.of_eq (region_pre m d f0 f1)) $$ Hheld
  icases Hr with ⟨⟨Hu, Hi, H6, H7, H8, Ha6, H9, Ha8, H10, H11⟩, Hrest⟩
  rw [wp_bind]
  iapply (hregion d f0 f1 _ _ _ _ _ _ _ _) $$ [Hst Hb HG Hu Hi H6 H7 H8 Ha6 H9 Ha8 H10 H11 Hrest Hsems]
  isplitr; · iexact Hlev
  isplitl [Hst]; · iexact Hst
  isplitl [Hb]; · iexact Hb
  isplitl [HG]; · iexact HG
  isplitl [Hu]; · iexact Hu
  isplitl [Hi]; · iexact Hi
  isplitl [H6]; · iexact H6
  isplitl [H7]; · iexact H7
  isplitl [H8]; · iexact H8
  isplitl [Ha6]; · iexact Ha6
  isplitl [H9]; · iexact H9
  isplitl [Ha8]; · iexact Ha8
  isplitl [H10]; · iexact H10
  isplitl [H11]; · iexists _; iexact H11
  iintro ⟨Hst, Hb, Hu, Hi, H6, H7, H8, Ha6, H9, Ha8, H10, H11⟩
  ihave Hheld := (Entails.of_eq (region_post m d f0 f1).symm) $$ [Hu Hi H6 H7 H8 Ha6 H9 Ha8 H10 H11 Hrest]
  · isplitr [Hrest]
    · isplitl [Hu]; · iexact Hu
      isplitl [Hi]; · iexact Hi
      isplitl [H6]; · iexact H6
      isplitl [H7]; · iexact H7
      isplitl [H8]; · iexact H8
      isplitl [Ha6]; · iexact Ha6
      isplitl [H9]; · iexact H9
      isplitl [Ha8]; · iexact Ha8
      isplitl [H10]; · iexact H10
      iexact H11
    · iexact Hrest
  -- the third line
  iapply (wp_seq (defs := (K (F := F)).defs (D (F := F))) 𝒱 none Set.univ d SALL _ (ops3 (F := F)) hS3 hf3 (V3 m d f0 f1)) $$ [Hb Hheld]
  · isplitl [Hb] <;> iassumption
  iintro ⟨Hb, Hheld⟩
  ihave Hheld := (Entails.of_eq (show (held (d.tc : Thread nD τ) SALL (after (ops3 (F := F)) (V3 m d f0 f1)) : sProp 𝕄) = held (SparseCore.T d) SALL (A3 m d f0 f1) from rfl)) $$ Hheld
  rw [wp_pure]; imodintro
  isplitl [Hst]; · iexact Hst
  unfold FIN
  iexists f0, f1
  isplitr
  · ipureintro; exact ⟨hg0, hg1⟩
  · iexact Hheld

/-! ## Reading the claim off the final memory -/

def fq (d : Dev nD) (s' : Phys nD τ sig (Elt F)) : Prop :=
  ∃ f0 f1, Spec.Gathered (m (d, rf main_arg0)) (tabOf (m (d, rf main_arg2))) f0 ∧ Spec.Gathered (m (d, rf main_arg1)) (tabOf (m (d, rf main_arg3))) f1
    ∧ ∀ b ∈ SALL, s'.mem.mem (d, b) = A3 m d f0 f1 b

theorem hfin (d : Dev nD) (s' : Phys nD τ sig (Elt F)) : iprop(FIN m d ∗ SI s') ⊢ (⌜fq m d s'⌝ : sProp 𝕄) := by
  unfold FIN
  iintro ⟨⟨%f0, %f1, %hg, Hheld⟩, HSI⟩
  ihave H := (held_agree (SparseCore.T d) SALL (A3 m d f0 f1) s') $$ [Hheld HSI]
  · isplitl [Hheld] <;> iassumption
  icases H with %h
  ipureintro
  exact ⟨f0, f1, hg.1, hg.2, h⟩

/-- The run's post: on every device the result is the dense layers' value on two matrices that hold the rows the
    indices name, and the ten arguments are unchanged. -/
def QC : PUnit × MemSt nD τ sig (Elt F) → Prop := fun r => ∀ c : Dev nD,
  (∃ f0 f1, Spec.Gathered (m (c, rf main_arg0)) (tabOf (m (c, rf main_arg2))) f0 ∧ Spec.Gathered (m (c, rf main_arg1)) (tabOf (m (c, rf main_arg3))) f1
    ∧ r.2.mem (c, rf main_v12) = kRes f0 f1 (m (c, rf main_arg4)) (m (c, rf main_arg5)) (m (c, rf main_arg6)) (m (c, rf main_arg7)) (m (c, rf main_arg8)) (m (c, rf main_arg9)))
  ∧ r.2.mem (c, rf main_arg0) = m (c, rf main_arg0) ∧ r.2.mem (c, rf main_arg1) = m (c, rf main_arg1) ∧ r.2.mem (c, rf main_arg2) = m (c, rf main_arg2)
  ∧ r.2.mem (c, rf main_arg3) = m (c, rf main_arg3) ∧ r.2.mem (c, rf main_arg4) = m (c, rf main_arg4) ∧ r.2.mem (c, rf main_arg5) = m (c, rf main_arg5)
  ∧ r.2.mem (c, rf main_arg6) = m (c, rf main_arg6) ∧ r.2.mem (c, rf main_arg7) = m (c, rf main_arg7) ∧ r.2.mem (c, rf main_arg8) = m (c, rf main_arg8)
  ∧ r.2.mem (c, rf main_arg9) = m (c, rf main_arg9)

theorem hQ (s' : Phys nD τ sig (Elt F)) (h : ∀ d, fq m d s') : QC m (⟨⟩, s'.mem) := by
  intro c
  obtain ⟨f0, f1, hg0, hg1, hh⟩ := h c
  have arg (b : Ref sig .tc) (hb : b.isScoped = false)
      (hb' : b = main_arg0 ∨ b = main_arg1 ∨ b = main_arg2 ∨ b = main_arg3 ∨ b = main_arg4 ∨ b = main_arg5 ∨ b = main_arg6 ∨ b = main_arg7 ∨ b = main_arg8 ∨ b = main_arg9) :
      s'.mem.mem (c, rf b) = m (c, rf b) := (hh _ (mem_SALL b hb)).trans (A3_arg m c f0 f1 b hb')
  refine ⟨⟨f0, f1, hg0, hg1, (hh _ (mem_SALL main_v12 rfl)).trans (A3_v12 m c f0 f1)⟩,
    arg main_arg0 rfl (by simp), arg main_arg1 rfl (by simp), arg main_arg2 rfl (by simp), arg main_arg3 rfl (by simp), arg main_arg4 rfl (by simp),
    arg main_arg5 rfl (by simp), arg main_arg6 rfl (by simp), arg main_arg7 rfl (by simp), arg main_arg8 rfl (by simp), arg main_arg9 rfl (by simp)⟩

/-! ## The program's run -/

theorem run_main [∀ e, Nonempty (Elt F e)] (htile : TileBody m) (hregion : RegionWp (F := F)) (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htile facts hpre)
    (fun q _ => match q with | 0 => SparseCore.Cfg.VecSplit.of_plain (vecSplit m))
    m ρ main (fun d => RegionGhost (F := F) d) (FIN m) (u₀ (F := F)) (sep_elim_left.trans (hu₀ m)) (hmain m ρ hregion) (fq m) (hfin m) (QC m) (hQ m)

end Cert.Proof.KI

end
-- ==== Proof.RegionBody.lean ====
/-
  The dense layers' kernel region on one device: the arrays it moves, the pipeline's proof data (what each
  window's staging buffer holds after the body at a grid point), and the kernel body's run at a point.

  The region has ten windows.  Windows 0 and 1 are blocks of 2048 rows of the two gathered matrices, windows 2 to 8
  the seven weight arrays whole, window 9 a block of 2048 rows of the result.  The body loads every staging buffer
  whole, computes one value from the nine loaded blocks, and stores it whole into window 9's buffer.
-/
import proofs.«212205_g31413390803091_cont_8to1_b_1662_24_alg».proof.Proof.Common
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The arrays the region moves -/

/-- The ten arrays' contents when the region is entered: the two gathered matrices, the seven weight arrays, and
    whatever the result's buffer holds. -/
structure Arrs (F : FTy → Type) where
  u : FVec F S16384x16 .f32
  i : FVec F S16384x16 .f32
  w1u : FVec F S16x64 .f32
  w1i : FVec F S16x64 .f32
  b1 : FVec F S1x64 .f32
  w2 : FVec F S64x32 .f32
  b2 : FVec F S1x32 .f32
  w3 : FVec F S32x1 .f32
  b3 : FVec F S1x1 .f32
  o : FVec F S16384x1 .f32

/-- The pipeline has no prefetched table: its one admissible contents. -/
abbrev adm : (p : Fin 1) → (pcfgs (F := F) p).Adm := fun p => (cfgs p).toPCfg_adm

/-- Window `w`'s array at entry. -/
def arrOf (x : Arrs F) (d : Dev nD) : (w : Fin cfg1.W) → Buf (Elt F) ((cfg1.win w).arr.view.loc (d.tc : Thread nD τ))
  | ⟨0, _⟩ => x.u
  | ⟨1, _⟩ => x.i
  | ⟨2, _⟩ => x.w1u
  | ⟨3, _⟩ => x.w1i
  | ⟨4, _⟩ => x.b1
  | ⟨5, _⟩ => x.w2
  | ⟨6, _⟩ => x.b2
  | ⟨7, _⟩ => x.w3
  | ⟨8, _⟩ => x.b3
  | ⟨9, _⟩ => x.o

/-- Window `w`'s block at point `t`, read off its array at entry. -/
def iblk (x : Arrs F) (d : Dev nD) (w : Fin cfg1.W) (t : Fin cfg1.N) : ((cfg1.win w).xblock (cfg1.grid.coords t)).Idx → Elt F (cfg1.win w).elt :=
  ((cfg1.win w).blk t).view.read (Elt F) (arrOf x d w)

/-! ## What the body leaves in the result window's buffer -/

abbrev rA : Rect S2048x16 := Rect.unit (s := S2048x16) ![0, 0] S2048x16.size inb_S2048x16_S2048x16_0_0
abbrev rB : Rect S16x64 := Rect.unit (s := S16x64) ![0, 0] S16x64.size inb_S16x64_S16x64_0_0
abbrev rC : Rect S1x64 := Rect.unit (s := S1x64) ![0, 0] S1x64.size inb_S1x64_S1x64_0_0
abbrev rD : Rect S64x32 := Rect.unit (s := S64x32) ![0, 0] S64x32.size inb_S64x32_S64x32_0_0
abbrev rE : Rect S1x32 := Rect.unit (s := S1x32) ![0, 0] S1x32.size inb_S1x32_S1x32_0_0
abbrev rG : Rect S32x1 := Rect.unit (s := S32x1) ![0, 0] S32x1.size inb_S32x1_S32x1_0_0
abbrev rH : Rect S1x1 := Rect.unit (s := S1x1) ![0, 0] S1x1.size inb_S1x1_S1x1_0_0
abbrev rO : Rect S2048x1 := Rect.unit (s := S2048x1) ![0, 0] S2048x1.size inb_S2048x1_S2048x1_0_0

/-- The result window's staging buffer after the body, from the nine input windows' blocks: its one store, of the
    body's value on what its nine loads read. -/
def outBlk (x0 x1 : Vec F S2048x16 .f32) (x2 x3 : Vec F S16x64 .f32) (x4 : Vec F S1x64 .f32) (x5 : Vec F S64x32 .f32)
    (x6 : Vec F S1x32 .f32) (x7 : Vec F S32x1 .f32) (x8 : Vec F S1x1 .f32) : Vec F S2048x1 .f32 :=
  View.canon [⟨rO, k1_pay1 (View.ld x0 rA) (View.ld x2 rB) (View.ld x1 rA) (View.ld x3 rB) (View.ld x4 rC) (View.ld x5 rD)
    (View.ld x6 rE) (View.ld x7 rG) (View.ld x8 rH)⟩]

/-- The store fills the buffer. -/
theorem coverO (p0 : Vec F S2048x1 .f32) (y : S2048x1.Idx) :
    ∃ pc ∈ ([⟨rO, p0⟩] : List (View.Piece (Elt F) S2048x1 .f32)), y ∈ pc.1.set :=
  View.cover_of_tiled [⟨rO, p0⟩] S2048x1.size (by rfl) y

theorem hz2 : (![0, 0] : Fin 2 → Nat) = fun _ => 0 := funext fun a => by fin_cases a <;> rfl

/-- Every load and the store are of whole buffers: the result is the body's value on the nine blocks. -/
theorem outBlk_eq (x0 x1 : Vec F S2048x16 .f32) (x2 x3 : Vec F S16x64 .f32) (x4 : Vec F S1x64 .f32) (x5 : Vec F S64x32 .f32)
    (x6 : Vec F S1x32 .f32) (x7 : Vec F S32x1 .f32) (x8 : Vec F S1x1 .f32) :
    outBlk x0 x1 x2 x3 x4 x5 x6 x7 x8 = k1_pay1 x0 x2 x1 x3 x4 x5 x6 x7 x8 := by
  unfold outBlk
  rw [View.canon_unit_zero hz2]
  simp only [View.ld_unit_zero (S := S2048x16) hz2, View.ld_unit_zero (S := S16x64) hz2, View.ld_unit_zero (S := S1x64) hz2,
    View.ld_unit_zero (S := S64x32) hz2, View.ld_unit_zero (S := S1x32) hz2, View.ld_unit_zero (S := S32x1) hz2,
    View.ld_unit_zero (S := S1x1) hz2]

/-! ## The body's run on whole staging memrefs -/

set_option maxHeartbeats 2000000 in
/-- The kernel body on whole staging memrefs, the nine inputs' at contents `x0 … x8` and the result's at anything, runs
    to the continuation holding the inputs' as they were and the result's at `outBlk` of the inputs'. -/
theorem sound_kernel (c : Dev nD) (E : Set ℕ) (i : grid1.Coords)
    (arg1 : Memref sig .tc .vmem S2048x16 .f32) (harg1 : arg1.IsWhole) (arg2 : Memref sig .tc .vmem S2048x16 .f32) (harg2 : arg2.IsWhole)
    (arg3 : Memref sig .tc .vmem S16x64 .f32) (harg3 : arg3.IsWhole) (arg4 : Memref sig .tc .vmem S16x64 .f32) (harg4 : arg4.IsWhole)
    (arg5 : Memref sig .tc .vmem S1x64 .f32) (harg5 : arg5.IsWhole) (arg6 : Memref sig .tc .vmem S64x32 .f32) (harg6 : arg6.IsWhole)
    (arg7 : Memref sig .tc .vmem S1x32 .f32) (harg7 : arg7.IsWhole) (arg8 : Memref sig .tc .vmem S32x1 .f32) (harg8 : arg8.IsWhole)
    (arg9 : Memref sig .tc .vmem S1x1 .f32) (harg9 : arg9.IsWhole) (arg10 : Memref sig .tc .vmem S2048x1 .f32) (harg10 : arg10.IsWhole)
    (x0 x1 : Vec F S2048x16 .f32) (x2 x3 : Vec F S16x64 .f32) (x4 : Vec F S1x64 .f32) (x5 : Vec F S64x32 .f32)
    (x6 : Vec F S1x32 .f32) (x7 : Vec F S32x1 .f32) (x8 : Vec F S1x1 .f32) (Kk : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (outBlk x0 x1 x2 x3 x4 x5 x6 x7 x8)) -∗ Kk ⟨⟩))
      ⊢ wp frame (wpE (defs₀ (F := F)) Variants.none c none) E
          (cc1__mlp_body i arg1 harg1 arg2 harg2 arg3 harg3 arg4 harg4 arg5 harg5 arg6 harg6 arg7 harg7 arg8 harg8 arg9 harg9 arg10 harg10) Kk := by
  simp only [cc1__mlp_body_eq_skeleton]; unfold cc1__mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (coverO _)

/-! ## The pipeline's proof data -/

/-- The pairs the TensorCore's waits may have recorded when the region is entered: those at or below the first
    band of the handshakes' levels. The pipeline's own waits, at index `none`, sit at level 0. -/
def recBound (d : Dev nD) : Set (SemLoc sig × HIx 1) := {p | (K (F := F)).lev (T d, p.1) p.2 ≤ 8}

/-- The proof data of the pipeline on device `d`: the arrays as the region finds them; after the body at point `t`
    each input's buffer at its block and the result's at `outBlk` of the input blocks; no invariant of the body's own;
    nothing owed; full shares. -/
def pdat (x : Arrs F) (d : Dev nD) : Dat τ (Elt F) (HIx 1) ℕ UU ℕ cfg1 d where
  A w := arrOf x d w
  after w t := match w with
    | ⟨0, _⟩ => iblk x d 0 t
    | ⟨1, _⟩ => iblk x d 1 t
    | ⟨2, _⟩ => iblk x d 2 t
    | ⟨3, _⟩ => iblk x d 3 t
    | ⟨4, _⟩ => iblk x d 4 t
    | ⟨5, _⟩ => iblk x d 5 t
    | ⟨6, _⟩ => iblk x d 6 t
    | ⟨7, _⟩ => iblk x d 7 t
    | ⟨8, _⟩ => iblk x d 8 t
    | ⟨9, _⟩ => outBlk (iblk x d 0 t) (iblk x d 1 t) (iblk x d 2 t) (iblk x d 3 t) (iblk x d 4 t) (iblk x d 5 t) (iblk x d 6 t) (iblk x d 7 t) (iblk x d 8 t)
  Φ _ := iprop(emp)
  q _ := fullShare
  owed _ := 0
  recorded _ := recBound (F := F) d

theorem pdat_A (x : Arrs F) (d : Dev nD) (w : Fin cfg1.W) : (pdat x d).A w = arrOf x d w := by dsimp only [pdat]

theorem after_0 (x : Arrs F) (d : Dev nD) (t : Fin cfg1.N) : (pdat x d).after 0 t = iblk x d 0 t := by dsimp only [pdat]
theorem after_1 (x : Arrs F) (d : Dev nD) (t : Fin cfg1.N) : (pdat x d).after 1 t = iblk x d 1 t := by dsimp only [pdat]
theorem after_2 (x : Arrs F) (d : Dev nD) (t : Fin cfg1.N) : (pdat x d).after 2 t = iblk x d 2 t := by dsimp only [pdat]
theorem after_3 (x : Arrs F) (d : Dev nD) (t : Fin cfg1.N) : (pdat x d).after 3 t = iblk x d 3 t := by dsimp only [pdat]
theorem after_4 (x : Arrs F) (d : Dev nD) (t : Fin cfg1.N) : (pdat x d).after 4 t = iblk x d 4 t := by dsimp only [pdat]
theorem after_5 (x : Arrs F) (d : Dev nD) (t : Fin cfg1.N) : (pdat x d).after 5 t = iblk x d 5 t := by dsimp only [pdat]
theorem after_6 (x : Arrs F) (d : Dev nD) (t : Fin cfg1.N) : (pdat x d).after 6 t = iblk x d 6 t := by dsimp only [pdat]
theorem after_7 (x : Arrs F) (d : Dev nD) (t : Fin cfg1.N) : (pdat x d).after 7 t = iblk x d 7 t := by dsimp only [pdat]
theorem after_8 (x : Arrs F) (d : Dev nD) (t : Fin cfg1.N) : (pdat x d).after 8 t = iblk x d 8 t := by dsimp only [pdat]
theorem after_9 (x : Arrs F) (d : Dev nD) (t : Fin cfg1.N) : (pdat x d).after 9 t = outBlk (iblk x d 0 t) (iblk x d 1 t) (iblk x d 2 t) (iblk x d 3 t) (iblk x d 4 t) (iblk x d 5 t) (iblk x d 6 t) (iblk x d 7 t) (iblk x d 8 t) := by dsimp only [pdat]

/-- Each input's current staging buffer holds its block at every point, fetched there or not: the body leaves the block
    in place, and where the pipeline does not fetch the block index has not moved. -/
theorem before_0 (x : Arrs F) (d : Dev nD) (t : Fin cfg1.N) (dd) : (pdat x d).before 0 t dd = iblk x d 0 t :=
  ((pdat x d).before_in_eq_fetched 0 rfl (fun _ => rfl) (fun _ _ _ => rfl) (fun t => by rw [after_0]; unfold Dat.blockOf iblk; rw [pdat_A]; try rfl) t dd).trans
    (by unfold Dat.fetched Dat.blockOf iblk; rw [pdat_A]; try rfl)
theorem before_1 (x : Arrs F) (d : Dev nD) (t : Fin cfg1.N) (dd) : (pdat x d).before 1 t dd = iblk x d 1 t :=
  ((pdat x d).before_in_eq_fetched 1 rfl (fun _ => rfl) (fun _ _ _ => rfl) (fun t => by rw [after_1]; unfold Dat.blockOf iblk; rw [pdat_A]; try rfl) t dd).trans
    (by unfold Dat.fetched Dat.blockOf iblk; rw [pdat_A]; try rfl)
theorem before_2 (x : Arrs F) (d : Dev nD) (t : Fin cfg1.N) (dd) : (pdat x d).before 2 t dd = iblk x d 2 t :=
  ((pdat x d).before_in_eq_fetched 2 rfl (fun _ => rfl) (fun _ _ _ => rfl) (fun t => by rw [after_2]; unfold Dat.blockOf iblk; rw [pdat_A]; try rfl) t dd).trans
    (by unfold Dat.fetched Dat.blockOf iblk; rw [pdat_A]; try rfl)
theorem before_3 (x : Arrs F) (d : Dev nD) (t : Fin cfg1.N) (dd) : (pdat x d).before 3 t dd = iblk x d 3 t :=
  ((pdat x d).before_in_eq_fetched 3 rfl (fun _ => rfl) (fun _ _ _ => rfl) (fun t => by rw [after_3]; unfold Dat.blockOf iblk; rw [pdat_A]; try rfl) t dd).trans
    (by unfold Dat.fetched Dat.blockOf iblk; rw [pdat_A]; try rfl)
theorem before_4 (x : Arrs F) (d : Dev nD) (t : Fin cfg1.N) (dd) : (pdat x d).before 4 t dd = iblk x d 4 t :=
  ((pdat x d).before_in_eq_fetched 4 rfl (fun _ => rfl) (fun _ _ _ => rfl) (fun t => by rw [after_4]; unfold Dat.blockOf iblk; rw [pdat_A]; try rfl) t dd).trans
    (by unfold Dat.fetched Dat.blockOf iblk; rw [pdat_A]; try rfl)
theorem before_5 (x : Arrs F) (d : Dev nD) (t : Fin cfg1.N) (dd) : (pdat x d).before 5 t dd = iblk x d 5 t :=
  ((pdat x d).before_in_eq_fetched 5 rfl (fun _ => rfl) (fun _ _ _ => rfl) (fun t => by rw [after_5]; unfold Dat.blockOf iblk; rw [pdat_A]; try rfl) t dd).trans
    (by unfold Dat.fetched Dat.blockOf iblk; rw [pdat_A]; try rfl)
theorem before_6 (x : Arrs F) (d : Dev nD) (t : Fin cfg1.N) (dd) : (pdat x d).before 6 t dd = iblk x d 6 t :=
  ((pdat x d).before_in_eq_fetched 6 rfl (fun _ => rfl) (fun _ _ _ => rfl) (fun t => by rw [after_6]; unfold Dat.blockOf iblk; rw [pdat_A]; try rfl) t dd).trans
    (by unfold Dat.fetched Dat.blockOf iblk; rw [pdat_A]; try rfl)
theorem before_7 (x : Arrs F) (d : Dev nD) (t : Fin cfg1.N) (dd) : (pdat x d).before 7 t dd = iblk x d 7 t :=
  ((pdat x d).before_in_eq_fetched 7 rfl (fun _ => rfl) (fun _ _ _ => rfl) (fun t => by rw [after_7]; unfold Dat.blockOf iblk; rw [pdat_A]; try rfl) t dd).trans
    (by unfold Dat.fetched Dat.blockOf iblk; rw [pdat_A]; try rfl)
theorem before_8 (x : Arrs F) (d : Dev nD) (t : Fin cfg1.N) (dd) : (pdat x d).before 8 t dd = iblk x d 8 t :=
  ((pdat x d).before_in_eq_fetched 8 rfl (fun _ => rfl) (fun _ _ _ => rfl) (fun t => by rw [after_8]; unfold Dat.blockOf iblk; rw [pdat_A]; try rfl) t dd).trans
    (by unfold Dat.fetched Dat.blockOf iblk; rw [pdat_A]; try rfl)

/-! ## The body obligation, at a generic point -/

/-- What the body is called with at point `t`, the windows one by one, -/
def bodyPre (x : Arrs F) (d : Dev nD) (t : Fin cfg1.N) : sProp 𝕄 :=
  iprop((pdat x d).Φ t.castSucc ∗ (pdat x d).owesAt none t.castSucc
    ∗ (∃ dd, owns (d : Thread nD τ) (st1_0 t) fullShare ((pdat x d).before 0 t dd))
    ∗ (∃ dd, owns (d : Thread nD τ) (st1_1 t) fullShare ((pdat x d).before 1 t dd))
    ∗ (∃ dd, owns (d : Thread nD τ) (st1_2 t) fullShare ((pdat x d).before 2 t dd))
    ∗ (∃ dd, owns (d : Thread nD τ) (st1_3 t) fullShare ((pdat x d).before 3 t dd))
    ∗ (∃ dd, owns (d : Thread nD τ) (st1_4 t) fullShare ((pdat x d).before 4 t dd))
    ∗ (∃ dd, owns (d : Thread nD τ) (st1_5 t) fullShare ((pdat x d).before 5 t dd))
    ∗ (∃ dd, owns (d : Thread nD τ) (st1_6 t) fullShare ((pdat x d).before 6 t dd))
    ∗ (∃ dd, owns (d : Thread nD τ) (st1_7 t) fullShare ((pdat x d).before 7 t dd))
    ∗ (∃ dd, owns (d : Thread nD τ) (st1_8 t) fullShare ((pdat x d).before 8 t dd))
    ∗ (∃ dd, owns (d : Thread nD τ) (st1_9 t) fullShare ((pdat x d).before 9 t dd)))

/-- and what it returns. -/
def bodyPost (x : Arrs F) (d : Dev nD) (t : Fin cfg1.N) : sProp 𝕄 :=
  iprop((pdat x d).Φ t.succ ∗ (pdat x d).owesAt none t.succ
    ∗ owns (d : Thread nD τ) (st1_0 t) fullShare ((pdat x d).after 0 t)
    ∗ owns (d : Thread nD τ) (st1_1 t) fullShare ((pdat x d).after 1 t)
    ∗ owns (d : Thread nD τ) (st1_2 t) fullShare ((pdat x d).after 2 t)
    ∗ owns (d : Thread nD τ) (st1_3 t) fullShare ((pdat x d).after 3 t)
    ∗ owns (d : Thread nD τ) (st1_4 t) fullShare ((pdat x d).after 4 t)
    ∗ owns (d : Thread nD τ) (st1_5 t) fullShare ((pdat x d).after 5 t)
    ∗ owns (d : Thread nD τ) (st1_6 t) fullShare ((pdat x d).after 6 t)
    ∗ owns (d : Thread nD τ) (st1_7 t) fullShare ((pdat x d).after 7 t)
    ∗ owns (d : Thread nD τ) (st1_8 t) fullShare ((pdat x d).after 8 t)
    ∗ owns (d : Thread nD τ) (st1_9 t) fullShare ((pdat x d).after 9 t))

set_option maxHeartbeats 1000000 in
/-- The body at any point: the inputs' memrefs hold their blocks, so `sound_kernel` applies; the core's `owes` passes
    through unread. -/
theorem sound_body (x : Arrs F) (d : Dev nD) (t : Fin cfg1.N) :
    bodyPre x d t ⊢ wp frame (wpE (defs₀ (F := F)) Variants.none d none) Set.univ (bodyAt1 t) (fun _ => bodyPost x d t) := by
  unfold bodyPre bodyPost bodyAt1
  simp only [before_0, before_1, before_2, before_3, before_4, before_5, before_6, before_7, before_8]
  rw [show (pdat x d).Φ t.succ = (pdat x d).Φ t.castSucc from rfl,
    show (pdat x d).owesAt none t.succ = (pdat x d).owesAt none t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel d Set.univ (grid1.coords t) _ _ _ _ _ _ _ _ _ _ _ _ _ _ _ _ _ _ _ _ (iblk x d 0 t) (iblk x d 1 t) (iblk x d 2 t) (iblk x d 3 t) (iblk x d 4 t) (iblk x d 5 t) (iblk x d 6 t) (iblk x d 7 t) (iblk x d 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (x : Arrs F) (d : Dev nD) : BodyObligation (pdat x d) (defs₀ (F := F)) Variants.none none Set.univ := fun t => by
  rw [bigSep_W1, bigSep_W1]
  exact sound_body x d t

end Cert.Proof.KI

end
-- ==== Proof.RegionValue.lean ====
/-
  The dense layers' result on the whole batch: what the write-backs of the eight grid points leave in the result array.

  Point `t` writes back rows `2048·t … 2048·t + 2047` of the result: the body's value on block `t` of the two
  gathered matrices and the whole weight arrays.  The eight blocks tile the array, so it ends holding, at row `r`, the
  body's value on block `r / 2048` at row `r % 2048`.
-/
import proofs.«212205_g31413390803091_cont_8to1_b_1662_24_alg».proof.Proof.RegionBody
import Idealize.ShloMosaic.Lib.Pipeline.Value

set_option maxRecDepth 16384

noncomputable section

namespace Cert.Proof.KI

open Cert.KernelIdeal Cert.KernelIdeal.Gen
open Idealize.ShloMosaic Idealize.ShloMosaic.TcCoe
open Idealize.ShloMosaic.SparseCore.Cfg (HIx)
open Idealize.ShloMosaic.Pipeline (Dat Cfg Window)
open Idealize.ShloMosaic.ValueIdx

variable {F : FTy → Type} [FloatOps F]

/-- A grid point as a block number. -/
def blkNo (t : Fin cfg1.N) : Fin 8 := ⟨t.val, Nat.lt_of_lt_of_eq t.isLt N_1⟩

/-- The printed index maps, decided over the grid: the two gathered matrices' and the result's blocks move with the
    point along the rows; every weight array is one block. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

/-! ## The input blocks -/

/-- Block `t` of the first gathered matrix is its rows `2048·t … 2048·t + 2047`. -/
theorem iblk0_eq (x : Arrs F) (d : Dev nD) (t : Fin cfg1.N) : iblk x d 0 t = rowsBlk (blkNo t) x.u := by
  obtain ⟨e0, e1, -⟩ := idx_facts t
  funext y
  show x.u (((cfg1.win 0).blk t).view.emb y) = x.u _
  refine congrArg x.u ?_
  funext a; apply Fin.ext
  match a with
  | ⟨0, _⟩ => show win1_0.index t (0 : Fin 2) * 2048 + 1 * (y 0).val = 2048 * t.val + (y 0).val; omega
  | ⟨1, _⟩ => show win1_0.index t (1 : Fin 2) * 16 + 1 * (y 1).val = (y 1).val; omega

/-- Block `t` of the second gathered matrix likewise. -/
theorem iblk1_eq (x : Arrs F) (d : Dev nD) (t : Fin cfg1.N) : iblk x d 1 t = rowsBlk (blkNo t) x.i := by
  obtain ⟨-, -, e0, e1, -⟩ := idx_facts t
  funext y
  show x.i (((cfg1.win 1).blk t).view.emb y) = x.i _
  refine congrArg x.i ?_
  funext a; apply Fin.ext
  match a with
  | ⟨0, _⟩ => show win1_1.index t (0 : Fin 2) * 2048 + 1 * (y 0).val = 2048 * t.val + (y 0).val; omega
  | ⟨1, _⟩ => show win1_1.index t (1 : Fin 2) * 16 + 1 * (y 1).val = (y 1).val; omega

/-- Every weight array's block, at every point, is the whole array. -/
theorem iblk2_eq (x : Arrs F) (d : Dev nD) (t : Fin cfg1.N) : iblk x d 2 t = x.w1u := by
  obtain ⟨-, -, -, -, e0, e1, -⟩ := idx_facts t
  funext y
  show x.w1u (((cfg1.win 2).blk t).view.emb y) = x.w1u y
  refine congrArg x.w1u ?_
  funext a; apply Fin.ext
  match a with
  | ⟨0, _⟩ => show win1_2.index t (0 : Fin 2) * 16 + 1 * (y 0).val = (y 0).val; omega
  | ⟨1, _⟩ => show win1_2.index t (1 : Fin 2) * 64 + 1 * (y 1).val = (y 1).val; omega
theorem iblk3_eq (x : Arrs F) (d : Dev nD) (t : Fin cfg1.N) : iblk x d 3 t = x.w1i := by
  obtain ⟨-, -, -, -, -, -, e0, e1, -⟩ := idx_facts t
  funext y
  show x.w1i (((cfg1.win 3).blk t).view.emb y) = x.w1i y
  refine congrArg x.w1i ?_
  funext a; apply Fin.ext
  match a with
  | ⟨0, _⟩ => show win1_3.index t (0 : Fin 2) * 16 + 1 * (y 0).val = (y 0).val; omega
  | ⟨1, _⟩ => show win1_3.index t (1 : Fin 2) * 64 + 1 * (y 1).val = (y 1).val; omega
theorem iblk4_eq (x : Arrs F) (d : Dev nD) (t : Fin cfg1.N) : iblk x d 4 t = x.b1 := by
  obtain ⟨-, -, -, -, -, -, -, -, e0, e1, -⟩ := idx_facts t
  funext y
  show x.b1 (((cfg1.win 4).blk t).view.emb y) = x.b1 y
  refine congrArg x.b1 ?_
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega
theorem iblk5_eq (x : Arrs F) (d : Dev nD) (t : Fin cfg1.N) : iblk x d 5 t = x.w2 := by
  obtain ⟨-, -, -, -, -, -, -, -, -, -, e0, e1, -⟩ := idx_facts t
  funext y
  show x.w2 (((cfg1.win 5).blk t).view.emb y) = x.w2 y
  refine congrArg x.w2 ?_
  funext a; apply Fin.ext
  match a with
  | ⟨0, _⟩ => show win1_5.index t (0 : Fin 2) * 64 + 1 * (y 0).val = (y 0).val; omega
  | ⟨1, _⟩ => show win1_5.index t (1 : Fin 2) * 32 + 1 * (y 1).val = (y 1).val; omega
theorem iblk6_eq (x : Arrs F) (d : Dev nD) (t : Fin cfg1.N) : iblk x d 6 t = x.b2 := by
  obtain ⟨-, -, -, -, -, -, -, -, -, -, -, -, e0, e1, -⟩ := idx_facts t
  funext y
  show x.b2 (((cfg1.win 6).blk t).view.emb y) = x.b2 y
  refine congrArg x.b2 ?_
  funext a; apply Fin.ext
  match a with
  | ⟨0, _⟩ => show win1_6.index t (0 : Fin 2) * 1 + 1 * (y 0).val = (y 0).val; omega
  | ⟨1, _⟩ => show win1_6.index t (1 : Fin 2) * 32 + 1 * (y 1).val = (y 1).val; omega
theorem iblk7_eq (x : Arrs F) (d : Dev nD) (t : Fin cfg1.N) : iblk x d 7 t = x.w3 := by
  obtain ⟨-, -, -, -, -, -, -, -, -, -, -, -, -, -, e0, e1, -⟩ := idx_facts t
  funext y
  show x.w3 (((cfg1.win 7).blk t).view.emb y) = x.w3 y
  refine congrArg x.w3 ?_
  funext a; apply Fin.ext
  match a with
  | ⟨0, _⟩ => show win1_7.index t (0 : Fin 2) * 32 + 1 * (y 0).val = (y 0).val; omega
  | ⟨1, _⟩ => show win1_7.index t (1 : Fin 2) * 1 + 1 * (y 1).val = (y 1).val; omega
theorem iblk8_eq (x : Arrs F) (d : Dev nD) (t : Fin cfg1.N) : iblk x d 8 t = x.b3 := by
  obtain ⟨-, -, -, -, -, -, -, -, -, -, -, -, -, -, -, -, e0, e1, -⟩ := idx_facts t
  funext y
  show x.b3 (((cfg1.win 8).blk t).view.emb y) = x.b3 y
  refine congrArg x.b3 ?_
  funext a; apply Fin.ext
  match a with
  | ⟨0, _⟩ => show win1_8.index t (0 : Fin 2) * 1 + 1 * (y 0).val = (y 0).val; omega
  | ⟨1, _⟩ => show win1_8.index t (1 : Fin 2) * 1 + 1 * (y 1).val = (y 1).val; omega

/-! ## The whole-batch value at a row of a block -/

/-- The whole-batch value at row `2048·t + r` is the body's value on block `t` at row `r`. -/
theorem mlpAll_at (u i : FVec F S16384x16 .f32) (w1u w1i : FVec F S16x64 .f32) (b1 : FVec F S1x64 .f32) (w2 : FVec F S64x32 .f32)
    (b2 : FVec F S1x32 .f32) (w3 : FVec F S32x1 .f32) (b3 : FVec F S1x1 .f32) (t : Fin 8) (y : S2048x1.Idx) (j : S16384x1.Idx)
    (h0 : (j 0).val = 2048 * t.val + (y 0).val) (h1 : (j 1).val = (y 1).val) :
    mlpAll u i w1u w1i b1 w2 b2 w3 b3 j = k1_pay1 (rowsBlk t u) w1u (rowsBlk t i) w1i b1 w2 b2 w3 b3 y := by
  have hy0 : (y 0).val < 2048 := (y 0).isLt
  have hy1 : (y 1).val < 1 := (y 1).isLt
  have hj0 : (j 0).val < 16384 := (j 0).isLt
  have ht : (⟨(j 0).val / 2048, by omega⟩ : Fin 8) = t := Fin.ext (by show (j 0).val / 2048 = t.val; omega)
  have hy : ix2 (⟨(j 0).val % 2048, Nat.mod_lt _ (by decide)⟩ : Fin 2048) (⟨(j 1).val, (j 1).isLt⟩ : Fin 1) = y := by
    funext a; apply Fin.ext
    match a with
    | ⟨0, _⟩ => show (j 0).val % 2048 = (y 0).val; omega
    | ⟨1, _⟩ => show (j 1).val = (y 1).val; omega
  unfold mlpAll
  rw [ht, hy]

/-! ## From the blocks to the array -/

/-- What point `t` writes back is block `t` of the whole-batch value. -/
theorem flushed9_eq (x : Arrs F) (d : Dev nD) (t : Fin cfg1.N) :
    (pdat x d).flushed 9 t = ((cfg1.win 9).blk t).view.read (Elt F) (mlpAll x.u x.i x.w1u x.w1i x.b1 x.w2 x.b2 x.w3 x.b3) := by
  show (cfg1.win 9).cut (grid1.coords t) ((pdat x d).after 9 t) = _
  rw [after_9, outBlk_eq, iblk0_eq, iblk1_eq, iblk2_eq, iblk3_eq, iblk4_eq, iblk5_eq, iblk6_eq, iblk7_eq, iblk8_eq]
  have hf := idx_facts t
  have e0 : win1_9.index t (0 : Fin 2) = t.val := hf.2.2.2.2.2.2.2.2.2.2.2.2.2.2.2.2.2.2.1
  have e1 : win1_9.index t (1 : Fin 2) = 0 := hf.2.2.2.2.2.2.2.2.2.2.2.2.2.2.2.2.2.2.2
  funext y
  show k1_pay1 (rowsBlk (blkNo t) x.u) x.w1u (rowsBlk (blkNo t) x.i) x.w1i x.b1 x.w2 x.b2 x.w3 x.b3 y
    = mlpAll x.u x.i x.w1u x.w1i x.b1 x.w2 x.b2 x.w3 x.b3 (((cfg1.win 9).blk t).view.emb y)
  refine (mlpAll_at x.u x.i x.w1u x.w1i x.b1 x.w2 x.b2 x.w3 x.b3 (blkNo t) y _ ?_ ?_).symm
  · show win1_9.index t (0 : Fin 2) * 2048 + 1 * (y 0).val = 2048 * t.val + (y 0).val; omega
  · show win1_9.index t (1 : Fin 2) * 1 + 1 * (y 1).val = (y 1).val; omega

/-- An index of the result array is in point `t`'s block iff each coordinate is in the block's range on its axis. -/
theorem mem_blk9 (t : Fin cfg1.N) (i : S16384x1.Idx) :
    i ∈ ((cfg1.win 9).blk t).view.set ↔ ∀ a : Fin 2, win1_9.index t a * S2048x1.size a ≤ (i a).val ∧ (i a).val < win1_9.index t a * S2048x1.size a + S2048x1.size a := by
  show i ∈ ((View.whole main_v11).slice (win1_9.rect t)).set ↔ _
  rw [View.set_slice_whole, Rect.mem_set_unit]
  exact Iff.rfl

/-- The eight blocks tile the result array: row `r` is in block `r / 2048`. -/
theorem cover9 (i : S16384x1.Idx) : ∃ t : Fin cfg1.N, (cfg1.win 9).flush t = true ∧ i ∈ ((cfg1.win 9).blk t).view.set := by
  have hi0 : (i 0).val < 16384 := (i 0).isLt
  have hi1 : (i 1).val < 1 := (i 1).isLt
  let t : Fin cfg1.N := ⟨(i 0).val / 2048, by show (i 0).val / 2048 < grid1.N; rw [N_1]; omega⟩
  have hf := idx_facts t
  have e0 : win1_9.index t (0 : Fin 2) = (i 0).val / 2048 := hf.2.2.2.2.2.2.2.2.2.2.2.2.2.2.2.2.2.2.1
  have e1 : win1_9.index t (1 : Fin 2) = 0 := hf.2.2.2.2.2.2.2.2.2.2.2.2.2.2.2.2.2.2.2
  refine ⟨t, flush1_9 t, ?_⟩
  rw [mem_blk9]
  intro a
  match a with
  | ⟨0, _⟩ => show win1_9.index t (0 : Fin 2) * 2048 ≤ (i 0).val ∧ (i 0).val < win1_9.index t (0 : Fin 2) * 2048 + 2048; omega
  | ⟨1, _⟩ => show win1_9.index t (1 : Fin 2) * 1 ≤ (i 1).val ∧ (i 1).val < win1_9.index t (1 : Fin 2) * 1 + 1; omega

/-- THE RESULT ARRAY after the region: the dense layers' value on the whole batch. -/
theorem final_result (x : Arrs F) (d : Dev nD) :
    (pdat x d).arrAt 9 cfg1.N = mlpAll x.u x.i x.w1u x.w1i x.b1 x.w2 x.b2 x.w3 x.b3 :=
  (pdat x d).arrAt_eq_of_cover 9 (mlpAll x.u x.i x.w1u x.w1i x.b1 x.w2 x.b2 x.w3 x.b3) (fun t _ => flushed9_eq x d t) cover9

end Cert.Proof.KI

end
-- ==== Proof.Region.lean ====
/-
  The dense layers' kernel region inside the TensorCore's thread of the SparseCore program: from the thread's state
  after the SparseCore call, the region boundary, the staging cells' ghost state and the ten arrays, the call of the
  pipeline's entry runs to the same with the result array at the dense layers' value on the whole batch.

  The region is a segment of the pipeline library's launch by segments (its entry's precondition is assembled there); the thread owes
  nothing after its only SparseCore call, and the pairs its waits have recorded stay within the handshakes' first
  band, where the pipeline's own waits (index `none`, level 0) also sit.
-/
import proofs.«212205_g31413390803091_cont_8to1_b_1662_24_alg».proof.Proof.RegionBody
import proofs.«212205_g31413390803091_cont_8to1_b_1662_24_alg».proof.Proof.RegionGhost
import proofs.«212205_g31413390803091_cont_8to1_b_1662_24_alg».proof.Proof.RegionValue
import proofs.«212205_g31413390803091_cont_8to1_b_1662_24_alg».proof.Proof.Iface

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What the thread owes, and the arrays -/

/-- After its only SparseCore call the TensorCore owes nothing. -/
theorem Otc_one (d : Dev nD) : (K (F := F)).Otc d 1 = 0 := by
  unfold SparseCore.Cfg.Otc
  exact Finset.sum_eq_zero fun q _ => if_neg (by have := q.isLt; omega)

/-- The thread's `owes` after the call: nothing owed, the recorded pairs within the first band. -/
def owesPart (d : Dev nD) : sProp 𝕄 :=
  iprop(∃ W, ⌜(K (F := F)).WBelow (SparseCore.T d) W (8 * 1)⌝ ∗ owes (SparseCore.T d) (0 : CellTallies nD τ sig (HIx 1)) W)

/-- The ten arrays of the region, whole at the full share: the nine inputs at `y`'s contents, the result's at `o`. -/
def tenArrsO (y : Arrs F) (o : FVec F S16384x1 .f32) (d : Dev nD) : sProp 𝕄 :=
  iprop(((SparseCore.T d).loc main_v5_0 ↦{fullShare} y.u)
    ∗ ((SparseCore.T d).loc main_v5_1 ↦{fullShare} y.i)
    ∗ ((SparseCore.T d).loc main_v6 ↦{fullShare} y.w1u)
    ∗ ((SparseCore.T d).loc main_v7 ↦{fullShare} y.w1i)
    ∗ ((SparseCore.T d).loc main_v8 ↦{fullShare} y.b1)
    ∗ ((SparseCore.T d).loc main_arg6 ↦{fullShare} y.w2)
    ∗ ((SparseCore.T d).loc main_v9 ↦{fullShare} y.b2)
    ∗ ((SparseCore.T d).loc main_arg8 ↦{fullShare} y.w3)
    ∗ ((SparseCore.T d).loc main_v10 ↦{fullShare} y.b3)
    ∗ ((SparseCore.T d).loc main_v11 ↦{fullShare} o))

/-- The result array's contents when the region ends: as the write-backs left it. -/
abbrev oEnd (x : Arrs F) (d : Dev nD) : FVec F S16384x1 .f32 := (pdat x d).arrAt 9 (Pipeline.pin (pcfgs (F := F)) adm 0).N

theorem oEnd_eq (x : Arrs F) (d : Dev nD) : oEnd x d = mlpAll x.u x.i x.w1u x.w1i x.b1 x.w2 x.b2 x.w3 x.b3 := final_result x d

/-- The pipeline's proof data, per pipeline (there is one) and device. -/
abbrev pdats (x : Arrs F) : (p : Fin 1) → (c : Dev nD) → Dat τ (Elt F) (HIx 1) ℕ UU ℕ (Pipeline.pin (pcfgs (F := F)) adm p) c :=
  fun _ c => pdat x c

/-- An input array is never written back. -/
theorem arrAt_N0 (x : Arrs F) (d : Dev nD) (n : Nat) : (pdat x d).arrAt 0 n = x.u := ((pdat x d).arrAt_in 0 rfl n).trans rfl
theorem arrAt_N1 (x : Arrs F) (d : Dev nD) (n : Nat) : (pdat x d).arrAt 1 n = x.i := ((pdat x d).arrAt_in 1 rfl n).trans rfl
theorem arrAt_N2 (x : Arrs F) (d : Dev nD) (n : Nat) : (pdat x d).arrAt 2 n = x.w1u := ((pdat x d).arrAt_in 2 rfl n).trans rfl
theorem arrAt_N3 (x : Arrs F) (d : Dev nD) (n : Nat) : (pdat x d).arrAt 3 n = x.w1i := ((pdat x d).arrAt_in 3 rfl n).trans rfl
theorem arrAt_N4 (x : Arrs F) (d : Dev nD) (n : Nat) : (pdat x d).arrAt 4 n = x.b1 := ((pdat x d).arrAt_in 4 rfl n).trans rfl
theorem arrAt_N5 (x : Arrs F) (d : Dev nD) (n : Nat) : (pdat x d).arrAt 5 n = x.w2 := ((pdat x d).arrAt_in 5 rfl n).trans rfl
theorem arrAt_N6 (x : Arrs F) (d : Dev nD) (n : Nat) : (pdat x d).arrAt 6 n = x.b2 := ((pdat x d).arrAt_in 6 rfl n).trans rfl
theorem arrAt_N7 (x : Arrs F) (d : Dev nD) (n : Nat) : (pdat x d).arrAt 7 n = x.w3 := ((pdat x d).arrAt_in 7 rfl n).trans rfl
theorem arrAt_N8 (x : Arrs F) (d : Dev nD) (n : Nat) : (pdat x d).arrAt 8 n = x.b3 := ((pdat x d).arrAt_in 8 rfl n).trans rfl

theorem prefHeld_emp (c : Dev nD) (q) (pf) :
    (Pipeline.prefHeld (Ix := HIx 1) (Name := ℕ) (U := UU) (Lvl := ℕ) (Val := Elt F) (pcfgs (F := F) 0).pre c q pf : sProp 𝕄) = BI.emp := by
  unfold Pipeline.prefHeld
  show bigSep (Finset.univ : Finset (Fin 0)) _ = _
  rw [Finset.univ_eq_empty, BI.bigSep_empty]

theorem scopedRest_emp (c : Dev nD) :
    (Pipeline.scopedRest (Ix := HIx 1) (Name := ℕ) (U := UU) (Lvl := ℕ) (Val := Elt F) (Pipeline.pin (pcfgs (F := F)) adm 0).spec c : sProp 𝕄) = BI.emp :=
  Gen.scopedRest1_eq c

/-- The pipeline's arrays at entry are the ten arrays. -/
theorem arrays_entry (x : Arrs F) (c : Dev nD) :
    ((pdats x 0 c).arrays ((pdats x 0 c).arrAt · 0) : sProp 𝕄) = tenArrsO x x.o c := by
  rw [Pipeline.arrays_eq (Pipeline.pin (pcfgs (F := F)) adm) (pdats x) 0 c Gen.arr_whole1 ((pdat x c).share_full fun _ => rfl), bigSep_W1]
  rfl

/-- The pipeline's arrays at exit are the ten arrays, the result's as the write-backs left it. -/
theorem arrays_exit (x : Arrs F) (c : Dev nD) :
    ((pdats x 0 c).arrays ((pdats x 0 c).arrAt · (Pipeline.pin (pcfgs (F := F)) adm 0).N) : sProp 𝕄) = tenArrsO x (oEnd x c) c := by
  rw [Pipeline.arrays_eq (Pipeline.pin (pcfgs (F := F)) adm) (pdats x) 0 c Gen.arr_whole1 ((pdat x c).share_full fun _ => rfl), bigSep_W1]
  beta_reduce
  rw [arrAt_N0, arrAt_N1, arrAt_N2, arrAt_N3, arrAt_N4, arrAt_N5, arrAt_N6, arrAt_N7, arrAt_N8]
  rfl

/-! ## The region as a segment -/

/-- The region: entered from the thread's `owes` and the ten arrays, it leaves the same with the result array as the
    write-backs left it. Nothing enters the body's invariant, nothing bypasses the region. -/
def reg (x : Arrs F) : Pipeline.RegionSeg (pcfgs (F := F)) adm (pdats x) none defs₀ 𝒱₀ (K (F := F)).L (K (F := F)).lev 0 where
  win := Gen.winFacts1.to₀
  block_pos := Gen.block_pos1
  stage_whole := Gen.stage_whole1
  K := PEmpty
  osem k := k.elim
  ho := Pipeline.OwnSemFacts.none _
  hbody c := (body_obligation x c).loose
  hwaits := Pipeline.hwaits_of_owed_zero _ _ _ _ _ _ 0 fun _ _ => rfl
  pre d := iprop(owesPart d ∗ tenArrsO x x.o d)
  post d := iprop(owesPart d ∗ tenArrsO x (oEnd x d) d)
  X _ := iprop(emp)
  Y _ := iprop(emp)
  Z _ := iprop(emp)
  hentry c := by
    rw [Pipeline.ownSems0_none, prefHeld_emp, arrays_entry]
    unfold owesPart
    iintro ⟨⟨⟨%W, %hW, HO⟩, Ha⟩, -, -⟩
    imodintro
    isplitl [Ha]; · iexact Ha
    isplitr; · iempintro
    isplitl [HO]
    · iexists W; isplitr
      · ipureintro; exact fun p hp => Or.inl (hW p hp)
      iexact HO
    isplitr <;> iempintro
  hin c := by
    iintro -; iempintro
  hout c := by
    rw [Pipeline.ownSems0_none, scopedRest_emp]
    iintro -
    isplitr; · iempintro
    isplitr <;> iempintro
  hexit c := by
    rw [arrays_exit]
    unfold owesPart
    iintro ⟨Ha, ⟨%W, %hW, HO⟩, -, -⟩
    imodintro
    isplitl [HO]
    · iexists W; isplitr
      · ipureintro
        intro p hp
        rcases hW hp with h | ⟨w, s, rfl⟩
        · exact h
        · exact Nat.zero_le _
      iexact HO
    iexact Ha

/-! ## The call -/

set_option backward.isDefEq.respectTransparency.types false in
/-- The region's call in the TensorCore program of the pipeline's labels. -/
theorem region_seg_wp (x : Arrs F) (d : Dev nD) (Φ : PUnit → sProp 𝕄) :
    iprop((iprop(boundary (SparseCore.T d) ∗ owesPart d ∗ tenArrsO x (oEnd x d) d)
            -∗ wp frame (wpE (D (F := F)) 𝒱 (SparseCore.T d) none) Set.univ (.ret ⟨⟩) Φ)
        ∗ boundary (SparseCore.T d) ∗ (owesPart d ∗ tenArrsO x x.o d) ∗ levAts (K (F := F)).L (K (F := F)).lev
        ∗ Pipeline.cellsGhost cfgs (EP : Emb UP 𝕄) 0 d ∗ Pipeline.toksInit cfgs (EP : Emb UP 𝕄) 0 d)
      ⊢ wp frame (wpE (D (F := F)) 𝒱 (SparseCore.T d) none) Set.univ (.op (.customCall (Pipeline.entry (0 : Fin 1)) ()) .ret) Φ :=
  Pipeline.RegionSeg.wp (pcfgs (F := F)) adm (pdats x) none Gen.cellOf_inj (EP : Emb UP 𝕄) defs₀ 𝒱₀
    (K (F := F)).L (K (F := F)).lev (reg x) d none (fun _ h => nomatch h) .ret Φ

set_option maxHeartbeats 1000000 in
/-- The TensorCore's kernel region, in the TensorCore's thread of the SparseCore program. -/
theorem region_wp : RegionWp (F := F) := by
  intro d u i w1u w1i b1 w2 b2 w3 b3 Φ
  unfold SparseCore.Cfg.tcSt
  rw [Otc_one]
  iintro ⟨#Hlev, ⟨HO, Hrest⟩, Hb, Hg, H0, H1, H2, H3, H4, H5, H6, H7, H8, ⟨%f, H9⟩, Hk⟩
  iapply ((K (F := F)).wp_liftProg (D (F := F)) 𝒱 (SparseCore.T d) Set.univ none
    (.op (.customCall (Pipeline.entry (0 : Fin 1)) ()) .ret) Φ)
  unfold RegionGhost
  icases Hg with ⟨Hcg, Htk⟩
  iapply (region_seg_wp (⟨u, i, w1u, w1i, b1, w2, b2, w3, b3, f⟩ : Arrs F) d Φ)
  unfold tenArrsO owesPart
  isplitl [Hk Hrest]
  · iintro ⟨Hb, HO, H0, H1, H2, H3, H4, H5, H6, H7, H8, H9⟩
    rw [wp_ret]
    imodintro
    iapply Hk
    isplitl [HO Hrest]
    · isplitl [HO] <;> iassumption
    isplitl [Hb]; · iexact Hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [← oEnd_eq (⟨u, i, w1u, w1i, b1, w2, b2, w3, b3, f⟩ : Arrs F) d]
    iexact H9
  isplitl [Hb]; · iexact Hb
  isplitl [HO H0 H1 H2 H3 H4 H5 H6 H7 H8 H9]
  · isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitr; · iexact Hlev
  isplitl [Hcg] <;> iassumption

end Cert.Proof.KI

end
-- ==== Proof.LibBlockRead.lean ====
/-
  Vector operations of a rank-two block read at an index written by its two coordinates, at any extents.

  * a column `[a, 1]` broadcast along the rows to `[a, b]` reads, at `(p, c)`, the column at `p`;
  * a vector `[a]` cast to a column `[a, 1]` reads, at `(p, 0)`, the vector at `p`;
  * the sum of a `[a, b]` block along its second axis is, at row `p`, the sum over `k` of the block at `(p, k)`;
  * a matrix product `[m, k] · [k, n]` into a zero accumulator is, at `(p, c)`, the sum over `t` of the left factor
    at `(p, t)` times the right factor at `(t, c)` — given where the dimension numbers send an output index and a
    contraction index (four coordinate facts, each one line at a literal record).
-/
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.Sage.BlockRead

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[a]` cast to a column `[a, 1]` reads, at `(p, u)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The sum of a `[a, b]` block along its second axis, at row `p`: the sum over `k` of the block at `(p, k)`. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A product of a `[m, k]` block with a `[k, n]` block into a zero accumulator, at `(p, c)`. -/
theorem matmul_apply2 {m k n : ℕ} {φ₁ φ₂ : FTy} (D : DotDims ⟨2, ![m, k]⟩ ⟨2, ![k, n]⟩ ⟨2, ![m, n]⟩)
    (prec : Option ContractPrecision) (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (lhs : FVec Ideal ⟨2, ![m, k]⟩ φ₁) (rhs : FVec Ideal ⟨2, ![k, n]⟩ φ₂) (p : Fin m) (c : Fin n) :
    FloatOps.matmul D prec lhs rhs (constant ⟨2, ![m, n]⟩ .f32 0x00000000#32) (ix2 p c)
      = ∑ t : Fin k, lhs (ix2 p t) * rhs (ix2 t c) := by
  rw [Ideal.matmul_constant_zero_apply, ← Equiv.sum_comp (contrEquiv1 D k hr hs).symm]
  refine Finset.sum_congr rfl fun t _ => ?_
  have hk := contrEquiv1_symm_val D k hr hs t
  have el : D.lhsIdx (ix2 p c) ((contrEquiv1 D k hr hs).symm t) = ix2 p t := funext fun ax => Fin.ext (by
    match ax with
    | ⟨0, _⟩ => exact hl0 _ _
    | ⟨1, _⟩ => exact (hl1 _ _).trans hk)
  have er : D.rhsIdx (ix2 p c) ((contrEquiv1 D k hr hs).symm t) = ix2 t c := funext fun ax => Fin.ext (by
    match ax with
    | ⟨0, _⟩ => exact (hr0 _ _).trans hk
    | ⟨1, _⟩ => exact hr1 _ _)
  rw [el, er]

end Cert.Sage.BlockRead

end
-- ==== Proof.KValue.lean ====
/-
  The kernel program's result at an index, on the extended reals.

  The TensorCore kernel's body is three matrix products into zero accumulators, each followed by a bias row broadcast
  down the block (and, after the first two, a maximum with zero), and the logistic function; the first product is two
  products, of the user block and of the item block against the two halves of the first layer's weights, added.
  Read at row `p` of a block it is the score of that row (`Spec.score`). The block of row `r` of the batch is block
  `r / 2048`, its row `r % 2048`; the reshaped column's entry `r` is the column's entry `(r, 0)`.
-/
import proofs.«212205_g31413390803091_cont_8to1_b_1662_24_alg».proof.Proof.Host
import proofs.«212205_g31413390803091_cont_8to1_b_1662_24_alg».proof.Proof.LibBlockRead
import Idealize.ShloMosaic.PureOps.Ideal.Laws

noncomputable section

open scoped BigOperators

namespace Cert.Proof.KValue

open Cert.KernelIdeal Cert.KernelIdeal.Gen Cert.Proof.KI Cert.Proof
open Idealize.ShloMosaic Idealize.ShloMosaic.ValueIdx
open Cert.Sage.BlockRead

/-! ## The three matrix products at an index -/

theorem mm1 (x : FVec Ideal S2048x16 .f32) (w : FVec Ideal S16x64 .f32) (p : Fin 2048) (a : Fin 64) :
    matmul dot_S2048x16_S16x64_S2048x64_1_0_0_1_n_n none x w (constant S2048x64 .f32 0x00000000#32) (ix2 p a)
      = ∑ e : Fin 16, x (ix2 p e) * w (ix2 e a) :=
  matmul_apply2 dot_S2048x16_S16x64_S2048x64_1_0_0_1_n_n none rfl rfl (fun _ _ => rfl)
    (fun i q => DotDims.lhsIdx_val_of_single (d := dot_S2048x16_S16x64_S2048x64_1_0_0_1_n_n) (cl := 1) rfl i q)
    (fun i q => DotDims.rhsIdx_val_of_single (d := dot_S2048x16_S16x64_S2048x64_1_0_0_1_n_n) (cr := 0) rfl i q) (fun _ _ => rfl) x w p a

theorem mm2 (x : FVec Ideal S2048x64 .f32) (w : FVec Ideal S64x32 .f32) (p : Fin 2048) (k : Fin 32) :
    matmul dot_S2048x64_S64x32_S2048x32_1_0_0_1_n_n none x w (constant S2048x32 .f32 0x00000000#32) (ix2 p k)
      = ∑ a : Fin 64, x (ix2 p a) * w (ix2 a k) :=
  matmul_apply2 dot_S2048x64_S64x32_S2048x32_1_0_0_1_n_n none rfl rfl (fun _ _ => rfl)
    (fun i q => DotDims.lhsIdx_val_of_single (d := dot_S2048x64_S64x32_S2048x32_1_0_0_1_n_n) (cl := 1) rfl i q)
    (fun i q => DotDims.rhsIdx_val_of_single (d := dot_S2048x64_S64x32_S2048x32_1_0_0_1_n_n) (cr := 0) rfl i q) (fun _ _ => rfl) x w p k

theorem mm3 (x : FVec Ideal S2048x32 .f32) (w : FVec Ideal S32x1 .f32) (p : Fin 2048) (c : Fin 1) :
    matmul dot_S2048x32_S32x1_S2048x1_1_0_0_1_n_n none x w (constant S2048x1 .f32 0x00000000#32) (ix2 p c)
      = ∑ k : Fin 32, x (ix2 p k) * w (ix2 k c) :=
  matmul_apply2 dot_S2048x32_S32x1_S2048x1_1_0_0_1_n_n none rfl rfl (fun _ _ => rfl)
    (fun i q => DotDims.lhsIdx_val_of_single (d := dot_S2048x32_S32x1_S2048x1_1_0_0_1_n_n) (cl := 1) rfl i q)
    (fun i q => DotDims.rhsIdx_val_of_single (d := dot_S2048x32_S32x1_S2048x1_1_0_0_1_n_n) (cr := 0) rfl i q) (fun _ _ => rfl) x w p c

/-- The body's value at row `p` of a block. -/
theorem pay_apply (u i : FVec Ideal S2048x16 .f32) (w1u w1i : FVec Ideal S16x64 .f32) (b1 : FVec Ideal S1x64 .f32)
    (w2 : FVec Ideal S64x32 .f32) (b2 : FVec Ideal S1x32 .f32) (w3 : FVec Ideal S32x1 .f32) (b3 : FVec Ideal S1x1 .f32) (p : Fin 2048) :
    k1_pay1 (F := Ideal) u w1u i w1i b1 w2 b2 w3 b3 (ix2 p (0 : Fin 1))
      = Ideal.logistic ((∑ k : Fin 32, max ((∑ a : Fin 64, max (((∑ e : Fin 16, u (ix2 p e) * w1u (ix2 e a))
            + (∑ e : Fin 16, i (ix2 p e) * w1i (ix2 e a))) + b1 (ix2 (0 : Fin 1) a)) 0 * w2 (ix2 a k)) + b2 (ix2 (0 : Fin 1) k)) 0
          * w3 (ix2 k (0 : Fin 1))) + b3 (ix2 (0 : Fin 1) (0 : Fin 1))) := by
  unfold k1_pay1
  show FloatOps.logistic _ = _
  rw [Ideal.logistic_def]
  simp only [addf_apply, maximumf_apply, broadcast_apply, mm1, mm2, mm3, shapeCast_self, ValueIdx.broadcastTo_1b_ab_apply,
    Scalar.ofBits, Ideal.ofBits_def, Ideal.ofBits_zero_f32]

/-! ## The tables: two transpositions undo each other -/

theorem tabOf_eq {F : FTy → Type} [FloatOps F] (x : FVec F S1000000x16 .f32) : tabOf x = x := by
  funext j
  obtain ⟨p, q, rfl⟩ : ∃ (p : Fin 1000000) (q : Fin 16), j = ix2 p q := ⟨j 0, j 1, eq_ix2 j⟩
  unfold tabOf
  rw [transpose_apply [1, 0] _ transposes_S16x1000000_S1000000x16_1_0 (ix2 p q) (ix2 q p)
      (fun b => by match b with | ⟨0, _⟩ => rfl | ⟨1, _⟩ => rfl),
    transpose_apply [1, 0] x transposes_S1000000x16_S16x1000000_1_0 (ix2 q p) (ix2 p q)
      (fun b => by match b with | ⟨0, _⟩ => rfl | ⟨1, _⟩ => rfl)]

/-! ## The whole batch -/

/-- Row `p` of block `t` is row `2048·t + p` of the batch. -/
theorem rowsBlk_apply {F : FTy → Type} {n : ℕ} (t : Fin 8) (x : FVec F ⟨2, ![16384, n]⟩ .f32) (p : Fin 2048) (e : Fin n) (r : Fin 16384)
    (h : 2048 * t.val + p.val = r.val) : rowsBlk t x (ix2 p e) = x (ix2 r e) := by
  unfold rowsBlk
  exact congrArg x (congrArg₂ ix2 (Fin.ext h) (Fin.ext rfl))

theorem w1u_apply (a4 : FVec Ideal S32x64 .f32) (e : Fin 16) (a : Fin 64) : w1uOf a4 (ix2 e a) = a4 (ix2 (Spec.lo e) a) :=
  extractStridedSlice_apply ![0, 0] a4 slices_S32x64_S16x64_0_0 (ix2 e a) (ix2 (Spec.lo e) a) fun ax => by
    match ax with
    | ⟨0, _⟩ => show e.val = 0 + e.val; omega
    | ⟨1, _⟩ => show a.val = 0 + a.val; omega
theorem w1i_apply (a4 : FVec Ideal S32x64 .f32) (e : Fin 16) (a : Fin 64) : w1iOf a4 (ix2 e a) = a4 (ix2 (Spec.hi e) a) :=
  extractStridedSlice_apply ![16, 0] a4 slices_S32x64_S16x64_16_0 (ix2 e a) (ix2 (Spec.hi e) a) fun ax => by
    match ax with
    | ⟨0, _⟩ => rfl
    | ⟨1, _⟩ => show a.val = 0 + a.val; omega

/-- The kernel program's result is the score of every row of the two gathered matrices. -/
theorem kRes_eq (f0 f1 : FVec Ideal S16384x16 .f32) (a4 : FVec Ideal S32x64 .f32) (a5 : FVec Ideal S64 .f32) (a6 : FVec Ideal S64x32 .f32)
    (a7 : FVec Ideal S32 .f32) (a8 : FVec Ideal S32x1 .f32) (a9 : FVec Ideal S1 .f32) :
    kRes (F := Ideal) f0 f1 a4 a5 a6 a7 a8 a9 = Spec.G f0 f1 a4 a5 a6 a7 a8 a9 := by
  funext j
  obtain ⟨r, rfl⟩ : ∃ r : Fin 16384, j = ix1 r := ⟨j 0, eq_ix1 j⟩
  have ht : r.val / 2048 < 8 := by have := r.isLt; omega
  have hrow : 2048 * (⟨r.val / 2048, ht⟩ : Fin 8).val + (⟨r.val % 2048, Nat.mod_lt _ (by decide)⟩ : Fin 2048).val = r.val := by
    show 2048 * (r.val / 2048) + r.val % 2048 = r.val; omega
  unfold kRes
  rw [shapeCast_apply _ shapeCasts_S16384x1_S16384 (ix1 r) (ix2 r (0 : Fin 1))
    (by rw [Shape.rowMajor_val_two, Shape.rowMajor_val_one]; show r.val * 1 + 0 = r.val; omega)]
  unfold mlpAll
  refine (pay_apply (rowsBlk ⟨r.val / 2048, ht⟩ f0) (rowsBlk ⟨r.val / 2048, ht⟩ f1) (w1uOf a4) (w1iOf a4) (b1Of a5) a6 (b2Of a7) a8 (b3Of a9)
    ⟨r.val % 2048, Nat.mod_lt _ (by decide)⟩).trans ?_
  unfold Spec.G Spec.score Spec.layer3 Spec.layer2 Spec.layer1
  simp only [Spec.rowOf_ix1, rowsBlk_apply ⟨r.val / 2048, ht⟩ _ ⟨r.val % 2048, Nat.mod_lt _ (by decide)⟩ _ r hrow, w1u_apply, w1i_apply,
    shapeCast_a_1a_apply]

end Cert.Proof.KValue

end
-- ==== Proof.PreRange.lean ====
/-
  The integer ranges the precondition states, read back as facts about the index words.

  The precondition is a conjunction, by `and`, of one "all elements satisfy …" reduction per argument.  Its last two
  conjuncts say of each of the two index vectors that every word `w`, compared as a signed 32-bit integer, has
  `0 ≤ w` and `w ≤ 999999`.  A signed word that is non-negative is its own unsigned value, so each index word, read as a
  natural number, is at most 999999: it names one of the table's 1000000 rows.  The floating-point conjuncts (every
  float argument finite) are not opened here, so the statement holds at every float instance.
-/
import proofs.«212205_g31413390803091_cont_8to1_b_1662_24_alg».proof.Pre_input_domain
import Idealize.ShloMosaic.Lib.ReduceAll
import Idealize.ShloMosaic.Lib.ValueIdx

namespace Cert.Proof.PreRange

open Idealize.ShloMosaic Idealize.ShloMosaic.ValueIdx
open Cert.Pre_input_domain

/-- The scalar shape has one index. -/
instance : Subsingleton S_.Idx := ⟨fun a b => funext fun d => d.elim0⟩

/-- A 32-bit word that is, as a signed integer, at least 0 and at most 999999 is, as a natural number, at most 999999:
    a non-negative signed word has its sign bit clear and is its own unsigned value. -/
theorem toNat_le_of_signed (w : BitVec 32) (h0 : IntOp.cmpi .sge w 0#32 = 1#1) (h1 : IntOp.cmpi .sle w 999999#32 = 1#1) :
    w.toNat ≤ 999999 := by
  rw [IntOp.cmpi_sge] at h0
  rw [IntOp.cmpi_sle] at h1
  have e0 : (0#32 : BitVec 32).toInt = 0 := by decide
  have e1 : (999999#32 : BitVec 32).toInt = 999999 := by decide
  rw [e0] at h0
  rw [e1] at h1
  have hlt := w.isLt
  rw [BitVec.toInt_eq_toNat_cond] at h0 h1
  split at h0 <;> omega

/-- The same bounds as facts about the signed value: it is the unsigned value, and lies in `[0, 999999]`. -/
theorem toInt_of_signed (w : BitVec 32) (h0 : IntOp.cmpi .sge w 0#32 = 1#1) (h1 : IntOp.cmpi .sle w 999999#32 = 1#1) :
    w.toInt = (w.toNat : Int) ∧ 0 ≤ w.toInt ∧ w.toInt ≤ 999999 := by
  rw [IntOp.cmpi_sge] at h0
  rw [IntOp.cmpi_sle] at h1
  have e0 : (0#32 : BitVec 32).toInt = 0 := by decide
  have e1 : (999999#32 : BitVec 32).toInt = 999999 := by decide
  rw [e0] at h0
  rw [e1] at h1
  have hlt := w.isLt
  refine ⟨?_, h0, h1⟩
  rw [BitVec.toInt_eq_toNat_cond] at h0 ⊢
  split at h0 <;> simp_all <;> omega

variable {F : FTy → Type} [FloatOps F] [Cert.Pre_input_domain.Facts]

/-- The precondition's last two conjuncts, word by word: both index vectors hold, at every position, a word that is
    non-negative and at most 999999 as a signed integer. -/
theorem ids_signed (a0 a1 : IVec S16384 32) (a2 a3 : FVec F S1000000x16 .f32) (a4 : FVec F S32x64 .f32)
    (a5 : FVec F S64 .f32) (a6 : FVec F S64x32 .f32) (a7 : FVec F S32 .f32) (a8 : FVec F S32x1 .f32) (a9 : FVec F S1 .f32)
    (h : Cert.Pre_input_domain.fn (F := F) a0 a1 a2 a3 a4 a5 a6 a7 a8 a9 = fun _ => 1#1) :
    (∀ j, IntOp.cmpi .sge (a0 j) 0#32 = 1#1 ∧ IntOp.cmpi .sle (a0 j) 999999#32 = 1#1)
      ∧ (∀ j, IntOp.cmpi .sge (a1 j) 0#32 = 1#1 ∧ IntOp.cmpi .sle (a1 j) 999999#32 = 1#1) := by
  have e := congrFun h ix0
  dsimp only [Cert.Pre_input_domain.fn, fn_part1, fn_part2, fn_part3] at e
  -- the outer two conjunctions: (… ∧ all over the first vector) ∧ all over the second
  obtain ⟨e', h1⟩ := IntOp.andi_eq_one.1 e
  obtain ⟨-, h0⟩ := IntOp.andi_eq_one.1 e'
  refine ⟨fun j => ?_, fun j => ?_⟩
  · exact IntOp.andi_eq_one.1 (Host.reduce_andi_all _ _ _ _ ix0 h0 j)
  · exact IntOp.andi_eq_one.1 (Host.reduce_andi_all _ _ _ _ ix0 h1 j)

/-- Every index word of either vector, read as a natural number, is at most 999999. -/
theorem ids_range (a0 a1 : IVec S16384 32) (a2 a3 : FVec F S1000000x16 .f32) (a4 : FVec F S32x64 .f32)
    (a5 : FVec F S64 .f32) (a6 : FVec F S64x32 .f32) (a7 : FVec F S32 .f32) (a8 : FVec F S32x1 .f32) (a9 : FVec F S1 .f32)
    (h : Cert.Pre_input_domain.fn (F := F) a0 a1 a2 a3 a4 a5 a6 a7 a8 a9 = fun _ => 1#1) :
    (∀ j, (a0 j).toNat ≤ 999999) ∧ (∀ j, (a1 j).toNat ≤ 999999) := by
  obtain ⟨s0, s1⟩ := ids_signed a0 a1 a2 a3 a4 a5 a6 a7 a8 a9 h
  exact ⟨fun j => toNat_le_of_signed _ (s0 j).1 (s0 j).2, fun j => toNat_le_of_signed _ (s1 j).1 (s1 j).2⟩

end Cert.Proof.PreRange
-- ==== Proof.RefRun.lean ====
/-
  The reference program's run, and its result as one pure term of the ten argument arrays.

  The reference is a program of host operations only.  Its entry function calls the row-lookup function twice (once per
  embedding table; that function itself calls a three-way select), joins the two looked-up matrices side by side, and
  applies three dense layers — a matrix product, the bias broadcast over the rows, a sum; after the first two a maximum
  with zero — and then the logistic function spelt out: negate, exponential, one plus, one over; last, the single
  column is read as a vector.  A call means the callee's operations, run over the buffers that call names, so the whole
  program is one straight line of seventy-four operations (`ops`): twenty-three per lookup, three per rectifier,
  twenty-two of the entry function's own.  Every weakly fair execution of a straight line terminates and leaves each
  buffer at the fold of the operations over the launch contents; at the result buffer that fold is `refOut` of the
  argument arrays, and at each argument buffer, which no operation writes, it is what was there.

  `refOut` is written in named pieces.  `takeIdx ids` is the index column the lookup gathers at: a negative index has
  the table's row count added (an index from the end), then the vector is read as a column.  `takeOk ids` says, row by
  row, whether that index lies in `[0, 999999]`.  `takeOut tab ids` is the gathered rows where `takeOk` holds and the
  quiet NaN word's value elsewhere.  `hid1`, `hid2` are the two rectified layers, `logit` the third layer, `sigm` the
  logistic tail and the final re-reading of the column as a vector.
-/
import proofs.«212205_g31413390803091_cont_8to1_b_1662_24_alg».proof.ReferenceIdeal
import proofs.«212205_g31413390803091_cont_8to1_b_1662_24_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as a pure term -/

/-- The column of row numbers a lookup gathers at: an index below zero (as a signed word) has 1000000 added, the
    others are kept; the vector is then read as a one-column matrix. -/
def takeIdx (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 1000000#32))) ids)

/-- Row by row: is the (adjusted) index at least 0 and at most 999999, as signed words?  The conjunction over the
    column's one entry. -/
def takeOk (ids : IVec S16384 32) : IVec S16384 1 :=
  Host.reduce IntOp.andi
    (andi (cmpi .sge (takeIdx ids) (broadcastInDim S16384x1 ![] bcast_S_S16384x1 (constantI S_ 32 0#32)))
      (cmpi .sle (takeIdx ids)
        (broadcastInDim S16384x1 ![0, 1] bcast_S1x1_S16384x1_0_1
          (broadcastInDim S1x1 ![1] bcast_S1_S1x1_1 (constantI S1 32 999999#32)))))
    (constantI S_ 1 1#1) reducesTo_S16384x1_S16384_d1 h_S_

/-- One lookup's result: the table's rows gathered at `takeIdx`, kept where `takeOk` holds; elsewhere the value of the
    quiet NaN word. -/
def takeOut (tab : FVec F S1000000x16 .f32) (ids : IVec S16384 32) : FVec F S16384x16 .f32 :=
  select (broadcastInDim S16384x16 ![0] bcast_S16384_S16384x16_0 (takeOk ids))
    (Host.gather gather_S1000000x16_S16384x1_S16384x16_1_0_n_n_0_1_116 tab (takeIdx ids))
    (broadcastInDim S16384x16 ![] bcast_S_S16384x16 (constant S_ .f32 0x7FC00000#32))

/-- The first layer, rectified: the two looked-up matrices side by side, times `W1`, plus `b1` on every row, then the
    maximum with zero. -/
def hid1 (U I : FVec F S16384x16 .f32) (W1 : FVec F S32x64 .f32) (b1 : FVec F S64 .f32) : FVec F S16384x64 .f32 :=
  maximumf
    (addf
      (Host.dotGeneral dot_S16384x32_S32x64_S16384x64_1_0_0_1_n_n none
        (concatenate S16384x32 1 [⟨S16384x16, U⟩, ⟨S16384x16, I⟩] concatenates_S16384x16_S16384x16_S16384x32_d1) W1)
      (broadcastInDim S16384x64 ![0, 1] bcast_S1x64_S16384x64_0_1 (broadcastInDim S1x64 ![1] bcast_S64_S1x64_1 b1)))
    (broadcastInDim S16384x64 ![] bcast_S_S16384x64 (constant S_ .f32 0x00000000#32))

/-- The second layer, rectified. -/
def hid2 (h1 : FVec F S16384x64 .f32) (W2 : FVec F S64x32 .f32) (b2 : FVec F S32 .f32) : FVec F S16384x32 .f32 :=
  maximumf
    (addf (Host.dotGeneral dot_S16384x64_S64x32_S16384x32_1_0_0_1_n_n none h1 W2)
      (broadcastInDim S16384x32 ![0, 1] bcast_S1x32_S16384x32_0_1 (broadcastInDim S1x32 ![1] bcast_S32_S1x32_1 b2)))
    (broadcastInDim S16384x32 ![] bcast_S_S16384x32 (constant S_ .f32 0x00000000#32))

/-- The third layer: one column. -/
def logit (h2 : FVec F S16384x32 .f32) (W3 : FVec F S32x1 .f32) (b3 : FVec F S1 .f32) : FVec F S16384x1 .f32 :=
  addf (Host.dotGeneral dot_S16384x32_S32x1_S16384x1_1_0_0_1_n_n none h2 W3)
    (broadcastInDim S16384x1 ![0, 1] bcast_S1x1_S16384x1_0_1 (broadcastInDim S1x1 ![1] bcast_S1_S1x1_1 b3))

/-- The logistic function as the program spells it — one over (one plus the exponential of the negation) — and the
    column read as a vector. -/
def sigm (z : FVec F S16384x1 .f32) : FVec F S16384 .f32 :=
  shapeCast S16384
    (Host.divf (broadcastInDim S16384x1 ![] bcast_S_S16384x1 (constant S_ .f32 0x3F800000#32))
      (addf (broadcastInDim S16384x1 ![] bcast_S_S16384x1 (constant S_ .f32 0x3F800000#32)) (Host.exp (Host.negf z))))
    shapeCasts_S16384x1_S16384

/-- The program's result as a function of its ten argument arrays. -/
def refOut (a0 a1 : IVec S16384 32) (a2 a3 : FVec F S1000000x16 .f32) (a4 : FVec F S32x64 .f32) (a5 : FVec F S64 .f32)
    (a6 : FVec F S64x32 .f32) (a7 : FVec F S32 .f32) (a8 : FVec F S32x1 .f32) (a9 : FVec F S1 .f32) : FVec F S16384 .f32 :=
  sigm (logit (hid2 (hid1 (takeOut a2 a0) (takeOut a3 a1) a4 a5) a6 a7) a8 a9)

/-! ## The program as a straight line -/

/-- The program's seventy-four operations in order, each call's operations in the call's place over the buffers that
    call names. -/
abbrev ops : List (HloOp τ sig (Elt F)) :=
  [ TRef.nullary main_call0.c (constantI S_ 32 0#32),
    TRef.unary main_call0.c main_call0.v0 (broadcastInDim S16384 ![] bcast_S_S16384),
    TRef.binary (TRef.of main_arg0 : TRef sig ⟨S16384, .i32⟩) main_call0.v0 main_call0.v1 (cmpi .slt),
    TRef.nullary main_call0.c_0 (constantI S_ 32 1000000#32),
    TRef.unary main_call0.c_0 main_call0.v2 (broadcastInDim S16384 ![] bcast_S_S16384),
    TRef.binary (TRef.of main_arg0 : TRef sig ⟨S16384, .i32⟩) main_call0.v2 main_call0.v3 addi,
    TRef.ternary main_call0.v1 main_call0.v3 (TRef.of main_arg0 : TRef sig ⟨S16384, .i32⟩) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (TRef.of main_arg2 : TRef sig ⟨S1000000x16, .f32⟩) main_call0.v5 main_call0.v13 (fun x i => Host.gather gather_S1000000x16_S16384x1_S16384x16_1_0_n_n_0_1_116 x i),
    TRef.unary main_call0.v12 main_call0.v14 (broadcastInDim S16384x16 ![0] bcast_S16384_S16384x16_0),
    TRef.nullary main_call0.cst (constant S_ .f32 0x7FC00000#32),
    TRef.unary main_call0.cst main_call0.v15 (broadcastInDim S16384x16 ![] bcast_S_S16384x16),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (TRef.of main_arg1 : TRef sig ⟨S16384, .i32⟩) main_call1.v0 main_call1.v1 (cmpi .slt),
    TRef.nullary main_call1.c_0 (constantI S_ 32 1000000#32),
    TRef.unary main_call1.c_0 main_call1.v2 (broadcastInDim S16384 ![] bcast_S_S16384),
    TRef.binary (TRef.of main_arg1 : TRef sig ⟨S16384, .i32⟩) main_call1.v2 main_call1.v3 addi,
    TRef.ternary main_call1.v1 main_call1.v3 (TRef.of main_arg1 : TRef sig ⟨S16384, .i32⟩) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (TRef.of main_arg3 : TRef sig ⟨S1000000x16, .f32⟩) main_call1.v5 main_call1.v13 (fun x i => Host.gather gather_S1000000x16_S16384x1_S16384x16_1_0_n_n_0_1_116 x i),
    TRef.unary main_call1.v12 main_call1.v14 (broadcastInDim S16384x16 ![0] bcast_S16384_S16384x16_0),
    TRef.nullary main_call1.cst (constant S_ .f32 0x7FC00000#32),
    TRef.unary main_call1.cst main_call1.v15 (broadcastInDim S16384x16 ![] bcast_S_S16384x16),
    TRef.ternary main_call1.v14 main_call1.v13 main_call1.v15 main_call1.v16 select,
    binary main_v0 main_v1 main_v2 ((fun a b => concatenate S16384x32 1 [⟨S16384x16, a⟩, ⟨S16384x16, b⟩] concatenates_S16384x16_S16384x16_S16384x32_d1) : (⟨S16384x16, .f32⟩ : BufTy).Contents (Elt F) → (⟨S16384x16, .f32⟩ : BufTy).Contents (Elt F) → (⟨S16384x32, .f32⟩ : BufTy).Contents (Elt F)),
    binary main_v2 main_arg4 main_v3 ((fun l r => Host.dotGeneral dot_S16384x32_S32x64_S16384x64_1_0_0_1_n_n none l r) : (⟨S16384x32, .f32⟩ : BufTy).Contents (Elt F) → (⟨S32x64, .f32⟩ : BufTy).Contents (Elt F) → (⟨S16384x64, .f32⟩ : BufTy).Contents (Elt F)),
    unary main_arg5 main_v4 (broadcastInDim S1x64 ![1] bcast_S64_S1x64_1 : (⟨S64, .f32⟩ : BufTy).Contents (Elt F) → (⟨S1x64, .f32⟩ : BufTy).Contents (Elt F)),
    unary main_v4 main_v5 (broadcastInDim S16384x64 ![0, 1] bcast_S1x64_S16384x64_0_1 : (⟨S1x64, .f32⟩ : BufTy).Contents (Elt F) → (⟨S16384x64, .f32⟩ : BufTy).Contents (Elt F)),
    binary main_v3 main_v5 main_v6 (addf : (⟨S16384x64, .f32⟩ : BufTy).Contents (Elt F) → (⟨S16384x64, .f32⟩ : BufTy).Contents (Elt F) → (⟨S16384x64, .f32⟩ : BufTy).Contents (Elt F)),
    TRef.nullary main_call2.cst (constant S_ .f32 0x00000000#32),
    TRef.unary main_call2.cst main_call2.v0 (broadcastInDim S16384x64 ![] bcast_S_S16384x64),
    TRef.binary (TRef.of main_v6 : TRef sig ⟨S16384x64, .f32⟩) main_call2.v0 main_call2.v1 maximumf,
    binary main_v7 main_arg6 main_v8 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    unary main_arg7 main_v9 (broadcastInDim S1x32 ![1] bcast_S32_S1x32_1 : (⟨S32, .f32⟩ : BufTy).Contents (Elt F) → (⟨S1x32, .f32⟩ : BufTy).Contents (Elt F)),
    unary main_v9 main_v10 (broadcastInDim S16384x32 ![0, 1] bcast_S1x32_S16384x32_0_1 : (⟨S1x32, .f32⟩ : BufTy).Contents (Elt F) → (⟨S16384x32, .f32⟩ : BufTy).Contents (Elt F)),
    binary main_v8 main_v10 main_v11 (addf : (⟨S16384x32, .f32⟩ : BufTy).Contents (Elt F) → (⟨S16384x32, .f32⟩ : BufTy).Contents (Elt F) → (⟨S16384x32, .f32⟩ : BufTy).Contents (Elt F)),
    TRef.nullary main_call3.cst (constant S_ .f32 0x00000000#32),
    TRef.unary main_call3.cst main_call3.v0 (broadcastInDim S16384x32 ![] bcast_S_S16384x32),
    TRef.binary (TRef.of main_v11 : TRef sig ⟨S16384x32, .f32⟩) main_call3.v0 main_call3.v1 maximumf,
    binary main_v12 main_arg8 main_v13 ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)),
    unary main_arg9 main_v14 (broadcastInDim S1x1 ![1] bcast_S1_S1x1_1 : (⟨S1, .f32⟩ : BufTy).Contents (Elt F) → (⟨S1x1, .f32⟩ : BufTy).Contents (Elt F)),
    unary main_v14 main_v15 (broadcastInDim S16384x1 ![0, 1] bcast_S1x1_S16384x1_0_1 : (⟨S1x1, .f32⟩ : BufTy).Contents (Elt F) → (⟨S16384x1, .f32⟩ : BufTy).Contents (Elt F)),
    binary main_v13 main_v15 main_v16 (addf : (⟨S16384x1, .f32⟩ : BufTy).Contents (Elt F) → (⟨S16384x1, .f32⟩ : BufTy).Contents (Elt F) → (⟨S16384x1, .f32⟩ : BufTy).Contents (Elt F)),
    unary main_v16 main_v17 (Host.negf : (⟨S16384x1, .f32⟩ : BufTy).Contents (Elt F) → (⟨S16384x1, .f32⟩ : BufTy).Contents (Elt F)),
    unary main_v17 main_v18 (Host.exp : (⟨S16384x1, .f32⟩ : BufTy).Contents (Elt F) → (⟨S16384x1, .f32⟩ : BufTy).Contents (Elt F)),
    nullary main_cst (constant S_ .f32 0x3F800000#32),
    unary main_cst main_v19 (broadcastInDim S16384x1 ![] bcast_S_S16384x1 : (⟨S_, .f32⟩ : BufTy).Contents (Elt F) → (⟨S16384x1, .f32⟩ : BufTy).Contents (Elt F)),
    binary main_v19 main_v18 main_v20 (addf : (⟨S16384x1, .f32⟩ : BufTy).Contents (Elt F) → (⟨S16384x1, .f32⟩ : BufTy).Contents (Elt F) → (⟨S16384x1, .f32⟩ : BufTy).Contents (Elt F)),
    nullary main_cst_0 (constant S_ .f32 0x3F800000#32),
    unary main_cst_0 main_v21 (broadcastInDim S16384x1 ![] bcast_S_S16384x1 : (⟨S_, .f32⟩ : BufTy).Contents (Elt F) → (⟨S16384x1, .f32⟩ : BufTy).Contents (Elt F)),
    binary main_v21 main_v20 main_v22 (Host.divf : (⟨S16384x1, .f32⟩ : BufTy).Contents (Elt F) → (⟨S16384x1, .f32⟩ : BufTy).Contents (Elt F) → (⟨S16384x1, .f32⟩ : BufTy).Contents (Elt F)),
    reshape main_v22 main_v23 rfl shapeCasts_S16384x1_S16384 ]

-- seventy-four binds re-associated: the rewriting under the chain recurses once per statement
set_option maxRecDepth 4096 in
set_option maxHeartbeats 4000000 in
/-- The entry function is that straight line: the callees' definitions unfolded at their calls, both sides are one
    chain of steps once sequencing is re-associated. -/
theorem main_eq (c : Dev nD) : main (F := F) c = seq ops := by
  simp only [main, fn_take.body, fn_where.body, fn_relu.body, fn_relu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., reshape_bufs_sub ..⟩

/-- From any memory with zero counters every weakly fair execution of the entry function terminates, and each buffer ends
    at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result and at the arguments -/

attribute [local irreducible] Host.reduce Host.gather concatenate shapeCast in
set_option maxRecDepth 8192 in
set_option maxHeartbeats 4000000 in
/-- At the result buffer the fold is `refOut` of the argument contents: each operation's result at its own buffer is its
    function of its operands' contents, and the composed term is `refOut`'s own unfolding. -/
theorem out_eq (V : Valuation τ sig (Elt F)) :
    after ops V (main_v23 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

/-! ## The run -/

/-- From any memory with zero counters every weakly fair execution of the reference terminates with its result at
    `refOut` of the argument arrays and the argument arrays unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩
      (fun r => ∀ c : Dev nD,
        r.2.mem ((c.tc : Thread nD τ).loc main_v23)
            = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run defs _ _).mono
    (fun _ h c => ⟨(h c main_v23).trans (out_eq _), (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_main m ρ)

end Cert.ReferenceIdeal.RefRun

end
-- ==== Proof.RefValue.lean ====
/-
  The reference's result, read index by index, is the specification's score of the gathered rows.

  Two facts.  First, a lookup whose indices all name rows of the table returns those rows: an index word below 1000000
  is non-negative as a signed word, so the "index from the end" adjustment leaves it alone, the range test passes on
  every row (no row is replaced by the fill value), and the gather, which clamps a signed start index into the table,
  reads the row the word names.  Second, for ANY two row matrices `U`, `I` the rest of the program — the two matrices side
  by side, three dense layers, the logistic function — is the specification's `G U I`: the product of the joined row
  `[u | i]` with `W1` is a sum over thirty-two entries, which splits into the sum over the first sixteen (against
  `W1`'s first sixteen rows) plus the sum over the last sixteen; a bias broadcast over the rows reads the bias entry;
  a maximum with the zero splat is `max · 0`; and one over (one plus the exponential of the negation) is the logistic
  function by definition.  Neither fact needs any entry to be finite: only re-association of one finite sum is used.
-/
import proofs.«212205_g31413390803091_cont_8to1_b_1662_24_alg».proof.Proof.RefRun
import proofs.«212205_g31413390803091_cont_8to1_b_1662_24_alg».proof.Proof.Spec
import Idealize.ShloMosaic.Lib.StackMember
import Idealize.ShloMosaic.Lib.IdealHost

noncomputable section

namespace Cert.Proof.RefValue

open Idealize.ShloMosaic Idealize.ShloMosaic.ValueIdx
open Cert.ReferenceIdeal Cert.ReferenceIdeal.Gen Cert.ReferenceIdeal.RefRun
open scoped BigOperators

/-! ## Index words that name a row -/

/-- A word below 1000000 has its sign bit clear: its signed value is its unsigned value. -/
theorem toInt_of_lt (w : BitVec 32) (h : w.toNat < 1000000) : w.toInt = (w.toNat : Int) := by
  rw [BitVec.toInt_eq_toNat_cond, if_pos (by omega)]

/-- Such a word is not below zero as a signed word … -/
theorem slt_zero (w : BitVec 32) (h : w.toNat < 1000000) : IntOp.cmpi .slt w 0#32 = 0#1 := by
  refine eq_zero_of_ne_one fun e => ?_
  have h1 := IntOp.cmpi_slt.1 e
  have e0 : (0#32 : BitVec 32).toInt = 0 := by decide
  rw [toInt_of_lt w h, e0] at h1
  omega

/-- … it is at least zero … -/
theorem sge_zero (w : BitVec 32) (h : w.toNat < 1000000) : IntOp.cmpi .sge w 0#32 = 1#1 := by
  refine IntOp.cmpi_sge.2 ?_
  have e0 : (0#32 : BitVec 32).toInt = 0 := by decide
  rw [toInt_of_lt w h, e0]
  omega

/-- … and at most 999999. -/
theorem sle_max (w : BitVec 32) (h : w.toNat < 1000000) : IntOp.cmpi .sle w 999999#32 = 1#1 := by
  refine IntOp.cmpi_sle.2 ?_
  have e1 : (999999#32 : BitVec 32).toInt = 999999 := by decide
  rw [toInt_of_lt w h, e1]
  omega

/-! ## One lookup -/

/-- The index column at row `r`: the index word, with 1000000 added when it is negative as a signed word. -/
theorem takeIdx_apply (ids : IVec S16384 32) (r : Fin 16384) (c : Fin 1) :
    RefRun.takeIdx ids (ix2 r c)
      = Scalar.select (IntOp.cmpi .slt (ids (ix1 r)) 0#32) (IntOp.addi (ids (ix1 r)) 1000000#32) (ids (ix1 r)) := by
  unfold RefRun.takeIdx
  rw [broadcastInDim_apply _ _ _ (ix2 r c) (ix1 r) (fun a => by match a with | ⟨0, _⟩ => rfl)]
  rfl

/-- A conjunction of ones, started at one, is one. -/
theorem foldl_andi_ones {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi 1#1 1#1 = 1#1 from by decide]
    exact ih

/-- When every index names a row, the range test passes on every row. -/
theorem takeOk_eq_one (ids : IVec S16384 32) (hr : ∀ r : Fin 16384, (ids (ix1 r)).toNat < 1000000) (j : S16384.Idx) :
    takeOk ids j = 1#1 := by
  unfold takeOk
  rw [Host.reduce_eq_foldl]
  refine foldl_andi_ones _ (fun i => ?_) _
  obtain ⟨r, c, rfl⟩ : ∃ (r : Fin 16384) (c : Fin 1), i = ix2 r c := ⟨i 0, i 1, eq_ix2 i⟩
  show IntOp.andi (IntOp.cmpi .sge (RefRun.takeIdx ids (ix2 r c)) 0#32) (IntOp.cmpi .sle (RefRun.takeIdx ids (ix2 r c)) 999999#32) = 1#1
  rw [takeIdx_apply, slt_zero _ (hr r), select_zero, sge_zero _ (hr r), sle_max _ (hr r)]
  decide

/-- The gather of rows read at `(r, e)`: entry `e` of the table's row `n`, where `n` is the start index of row `r` read as a
    signed integer and clamped into the table. -/
theorem gather_rows_apply {α : Type} (tab : S1000000x16.Idx → α) (idx : IVec S16384x1 32) (r : Fin 16384) (e : Fin 16)
    (n : Fin 1000000) (hn : n.val = min (idx (ix2 r (0 : Fin 1))).toInt.toNat 999999) :
    Host.gather gather_S1000000x16_S16384x1_S16384x16_1_0_n_n_0_1_116 tab idx (ix2 r e) = tab (ix2 n e) := by
  unfold Host.gather
  refine congrArg tab (funext fun a => Fin.ext ?_)
  match a with
  | ⟨0, _⟩ =>
    show gather_S1000000x16_S16384x1_S16384x16_1_0_n_n_0_1_116.start (ix2 r e) idx 0 + gather_S1000000x16_S16384x1_S16384x16_1_0_n_n_0_1_116.batchCoord (ix2 r e) 0 + gather_S1000000x16_S16384x1_S16384x16_1_0_n_n_0_1_116.offCoord (ix2 r e) 0 = n.val
    rw [hn, GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x16_S16384x1_S16384x16_1_0_n_n_0_1_116.startIndexMap from List.mem_singleton.mpr rfl)]
    have hsi : gather_S1000000x16_S16384x1_S16384x16_1_0_n_n_0_1_116.siIdx (ix2 r e) ⟨List.idxOf (0 : Fin 2) gather_S1000000x16_S16384x1_S16384x16_1_0_n_n_0_1_116.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S1000000x16_S16384x1_S16384x16_1_0_n_n_0_1_116.start (ix2 r e) idx 1 + gather_S1000000x16_S16384x1_S16384x16_1_0_n_n_0_1_116.batchCoord (ix2 r e) 1 + gather_S1000000x16_S16384x1_S16384x16_1_0_n_n_0_1_116.offCoord (ix2 r e) 1 = e.val
    have hs : gather_S1000000x16_S16384x1_S16384x16_1_0_n_n_0_1_116.start (ix2 r e) idx 1 = 0 := by
      unfold GatherDims.start
      rw [dif_neg (show (1 : Fin 2) ∉ gather_S1000000x16_S16384x1_S16384x16_1_0_n_n_0_1_116.startIndexMap from by
        intro h; exact absurd (List.mem_singleton.mp h) (by decide))]
    have hk : (1 : Fin 2) ∈ gather_S1000000x16_S16384x1_S16384x16_1_0_n_n_0_1_116.sKept :=
      (GatherDims.mem_sKept _ _).2 ⟨fun h => absurd (List.mem_singleton.mp h) (by decide), List.not_mem_nil⟩
    rw [hs, GatherDims.batchCoord_eq_zero _ _ _ List.not_mem_nil]
    unfold GatherDims.offCoord
    rw [dif_pos hk]
    simp only [Nat.zero_add]
    rfl

/-- A LOOKUP WHOSE INDICES ALL NAME ROWS RETURNS THOSE ROWS. -/
theorem take_gathered (ids : IVec S16384 32) (tab : FVec Ideal S1000000x16 .f32)
    (hr : ∀ r : Fin 16384, (ids (ix1 r)).toNat < 1000000) : Spec.Gathered ids tab (takeOut tab ids) := by
  intro r e h
  have hn : (ids (ix1 r)).toNat = min (RefRun.takeIdx ids (ix2 r (0 : Fin 1))).toInt.toNat 999999 := by
    rw [takeIdx_apply, slt_zero _ (hr r), select_zero, toInt_of_lt _ (hr r), Int.toNat_natCast]
    omega
  unfold takeOut
  rw [select_apply, broadcastInDim_apply _ _ _ (ix2 r e) (ix1 r) (fun a => by match a with | ⟨0, _⟩ => rfl),
    takeOk_eq_one ids hr, select_one, gather_rows_apply tab _ r e ⟨(ids (ix1 r)).toNat, h⟩ hn]

/-! ## The layers at an index -/

theorem dot1_eq : dot_S16384x32_S32x64_S16384x64_1_0_0_1_n_n = DotDims.plain 16384 32 64 := rfl
theorem dot2_eq : dot_S16384x64_S64x32_S16384x32_1_0_0_1_n_n = DotDims.plain 16384 64 32 := rfl
theorem dot3_eq : dot_S16384x32_S32x1_S16384x1_1_0_0_1_n_n = DotDims.plain 16384 32 1 := rfl

/-- A sum over thirty-two entries is the sum over the first sixteen plus the sum over the last sixteen. -/
theorem sum_halves (f : Fin 32 → EReal) : ∑ c, f c = (∑ e : Fin 16, f (Spec.lo e)) + ∑ e : Fin 16, f (Spec.hi e) :=
  Fin.sum_univ_add (a := 16) (b := 16) f

/-- The first rectified layer at row `r`, unit `a`: the specification's first layer of that row's two embeddings, under
    `max · 0`. -/
theorem hid1_apply (U I : FVec Ideal S16384x16 .f32) (W1 : FVec Ideal S32x64 .f32) (b1 : FVec Ideal S64 .f32)
    (r : Fin 16384) (a : Fin 64) :
    hid1 U I W1 b1 (ix2 r a) = max (Spec.layer1 (fun e => U (ix2 r e)) (fun e => I (ix2 r e)) W1 b1 a) 0 := by
  have hz : (broadcastInDim S16384x64 ![] bcast_S_S16384x64 (constant (F := Ideal) S_ .f32 0x00000000#32)) (ix2 r a) = 0 := by
    rw [broadcastInDim_scalar_apply, constant_apply, Ideal.ofBits_zero_f32]
  have hb : (broadcastInDim S16384x64 ![0, 1] bcast_S1x64_S16384x64_0_1 (broadcastInDim S1x64 ![1] bcast_S64_S1x64_1 b1)) (ix2 r a)
      = b1 (ix1 a) := by
    rw [broadcastInDim_apply _ _ _ (ix2 r a) (ix2 (0 : Fin 1) a) (fun x => by match x with | ⟨0, _⟩ => rfl | ⟨1, _⟩ => rfl),
      broadcastInDim_apply _ _ _ (ix2 (0 : Fin 1) a) (ix1 a) (fun x => by match x with | ⟨0, _⟩ => rfl)]
  have hd : Host.dotGeneral dot_S16384x32_S32x64_S16384x64_1_0_0_1_n_n none
        (concatenate S16384x32 1 [⟨S16384x16, U⟩, ⟨S16384x16, I⟩] concatenates_S16384x16_S16384x16_S16384x32_d1) W1 (ix2 r a)
      = (∑ e : Fin 16, U (ix2 r e) * W1 (ix2 (Spec.lo e) a)) + ∑ e : Fin 16, I (ix2 r e) * W1 (ix2 (Spec.hi e) a) := by
    rw [dot1_eq, StackMember.dotGeneral_plain_apply, sum_halves]
    congr 1 <;> refine Finset.sum_congr rfl fun e _ => ?_
    · rw [concatenate_pair_apply_left (1 : Fin 2) U I concatenates_S16384x16_S16384x16_S16384x32_d1 (ix2 r (Spec.lo e)) rfl (ix2 r e)
        (fun b => by match b with | ⟨0, _⟩ => rfl | ⟨1, _⟩ => rfl)]
    · rw [concatenate_pair_apply_right (1 : Fin 2) U I concatenates_S16384x16_S16384x16_S16384x32_d1 (ix2 r (Spec.hi e)) rfl rfl (ix2 r e)
        (fun b hb => by match b, hb with | ⟨0, _⟩, _ => rfl | ⟨1, _⟩, hb => exact absurd rfl hb)
        (by show e.val + 16 = 16 + e.val; omega)]
  unfold hid1 Spec.layer1
  rw [maximumf_apply, addf_apply, hd, hb, hz]

/-- The second rectified layer at row `r`, unit `k`. -/
theorem hid2_apply (h1 : FVec Ideal S16384x64 .f32) (W2 : FVec Ideal S64x32 .f32) (b2 : FVec Ideal S32 .f32)
    (r : Fin 16384) (k : Fin 32) :
    hid2 h1 W2 b2 (ix2 r k) = max ((∑ a : Fin 64, h1 (ix2 r a) * W2 (ix2 a k)) + b2 (ix1 k)) 0 := by
  have hz : (broadcastInDim S16384x32 ![] bcast_S_S16384x32 (constant (F := Ideal) S_ .f32 0x00000000#32)) (ix2 r k) = 0 := by
    rw [broadcastInDim_scalar_apply, constant_apply, Ideal.ofBits_zero_f32]
  have hb : (broadcastInDim S16384x32 ![0, 1] bcast_S1x32_S16384x32_0_1 (broadcastInDim S1x32 ![1] bcast_S32_S1x32_1 b2)) (ix2 r k)
      = b2 (ix1 k) := by
    rw [broadcastInDim_apply _ _ _ (ix2 r k) (ix2 (0 : Fin 1) k) (fun x => by match x with | ⟨0, _⟩ => rfl | ⟨1, _⟩ => rfl),
      broadcastInDim_apply _ _ _ (ix2 (0 : Fin 1) k) (ix1 k) (fun x => by match x with | ⟨0, _⟩ => rfl)]
  unfold hid2
  rw [maximumf_apply, addf_apply, dot2_eq, StackMember.dotGeneral_plain_apply, hb, hz]

/-- The third layer at row `r`. -/
theorem logit_apply (h2 : FVec Ideal S16384x32 .f32) (W3 : FVec Ideal S32x1 .f32) (b3 : FVec Ideal S1 .f32) (r : Fin 16384) :
    logit h2 W3 b3 (ix2 r (0 : Fin 1)) = (∑ k : Fin 32, h2 (ix2 r k) * W3 (ix2 k (0 : Fin 1))) + b3 (ix1 (0 : Fin 1)) := by
  have hb : (broadcastInDim S16384x1 ![0, 1] bcast_S1x1_S16384x1_0_1 (broadcastInDim S1x1 ![1] bcast_S1_S1x1_1 b3)) (ix2 r (0 : Fin 1))
      = b3 (ix1 (0 : Fin 1)) := by
    rw [broadcastInDim_apply _ _ _ (ix2 r (0 : Fin 1)) (ix2 (0 : Fin 1) (0 : Fin 1)) (fun x => by match x with | ⟨0, _⟩ => rfl | ⟨1, _⟩ => rfl),
      broadcastInDim_apply _ _ _ (ix2 (0 : Fin 1) (0 : Fin 1)) (ix1 (0 : Fin 1)) (fun x => by match x with | ⟨0, _⟩ => rfl)]
  unfold logit
  rw [addf_apply, dot3_eq, StackMember.dotGeneral_plain_apply, hb]

/-- The logistic tail at row `r`: one over one plus the exponential of the negation is the logistic function. -/
theorem sigm_apply (z : FVec Ideal S16384x1 .f32) (r : Fin 16384) : sigm z (ix1 r) = Ideal.logistic (z (ix2 r (0 : Fin 1))) := by
  unfold sigm
  rw [shapeCast_apply _ _ (ix1 r) (ix2 r (0 : Fin 1)) (by rw [Shape.rowMajor_val_two, Shape.rowMajor_val_one]; show r.val * 1 + 0 = r.val; omega)]
  rw [hostDivf_apply, addf_apply, broadcastInDim_scalar_apply, constant_apply, Ideal.ofBits_one_f32]
  rfl

/-! ## The whole result -/

/-- THE REFERENCE'S RESULT IS THE SPECIFICATION'S SCORE OF THE TWO LOOKED-UP MATRICES, row by row. -/
theorem refOut_eq (a0 a1 : IVec S16384 32) (a2 a3 : FVec Ideal S1000000x16 .f32) (a4 : FVec Ideal S32x64 .f32)
    (a5 : FVec Ideal S64 .f32) (a6 : FVec Ideal S64x32 .f32) (a7 : FVec Ideal S32 .f32) (a8 : FVec Ideal S32x1 .f32)
    (a9 : FVec Ideal S1 .f32) :
    refOut a0 a1 a2 a3 a4 a5 a6 a7 a8 a9 = Spec.G (takeOut a2 a0) (takeOut a3 a1) a4 a5 a6 a7 a8 a9 := by
  funext j
  obtain ⟨r, rfl⟩ : ∃ r : Fin 16384, j = ix1 r := ⟨j 0, eq_ix1 j⟩
  unfold refOut Spec.G Spec.score Spec.layer3 Spec.layer2
  rw [sigm_apply, logit_apply]
  simp only [hid2_apply, hid1_apply, Spec.rowOf_ix1]

/-- The same against ANY two matrices that hold the rows the indices name: such matrices are the looked-up ones, since
    indices that all name rows determine the gathered matrix. -/
theorem refOut_eq_of_gathered (a0 a1 : IVec S16384 32) (a2 a3 : FVec Ideal S1000000x16 .f32) (a4 : FVec Ideal S32x64 .f32)
    (a5 : FVec Ideal S64 .f32) (a6 : FVec Ideal S64x32 .f32) (a7 : FVec Ideal S32 .f32) (a8 : FVec Ideal S32x1 .f32)
    (a9 : FVec Ideal S1 .f32) (hr0 : ∀ r : Fin 16384, (a0 (ix1 r)).toNat < 1000000)
    (hr1 : ∀ r : Fin 16384, (a1 (ix1 r)).toNat < 1000000) (U I : FVec Ideal S16384x16 .f32)
    (hU : Spec.Gathered a0 a2 U) (hI : Spec.Gathered a1 a3 I) :
    refOut a0 a1 a2 a3 a4 a5 a6 a7 a8 a9 = Spec.G U I a4 a5 a6 a7 a8 a9 := by
  rw [refOut_eq, Spec.Gathered.unique hr0 hU (take_gathered a0 a2 hr0), Spec.Gathered.unique hr1 hI (take_gathered a1 a3 hr1)]

end Cert.Proof.RefValue

end
-- ==== Proof.Asm.lean ====
/-
  The claims about the idealized kernel program, from its run.

  The precondition gives what the run asks of the launch memory: every index, non-negative and at most 999999 as a
  signed word, names a row of its table. The frame is the run with the result forgotten. For the equivalence both
  programs end at the score of every row (`Spec.G`) of two matrices that hold the table rows the indices name; such
  matrices are determined by the indices and the tables, so the two results are equal.
-/
import proofs.«212205_g31413390803091_cont_8to1_b_1662_24_alg».proof.Defs
import proofs.«212205_g31413390803091_cont_8to1_b_1662_24_alg».proof.Proof.Main
import proofs.«212205_g31413390803091_cont_8to1_b_1662_24_alg».proof.Proof.Region
import proofs.«212205_g31413390803091_cont_8to1_b_1662_24_alg».proof.Proof.KValue
import proofs.«212205_g31413390803091_cont_8to1_b_1662_24_alg».proof.Proof.PreRange
import proofs.«212205_g31413390803091_cont_8to1_b_1662_24_alg».proof.Proof.RefRun
import proofs.«212205_g31413390803091_cont_8to1_b_1662_24_alg».proof.Proof.RefValue
import proofs.«212205_g31413390803091_cont_8to1_b_1662_24_alg».proof.Proof.Gen.Pre_input_domain
import proofs.«212205_g31413390803091_cont_8to1_b_1662_24_alg».proof.Proof.Gen.ReferenceIdeal

noncomputable section

namespace Cert.Proof.Asm

open Idealize.ShloMosaic Idealize.SL.Sem
open Idealize.ShloMosaic.ValueIdx
open Cert.Proof

/-- The precondition makes every index name a row. -/
theorem preOK_ki (m : (ℓ : Loc Cert.KernelIdeal.nD Cert.KernelIdeal.τ Cert.KernelIdeal.sig) → Buf (Elt Ideal) ℓ) (h : Cert.Pre_KernelIdeal m) :
    KI.PreOK (F := Ideal) m := fun d j =>
  ⟨(PreRange.ids_range (F := Ideal) _ _ _ _ _ _ _ _ _ _ (h d)).1 j, (PreRange.ids_range (F := Ideal) _ _ _ _ _ _ _ _ _ _ (h d)).2 j⟩

/-- The idealized kernel program runs and leaves its arguments unchanged. -/
theorem frame_ki (htile : ∀ m, KI.TileBody (F := Ideal) m) : Cert.frame_KernelIdeal := fun m ρ hpre =>
  (θ_run Cert.KernelIdeal.defs _ _).mono (fun _ h c => (h c).2) (KI.run_main (F := Ideal) m ρ (htile m) KI.region_wp (preOK_ki m hpre))

/-- The idealized reference runs and leaves its arguments unchanged. -/
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end at the same result: the score of every row of the matrices that hold the table rows
    the indices name. -/
theorem algebraic (htile : ∀ m, KI.TileBody (F := Ideal) m) : Cert.algebraic_KernelIdeal_ReferenceIdeal := by
  intro m ρ m' ρ' hpre hagree
  refine ⟨fun c => Cert.ReferenceIdeal.RefRun.refOut (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨?_, (h c).2⟩)
      (KI.run_main (F := Ideal) m ρ (htile m) KI.region_wp (preOK_ki m hpre))
    obtain ⟨f0, f1, hg0, hg1, hv⟩ := (h c).1
    have hr := PreRange.ids_range (F := Ideal) _ _ _ _ _ _ _ _ _ _ (hpre c)
    rw [KValue.tabOf_eq] at hg0 hg1
    exact hv.trans ((KValue.kRes_eq f0 f1 _ _ _ _ _ _).trans
      (RefValue.refOut_eq_of_gathered _ _ _ _ _ _ _ _ _ _ (fun r => Nat.lt_of_le_of_lt (hr.1 _) (by decide))
        (fun r => Nat.lt_of_le_of_lt (hr.2 _) (by decide)) f0 f1 hg0 hg1).symm)
  · refine (θ_run Cert.ReferenceIdeal.defs _ _).mono (fun r h c => ⟨(h c).1.trans ?_, (h c).2⟩)
      (Cert.ReferenceIdeal.RefRun.run (F := Ideal) m' ρ')
    have ha := hagree c
    rw [ha.1, ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2]

end Cert.Proof.Asm

end
-- ==== Proof.CommonB.lean ====
/-
  What the proofs about the kernel program share: the program as the launch theorem sees it, the ghost state, the
  arrays' names, the blocks of the batch that the thirty-two vector subcores work on, and what each subcore is
  handed and hands back.

  Worker `w = 2·s + c` (subcore `s` of SparseCore `c`) owns batch rows `512·w … 512·w + 511`: it reads those
  entries of the two index vectors, reads rows of the two tables (any rows: every subcore holds a read share of
  each whole table), and writes those rows of the two gathered matrices.
-/
import proofs.«212205_g31413390803091_cont_8to1_b_1662_24_alg».proof.Kernel
import proofs.«212205_g31413390803091_cont_8to1_b_1662_24_alg».proof.Proof.Gen.Kernel
import proofs.«212205_g31413390803091_cont_8to1_b_1662_24_alg».proof.Proof.Gen.Kernel.Skeleton
import proofs.«212205_g31413390803091_cont_8to1_b_1662_24_alg».proof.Proof.Gen.Kernel.Launch
import proofs.«212205_g31413390803091_cont_8to1_b_1662_24_alg».proof.Proof.Gen.Kernel.Points
import proofs.«212205_g31413390803091_cont_8to1_b_1662_24_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the handshakes' rounds, the TensorCore pipeline's rounds, the transfers' counters -/

abbrev UH : Type := URounds (GSem nD τ sig) ℕ
abbrev UP : Type := URounds (GSem nD τ sig) Unit
abbrev UU : Type := (UH × UP) × Counters

local notation "𝕄" => MT nD τ sig (HIx 1) (Elt F) ℕ UU ℕ

def EH : Emb UH (MT nD τ sig (HIx 1) (Elt F) ℕ UU ℕ) :=
  ((Emb.inl : Emb UH (UH × UP)).trans (Emb.inl : Emb (UH × UP) UU)).trans
    (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UH × UP)).trans (Emb.inl : Emb (UH × UP) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

/-- The two index vectors, the two tables as @main hands them to the kernel, the two gathered matrices. -/
abbrev iLoc0 (d : Dev nD) : Loc nD τ sig := (SparseCore.T d).loc main_arg0
abbrev iLoc1 (d : Dev nD) : Loc nD τ sig := (SparseCore.T d).loc main_arg1
abbrev tLoc0 (d : Dev nD) : Loc nD τ sig := (SparseCore.T d).loc main_v3
abbrev tLoc1 (d : Dev nD) : Loc nD τ sig := (SparseCore.T d).loc main_v4
abbrev oLoc0 (d : Dev nD) : Loc nD τ sig := (SparseCore.T d).loc main_v5_0
abbrev oLoc1 (d : Dev nD) : Loc nD τ sig := (SparseCore.T d).loc main_v5_1

variable [FloatOps F]

/-- A table after @main's two transpositions (and the barrier between them): what the kernel reads. -/
def tabOf (x : FVec F S1000000x16 .f32) : FVec F S1000000x16 .f32 :=
  transpose S1000000x16 [1, 0] (transpose S16x1000000 [1, 0] x transposes_S1000000x16_S16x1000000_1_0) transposes_S16x1000000_S1000000x16_1_0

abbrev tab0 (d : Dev nD) : Buf (Elt F) (tLoc0 d) := tabOf (m ((SparseCore.T d).loc main_arg2))
abbrev tab1 (d : Dev nD) : Buf (Elt F) (tLoc1 d) := tabOf (m ((SparseCore.T d).loc main_arg3))

/-! ## The workers' blocks -/

/-- Worker number of subcore `s` of SparseCore `c`. -/
def wid (c : Fin τ.nSC) (s : Fin τ.nSub) : Fin 32 := ⟨2 * s.val + c.val, by have := c.isLt; have := s.isLt; simp only [τ] at *; omega⟩

theorem hdiv1 : 32 ∣ S16384.size 0 := ⟨512, rfl⟩
theorem hdiv2 : 32 ∣ S16384x16.size 0 := ⟨512, rfl⟩
/-- Entries `512·w … 512·w + 511` of a batch vector; rows `512·w … 512·w + 511` of a batch matrix. -/
abbrev blk1 (w : Fin 32) : Finset S16384.Idx := (Rect.part (s := S16384) (a₀ := 0) hdiv1 w).set
abbrev blk2 (w : Fin 32) : Finset S16384x16.Idx := (Rect.part (s := S16384x16) (a₀ := 0) hdiv2 w).set

/-- Rows `512·w … 512·w + 511` of `f` are the rows of `t` that those entries of `ids` name. -/
def RowsOf (ids : IVec S16384 32) (t : FVec F S1000000x16 .f32) (w : Fin 32) (f : FVec F S16384x16 .f32) : Prop :=
  ∀ (r : Fin 512) (e : Fin 16) (hr : 512 * w.val + r.val < 16384) (h : (ids (ix1 ⟨512 * w.val + r.val, hr⟩)).toNat < 1000000),
    f (ix2 ⟨512 * w.val + r.val, hr⟩ e) = t (ix2 ⟨(ids (ix1 ⟨512 * w.val + r.val, hr⟩)).toNat, h⟩ e)

/-- What the proof asks of the launch memory: every index names a row of its table. -/
def PreOK : Prop := ∀ (d : Dev nD) (j : S16384.Idx), (m (iLoc0 d) j).toNat ≤ 999999 ∧ (m (iLoc1 d) j).toNat ≤ 999999

/-- What a worker is handed: its entries of the two index vectors, a read share of each table, its rows of the two
    gathered matrices at whatever they hold. -/
def tileGo (d : Dev nD) (w : Fin 32) : sProp 𝕄 :=
  iprop((iLoc0 d ↦[blk1 w]{fullShare} m (iLoc0 d)) ∗ (iLoc1 d ↦[blk1 w]{fullShare} m (iLoc1 d))
    ∗ (tLoc0 d ↦{Transfers.shareTok fullShare 32 w} tab0 m d) ∗ (tLoc1 d ↦{Transfers.shareTok fullShare 32 w} tab1 m d)
    ∗ (∃ f, oLoc0 d ↦[blk2 w]{fullShare} f) ∗ (∃ f, oLoc1 d ↦[blk2 w]{fullShare} f))

/-- What it hands back: the same, its rows of the gathered matrices now the tables' rows its indices name. -/
def tileTd (d : Dev nD) (w : Fin 32) : sProp 𝕄 :=
  iprop((iLoc0 d ↦[blk1 w]{fullShare} m (iLoc0 d)) ∗ (iLoc1 d ↦[blk1 w]{fullShare} m (iLoc1 d))
    ∗ (tLoc0 d ↦{Transfers.shareTok fullShare 32 w} tab0 m d) ∗ (tLoc1 d ↦{Transfers.shareTok fullShare 32 w} tab1 m d)
    ∗ (∃ f, ⌜RowsOf (m (iLoc0 d)) (tab0 m d) w f⌝ ∗ oLoc0 d ↦[blk2 w]{fullShare} f)
    ∗ (∃ f, ⌜RowsOf (m (iLoc1 d)) (tab1 m d) w f⌝ ∗ oLoc1 d ↦[blk2 w]{fullShare} f))

instance tileGo_storable (d : Dev nD) (w : Fin 32) : BI.Storable (upEmb : UEmb _ 𝕄) (tileGo m d w) := by unfold tileGo; infer_instance
instance tileTd_storable (d : Dev nD) (w : Fin 32) : BI.Storable (upEmb : UEmb _ 𝕄) (tileTd m d w) := by unfold tileTd; infer_instance

/-- The call hands each SparseCore its sixteen workers' parts and takes them back. -/
def P : (K (F := F)).Pay (nD := nD) (Val := Elt F) (Name := ℕ) (U := UU) where
  st := fun q d c => match q with
    | 0 => bigSep Finset.univ fun i : Fin ((K (F := F)).nSub 0) => tileGo m d (wid ((K (F := F)).core 0 c) ((K (F := F)).sub 0 i))
  dn := fun q d c => match q with
    | 0 => bigSep Finset.univ fun i : Fin ((K (F := F)).nSub 0) => tileTd m d (wid ((K (F := F)).core 0 c) ((K (F := F)).sub 0 i))
  go := fun q d c i => match q with | 0 => tileGo m d (wid ((K (F := F)).core 0 c) ((K (F := F)).sub 0 i))
  td := fun q d c i => match q with | 0 => tileTd m d (wid ((K (F := F)).core 0 c) ((K (F := F)).sub 0 i))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-! ## The kernel's memrefs, as the body table passes them -/

abbrev iV0 : Memref sig .scVector .hbm S16384 .i32 := Memref.whole main_arg0_scv
abbrev iV1 : Memref sig .scVector .hbm S16384 .i32 := Memref.whole main_arg1_scv
abbrev tV0 : Memref sig .scVector .hbm S1000000x16 .f32 := Memref.whole main_v3_scv
abbrev tV1 : Memref sig .scVector .hbm S1000000x16 .f32 := Memref.whole main_v4_scv
abbrev oV0 : Memref sig .scVector .hbm S16384x16 .f32 := Memref.whole main_v5_0_scv
abbrev oV1 : Memref sig .scVector .hbm S16384x16 .f32 := Memref.whole main_v5_1_scv
/-- A worker's scratch: its 512 indices, its 512 gathered rows. -/
abbrev sIdx : Memref sig .scVector .vmem S512 .i32 := Memref.whole cc0_scratch0
abbrev sRows : Memref sig .scVector .vmem S512x16 .f32 := Memref.whole cc0_scratch1

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- The kernel function on the arrays and scratch the body table passes it. -/
abbrev tileProg (L : grid0.Coords) : Prog (TpuEff nD τ sig (Elt F) Λ₀ (.scVector (cV L) (jV L))) PUnit :=
  cc0__gather_sc L iV0 (Memref.isWhole_whole _) iV1 (Memref.isWhole_whole _) tV0 (Memref.isWhole_whole _) tV1 (Memref.isWhole_whole _)
    oV0 (Memref.isWhole_whole _) oV1 (Memref.isWhole_whole _) sIdx (Memref.isWhole_whole _) sRows (Memref.isWhole_whole _)
    cc0_scratch2 cc0_scoped0 cc0_scoped1 cc0_scoped2 cc0_scoped3

theorem defs₀_vector (c : Fin τ.nSC) (s : Fin τ.nSub) :
    defs₀ (F := F) (.scVector c s) 0 ()
      = SparseCore.onTile hcore0 hsub0 (fun c s => tileProg (F := F) (coordsV c s)) ⟨⟩ c s := rfl

/-! ## The dense layers on a block of 2048 rows, and on the whole batch -/

/-- Rows `2048·t … 2048·t + 2047` of a batch matrix of width `n`. -/
def rowsBlk {n : Nat} (t : Fin 8) (x : FVec F ⟨2, ![16384, n]⟩ .f32) : FVec F ⟨2, ![2048, n]⟩ .f32 :=
  fun y => x (ix2 (⟨2048 * t.val + (y 0).val, by have := (y 0).isLt; have := t.isLt; simp only [Matrix.cons_val_zero] at *; omega⟩ : Fin 16384) (⟨(y 1).val, (y 1).isLt⟩ : Fin n))

/-- The TensorCore kernel's result on the whole batch: block `t` of it is the kernel body's value on block `t` of the
    two gathered matrices and the (whole) weights. -/
def mlpAll (u i : FVec F S16384x16 .f32) (w1u w1i : FVec F S16x64 .f32) (b1 : FVec F S1x64 .f32) (w2 : FVec F S64x32 .f32)
    (b2 : FVec F S1x32 .f32) (w3 : FVec F S32x1 .f32) (b3 : FVec F S1x1 .f32) : FVec F S16384x1 .f32 :=
  fun j => k1_pay1 (F := F) (rowsBlk ⟨(j 0).val / 2048, by have := (j 0).isLt; simp only [Matrix.cons_val_zero] at *; omega⟩ u) w1u
      (rowsBlk ⟨(j 0).val / 2048, by have := (j 0).isLt; simp only [Matrix.cons_val_zero] at *; omega⟩ i) w1i b1 w2 b2 w3 b3
      (ix2 (⟨(j 0).val % 2048, Nat.mod_lt _ (by decide)⟩ : Fin 2048) (⟨(j 1).val, (j 1).isLt⟩ : Fin 1))

end Cert.Proof.KB

end
-- ==== Proof.SplitB.lean ====
/-
  The batch cut into the thirty-two workers' parts and put back together.

  A batch vector (or matrix) held whole is the thirty-two blocks of 512 entries (rows) held side by side; a table held
  whole is thirty-two read shares of it beside a remainder; and thirty-two blocks of a gathered matrix, each holding
  the table rows that its block of indices names, are one matrix holding the rows that all the indices name. Workers
  are numbered `2·s + c` over the two SparseCores `c` and their sixteen subcores `s`: a bijection onto `0 … 31`.
-/
import proofs.«212205_g31413390803091_cont_8to1_b_1662_24_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

/-! ## Workers are numbered bijectively -/

/-- The worker number of subcore `i` of SparseCore `c` of the call's grid. -/
def widOf (ci : Fin ((K (F := F)).nCore 0) × Fin ((K (F := F)).nSub 0)) : Fin 32 :=
  wid ((K (F := F)).core 0 ci.1) ((K (F := F)).sub 0 ci.2)

theorem widOf_val (ci : Fin ((K (F := F)).nCore 0) × Fin ((K (F := F)).nSub 0)) : (widOf (F := F) ci).val = 2 * ci.2.val + ci.1.val := rfl

theorem widOf_bijective : Function.Bijective (widOf (F := F)) := by
  constructor
  · rintro ⟨c, i⟩ ⟨c', i'⟩ h
    have hv : 2 * i.val + c.val = 2 * i'.val + c'.val := congrArg Fin.val h
    have hc : c.val < 2 := c.isLt
    have hc' : c'.val < 2 := c'.isLt
    exact Prod.ext (Fin.ext (show c.val = c'.val by omega)) (Fin.ext (show i.val = i'.val by omega))
  · intro w
    refine ⟨(⟨w.val % 2, Nat.mod_lt _ (by decide)⟩, ⟨w.val / 2, by have := w.isLt; show w.val / 2 < 16; omega⟩), Fin.ext ?_⟩
    show 2 * (w.val / 2) + w.val % 2 = w.val; omega

/-- A family over the workers, summed SparseCore by SparseCore and subcore by subcore, is the family summed over
    worker numbers. -/
theorem bigSep_workers (Φ : Fin 32 → sProp 𝕄) :
    (bigSep Finset.univ fun c : Fin ((K (F := F)).nCore 0) => bigSep Finset.univ fun i : Fin ((K (F := F)).nSub 0) =>
        Φ (wid ((K (F := F)).core 0 c) ((K (F := F)).sub 0 i)))
      = bigSep Finset.univ Φ := by
  show (bigSep Finset.univ fun c : Fin ((K (F := F)).nCore 0) => bigSep Finset.univ fun i : Fin ((K (F := F)).nSub 0) =>
      (fun ci : Fin ((K (F := F)).nCore 0) × Fin ((K (F := F)).nSub 0) => Φ (widOf (F := F) ci)) (c, i)) = _
  rw [← bigSep_univ_prod (fun ci : Fin ((K (F := F)).nCore 0) × Fin ((K (F := F)).nSub 0) => Φ (widOf (F := F) ci)),
    ← Finset.image_univ_of_surjective (widOf_bijective (F := F)).2,
    SparseCore.bigSep_image_of_injOn ((widOf_bijective (F := F)).1.injOn) Φ]

/-! ## Blocks -/

theorem blk1_disjoint : ∀ w ∈ (Finset.univ : Finset (Fin 32)), ∀ w' ∈ (Finset.univ : Finset (Fin 32)), w ≠ w' → Disjoint (blk1 w) (blk1 w') :=
  fun _ _ _ _ h => Rect.part_disjoint hdiv1 h
theorem blk1_cover : (Finset.univ : Finset (Fin 32)).biUnion blk1 = Finset.univ := Rect.biUnion_part hdiv1
theorem blk2_disjoint : ∀ w ∈ (Finset.univ : Finset (Fin 32)), ∀ w' ∈ (Finset.univ : Finset (Fin 32)), w ≠ w' → Disjoint (blk2 w) (blk2 w') :=
  fun _ _ _ _ h => Rect.part_disjoint hdiv2 h
theorem blk2_cover : (Finset.univ : Finset (Fin 32)).biUnion blk2 = Finset.univ := Rect.biUnion_part hdiv2

/-- Row `512·w + r` of a batch matrix lies in block `w`. -/
theorem mem_blk2 (w : Fin 32) (r : Fin 512) (e : Fin 16) (hr : 512 * w.val + r.val < 16384) :
    (ix2 (⟨512 * w.val + r.val, hr⟩ : Fin 16384) e : S16384x16.Idx) ∈ blk2 w := by
  refine Rect.mem_set_unit.mpr fun a => ?_
  unfold Shape.partIx Shape.partSize
  match a with
  | ⟨0, _⟩ =>
    simp only [↓reduceIte]
    show w.val * (16384 / 32) ≤ 512 * w.val + r.val ∧ 512 * w.val + r.val < w.val * (16384 / 32) + 16384 / 32
    have := r.isLt; omega
  | ⟨1, _⟩ =>
    have h10 : ((⟨1, by decide⟩ : Fin S16384x16.rank) = (0 : Fin S16384x16.rank)) = False := by decide
    simp only [h10, ↓reduceIte, Nat.zero_mul, Nat.zero_add]
    exact ⟨Nat.zero_le _, e.isLt⟩

variable (m : (ℓ : Loc nD τ sig) → Buf (Elt F) ℓ)

theorem iPts0_blocks (d : Dev nD) (f : Buf (Elt F) (iLoc0 d)) :
    (iLoc0 d ↦{fullShare} f : sProp 𝕄) = bigSep Finset.univ fun w : Fin 32 => iLoc0 d ↦[blk1 w]{fullShare} f := by
  rw [← pointsTo_biUnion Finset.univ (ℓ := iLoc0 d) blk1 blk1_disjoint, blk1_cover]
theorem iPts1_blocks (d : Dev nD) (f : Buf (Elt F) (iLoc1 d)) :
    (iLoc1 d ↦{fullShare} f : sProp 𝕄) = bigSep Finset.univ fun w : Fin 32 => iLoc1 d ↦[blk1 w]{fullShare} f := by
  rw [← pointsTo_biUnion Finset.univ (ℓ := iLoc1 d) blk1 blk1_disjoint, blk1_cover]
theorem oPts0_blocks (d : Dev nD) (f : Buf (Elt F) (oLoc0 d)) :
    (oLoc0 d ↦{fullShare} f : sProp 𝕄) = bigSep Finset.univ fun w : Fin 32 => oLoc0 d ↦[blk2 w]{fullShare} f := by
  rw [← pointsTo_biUnion Finset.univ (ℓ := oLoc0 d) blk2 blk2_disjoint, blk2_cover]
theorem oPts1_blocks (d : Dev nD) (f : Buf (Elt F) (oLoc1 d)) :
    (oLoc1 d ↦{fullShare} f : sProp 𝕄) = bigSep Finset.univ fun w : Fin 32 => oLoc1 d ↦[blk2 w]{fullShare} f := by
  rw [← pointsTo_biUnion Finset.univ (ℓ := oLoc1 d) blk2 blk2_disjoint, blk2_cover]

variable [FloatOps F]

/-- The whole-batch statement: `f` holds, row by row, the rows of `t` that `ids` names. -/
theorem gathered_of_rows {ids : IVec S16384 32} {t : FVec F S1000000x16 .f32} {f : FVec F S16384x16 .f32}
    (h : ∀ w : Fin 32, RowsOf ids t w f) : Spec.Gathered ids t f := by
  intro r e hlt
  have hw : r.val / 512 < 32 := by have := r.isLt; omega
  have hr : 512 * (⟨r.val / 512, hw⟩ : Fin 32).val + (⟨r.val % 512, Nat.mod_lt _ (by decide)⟩ : Fin 512).val < 16384 := by
    have := r.isLt; show 512 * (r.val / 512) + r.val % 512 < 16384; omega
  have hrr : (⟨512 * (⟨r.val / 512, hw⟩ : Fin 32).val + (⟨r.val % 512, Nat.mod_lt _ (by decide)⟩ : Fin 512).val, hr⟩ : Fin 16384) = r :=
    Fin.ext (by show 512 * (r.val / 512) + r.val % 512 = r.val; omega)
  have := h ⟨r.val / 512, hw⟩ ⟨r.val % 512, Nat.mod_lt _ (by decide)⟩ e hr
  rw [hrr] at this
  exact this hlt

/-- Thirty-two blocks of a gathered matrix, each at the rows its indices name, are one such matrix. -/
theorem out0_join (d : Dev nD) (ids : IVec S16384 32) (t : FVec F S1000000x16 .f32) :
    (bigSep Finset.univ fun w : Fin 32 => iprop(∃ f, ⌜RowsOf ids t w f⌝ ∗ oLoc0 d ↦[blk2 w]{fullShare} f))
      ⊢ (iprop(∃ f, ⌜Spec.Gathered ids t f⌝ ∗ oLoc0 d ↦{fullShare} f) : sProp 𝕄) := by
  refine (bigSep_exists_pi Finset.univ (fun (w : Fin 32) (f : Buf (Elt F) (oLoc0 d)) => iprop(⌜RowsOf ids t w f⌝ ∗ oLoc0 d ↦[blk2 w]{fullShare} f))).trans ?_
  iintro ⟨%fs, H⟩
  ihave H1 := (bigSep_pure_sep Finset.univ (fun w : Fin 32 => RowsOf ids t w (fs w)) (fun w => oLoc0 d ↦[blk2 w]{fullShare} fs w)) $$ H
  icases H1 with ⟨%hR, H⟩
  ihave H' := (pointsTo_biUnion_join Finset.univ blk2 fs (fs 0) blk2_disjoint) $$ H
  icases H' with ⟨%g, %hg, Hg⟩
  rw [blk2_cover]
  iexists g
  isplitr
  · ipureintro
    refine gathered_of_rows fun w r e hr hlt => ?_
    rw [hg w (Finset.mem_univ w) _ (mem_blk2 w r e hr)]
    exact hR w (Finset.mem_univ w) r e hr hlt
  · iexact Hg

theorem out1_join (d : Dev nD) (ids : IVec S16384 32) (t : FVec F S1000000x16 .f32) :
    (bigSep Finset.univ fun w : Fin 32 => iprop(∃ f, ⌜RowsOf ids t w f⌝ ∗ oLoc1 d ↦[blk2 w]{fullShare} f))
      ⊢ (iprop(∃ f, ⌜Spec.Gathered ids t f⌝ ∗ oLoc1 d ↦{fullShare} f) : sProp 𝕄) := by
  refine (bigSep_exists_pi Finset.univ (fun (w : Fin 32) (f : Buf (Elt F) (oLoc1 d)) => iprop(⌜RowsOf ids t w f⌝ ∗ oLoc1 d ↦[blk2 w]{fullShare} f))).trans ?_
  iintro ⟨%fs, H⟩
  ihave H1 := (bigSep_pure_sep Finset.univ (fun w : Fin 32 => RowsOf ids t w (fs w)) (fun w => oLoc1 d ↦[blk2 w]{fullShare} fs w)) $$ H
  icases H1 with ⟨%hR, H⟩
  ihave H' := (pointsTo_biUnion_join Finset.univ blk2 fs (fs 0) blk2_disjoint) $$ H
  icases H' with ⟨%g, %hg, Hg⟩
  rw [blk2_cover]
  iexists g
  isplitr
  · ipureintro
    refine gathered_of_rows fun w r e hr hlt => ?_
    rw [hg w (Finset.mem_univ w) _ (mem_blk2 w r e hr)]
    exact hR w (Finset.mem_univ w) r e hr hlt
  · iexact Hg

/-! ## The call's operands dealt to the workers, and the results gathered -/

/-- The remainder of a table's share after the thirty-two workers' read shares. -/
abbrev restShare : PosShare TreeShare := Transfers.shareDrop fullShare 32

theorem out0_split (d : Dev nD) (f0 : Buf (Elt F) (oLoc0 d)) :
    (oLoc0 d ↦{fullShare} f0 : sProp 𝕄) ⊢ bigSep Finset.univ fun w : Fin 32 => iprop(∃ f, oLoc0 d ↦[blk2 w]{fullShare} f) := by
  rw [oPts0_blocks]
  exact bigSep_mono fun w _ => exists_intro (Φ := fun f => (oLoc0 d ↦[blk2 w]{fullShare} f : sProp 𝕄)) f0
theorem out1_split (d : Dev nD) (f1 : Buf (Elt F) (oLoc1 d)) :
    (oLoc1 d ↦{fullShare} f1 : sProp 𝕄) ⊢ bigSep Finset.univ fun w : Fin 32 => iprop(∃ f, oLoc1 d ↦[blk2 w]{fullShare} f) := by
  rw [oPts1_blocks]
  exact bigSep_mono fun w _ => exists_intro (Φ := fun f => (oLoc1 d ↦[blk2 w]{fullShare} f : sProp 𝕄)) f1

/-- The six arrays whole are the workers' parts beside the tables' remainders. -/
theorem deal (d : Dev nD) (f0 : Buf (Elt F) (oLoc0 d)) (f1 : Buf (Elt F) (oLoc1 d)) :
    iprop((iLoc0 d ↦{fullShare} m (iLoc0 d)) ∗ (iLoc1 d ↦{fullShare} m (iLoc1 d)) ∗ (tLoc0 d ↦{fullShare} tab0 m d) ∗ (tLoc1 d ↦{fullShare} tab1 m d)
        ∗ (oLoc0 d ↦{fullShare} f0) ∗ (oLoc1 d ↦{fullShare} f1))
      ⊢ (iprop(((tLoc0 d ↦{restShare} tab0 m d) ∗ (tLoc1 d ↦{restShare} tab1 m d)) ∗ bigSep Finset.univ fun w : Fin 32 => tileGo m d w) : sProp 𝕄) := by
  unfold tileGo
  rw [bigSep_sep', bigSep_sep', bigSep_sep', bigSep_sep', bigSep_sep', iPts0_blocks, iPts1_blocks]
  iintro ⟨Hi0, Hi1, Ht0, Ht1, Ho0, Ho1⟩
  ihave Ht0' := (Transfers.pointsTo_toks_split (ℓ := tLoc0 d) (S := Finset.univ) (f := tab0 m d) fullShare 32) $$ Ht0
  ihave Ht1' := (Transfers.pointsTo_toks_split (ℓ := tLoc1 d) (S := Finset.univ) (f := tab1 m d) fullShare 32) $$ Ht1
  icases Ht0' with ⟨Hr0, Ht0⟩
  icases Ht1' with ⟨Hr1, Ht1⟩
  isplitl [Hr0 Hr1]
  · isplitl [Hr0]; · iexact Hr0
    iexact Hr1
  isplitl [Hi0]; · iexact Hi0
  isplitl [Hi1]; · iexact Hi1
  isplitl [Ht0]; · iexact Ht0
  isplitl [Ht1]; · iexact Ht1
  isplitl [Ho0]
  · iapply (out0_split d f0); iexact Ho0
  · iapply (out1_split d f1); iexact Ho1

/-- The workers' results beside the tables' remainders are the six arrays whole, the two gathered matrices at the rows
    the indices name. -/
theorem gather (d : Dev nD) :
    iprop(((tLoc0 d ↦{restShare} tab0 m d) ∗ (tLoc1 d ↦{restShare} tab1 m d)) ∗ bigSep Finset.univ fun w : Fin 32 => tileTd m d w)
      ⊢ (iprop((iLoc0 d ↦{fullShare} m (iLoc0 d)) ∗ (iLoc1 d ↦{fullShare} m (iLoc1 d)) ∗ (tLoc0 d ↦{fullShare} tab0 m d) ∗ (tLoc1 d ↦{fullShare} tab1 m d)
        ∗ (∃ f, ⌜Spec.Gathered (m (iLoc0 d)) (tab0 m d) f⌝ ∗ oLoc0 d ↦{fullShare} f)
        ∗ (∃ f, ⌜Spec.Gathered (m (iLoc1 d)) (tab1 m d) f⌝ ∗ oLoc1 d ↦{fullShare} f)) : sProp 𝕄) := by
  unfold tileTd
  rw [bigSep_sep', bigSep_sep', bigSep_sep', bigSep_sep', bigSep_sep', iPts0_blocks, iPts1_blocks]
  iintro ⟨⟨Hr0, Hr1⟩, Hi0, Hi1, Ht0, Ht1, Ho0, Ho1⟩
  isplitl [Hi0]; · iexact Hi0
  isplitl [Hi1]; · iexact Hi1
  isplitl [Hr0 Ht0]
  · iapply (Transfers.pointsTo_toks_join (ℓ := tLoc0 d) (S := Finset.univ) (f := tab0 m d) fullShare 32)
    isplitl [Hr0]; · iexact Hr0
    iexact Ht0
  isplitl [Hr1 Ht1]
  · iapply (Transfers.pointsTo_toks_join (ℓ := tLoc1 d) (S := Finset.univ) (f := tab1 m d) fullShare 32)
    isplitl [Hr1]; · iexact Hr1
    iexact Ht1
  isplitl [Ho0]
  · iapply (out0_join d (m (iLoc0 d)) (tab0 m d)); iexact Ho0
  · iapply (out1_join d (m (iLoc1 d)) (tab1 m d)); iexact Ho1

/-- What the call takes for the two SparseCores is the workers' parts; what it hands back, their results. -/
theorem st0_eq (d : Dev nD) : (bigSep Finset.univ fun c : Fin ((K (F := F)).nCore 0) => (P m).st 0 d c) = bigSep Finset.univ fun w : Fin 32 => tileGo m d w :=
  bigSep_workers (fun w => tileGo m d w)
theorem dn0_eq (d : Dev nD) : (bigSep Finset.univ fun c : Fin ((K (F := F)).nCore 0) => (P m).dn 0 d c) = bigSep Finset.univ fun w : Fin 32 => tileTd m d w :=
  bigSep_workers (fun w => tileTd m d w)

/-- A SparseCore's operands are its tasks' and its results theirs: nothing to split. -/
theorem vecSplit : (K (F := F)).VecSplit' (P m) 0 := by
  intro d c
  show (bigSep Finset.univ fun i : Fin ((K (F := F)).nSub 0) => tileGo m d (wid ((K (F := F)).core 0 c) ((K (F := F)).sub 0 i)))
    ⊢ |={Set.univ}=> iprop((bigSep Finset.univ fun i : Fin ((K (F := F)).nSub 0) => tileGo m d (wid ((K (F := F)).core 0 c) ((K (F := F)).sub 0 i)))
      ∗ ((bigSep Finset.univ fun i : Fin ((K (F := F)).nSub 0) => tileTd m d (wid ((K (F := F)).core 0 c) ((K (F := F)).sub 0 i)))
          -∗ (bigSep Finset.univ fun i : Fin ((K (F := F)).nSub 0) => tileTd m d (wid ((K (F := F)).core 0 c) ((K (F := F)).sub 0 i)))))
  iintro H; imodintro
  isplitl [H]; · iexact H
  iintro H; iexact H

end Cert.Proof.KB

end
-- ==== Proof.HostB.lean ====
/-
  @main's host operations around the two kernels, as three straight lines, and what each array holds after them.

  Before the SparseCore call each table is transposed, passed through a barrier and transposed back; between the two
  kernels the first layer's weights are cut into their two halves of sixteen rows and the three biases are reshaped to
  rows; after the TensorCore kernel its one-column result is reshaped to a vector. The SparseCore call writes the two
  gathered matrices; the TensorCore kernel writes its result: the valuation is updated there.
-/
import proofs.«212205_g31413390803091_cont_8to1_b_1662_24_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay)
open Idealize.ShloMosaic.StableHlo
open Idealize.SL Idealize.SL.Sem

variable {F : FTy → Type} [FloatOps F]

/-- The three lines. -/
abbrev ops1 : List (HloOp τ sig (Elt F)) :=
  [ StableHlo.unary main_arg2 main_v0 ((transpose S16x1000000 [1, 0] · transposes_S1000000x16_S16x1000000_1_0) : (⟨S1000000x16, .f32⟩ : BufTy).Contents (Elt F) → (⟨S16x1000000, .f32⟩ : BufTy).Contents (Elt F)),
    StableHlo.unary main_arg3 main_v1 ((transpose S16x1000000 [1, 0] · transposes_S1000000x16_S16x1000000_1_0) : (⟨S1000000x16, .f32⟩ : BufTy).Contents (Elt F) → (⟨S16x1000000, .f32⟩ : BufTy).Contents (Elt F)),
    StableHlo.unary main_v0 main_v2_0 (id : (⟨S16x1000000, .f32⟩ : BufTy).Contents (Elt F) → (⟨S16x1000000, .f32⟩ : BufTy).Contents (Elt F)),
    StableHlo.unary main_v1 main_v2_1 (id : (⟨S16x1000000, .f32⟩ : BufTy).Contents (Elt F) → (⟨S16x1000000, .f32⟩ : BufTy).Contents (Elt F)),
    StableHlo.unary main_v2_0 main_v3 ((transpose S1000000x16 [1, 0] · transposes_S16x1000000_S1000000x16_1_0) : (⟨S16x1000000, .f32⟩ : BufTy).Contents (Elt F) → (⟨S1000000x16, .f32⟩ : BufTy).Contents (Elt F)),
    StableHlo.unary main_v2_1 main_v4 ((transpose S1000000x16 [1, 0] · transposes_S16x1000000_S1000000x16_1_0) : (⟨S16x1000000, .f32⟩ : BufTy).Contents (Elt F) → (⟨S1000000x16, .f32⟩ : BufTy).Contents (Elt F)) ]

abbrev ops2 : List (HloOp τ sig (Elt F)) :=
  [ StableHlo.unary main_arg4 main_v6 ((extractStridedSlice S16x64 ![0, 0] · slices_S32x64_S16x64_0_0) : (⟨S32x64, .f32⟩ : BufTy).Contents (Elt F) → (⟨S16x64, .f32⟩ : BufTy).Contents (Elt F)),
    StableHlo.unary main_arg4 main_v7 ((extractStridedSlice S16x64 ![16, 0] · slices_S32x64_S16x64_16_0) : (⟨S32x64, .f32⟩ : BufTy).Contents (Elt F) → (⟨S16x64, .f32⟩ : BufTy).Contents (Elt F)),
    StableHlo.reshape main_arg5 main_v8 rfl shapeCasts_S64_S1x64,
    StableHlo.reshape main_arg7 main_v9 rfl shapeCasts_S32_S1x32,
    StableHlo.reshape main_arg9 main_v10 rfl shapeCasts_S1_S1x1 ]

abbrev ops3 : List (HloOp τ sig (Elt F)) :=
  [ StableHlo.reshape main_v11 main_v12 rfl shapeCasts_S16384x1_S16384 ]

/-- @main is the first line, the SparseCore call, the second line, the TensorCore kernel, the third line. -/
theorem main_eq (d : Dev nD) :
    main (F := F) d = (seq ops1 >>= fun _ => sc.run d 0 >>= fun _ => seq ops2 >>= fun _ =>
      Prog.lift (.customCall (SparseCore.inner (Pipeline.entry 0)) ()) >>= fun _ => seq ops3 >>= fun _ => pure ⟨⟩) := by
  simp only [main, seq, bind_assoc, pure_bind]

/-! ## The arrays as device buffers, and the valuations along @main -/

abbrev rf (b : Ref sig .tc) : DevRef τ sig := Proc.devRef .tc b

/-- @main's arrays: the TensorCore's references that are not scoped. -/
def tcRefs : Finset (Ref sig .tc) := Finset.univ.filter fun b : Ref sig .tc => ¬ b.isScoped
def SALL : Finset (DevRef τ sig) := tcRefs.map ⟨Proc.devRef .tc, Proc.devRef_injective _⟩

theorem mem_SALL (b : Ref sig .tc) (h : b.isScoped = false) : rf b ∈ SALL :=
  Finset.mem_map_of_mem _ (Finset.mem_filter.mpr ⟨Finset.mem_univ _, by simp [h]⟩)

variable (m : (ℓ : Loc nD τ sig) → Buf (Elt F) ℓ)

/-- The launch contents. -/
def V0 (d : Dev nD) : Valuation τ sig (Elt F) := fun b => m (d, b)
/-- After the first line. -/
def A1 (d : Dev nD) : Valuation τ sig (Elt F) := after ops1 (V0 m d)
/-- After the SparseCore call, the gathered matrices at `f0`, `f1`. -/
def V2 (d : Dev nD) (f0 f1 : FVec F S16384x16 .f32) : Valuation τ sig (Elt F) :=
  Function.update (Function.update (A1 m d) (rf main_v5_0) f0) (rf main_v5_1) f1
/-- After the second line. -/
def A2 (d : Dev nD) (f0 f1 : FVec F S16384x16 .f32) : Valuation τ sig (Elt F) := after ops2 (V2 m d f0 f1)

/-- The two halves of the first layer's weights and the biases as rows, as the second line leaves them. -/
abbrev w1uOf (a4 : FVec F S32x64 .f32) : FVec F S16x64 .f32 := extractStridedSlice S16x64 ![0, 0] a4 slices_S32x64_S16x64_0_0
abbrev w1iOf (a4 : FVec F S32x64 .f32) : FVec F S16x64 .f32 := extractStridedSlice S16x64 ![16, 0] a4 slices_S32x64_S16x64_16_0
abbrev b1Of (a5 : FVec F S64 .f32) : FVec F S1x64 .f32 := shapeCast S1x64 a5 shapeCasts_S64_S1x64
abbrev b2Of (a7 : FVec F S32 .f32) : FVec F S1x32 .f32 := shapeCast S1x32 a7 shapeCasts_S32_S1x32
abbrev b3Of (a9 : FVec F S1 .f32) : FVec F S1x1 .f32 := shapeCast S1x1 a9 shapeCasts_S1_S1x1

/-- The kernel program's result, from the two gathered matrices and the weights. -/
def kRes (f0 f1 : FVec F S16384x16 .f32) (a4 : FVec F S32x64 .f32) (a5 : FVec F S64 .f32) (a6 : FVec F S64x32 .f32) (a7 : FVec F S32 .f32)
    (a8 : FVec F S32x1 .f32) (a9 : FVec F S1 .f32) : FVec F S16384 .f32 :=
  shapeCast S16384 (mlpAll f0 f1 (w1uOf a4) (w1iOf a4) (b1Of a5) a6 (b2Of a7) a8 (b3Of a9)) shapeCasts_S16384x1_S16384

/-- The TensorCore kernel's result on what the second line left. -/
def mlpOf (d : Dev nD) (f0 f1 : FVec F S16384x16 .f32) : FVec F S16384x1 .f32 :=
  mlpAll f0 f1 (w1uOf (m (d, rf main_arg4))) (w1iOf (m (d, rf main_arg4))) (b1Of (m (d, rf main_arg5))) (m (d, rf main_arg6))
    (b2Of (m (d, rf main_arg7))) (m (d, rf main_arg8)) (b3Of (m (d, rf main_arg9)))

/-- After the TensorCore kernel. -/
def V3 (d : Dev nD) (f0 f1 : FVec F S16384x16 .f32) : Valuation τ sig (Elt F) :=
  Function.update (A2 m d f0 f1) (rf main_v11) (mlpOf m d f0 f1)
/-- After the third line. -/
def A3 (d : Dev nD) (f0 f1 : FVec F S16384x16 .f32) : Valuation τ sig (Elt F) := after ops3 (V3 m d f0 f1)

/-! ### What the arrays hold along the way -/

theorem A1_arg0 (d : Dev nD) : A1 m d (rf main_arg0) = m (d, rf main_arg0) := by unfold A1; after_results; rfl
theorem A1_arg1 (d : Dev nD) : A1 m d (rf main_arg1) = m (d, rf main_arg1) := by unfold A1; after_results; rfl
theorem A1_v3 (d : Dev nD) : A1 m d (rf main_v3) = tabOf (m (d, rf main_arg2)) := by unfold A1; after_results; rfl
theorem A1_v4 (d : Dev nD) : A1 m d (rf main_v4) = tabOf (m (d, rf main_arg3)) := by unfold A1; after_results; rfl

theorem V2_o0 (d : Dev nD) (f0 f1 : FVec F S16384x16 .f32) : V2 m d f0 f1 (rf main_v5_0) = f0 := by
  unfold V2; rw [Function.update_of_ne (show rf main_v5_0 ≠ rf main_v5_1 by decide), Function.update_self]
theorem V2_o1 (d : Dev nD) (f0 f1 : FVec F S16384x16 .f32) : V2 m d f0 f1 (rf main_v5_1) = f1 := by
  unfold V2; rw [Function.update_self]
theorem V2_other (d : Dev nD) (f0 f1 : FVec F S16384x16 .f32) (b : DevRef τ sig) (h0 : b ≠ rf main_v5_0) (h1 : b ≠ rf main_v5_1) :
    V2 m d f0 f1 b = A1 m d b := by
  unfold V2; rw [Function.update_of_ne h1, Function.update_of_ne h0]

theorem A2_o0 (d : Dev nD) (f0 f1 : FVec F S16384x16 .f32) : A2 m d f0 f1 (rf main_v5_0) = f0 := by
  unfold A2; after_results; exact V2_o0 m d f0 f1
theorem A2_o1 (d : Dev nD) (f0 f1 : FVec F S16384x16 .f32) : A2 m d f0 f1 (rf main_v5_1) = f1 := by
  unfold A2; after_results; exact V2_o1 m d f0 f1

theorem A2_v6 (d : Dev nD) (f0 f1 : FVec F S16384x16 .f32) : A2 m d f0 f1 (rf main_v6) = w1uOf (m (d, rf main_arg4)) := by
  unfold A2; after_results
  rw [V2_other m d f0 f1 _ (by decide) (by decide)]; unfold A1; after_results; rfl
theorem A2_v7 (d : Dev nD) (f0 f1 : FVec F S16384x16 .f32) : A2 m d f0 f1 (rf main_v7) = w1iOf (m (d, rf main_arg4)) := by
  unfold A2; after_results
  rw [V2_other m d f0 f1 _ (by decide) (by decide)]; unfold A1; after_results; rfl
theorem A2_v8 (d : Dev nD) (f0 f1 : FVec F S16384x16 .f32) : A2 m d f0 f1 (rf main_v8) = b1Of (m (d, rf main_arg5)) := by
  unfold A2; after_results
  rw [V2_other m d f0 f1 _ (by decide) (by decide)]; unfold A1; after_results; rfl
theorem A2_v9 (d : Dev nD) (f0 f1 : FVec F S16384x16 .f32) : A2 m d f0 f1 (rf main_v9) = b2Of (m (d, rf main_arg7)) := by
  unfold A2; after_results
  rw [V2_other m d f0 f1 _ (by decide) (by decide)]; unfold A1; after_results; rfl
theorem A2_v10 (d : Dev nD) (f0 f1 : FVec F S16384x16 .f32) : A2 m d f0 f1 (rf main_v10) = b3Of (m (d, rf main_arg9)) := by
  unfold A2; after_results
  rw [V2_other m d f0 f1 _ (by decide) (by decide)]; unfold A1; after_results; rfl
theorem A2_arg6 (d : Dev nD) (f0 f1 : FVec F S16384x16 .f32) : A2 m d f0 f1 (rf main_arg6) = m (d, rf main_arg6) := by
  unfold A2; after_results
  rw [V2_other m d f0 f1 _ (by decide) (by decide)]; unfold A1; after_results; rfl
theorem A2_arg8 (d : Dev nD) (f0 f1 : FVec F S16384x16 .f32) : A2 m d f0 f1 (rf main_arg8) = m (d, rf main_arg8) := by
  unfold A2; after_results
  rw [V2_other m d f0 f1 _ (by decide) (by decide)]; unfold A1; after_results; rfl

/-- No line and no kernel writes an argument: it holds its launch contents to the end. -/
theorem A3_arg (d : Dev nD) (f0 f1 : FVec F S16384x16 .f32) (b : Ref sig .tc)
    (hb : b = main_arg0 ∨ b = main_arg1 ∨ b = main_arg2 ∨ b = main_arg3 ∨ b = main_arg4 ∨ b = main_arg5 ∨ b = main_arg6 ∨ b = main_arg7 ∨ b = main_arg8 ∨ b = main_arg9) :
    A3 m d f0 f1 (rf b) = m (d, rf b) := by
  rcases hb with rfl | rfl | rfl | rfl | rfl | rfl | rfl | rfl | rfl | rfl <;>
  · unfold A3; after_results
    unfold V3; rw [Function.update_of_ne (by decide)]
    unfold A2; after_results
    rw [V2_other m d f0 f1 _ (by decide) (by decide)]; unfold A1; after_results; rfl

/-- The result: the TensorCore kernel's column, reshaped. -/
theorem A3_v12 (d : Dev nD) (f0 f1 : FVec F S16384x16 .f32) :
    A3 m d f0 f1 (rf main_v12) = kRes f0 f1 (m (d, rf main_arg4)) (m (d, rf main_arg5)) (m (d, rf main_arg6)) (m (d, rf main_arg7)) (m (d, rf main_arg8)) (m (d, rf main_arg9)) := by
  unfold A3; after_results
  unfold V3; rw [Function.update_self]; rfl

end Cert.Proof.KB

end
-- ==== Proof.RegionGhostB.lean ====
/-
  The dense layers' kernel region: the ghost state its staging cells need from the launch.

  The pipeline's staging buffers complete on DMA semaphores of the TensorCore (its cells).  The launch deals, per
  device, each cell's launch ghost state and the duty tokens of its rounds; the region's entry allocates the cells'
  invariants from them.
-/
import proofs.«212205_g31413390803091_cont_8to1_b_1662_24_alg».proof.Proof.CommonB
import Idealize.ShloMosaic.Lib.Pipeline.Sound

noncomputable section

namespace Cert.Proof.KB

open Cert.Kernel Cert.Kernel.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The launch element of the pipeline's rounds: every staging cell at its first round, every duty token. -/
abbrev regionInit : UP := initOf (Pipeline.cells cfgs Gen.cellOf_inj) (Pipeline.launchToks cfgs Gen.cellOf_inj)

/-- What the region on device `d` needs from the launch: its staging cells' launch ghost state and their duty tokens. -/
def RegionGhost (d : Dev nD) : sProp 𝕄 :=
  iprop(Pipeline.cellsGhost cfgs EP 0 d ∗ Pipeline.toksInit cfgs EP 0 d)

theorem bigSep_fin1 (Φ : Fin 1 → sProp 𝕄) : bigSep Finset.univ Φ = Φ 0 := by
  rw [show (Finset.univ : Finset (Fin 1)) = {0} from rfl, bigSep_singleton]

/-- The launch element funds every device's region. -/
theorem region_fund :
    BI.own ((EP : Emb UP 𝕄) regionInit) ⊢ iprop(|==> bigSep Finset.univ fun d : Dev nD => RegionGhost (F := F) d) := by
  refine (Pipeline.fund_ghost cfgs (EP : Emb UP 𝕄) Gen.cellOf_inj).trans (bupd_mono ?_)
  simp only [bigSep_fin1]
  unfold RegionGhost
  exact BI.Entails.refl _

end Cert.Proof.KB

end
-- ==== Proof.IfaceB.lean ====
/-
  The two kernels' proofs as statements: one vector subcore's task of the gather, and the TensorCore kernel's call
  with the value it leaves. The launch is proved from these two; each is proved in its own module.
-/
import proofs.«212205_g31413390803091_cont_8to1_b_1662_24_alg».proof.Proof.CommonB
import proofs.«212205_g31413390803091_cont_8to1_b_1662_24_alg».proof.Proof.RegionGhostB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- One worker's task at a symbolic place: from its entries of the index vectors, its read shares of the tables and
    its rows of the gathered matrices, to those rows at the table rows its indices name. -/
def TileBody (m : (ℓ : Loc nD τ sig) → Buf (Elt F) ℓ) : Prop :=
  ∀ (_ : (K (F := F)).Facts) (_ : PreOK m) (d : Dev nD) (L : grid0.Coords) (O : CellTallies nD τ sig (HIx 1)) (W : Waits sig (HIx 1)) (_ : ∀ g, O g none = 0),
    iprop(levAts (K (F := F)).L (K (F := F)).lev ∗ emp ∗ tileGo m d (wid (cV L) (jV L)) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tileTd m d (wid (cV L) (jV L)) ∗ scopedBufs (V d (cV L) (jV L)) ∗ scopedSems0 (V d (cV L) (jV L)) ∗ ∃ W', ⌜∀ p ∈ W', p ∈ W ∨ p.2 = none⌝ ∗ owes (V d (cV L) (jV L)) O W')

/-- The TensorCore kernel's call inside @main: from its nine operands whole (and its result array at anything), after
    the SparseCore call has returned, to the result array at the dense layers' value on the whole batch. -/
def RegionWp : Prop :=
  ∀ (d : Dev nD) (u i : FVec F S16384x16 .f32) (w1u w1i : FVec F S16x64 .f32) (b1 : FVec F S1x64 .f32) (w2 : FVec F S64x32 .f32)
    (b2 : FVec F S1x32 .f32) (w3 : FVec F S32x1 .f32) (b3 : FVec F S1x1 .f32) (Φ : PUnit → sProp 𝕄),
    iprop(levAts (K (F := F)).L (K (F := F)).lev ∗ (K (F := F)).tcSt EH d 1 ∗ boundary (SparseCore.T d) ∗ RegionGhost (F := F) d
        ∗ ((SparseCore.T d).loc main_v5_0 ↦{fullShare} u) ∗ ((SparseCore.T d).loc main_v5_1 ↦{fullShare} i) ∗ ((SparseCore.T d).loc main_v6 ↦{fullShare} w1u) ∗ ((SparseCore.T d).loc main_v7 ↦{fullShare} w1i)
        ∗ ((SparseCore.T d).loc main_v8 ↦{fullShare} b1) ∗ ((SparseCore.T d).loc main_arg6 ↦{fullShare} w2) ∗ ((SparseCore.T d).loc main_v9 ↦{fullShare} b2) ∗ ((SparseCore.T d).loc main_arg8 ↦{fullShare} w3)
        ∗ ((SparseCore.T d).loc main_v10 ↦{fullShare} b3) ∗ (∃ f, (SparseCore.T d).loc main_v11 ↦{fullShare} f)
        ∗ (iprop((K (F := F)).tcSt EH d 1 ∗ boundary (SparseCore.T d)
            ∗ ((SparseCore.T d).loc main_v5_0 ↦{fullShare} u) ∗ ((SparseCore.T d).loc main_v5_1 ↦{fullShare} i) ∗ ((SparseCore.T d).loc main_v6 ↦{fullShare} w1u) ∗ ((SparseCore.T d).loc main_v7 ↦{fullShare} w1i)
            ∗ ((SparseCore.T d).loc main_v8 ↦{fullShare} b1) ∗ ((SparseCore.T d).loc main_arg6 ↦{fullShare} w2) ∗ ((SparseCore.T d).loc main_v9 ↦{fullShare} b2) ∗ ((SparseCore.T d).loc main_arg8 ↦{fullShare} w3)
            ∗ ((SparseCore.T d).loc main_v10 ↦{fullShare} b3) ∗ ((SparseCore.T d).loc main_v11 ↦{fullShare} mlpAll u i w1u w1i b1 w2 b2 w3 b3)) -∗ Φ ⟨⟩))
      ⊢ wp frame (wpE ((K (F := F)).defs (D (F := F))) 𝒱 (SparseCore.T d) none) Set.univ (Prog.lift (.customCall (SparseCore.inner (Pipeline.entry 0)) ())) Φ

end Cert.Proof.KB

end
-- ==== Proof.MainB.lean ====
/-
  The kernel program's run: the launch of its thirty-five threads.

  @main on the TensorCore runs its first line of host operations, hands the six arrays of the SparseCore call to the
  thirty-two vector subcores (each its block of the batch and a read share of the tables) and takes them back with
  the two gathered matrices filled, runs its second line, runs the TensorCore kernel over the batch in eight blocks,
  and reshapes the result. Every weakly fair execution of all the threads terminates; at the end the arguments hold
  what they held at the launch and the result is the dense layers' value on the gathered rows.
-/
import proofs.«212205_g31413390803091_cont_8to1_b_1662_24_alg».proof.Proof.SplitB
import proofs.«212205_g31413390803091_cont_8to1_b_1662_24_alg».proof.Proof.HostB
import proofs.«212205_g31413390803091_cont_8to1_b_1662_24_alg».proof.Proof.IfaceB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)
open Idealize.ShloMosaic.ValueIdx

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## What the final memory holds -/

theorem held_agree (c : Thread nD τ) (Sx : Finset (DevRef τ sig)) (Vx : Valuation τ sig (Elt F)) (s' : Phys nD τ sig (Elt F)) :
    iprop((held c Sx Vx : sProp 𝕄) ∗ SI s') ⊢ (⌜∀ b ∈ Sx, s'.mem.mem (c.1, b) = Vx b⌝ : sProp 𝕄) := by
  classical
  induction Sx using Finset.induction_on with
  | empty => iintro -; ipureintro; intro b hb; exact absurd hb (Finset.notMem_empty _)
  | insert b Sx hb ih =>
    rw [show (held c (insert b Sx) Vx : sProp 𝕄) = iprop(((c.1, b) ↦{fullShare} Vx b) ∗ held c Sx Vx) from bigSep_insert hb]
    iintro ⟨⟨Hb, HS⟩, HSI⟩
    ihave H := (persistent_entails_right (SI_pointsTo_agree (st := s') (ℓ := (c.1, b)) (I := Finset.univ) (q := fullShare) (f := Vx b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | h
    · exact funext fun i => h1 i (Finset.mem_univ i)
    · exact h2 b' h

/-! ## The arrays of the two kernels, taken out of @main's arrays and put back -/

/-- The SparseCore call's six arrays; the TensorCore kernel's ten. -/
def T6 : Finset (DevRef τ sig) := {rf main_arg0, rf main_arg1, rf main_v3, rf main_v4, rf main_v5_0, rf main_v5_1}
def T10 : Finset (DevRef τ sig) :=
  {rf main_v5_0, rf main_v5_1, rf main_v6, rf main_v7, rf main_v8, rf main_arg6, rf main_v9, rf main_arg8, rf main_v10, rf main_v11}

theorem hT6 : T6 ⊆ SALL := by decide
theorem hT10 : T10 ⊆ SALL := by decide

theorem held_T6 (d : Dev nD) (W : Valuation τ sig (Elt F)) :
    (held (SparseCore.T d) T6 W : sProp 𝕄) = iprop(((d, rf main_arg0) ↦{fullShare} W (rf main_arg0)) ∗ ((d, rf main_arg1) ↦{fullShare} W (rf main_arg1))
      ∗ ((d, rf main_v3) ↦{fullShare} W (rf main_v3)) ∗ ((d, rf main_v4) ↦{fullShare} W (rf main_v4))
      ∗ ((d, rf main_v5_0) ↦{fullShare} W (rf main_v5_0)) ∗ ((d, rf main_v5_1) ↦{fullShare} W (rf main_v5_1))) := by
  unfold held T6
  rw [SparseCore.bigSep_insert' (by decide), SparseCore.bigSep_insert' (by decide), SparseCore.bigSep_insert' (by decide),
    SparseCore.bigSep_insert' (by decide), SparseCore.bigSep_insert' (by decide), bigSep_singleton]

theorem held_T10 (d : Dev nD) (W : Valuation τ sig (Elt F)) :
    (held (SparseCore.T d) T10 W : sProp 𝕄) = iprop(((d, rf main_v5_0) ↦{fullShare} W (rf main_v5_0)) ∗ ((d, rf main_v5_1) ↦{fullShare} W (rf main_v5_1))
      ∗ ((d, rf main_v6) ↦{fullShare} W (rf main_v6)) ∗ ((d, rf main_v7) ↦{fullShare} W (rf main_v7)) ∗ ((d, rf main_v8) ↦{fullShare} W (rf main_v8))
      ∗ ((d, rf main_arg6) ↦{fullShare} W (rf main_arg6)) ∗ ((d, rf main_v9) ↦{fullShare} W (rf main_v9)) ∗ ((d, rf main_arg8) ↦{fullShare} W (rf main_arg8))
      ∗ ((d, rf main_v10) ↦{fullShare} W (rf main_v10)) ∗ ((d, rf main_v11) ↦{fullShare} W (rf main_v11))) := by
  unfold held T10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable [FloatOps F]

/-- What the launch deals the TensorCore of its arrays is @main's arrays at the launch contents. -/
theorem unscoped_held (d : Dev nD) : (unscopedBufs d (fun b => m ((SparseCore.T d).loc b)) : sProp 𝕄) = held (SparseCore.T d) SALL (V0 m d) := by
  unfold unscopedBufs held SALL tcRefs
  rw [bigSep_map]
  rfl

/-- Before the SparseCore call: its six arrays at what the first line left, beside the rest. -/
theorem call_pre (d : Dev nD) :
    (held (SparseCore.T d) SALL (A1 m d) : sProp 𝕄) = iprop((((d, rf main_arg0) ↦{fullShare} m (d, rf main_arg0)) ∗ ((d, rf main_arg1) ↦{fullShare} m (d, rf main_arg1))
      ∗ ((d, rf main_v3) ↦{fullShare} tabOf (m (d, rf main_arg2))) ∗ ((d, rf main_v4) ↦{fullShare} tabOf (m (d, rf main_arg3)))
      ∗ ((d, rf main_v5_0) ↦{fullShare} A1 m d (rf main_v5_0)) ∗ ((d, rf main_v5_1) ↦{fullShare} A1 m d (rf main_v5_1))) ∗ held (SparseCore.T d) (SALL \ T6) (A1 m d)) := by
  rw [held_sub_split (SparseCore.T d) hT6 (A1 m d), held_T6, A1_arg0, A1_arg1, A1_v3, A1_v4]

/-- After it: the gathered matrices at `f0`, `f1`. -/
theorem call_post (d : Dev nD) (f0 f1 : FVec F S16384x16 .f32) :
    (held (SparseCore.T d) SALL (V2 m d f0 f1) : sProp 𝕄) = iprop((((d, rf main_arg0) ↦{fullShare} m (d, rf main_arg0)) ∗ ((d, rf main_arg1) ↦{fullShare} m (d, rf main_arg1))
      ∗ ((d, rf main_v3) ↦{fullShare} tabOf (m (d, rf main_arg2))) ∗ ((d, rf main_v4) ↦{fullShare} tabOf (m (d, rf main_arg3)))
      ∗ ((d, rf main_v5_0) ↦{fullShare} f0) ∗ ((d, rf main_v5_1) ↦{fullShare} f1)) ∗ held (SparseCore.T d) (SALL \ T6) (A1 m d)) := by
  rw [held_sub_split (SparseCore.T d) hT6 (V2 m d f0 f1), held_T6, V2_o0, V2_o1,
    V2_other m d f0 f1 (rf main_arg0) (by decide) (by decide), V2_other m d f0 f1 (rf main_arg1) (by decide) (by decide),
    V2_other m d f0 f1 (rf main_v3) (by decide) (by decide), V2_other m d f0 f1 (rf main_v4) (by decide) (by decide),
    A1_arg0, A1_arg1, A1_v3, A1_v4,
    held_congr (SparseCore.T d) (S := SALL \ T6) (V := V2 m d f0 f1) (V' := A1 m d) fun b hb =>
      V2_other m d f0 f1 b (fun e => (Finset.mem_sdiff.mp hb).2 (e ▸ (by decide : rf main_v5_0 ∈ T6)))
        (fun e => (Finset.mem_sdiff.mp hb).2 (e ▸ (by decide : rf main_v5_1 ∈ T6)))]

/-- Before the TensorCore kernel: its ten arrays at what the second line left, beside the rest. -/
theorem region_pre (d : Dev nD) (f0 f1 : FVec F S16384x16 .f32) :
    (held (SparseCore.T d) SALL (A2 m d f0 f1) : sProp 𝕄) = iprop((((d, rf main_v5_0) ↦{fullShare} f0) ∗ ((d, rf main_v5_1) ↦{fullShare} f1)
      ∗ ((d, rf main_v6) ↦{fullShare} w1uOf (m (d, rf main_arg4))) ∗ ((d, rf main_v7) ↦{fullShare} w1iOf (m (d, rf main_arg4))) ∗ ((d, rf main_v8) ↦{fullShare} b1Of (m (d, rf main_arg5)))
      ∗ ((d, rf main_arg6) ↦{fullShare} m (d, rf main_arg6)) ∗ ((d, rf main_v9) ↦{fullShare} b2Of (m (d, rf main_arg7))) ∗ ((d, rf main_arg8) ↦{fullShare} m (d, rf main_arg8))
      ∗ ((d, rf main_v10) ↦{fullShare} b3Of (m (d, rf main_arg9))) ∗ ((d, rf main_v11) ↦{fullShare} A2 m d f0 f1 (rf main_v11))) ∗ held (SparseCore.T d) (SALL \ T10) (A2 m d f0 f1)) := by
  rw [held_sub_split (SparseCore.T d) hT10 (A2 m d f0 f1), held_T10, A2_o0, A2_o1, A2_v6, A2_v7, A2_v8, A2_arg6, A2_v9, A2_arg8, A2_v10]

theorem V3_other (d : Dev nD) (f0 f1 : FVec F S16384x16 .f32) (b : DevRef τ sig) (h : b ≠ rf main_v11) : V3 m d f0 f1 b = A2 m d f0 f1 b := by
  unfold V3; rw [Function.update_of_ne h]
theorem V3_v11 (d : Dev nD) (f0 f1 : FVec F S16384x16 .f32) : V3 m d f0 f1 (rf main_v11) = mlpOf m d f0 f1 := by
  unfold V3; rw [Function.update_self]

/-- After it: its result at the dense layers' value. -/
theorem region_post (d : Dev nD) (f0 f1 : FVec F S16384x16 .f32) :
    (held (SparseCore.T d) SALL (V3 m d f0 f1) : sProp 𝕄) = iprop((((d, rf main_v5_0) ↦{fullShare} f0) ∗ ((d, rf main_v5_1) ↦{fullShare} f1)
      ∗ ((d, rf main_v6) ↦{fullShare} w1uOf (m (d, rf main_arg4))) ∗ ((d, rf main_v7) ↦{fullShare} w1iOf (m (d, rf main_arg4))) ∗ ((d, rf main_v8) ↦{fullShare} b1Of (m (d, rf main_arg5)))
      ∗ ((d, rf main_arg6) ↦{fullShare} m (d, rf main_arg6)) ∗ ((d, rf main_v9) ↦{fullShare} b2Of (m (d, rf main_arg7))) ∗ ((d, rf main_arg8) ↦{fullShare} m (d, rf main_arg8))
      ∗ ((d, rf main_v10) ↦{fullShare} b3Of (m (d, rf main_arg9))) ∗ ((d, rf main_v11) ↦{fullShare} mlpOf m d f0 f1)) ∗ held (SparseCore.T d) (SALL \ T10) (A2 m d f0 f1)) := by
  rw [held_sub_split (SparseCore.T d) hT10 (V3 m d f0 f1), held_T10, V3_v11,
    V3_other m d f0 f1 (rf main_v5_0) (by decide), V3_other m d f0 f1 (rf main_v5_1) (by decide), V3_other m d f0 f1 (rf main_v6) (by decide),
    V3_other m d f0 f1 (rf main_v7) (by decide), V3_other m d f0 f1 (rf main_v8) (by decide), V3_other m d f0 f1 (rf main_arg6) (by decide),
    V3_other m d f0 f1 (rf main_v9) (by decide), V3_other m d f0 f1 (rf main_arg8) (by decide), V3_other m d f0 f1 (rf main_v10) (by decide),
    A2_o0, A2_o1, A2_v6, A2_v7, A2_v8, A2_arg6, A2_v9, A2_arg8, A2_v10,
    held_congr (SparseCore.T d) (S := SALL \ T10) (V := V3 m d f0 f1) (V' := A2 m d f0 f1) fun b hb =>
      V3_other m d f0 f1 b (fun e => (Finset.mem_sdiff.mp hb).2 (e ▸ (by decide : rf main_v11 ∈ T10)))]

/-- The lines' operations only touch @main's arrays, and none allocates. -/
theorem pair_sub (x y : Ref sig .tc) (h : ({rf x, rf y} : Finset (DevRef τ sig)) ⊆ SALL) : ({rf x, rf y} : Finset (DevRef τ sig)) ⊆ SALL := h
theorem hS1 : ∀ op ∈ ops1 (F := F), op.bufs ⊆ SALL := by
  intro op hop
  simp only [List.mem_cons, List.not_mem_nil, or_false] at hop
  rcases hop with rfl | rfl | rfl | rfl | rfl | rfl
  · exact pair_sub main_arg2 main_v0 (by decide)
  · exact pair_sub main_arg3 main_v1 (by decide)
  · exact pair_sub main_v0 main_v2_0 (by decide)
  · exact pair_sub main_v1 main_v2_1 (by decide)
  · exact pair_sub main_v2_0 main_v3 (by decide)
  · exact pair_sub main_v2_1 main_v4 (by decide)
theorem hS2 : ∀ op ∈ ops2 (F := F), op.bufs ⊆ SALL := by
  intro op hop
  simp only [List.mem_cons, List.not_mem_nil, or_false] at hop
  rcases hop with rfl | rfl | rfl | rfl | rfl
  · exact pair_sub main_arg4 main_v6 (by decide)
  · exact pair_sub main_arg4 main_v7 (by decide)
  · exact pair_sub main_arg5 main_v8 (by decide)
  · exact pair_sub main_arg7 main_v9 (by decide)
  · exact pair_sub main_arg9 main_v10 (by decide)
theorem hS3 : ∀ op ∈ ops3 (F := F), op.bufs ⊆ SALL := by
  intro op hop
  simp only [List.mem_cons, List.not_mem_nil, or_false] at hop
  rcases hop with rfl
  exact pair_sub main_v11 main_v12 (by decide)
theorem hf1 : ∀ op ∈ ops1 (F := F), op.fresh = ∅ := by
  intro op hop
  simp only [List.mem_cons, List.not_mem_nil, or_false] at hop
  rcases hop with rfl | rfl | rfl | rfl | rfl | rfl <;> rfl
theorem hf2 : ∀ op ∈ ops2 (F := F), op.fresh = ∅ := by
  intro op hop
  simp only [List.mem_cons, List.not_mem_nil, or_false] at hop
  rcases hop with rfl | rfl | rfl | rfl | rfl <;> rfl
theorem hf3 : ∀ op ∈ ops3 (F := F), op.fresh = ∅ := by
  intro op hop
  simp only [List.mem_cons, List.not_mem_nil, or_false] at hop
  rcases hop with rfl
  rfl

/-! ## The vector subcores' obligation -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileBody m) (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile hF hpre d (coordsV ⟨_, hc.1⟩ ⟨_, hc.2⟩) O W hO).trans (wp_mono frame _ _ fun _ => obl_post)

/-! ## The launch element: the handshakes' rounds, the pipeline's rounds, the counters -/

def u₀ : UU := ((initOf (K (F := F)).hsCells (K (F := F)).hsToks, regionInit), 1)

omit [FloatOps F] in
theorem ownU_split (a : UH) (b : UP) (c : Counters) : (ownU ((a, b), c) : sProp 𝕄) ⊢ iprop(BI.own ((EH : Emb UH 𝕄) a) ∗ BI.own ((EP : Emb UP 𝕄) b)) := by
  have e1 : (ownU ((a, b), c) : sProp 𝕄) ⊢ iprop(BI.own ((EH : Emb UH 𝕄) a) ∗ ownU (((1 : UH), b), c)) :=
    BI.own_op_elim ((uEmb (nD := nD) (sig := sig) (Ix := HIx 1) (Val := Elt F) (Name := ℕ) (U := UU) (Lvl := ℕ)).toEmb.op_of_mem
      (Prod.mk_mem_op (Prod.mk_mem_op (URA.mem_op_one a) (URA.mem_one_op b)) (URA.mem_one_op c)))
  have e2 : (ownU (((1 : UH), b), c) : sProp 𝕄) ⊢ iprop(BI.own ((EP : Emb UP 𝕄) b) ∗ ownU (((1 : UH), (1 : UP)), c)) :=
    BI.own_op_elim ((uEmb (nD := nD) (sig := sig) (Ix := HIx 1) (Val := Elt F) (Name := ℕ) (U := UU) (Lvl := ℕ)).toEmb.op_of_mem
      (Prod.mk_mem_op (Prod.mk_mem_op (URA.mem_op_one (1 : UH)) (URA.mem_op_one b)) (URA.mem_one_op c)))
  iintro Hu
  ihave H := (e1) $$ Hu
  icases H with ⟨HH, Hy⟩
  ihave H2 := (e2) $$ Hy
  icases H2 with ⟨HP, -⟩
  isplitl [HH]; · iexact HH
  iexact HP

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own ((EH : Emb UH 𝕄) (initOf (K (F := F)).hsCells (K (F := F)).hsToks)) ∗ (bigSep Finset.univ fun d : Dev nD => RegionGhost (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (region_fund (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- What @main leaves: every array of its own at what the lines and the kernels left, the gathered matrices two
    matrices that hold the rows the indices name. -/
def FIN (d : Dev nD) : sProp 𝕄 :=
  iprop(∃ f0 f1, ⌜Spec.Gathered (m (d, rf main_arg0)) (tabOf (m (d, rf main_arg2))) f0 ∧ Spec.Gathered (m (d, rf main_arg1)) (tabOf (m (d, rf main_arg3))) f1⌝
    ∗ held (SparseCore.T d) SALL (A3 m d f0 f1))

set_option backward.isDefEq.respectTransparency.types false in
set_option maxHeartbeats 4000000 in
theorem hmain (hregion : RegionWp (F := F)) (κ : GSem nD τ sig → ℕ) (d : Dev nD) :
    iprop((K (F := F)).ctx EH (P m) κ ∗ (K (F := F)).tcSt EH d 0 ∗ (K (F := F)).tcRes m ρ d ∗ RegionGhost (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) SALL (V0 m d) from unscoped_held m d, main_eq]
  iintro ⟨#Hctx, Hst, ⟨Hb, Hheld, Hsems, -⟩, HG⟩
  ihave Hlev := ((K (F := F)).ctx_levAts κ) $$ Hctx
  -- the first line
  iapply (wp_seq (defs := (K (F := F)).defs (D (F := F))) 𝒱 none Set.univ d SALL _ (ops1 (F := F)) hS1 hf1 (V0 m d)) $$ [Hb Hheld]
  · isplitl [Hb] <;> iassumption
  iintro ⟨Hb, Hheld⟩
  ihave Hheld := (Entails.of_eq (show (held (d.tc : Thread nD τ) SALL (after (ops1 (F := F)) (V0 m d)) : sProp 𝕄) = held (SparseCore.T d) SALL (A1 m d) from rfl)) $$ Hheld
  -- the SparseCore call: its six arrays dealt to the thirty-two workers and gathered back
  ihave Hc := (Entails.of_eq (call_pre m d)) $$ Hheld
  icases Hc with ⟨⟨Hi0, Hi1, Ht0, Ht1, Ho0, Ho1⟩, Hrest⟩
  ihave Hd := (deal m d _ _) $$ [Hi0 Hi1 Ht0 Ht1 Ho0 Ho1]
  · isplitl [Hi0]; · iexact Hi0
    isplitl [Hi1]; · iexact Hi1
    isplitl [Ht0]; · iexact Ht0
    isplitl [Ht1]; · iexact Ht1
    isplitl [Ho0]; · iexact Ho0
    iexact Ho1
  icases Hd with ⟨Hr, Hgo⟩
  rw [wp_bind]
  iapply ((K (F := F)).wp_run (D (F := F)) 𝒱 (EH := EH) (P := P m) κ d 0) $$ [Hst Hgo Hr Hb Hrest Hsems HG]
  isplitr; · iexact Hctx
  isplitl [Hst]; · iexact Hst
  isplitl [Hgo]; · rw [st0_eq]; iexact Hgo
  iintro ⟨Hst, Hdn⟩
  ihave Hdn' := (Entails.of_eq (dn0_eq m d)) $$ Hdn
  ihave Hg := (gather m d) $$ [Hr Hdn']
  · isplitl [Hr] <;> iassumption
  icases Hg with ⟨Hi0, Hi1, Ht0, Ht1, ⟨%f0, %hg0, Ho0⟩, ⟨%f1, %hg1, Ho1⟩⟩
  ihave Hheld := (Entails.of_eq (call_post m d f0 f1).symm) $$ [Hi0 Hi1 Ht0 Ht1 Ho0 Ho1 Hrest]
  · isplitr [Hrest]
    · isplitl [Hi0]; · iexact Hi0
      isplitl [Hi1]; · iexact Hi1
      isplitl [Ht0]; · iexact Ht0
      isplitl [Ht1]; · iexact Ht1
      isplitl [Ho0]; · iexact Ho0
      iexact Ho1
    · iexact Hrest
  -- the second line
  iapply (wp_seq (defs := (K (F := F)).defs (D (F := F))) 𝒱 none Set.univ d SALL _ (ops2 (F := F)) hS2 hf2 (V2 m d f0 f1)) $$ [Hb Hheld]
  · isplitl [Hb] <;> iassumption
  iintro ⟨Hb, Hheld⟩
  ihave Hheld := (Entails.of_eq (show (held (d.tc : Thread nD τ) SALL (after (ops2 (F := F)) (V2 m d f0 f1)) : sProp 𝕄) = held (SparseCore.T d) SALL (A2 m d f0 f1) from rfl)) $$ Hheld
  -- the TensorCore kernel
  ihave Hr := (Entails.of_eq (region_pre m d f0 f1)) $$ Hheld
  icases Hr with ⟨⟨Hu, Hi, H6, H7, H8, Ha6, H9, Ha8, H10, H11⟩, Hrest⟩
  rw [wp_bind]
  iapply (hregion d f0 f1 _ _ _ _ _ _ _ _) $$ [Hst Hb HG Hu Hi H6 H7 H8 Ha6 H9 Ha8 H10 H11 Hrest Hsems]
  isplitr; · iexact Hlev
  isplitl [Hst]; · iexact Hst
  isplitl [Hb]; · iexact Hb
  isplitl [HG]; · iexact HG
  isplitl [Hu]; · iexact Hu
  isplitl [Hi]; · iexact Hi
  isplitl [H6]; · iexact H6
  isplitl [H7]; · iexact H7
  isplitl [H8]; · iexact H8
  isplitl [Ha6]; · iexact Ha6
  isplitl [H9]; · iexact H9
  isplitl [Ha8]; · iexact Ha8
  isplitl [H10]; · iexact H10
  isplitl [H11]; · iexists _; iexact H11
  iintro ⟨Hst, Hb, Hu, Hi, H6, H7, H8, Ha6, H9, Ha8, H10, H11⟩
  ihave Hheld := (Entails.of_eq (region_post m d f0 f1).symm) $$ [Hu Hi H6 H7 H8 Ha6 H9 Ha8 H10 H11 Hrest]
  · isplitr [Hrest]
    · isplitl [Hu]; · iexact Hu
      isplitl [Hi]; · iexact Hi
      isplitl [H6]; · iexact H6
      isplitl [H7]; · iexact H7
      isplitl [H8]; · iexact H8
      isplitl [Ha6]; · iexact Ha6
      isplitl [H9]; · iexact H9
      isplitl [Ha8]; · iexact Ha8
      isplitl [H10]; · iexact H10
      iexact H11
    · iexact Hrest
  -- the third line
  iapply (wp_seq (defs := (K (F := F)).defs (D (F := F))) 𝒱 none Set.univ d SALL _ (ops3 (F := F)) hS3 hf3 (V3 m d f0 f1)) $$ [Hb Hheld]
  · isplitl [Hb] <;> iassumption
  iintro ⟨Hb, Hheld⟩
  ihave Hheld := (Entails.of_eq (show (held (d.tc : Thread nD τ) SALL (after (ops3 (F := F)) (V3 m d f0 f1)) : sProp 𝕄) = held (SparseCore.T d) SALL (A3 m d f0 f1) from rfl)) $$ Hheld
  rw [wp_pure]; imodintro
  isplitl [Hst]; · iexact Hst
  unfold FIN
  iexists f0, f1
  isplitr
  · ipureintro; exact ⟨hg0, hg1⟩
  · iexact Hheld

/-! ## Reading the claim off the final memory -/

def fq (d : Dev nD) (s' : Phys nD τ sig (Elt F)) : Prop :=
  ∃ f0 f1, Spec.Gathered (m (d, rf main_arg0)) (tabOf (m (d, rf main_arg2))) f0 ∧ Spec.Gathered (m (d, rf main_arg1)) (tabOf (m (d, rf main_arg3))) f1
    ∧ ∀ b ∈ SALL, s'.mem.mem (d, b) = A3 m d f0 f1 b

theorem hfin (d : Dev nD) (s' : Phys nD τ sig (Elt F)) : iprop(FIN m d ∗ SI s') ⊢ (⌜fq m d s'⌝ : sProp 𝕄) := by
  unfold FIN
  iintro ⟨⟨%f0, %f1, %hg, Hheld⟩, HSI⟩
  ihave H := (held_agree (SparseCore.T d) SALL (A3 m d f0 f1) s') $$ [Hheld HSI]
  · isplitl [Hheld] <;> iassumption
  icases H with %h
  ipureintro
  exact ⟨f0, f1, hg.1, hg.2, h⟩

/-- The run's post: on every device the result is the dense layers' value on two matrices that hold the rows the
    indices name, and the ten arguments are unchanged. -/
def QC : PUnit × MemSt nD τ sig (Elt F) → Prop := fun r => ∀ c : Dev nD,
  (∃ f0 f1, Spec.Gathered (m (c, rf main_arg0)) (tabOf (m (c, rf main_arg2))) f0 ∧ Spec.Gathered (m (c, rf main_arg1)) (tabOf (m (c, rf main_arg3))) f1
    ∧ r.2.mem (c, rf main_v12) = kRes f0 f1 (m (c, rf main_arg4)) (m (c, rf main_arg5)) (m (c, rf main_arg6)) (m (c, rf main_arg7)) (m (c, rf main_arg8)) (m (c, rf main_arg9)))
  ∧ r.2.mem (c, rf main_arg0) = m (c, rf main_arg0) ∧ r.2.mem (c, rf main_arg1) = m (c, rf main_arg1) ∧ r.2.mem (c, rf main_arg2) = m (c, rf main_arg2)
  ∧ r.2.mem (c, rf main_arg3) = m (c, rf main_arg3) ∧ r.2.mem (c, rf main_arg4) = m (c, rf main_arg4) ∧ r.2.mem (c, rf main_arg5) = m (c, rf main_arg5)
  ∧ r.2.mem (c, rf main_arg6) = m (c, rf main_arg6) ∧ r.2.mem (c, rf main_arg7) = m (c, rf main_arg7) ∧ r.2.mem (c, rf main_arg8) = m (c, rf main_arg8)
  ∧ r.2.mem (c, rf main_arg9) = m (c, rf main_arg9)

theorem hQ (s' : Phys nD τ sig (Elt F)) (h : ∀ d, fq m d s') : QC m (⟨⟩, s'.mem) := by
  intro c
  obtain ⟨f0, f1, hg0, hg1, hh⟩ := h c
  have arg (b : Ref sig .tc) (hb : b.isScoped = false)
      (hb' : b = main_arg0 ∨ b = main_arg1 ∨ b = main_arg2 ∨ b = main_arg3 ∨ b = main_arg4 ∨ b = main_arg5 ∨ b = main_arg6 ∨ b = main_arg7 ∨ b = main_arg8 ∨ b = main_arg9) :
      s'.mem.mem (c, rf b) = m (c, rf b) := (hh _ (mem_SALL b hb)).trans (A3_arg m c f0 f1 b hb')
  refine ⟨⟨f0, f1, hg0, hg1, (hh _ (mem_SALL main_v12 rfl)).trans (A3_v12 m c f0 f1)⟩,
    arg main_arg0 rfl (by simp), arg main_arg1 rfl (by simp), arg main_arg2 rfl (by simp), arg main_arg3 rfl (by simp), arg main_arg4 rfl (by simp),
    arg main_arg5 rfl (by simp), arg main_arg6 rfl (by simp), arg main_arg7 rfl (by simp), arg main_arg8 rfl (by simp), arg main_arg9 rfl (by simp)⟩

/-! ## The program's run -/

theorem run_main [∀ e, Nonempty (Elt F e)] (htile : TileBody m) (hregion : RegionWp (F := F)) (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htile facts hpre)
    (fun q _ => match q with | 0 => SparseCore.Cfg.VecSplit.of_plain (vecSplit m))
    m ρ main (fun d => RegionGhost (F := F) d) (FIN m) (u₀ (F := F)) (sep_elim_left.trans (hu₀ m)) (hmain m ρ hregion) (fq m) (hfin m) (QC m) (hQ m)

end Cert.Proof.KB

end
-- ==== Proof.RegionBodyB.lean ====
/-
  The dense layers' kernel region on one device: the arrays it moves, the pipeline's proof data (what each
  window's staging buffer holds after the body at a grid point), and the kernel body's run at a point.

  The region has ten windows.  Windows 0 and 1 are blocks of 2048 rows of the two gathered matrices, windows 2 to 8
  the seven weight arrays whole, window 9 a block of 2048 rows of the result.  The body loads every staging buffer
  whole, computes one value from the nine loaded blocks, and stores it whole into window 9's buffer.
-/
import proofs.«212205_g31413390803091_cont_8to1_b_1662_24_alg».proof.Proof.CommonB
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The arrays the region moves -/

/-- The ten arrays' contents when the region is entered: the two gathered matrices, the seven weight arrays, and
    whatever the result's buffer holds. -/
structure Arrs (F : FTy → Type) where
  u : FVec F S16384x16 .f32
  i : FVec F S16384x16 .f32
  w1u : FVec F S16x64 .f32
  w1i : FVec F S16x64 .f32
  b1 : FVec F S1x64 .f32
  w2 : FVec F S64x32 .f32
  b2 : FVec F S1x32 .f32
  w3 : FVec F S32x1 .f32
  b3 : FVec F S1x1 .f32
  o : FVec F S16384x1 .f32

/-- The pipeline has no prefetched table: its one admissible contents. -/
abbrev adm : (p : Fin 1) → (pcfgs (F := F) p).Adm := fun p => (cfgs p).toPCfg_adm

/-- Window `w`'s array at entry. -/
def arrOf (x : Arrs F) (d : Dev nD) : (w : Fin cfg1.W) → Buf (Elt F) ((cfg1.win w).arr.view.loc (d.tc : Thread nD τ))
  | ⟨0, _⟩ => x.u
  | ⟨1, _⟩ => x.i
  | ⟨2, _⟩ => x.w1u
  | ⟨3, _⟩ => x.w1i
  | ⟨4, _⟩ => x.b1
  | ⟨5, _⟩ => x.w2
  | ⟨6, _⟩ => x.b2
  | ⟨7, _⟩ => x.w3
  | ⟨8, _⟩ => x.b3
  | ⟨9, _⟩ => x.o

/-- Window `w`'s block at point `t`, read off its array at entry. -/
def iblk (x : Arrs F) (d : Dev nD) (w : Fin cfg1.W) (t : Fin cfg1.N) : ((cfg1.win w).xblock (cfg1.grid.coords t)).Idx → Elt F (cfg1.win w).elt :=
  ((cfg1.win w).blk t).view.read (Elt F) (arrOf x d w)

/-! ## What the body leaves in the result window's buffer -/

abbrev rA : Rect S2048x16 := Rect.unit (s := S2048x16) ![0, 0] S2048x16.size inb_S2048x16_S2048x16_0_0
abbrev rB : Rect S16x64 := Rect.unit (s := S16x64) ![0, 0] S16x64.size inb_S16x64_S16x64_0_0
abbrev rC : Rect S1x64 := Rect.unit (s := S1x64) ![0, 0] S1x64.size inb_S1x64_S1x64_0_0
abbrev rD : Rect S64x32 := Rect.unit (s := S64x32) ![0, 0] S64x32.size inb_S64x32_S64x32_0_0
abbrev rE : Rect S1x32 := Rect.unit (s := S1x32) ![0, 0] S1x32.size inb_S1x32_S1x32_0_0
abbrev rG : Rect S32x1 := Rect.unit (s := S32x1) ![0, 0] S32x1.size inb_S32x1_S32x1_0_0
abbrev rH : Rect S1x1 := Rect.unit (s := S1x1) ![0, 0] S1x1.size inb_S1x1_S1x1_0_0
abbrev rO : Rect S2048x1 := Rect.unit (s := S2048x1) ![0, 0] S2048x1.size inb_S2048x1_S2048x1_0_0

/-- The result window's staging buffer after the body, from the nine input windows' blocks: its one store, of the
    body's value on what its nine loads read. -/
def outBlk (x0 x1 : Vec F S2048x16 .f32) (x2 x3 : Vec F S16x64 .f32) (x4 : Vec F S1x64 .f32) (x5 : Vec F S64x32 .f32)
    (x6 : Vec F S1x32 .f32) (x7 : Vec F S32x1 .f32) (x8 : Vec F S1x1 .f32) : Vec F S2048x1 .f32 :=
  View.canon [⟨rO, k1_pay1 (View.ld x0 rA) (View.ld x2 rB) (View.ld x1 rA) (View.ld x3 rB) (View.ld x4 rC) (View.ld x5 rD)
    (View.ld x6 rE) (View.ld x7 rG) (View.ld x8 rH)⟩]

/-- The store fills the buffer. -/
theorem coverO (p0 : Vec F S2048x1 .f32) (y : S2048x1.Idx) :
    ∃ pc ∈ ([⟨rO, p0⟩] : List (View.Piece (Elt F) S2048x1 .f32)), y ∈ pc.1.set :=
  View.cover_of_tiled [⟨rO, p0⟩] S2048x1.size (by rfl) y

theorem hz2 : (![0, 0] : Fin 2 → Nat) = fun _ => 0 := funext fun a => by fin_cases a <;> rfl

/-- Every load and the store are of whole buffers: the result is the body's value on the nine blocks. -/
theorem outBlk_eq (x0 x1 : Vec F S2048x16 .f32) (x2 x3 : Vec F S16x64 .f32) (x4 : Vec F S1x64 .f32) (x5 : Vec F S64x32 .f32)
    (x6 : Vec F S1x32 .f32) (x7 : Vec F S32x1 .f32) (x8 : Vec F S1x1 .f32) :
    outBlk x0 x1 x2 x3 x4 x5 x6 x7 x8 = k1_pay1 x0 x2 x1 x3 x4 x5 x6 x7 x8 := by
  unfold outBlk
  rw [View.canon_unit_zero hz2]
  simp only [View.ld_unit_zero (S := S2048x16) hz2, View.ld_unit_zero (S := S16x64) hz2, View.ld_unit_zero (S := S1x64) hz2,
    View.ld_unit_zero (S := S64x32) hz2, View.ld_unit_zero (S := S1x32) hz2, View.ld_unit_zero (S := S32x1) hz2,
    View.ld_unit_zero (S := S1x1) hz2]

/-! ## The body's run on whole staging memrefs -/

set_option maxHeartbeats 2000000 in
/-- The kernel body on whole staging memrefs, the nine inputs' at contents `x0 … x8` and the result's at anything, runs
    to the continuation holding the inputs' as they were and the result's at `outBlk` of the inputs'. -/
theorem sound_kernel (c : Dev nD) (E : Set ℕ) (i : grid1.Coords)
    (arg1 : Memref sig .tc .vmem S2048x16 .f32) (harg1 : arg1.IsWhole) (arg2 : Memref sig .tc .vmem S2048x16 .f32) (harg2 : arg2.IsWhole)
    (arg3 : Memref sig .tc .vmem S16x64 .f32) (harg3 : arg3.IsWhole) (arg4 : Memref sig .tc .vmem S16x64 .f32) (harg4 : arg4.IsWhole)
    (arg5 : Memref sig .tc .vmem S1x64 .f32) (harg5 : arg5.IsWhole) (arg6 : Memref sig .tc .vmem S64x32 .f32) (harg6 : arg6.IsWhole)
    (arg7 : Memref sig .tc .vmem S1x32 .f32) (harg7 : arg7.IsWhole) (arg8 : Memref sig .tc .vmem S32x1 .f32) (harg8 : arg8.IsWhole)
    (arg9 : Memref sig .tc .vmem S1x1 .f32) (harg9 : arg9.IsWhole) (arg10 : Memref sig .tc .vmem S2048x1 .f32) (harg10 : arg10.IsWhole)
    (x0 x1 : Vec F S2048x16 .f32) (x2 x3 : Vec F S16x64 .f32) (x4 : Vec F S1x64 .f32) (x5 : Vec F S64x32 .f32)
    (x6 : Vec F S1x32 .f32) (x7 : Vec F S32x1 .f32) (x8 : Vec F S1x1 .f32) (Kk : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (outBlk x0 x1 x2 x3 x4 x5 x6 x7 x8)) -∗ Kk ⟨⟩))
      ⊢ wp frame (wpE (defs₀ (F := F)) Variants.none c none) E
          (cc1__mlp_body i arg1 harg1 arg2 harg2 arg3 harg3 arg4 harg4 arg5 harg5 arg6 harg6 arg7 harg7 arg8 harg8 arg9 harg9 arg10 harg10) Kk := by
  simp only [cc1__mlp_body_eq_skeleton]; unfold cc1__mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (coverO _)

/-! ## The pipeline's proof data -/

/-- The pairs the TensorCore's waits may have recorded when the region is entered: those at or below the first
    band of the handshakes' levels. The pipeline's own waits, at index `none`, sit at level 0. -/
def recBound (d : Dev nD) : Set (SemLoc sig × HIx 1) := {p | (K (F := F)).lev (T d, p.1) p.2 ≤ 8}

/-- The proof data of the pipeline on device `d`: the arrays as the region finds them; after the body at point `t`
    each input's buffer at its block and the result's at `outBlk` of the input blocks; no invariant of the body's own;
    nothing owed; full shares. -/
def pdat (x : Arrs F) (d : Dev nD) : Dat τ (Elt F) (HIx 1) ℕ UU ℕ cfg1 d where
  A w := arrOf x d w
  after w t := match w with
    | ⟨0, _⟩ => iblk x d 0 t
    | ⟨1, _⟩ => iblk x d 1 t
    | ⟨2, _⟩ => iblk x d 2 t
    | ⟨3, _⟩ => iblk x d 3 t
    | ⟨4, _⟩ => iblk x d 4 t
    | ⟨5, _⟩ => iblk x d 5 t
    | ⟨6, _⟩ => iblk x d 6 t
    | ⟨7, _⟩ => iblk x d 7 t
    | ⟨8, _⟩ => iblk x d 8 t
    | ⟨9, _⟩ => outBlk (iblk x d 0 t) (iblk x d 1 t) (iblk x d 2 t) (iblk x d 3 t) (iblk x d 4 t) (iblk x d 5 t) (iblk x d 6 t) (iblk x d 7 t) (iblk x d 8 t)
  Φ _ := iprop(emp)
  q _ := fullShare
  owed _ := 0
  recorded _ := recBound (F := F) d

theorem pdat_A (x : Arrs F) (d : Dev nD) (w : Fin cfg1.W) : (pdat x d).A w = arrOf x d w := by dsimp only [pdat]

theorem after_0 (x : Arrs F) (d : Dev nD) (t : Fin cfg1.N) : (pdat x d).after 0 t = iblk x d 0 t := by dsimp only [pdat]
theorem after_1 (x : Arrs F) (d : Dev nD) (t : Fin cfg1.N) : (pdat x d).after 1 t = iblk x d 1 t := by dsimp only [pdat]
theorem after_2 (x : Arrs F) (d : Dev nD) (t : Fin cfg1.N) : (pdat x d).after 2 t = iblk x d 2 t := by dsimp only [pdat]
theorem after_3 (x : Arrs F) (d : Dev nD) (t : Fin cfg1.N) : (pdat x d).after 3 t = iblk x d 3 t := by dsimp only [pdat]
theorem after_4 (x : Arrs F) (d : Dev nD) (t : Fin cfg1.N) : (pdat x d).after 4 t = iblk x d 4 t := by dsimp only [pdat]
theorem after_5 (x : Arrs F) (d : Dev nD) (t : Fin cfg1.N) : (pdat x d).after 5 t = iblk x d 5 t := by dsimp only [pdat]
theorem after_6 (x : Arrs F) (d : Dev nD) (t : Fin cfg1.N) : (pdat x d).after 6 t = iblk x d 6 t := by dsimp only [pdat]
theorem after_7 (x : Arrs F) (d : Dev nD) (t : Fin cfg1.N) : (pdat x d).after 7 t = iblk x d 7 t := by dsimp only [pdat]
theorem after_8 (x : Arrs F) (d : Dev nD) (t : Fin cfg1.N) : (pdat x d).after 8 t = iblk x d 8 t := by dsimp only [pdat]
theorem after_9 (x : Arrs F) (d : Dev nD) (t : Fin cfg1.N) : (pdat x d).after 9 t = outBlk (iblk x d 0 t) (iblk x d 1 t) (iblk x d 2 t) (iblk x d 3 t) (iblk x d 4 t) (iblk x d 5 t) (iblk x d 6 t) (iblk x d 7 t) (iblk x d 8 t) := by dsimp only [pdat]

/-- Each input's current staging buffer holds its block at every point, fetched there or not: the body leaves the block
    in place, and where the pipeline does not fetch the block index has not moved. -/
theorem before_0 (x : Arrs F) (d : Dev nD) (t : Fin cfg1.N) (dd) : (pdat x d).before 0 t dd = iblk x d 0 t :=
  ((pdat x d).before_in_eq_fetched 0 rfl (fun _ => rfl) (fun _ _ _ => rfl) (fun t => by rw [after_0]; unfold Dat.blockOf iblk; rw [pdat_A]; try rfl) t dd).trans
    (by unfold Dat.fetched Dat.blockOf iblk; rw [pdat_A]; try rfl)
theorem before_1 (x : Arrs F) (d : Dev nD) (t : Fin cfg1.N) (dd) : (pdat x d).before 1 t dd = iblk x d 1 t :=
  ((pdat x d).before_in_eq_fetched 1 rfl (fun _ => rfl) (fun _ _ _ => rfl) (fun t => by rw [after_1]; unfold Dat.blockOf iblk; rw [pdat_A]; try rfl) t dd).trans
    (by unfold Dat.fetched Dat.blockOf iblk; rw [pdat_A]; try rfl)
theorem before_2 (x : Arrs F) (d : Dev nD) (t : Fin cfg1.N) (dd) : (pdat x d).before 2 t dd = iblk x d 2 t :=
  ((pdat x d).before_in_eq_fetched 2 rfl (fun _ => rfl) (fun _ _ _ => rfl) (fun t => by rw [after_2]; unfold Dat.blockOf iblk; rw [pdat_A]; try rfl) t dd).trans
    (by unfold Dat.fetched Dat.blockOf iblk; rw [pdat_A]; try rfl)
theorem before_3 (x : Arrs F) (d : Dev nD) (t : Fin cfg1.N) (dd) : (pdat x d).before 3 t dd = iblk x d 3 t :=
  ((pdat x d).before_in_eq_fetched 3 rfl (fun _ => rfl) (fun _ _ _ => rfl) (fun t => by rw [after_3]; unfold Dat.blockOf iblk; rw [pdat_A]; try rfl) t dd).trans
    (by unfold Dat.fetched Dat.blockOf iblk; rw [pdat_A]; try rfl)
theorem before_4 (x : Arrs F) (d : Dev nD) (t : Fin cfg1.N) (dd) : (pdat x d).before 4 t dd = iblk x d 4 t :=
  ((pdat x d).before_in_eq_fetched 4 rfl (fun _ => rfl) (fun _ _ _ => rfl) (fun t => by rw [after_4]; unfold Dat.blockOf iblk; rw [pdat_A]; try rfl) t dd).trans
    (by unfold Dat.fetched Dat.blockOf iblk; rw [pdat_A]; try rfl)
theorem before_5 (x : Arrs F) (d : Dev nD) (t : Fin cfg1.N) (dd) : (pdat x d).before 5 t dd = iblk x d 5 t :=
  ((pdat x d).before_in_eq_fetched 5 rfl (fun _ => rfl) (fun _ _ _ => rfl) (fun t => by rw [after_5]; unfold Dat.blockOf iblk; rw [pdat_A]; try rfl) t dd).trans
    (by unfold Dat.fetched Dat.blockOf iblk; rw [pdat_A]; try rfl)
theorem before_6 (x : Arrs F) (d : Dev nD) (t : Fin cfg1.N) (dd) : (pdat x d).before 6 t dd = iblk x d 6 t :=
  ((pdat x d).before_in_eq_fetched 6 rfl (fun _ => rfl) (fun _ _ _ => rfl) (fun t => by rw [after_6]; unfold Dat.blockOf iblk; rw [pdat_A]; try rfl) t dd).trans
    (by unfold Dat.fetched Dat.blockOf iblk; rw [pdat_A]; try rfl)
theorem before_7 (x : Arrs F) (d : Dev nD) (t : Fin cfg1.N) (dd) : (pdat x d).before 7 t dd = iblk x d 7 t :=
  ((pdat x d).before_in_eq_fetched 7 rfl (fun _ => rfl) (fun _ _ _ => rfl) (fun t => by rw [after_7]; unfold Dat.blockOf iblk; rw [pdat_A]; try rfl) t dd).trans
    (by unfold Dat.fetched Dat.blockOf iblk; rw [pdat_A]; try rfl)
theorem before_8 (x : Arrs F) (d : Dev nD) (t : Fin cfg1.N) (dd) : (pdat x d).before 8 t dd = iblk x d 8 t :=
  ((pdat x d).before_in_eq_fetched 8 rfl (fun _ => rfl) (fun _ _ _ => rfl) (fun t => by rw [after_8]; unfold Dat.blockOf iblk; rw [pdat_A]; try rfl) t dd).trans
    (by unfold Dat.fetched Dat.blockOf iblk; rw [pdat_A]; try rfl)

/-! ## The body obligation, at a generic point -/

/-- What the body is called with at point `t`, the windows one by one, -/
def bodyPre (x : Arrs F) (d : Dev nD) (t : Fin cfg1.N) : sProp 𝕄 :=
  iprop((pdat x d).Φ t.castSucc ∗ (pdat x d).owesAt none t.castSucc
    ∗ (∃ dd, owns (d : Thread nD τ) (st1_0 t) fullShare ((pdat x d).before 0 t dd))
    ∗ (∃ dd, owns (d : Thread nD τ) (st1_1 t) fullShare ((pdat x d).before 1 t dd))
    ∗ (∃ dd, owns (d : Thread nD τ) (st1_2 t) fullShare ((pdat x d).before 2 t dd))
    ∗ (∃ dd, owns (d : Thread nD τ) (st1_3 t) fullShare ((pdat x d).before 3 t dd))
    ∗ (∃ dd, owns (d : Thread nD τ) (st1_4 t) fullShare ((pdat x d).before 4 t dd))
    ∗ (∃ dd, owns (d : Thread nD τ) (st1_5 t) fullShare ((pdat x d).before 5 t dd))
    ∗ (∃ dd, owns (d : Thread nD τ) (st1_6 t) fullShare ((pdat x d).before 6 t dd))
    ∗ (∃ dd, owns (d : Thread nD τ) (st1_7 t) fullShare ((pdat x d).before 7 t dd))
    ∗ (∃ dd, owns (d : Thread nD τ) (st1_8 t) fullShare ((pdat x d).before 8 t dd))
    ∗ (∃ dd, owns (d : Thread nD τ) (st1_9 t) fullShare ((pdat x d).before 9 t dd)))

/-- and what it returns. -/
def bodyPost (x : Arrs F) (d : Dev nD) (t : Fin cfg1.N) : sProp 𝕄 :=
  iprop((pdat x d).Φ t.succ ∗ (pdat x d).owesAt none t.succ
    ∗ owns (d : Thread nD τ) (st1_0 t) fullShare ((pdat x d).after 0 t)
    ∗ owns (d : Thread nD τ) (st1_1 t) fullShare ((pdat x d).after 1 t)
    ∗ owns (d : Thread nD τ) (st1_2 t) fullShare ((pdat x d).after 2 t)
    ∗ owns (d : Thread nD τ) (st1_3 t) fullShare ((pdat x d).after 3 t)
    ∗ owns (d : Thread nD τ) (st1_4 t) fullShare ((pdat x d).after 4 t)
    ∗ owns (d : Thread nD τ) (st1_5 t) fullShare ((pdat x d).after 5 t)
    ∗ owns (d : Thread nD τ) (st1_6 t) fullShare ((pdat x d).after 6 t)
    ∗ owns (d : Thread nD τ) (st1_7 t) fullShare ((pdat x d).after 7 t)
    ∗ owns (d : Thread nD τ) (st1_8 t) fullShare ((pdat x d).after 8 t)
    ∗ owns (d : Thread nD τ) (st1_9 t) fullShare ((pdat x d).after 9 t))

set_option maxHeartbeats 1000000 in
/-- The body at any point: the inputs' memrefs hold their blocks, so `sound_kernel` applies; the core's `owes` passes
    through unread. -/
theorem sound_body (x : Arrs F) (d : Dev nD) (t : Fin cfg1.N) :
    bodyPre x d t ⊢ wp frame (wpE (defs₀ (F := F)) Variants.none d none) Set.univ (bodyAt1 t) (fun _ => bodyPost x d t) := by
  unfold bodyPre bodyPost bodyAt1
  simp only [before_0, before_1, before_2, before_3, before_4, before_5, before_6, before_7, before_8]
  rw [show (pdat x d).Φ t.succ = (pdat x d).Φ t.castSucc from rfl,
    show (pdat x d).owesAt none t.succ = (pdat x d).owesAt none t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel d Set.univ (grid1.coords t) _ _ _ _ _ _ _ _ _ _ _ _ _ _ _ _ _ _ _ _ (iblk x d 0 t) (iblk x d 1 t) (iblk x d 2 t) (iblk x d 3 t) (iblk x d 4 t) (iblk x d 5 t) (iblk x d 6 t) (iblk x d 7 t) (iblk x d 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (x : Arrs F) (d : Dev nD) : BodyObligation (pdat x d) (defs₀ (F := F)) Variants.none none Set.univ := fun t => by
  rw [bigSep_W1, bigSep_W1]
  exact sound_body x d t

end Cert.Proof.KB

end
-- ==== Proof.RegionValueB.lean ====
/-
  The dense layers' result on the whole batch: what the write-backs of the eight grid points leave in the result array.

  Point `t` writes back rows `2048·t … 2048·t + 2047` of the result: the body's value on block `t` of the two
  gathered matrices and the whole weight arrays.  The eight blocks tile the array, so it ends holding, at row `r`, the
  body's value on block `r / 2048` at row `r % 2048`.
-/
import proofs.«212205_g31413390803091_cont_8to1_b_1662_24_alg».proof.Proof.RegionBodyB
import Idealize.ShloMosaic.Lib.Pipeline.Value

set_option maxRecDepth 16384

noncomputable section

namespace Cert.Proof.KB

open Cert.Kernel Cert.Kernel.Gen
open Idealize.ShloMosaic Idealize.ShloMosaic.TcCoe
open Idealize.ShloMosaic.SparseCore.Cfg (HIx)
open Idealize.ShloMosaic.Pipeline (Dat Cfg Window)
open Idealize.ShloMosaic.ValueIdx

variable {F : FTy → Type} [FloatOps F]

/-- A grid point as a block number. -/
def blkNo (t : Fin cfg1.N) : Fin 8 := ⟨t.val, Nat.lt_of_lt_of_eq t.isLt N_1⟩

/-- The printed index maps, decided over the grid: the two gathered matrices' and the result's blocks move with the
    point along the rows; every weight array is one block. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

/-! ## The input blocks -/

/-- Block `t` of the first gathered matrix is its rows `2048·t … 2048·t + 2047`. -/
theorem iblk0_eq (x : Arrs F) (d : Dev nD) (t : Fin cfg1.N) : iblk x d 0 t = rowsBlk (blkNo t) x.u := by
  obtain ⟨e0, e1, -⟩ := idx_facts t
  funext y
  show x.u (((cfg1.win 0).blk t).view.emb y) = x.u _
  refine congrArg x.u ?_
  funext a; apply Fin.ext
  match a with
  | ⟨0, _⟩ => show win1_0.index t (0 : Fin 2) * 2048 + 1 * (y 0).val = 2048 * t.val + (y 0).val; omega
  | ⟨1, _⟩ => show win1_0.index t (1 : Fin 2) * 16 + 1 * (y 1).val = (y 1).val; omega

/-- Block `t` of the second gathered matrix likewise. -/
theorem iblk1_eq (x : Arrs F) (d : Dev nD) (t : Fin cfg1.N) : iblk x d 1 t = rowsBlk (blkNo t) x.i := by
  obtain ⟨-, -, e0, e1, -⟩ := idx_facts t
  funext y
  show x.i (((cfg1.win 1).blk t).view.emb y) = x.i _
  refine congrArg x.i ?_
  funext a; apply Fin.ext
  match a with
  | ⟨0, _⟩ => show win1_1.index t (0 : Fin 2) * 2048 + 1 * (y 0).val = 2048 * t.val + (y 0).val; omega
  | ⟨1, _⟩ => show win1_1.index t (1 : Fin 2) * 16 + 1 * (y 1).val = (y 1).val; omega

/-- Every weight array's block, at every point, is the whole array. -/
theorem iblk2_eq (x : Arrs F) (d : Dev nD) (t : Fin cfg1.N) : iblk x d 2 t = x.w1u := by
  obtain ⟨-, -, -, -, e0, e1, -⟩ := idx_facts t
  funext y
  show x.w1u (((cfg1.win 2).blk t).view.emb y) = x.w1u y
  refine congrArg x.w1u ?_
  funext a; apply Fin.ext
  match a with
  | ⟨0, _⟩ => show win1_2.index t (0 : Fin 2) * 16 + 1 * (y 0).val = (y 0).val; omega
  | ⟨1, _⟩ => show win1_2.index t (1 : Fin 2) * 64 + 1 * (y 1).val = (y 1).val; omega
theorem iblk3_eq (x : Arrs F) (d : Dev nD) (t : Fin cfg1.N) : iblk x d 3 t = x.w1i := by
  obtain ⟨-, -, -, -, -, -, e0, e1, -⟩ := idx_facts t
  funext y
  show x.w1i (((cfg1.win 3).blk t).view.emb y) = x.w1i y
  refine congrArg x.w1i ?_
  funext a; apply Fin.ext
  match a with
  | ⟨0, _⟩ => show win1_3.index t (0 : Fin 2) * 16 + 1 * (y 0).val = (y 0).val; omega
  | ⟨1, _⟩ => show win1_3.index t (1 : Fin 2) * 64 + 1 * (y 1).val = (y 1).val; omega
theorem iblk4_eq (x : Arrs F) (d : Dev nD) (t : Fin cfg1.N) : iblk x d 4 t = x.b1 := by
  obtain ⟨-, -, -, -, -, -, -, -, e0, e1, -⟩ := idx_facts t
  funext y
  show x.b1 (((cfg1.win 4).blk t).view.emb y) = x.b1 y
  refine congrArg x.b1 ?_
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega
theorem iblk5_eq (x : Arrs F) (d : Dev nD) (t : Fin cfg1.N) : iblk x d 5 t = x.w2 := by
  obtain ⟨-, -, -, -, -, -, -, -, -, -, e0, e1, -⟩ := idx_facts t
  funext y
  show x.w2 (((cfg1.win 5).blk t).view.emb y) = x.w2 y
  refine congrArg x.w2 ?_
  funext a; apply Fin.ext
  match a with
  | ⟨0, _⟩ => show win1_5.index t (0 : Fin 2) * 64 + 1 * (y 0).val = (y 0).val; omega
  | ⟨1, _⟩ => show win1_5.index t (1 : Fin 2) * 32 + 1 * (y 1).val = (y 1).val; omega
theorem iblk6_eq (x : Arrs F) (d : Dev nD) (t : Fin cfg1.N) : iblk x d 6 t = x.b2 := by
  obtain ⟨-, -, -, -, -, -, -, -, -, -, -, -, e0, e1, -⟩ := idx_facts t
  funext y
  show x.b2 (((cfg1.win 6).blk t).view.emb y) = x.b2 y
  refine congrArg x.b2 ?_
  funext a; apply Fin.ext
  match a with
  | ⟨0, _⟩ => show win1_6.index t (0 : Fin 2) * 1 + 1 * (y 0).val = (y 0).val; omega
  | ⟨1, _⟩ => show win1_6.index t (1 : Fin 2) * 32 + 1 * (y 1).val = (y 1).val; omega
theorem iblk7_eq (x : Arrs F) (d : Dev nD) (t : Fin cfg1.N) : iblk x d 7 t = x.w3 := by
  obtain ⟨-, -, -, -, -, -, -, -, -, -, -, -, -, -, e0, e1, -⟩ := idx_facts t
  funext y
  show x.w3 (((cfg1.win 7).blk t).view.emb y) = x.w3 y
  refine congrArg x.w3 ?_
  funext a; apply Fin.ext
  match a with
  | ⟨0, _⟩ => show win1_7.index t (0 : Fin 2) * 32 + 1 * (y 0).val = (y 0).val; omega
  | ⟨1, _⟩ => show win1_7.index t (1 : Fin 2) * 1 + 1 * (y 1).val = (y 1).val; omega
theorem iblk8_eq (x : Arrs F) (d : Dev nD) (t : Fin cfg1.N) : iblk x d 8 t = x.b3 := by
  obtain ⟨-, -, -, -, -, -, -, -, -, -, -, -, -, -, -, -, e0, e1, -⟩ := idx_facts t
  funext y
  show x.b3 (((cfg1.win 8).blk t).view.emb y) = x.b3 y
  refine congrArg x.b3 ?_
  funext a; apply Fin.ext
  match a with
  | ⟨0, _⟩ => show win1_8.index t (0 : Fin 2) * 1 + 1 * (y 0).val = (y 0).val; omega
  | ⟨1, _⟩ => show win1_8.index t (1 : Fin 2) * 1 + 1 * (y 1).val = (y 1).val; omega

/-! ## The whole-batch value at a row of a block -/

/-- The whole-batch value at row `2048·t + r` is the body's value on block `t` at row `r`. -/
theorem mlpAll_at (u i : FVec F S16384x16 .f32) (w1u w1i : FVec F S16x64 .f32) (b1 : FVec F S1x64 .f32) (w2 : FVec F S64x32 .f32)
    (b2 : FVec F S1x32 .f32) (w3 : FVec F S32x1 .f32) (b3 : FVec F S1x1 .f32) (t : Fin 8) (y : S2048x1.Idx) (j : S16384x1.Idx)
    (h0 : (j 0).val = 2048 * t.val + (y 0).val) (h1 : (j 1).val = (y 1).val) :
    mlpAll u i w1u w1i b1 w2 b2 w3 b3 j = k1_pay1 (rowsBlk t u) w1u (rowsBlk t i) w1i b1 w2 b2 w3 b3 y := by
  have hy0 : (y 0).val < 2048 := (y 0).isLt
  have hy1 : (y 1).val < 1 := (y 1).isLt
  have hj0 : (j 0).val < 16384 := (j 0).isLt
  have ht : (⟨(j 0).val / 2048, by omega⟩ : Fin 8) = t := Fin.ext (by show (j 0).val / 2048 = t.val; omega)
  have hy : ix2 (⟨(j 0).val % 2048, Nat.mod_lt _ (by decide)⟩ : Fin 2048) (⟨(j 1).val, (j 1).isLt⟩ : Fin 1) = y := by
    funext a; apply Fin.ext
    match a with
    | ⟨0, _⟩ => show (j 0).val % 2048 = (y 0).val; omega
    | ⟨1, _⟩ => show (j 1).val = (y 1).val; omega
  unfold mlpAll
  rw [ht, hy]

/-! ## From the blocks to the array -/

/-- What point `t` writes back is block `t` of the whole-batch value. -/
theorem flushed9_eq (x : Arrs F) (d : Dev nD) (t : Fin cfg1.N) :
    (pdat x d).flushed 9 t = ((cfg1.win 9).blk t).view.read (Elt F) (mlpAll x.u x.i x.w1u x.w1i x.b1 x.w2 x.b2 x.w3 x.b3) := by
  show (cfg1.win 9).cut (grid1.coords t) ((pdat x d).after 9 t) = _
  rw [after_9, outBlk_eq, iblk0_eq, iblk1_eq, iblk2_eq, iblk3_eq, iblk4_eq, iblk5_eq, iblk6_eq, iblk7_eq, iblk8_eq]
  have hf := idx_facts t
  have e0 : win1_9.index t (0 : Fin 2) = t.val := hf.2.2.2.2.2.2.2.2.2.2.2.2.2.2.2.2.2.2.1
  have e1 : win1_9.index t (1 : Fin 2) = 0 := hf.2.2.2.2.2.2.2.2.2.2.2.2.2.2.2.2.2.2.2
  funext y
  show k1_pay1 (rowsBlk (blkNo t) x.u) x.w1u (rowsBlk (blkNo t) x.i) x.w1i x.b1 x.w2 x.b2 x.w3 x.b3 y
    = mlpAll x.u x.i x.w1u x.w1i x.b1 x.w2 x.b2 x.w3 x.b3 (((cfg1.win 9).blk t).view.emb y)
  refine (mlpAll_at x.u x.i x.w1u x.w1i x.b1 x.w2 x.b2 x.w3 x.b3 (blkNo t) y _ ?_ ?_).symm
  · show win1_9.index t (0 : Fin 2) * 2048 + 1 * (y 0).val = 2048 * t.val + (y 0).val; omega
  · show win1_9.index t (1 : Fin 2) * 1 + 1 * (y 1).val = (y 1).val; omega

/-- An index of the result array is in point `t`'s block iff each coordinate is in the block's range on its axis. -/
theorem mem_blk9 (t : Fin cfg1.N) (i : S16384x1.Idx) :
    i ∈ ((cfg1.win 9).blk t).view.set ↔ ∀ a : Fin 2, win1_9.index t a * S2048x1.size a ≤ (i a).val ∧ (i a).val < win1_9.index t a * S2048x1.size a + S2048x1.size a := by
  show i ∈ ((View.whole main_v11).slice (win1_9.rect t)).set ↔ _
  rw [View.set_slice_whole, Rect.mem_set_unit]
  exact Iff.rfl

/-- The eight blocks tile the result array: row `r` is in block `r / 2048`. -/
theorem cover9 (i : S16384x1.Idx) : ∃ t : Fin cfg1.N, (cfg1.win 9).flush t = true ∧ i ∈ ((cfg1.win 9).blk t).view.set := by
  have hi0 : (i 0).val < 16384 := (i 0).isLt
  have hi1 : (i 1).val < 1 := (i 1).isLt
  let t : Fin cfg1.N := ⟨(i 0).val / 2048, by show (i 0).val / 2048 < grid1.N; rw [N_1]; omega⟩
  have hf := idx_facts t
  have e0 : win1_9.index t (0 : Fin 2) = (i 0).val / 2048 := hf.2.2.2.2.2.2.2.2.2.2.2.2.2.2.2.2.2.2.1
  have e1 : win1_9.index t (1 : Fin 2) = 0 := hf.2.2.2.2.2.2.2.2.2.2.2.2.2.2.2.2.2.2.2
  refine ⟨t, flush1_9 t, ?_⟩
  rw [mem_blk9]
  intro a
  match a with
  | ⟨0, _⟩ => show win1_9.index t (0 : Fin 2) * 2048 ≤ (i 0).val ∧ (i 0).val < win1_9.index t (0 : Fin 2) * 2048 + 2048; omega
  | ⟨1, _⟩ => show win1_9.index t (1 : Fin 2) * 1 ≤ (i 1).val ∧ (i 1).val < win1_9.index t (1 : Fin 2) * 1 + 1; omega

/-- THE RESULT ARRAY after the region: the dense layers' value on the whole batch. -/
theorem final_result (x : Arrs F) (d : Dev nD) :
    (pdat x d).arrAt 9 cfg1.N = mlpAll x.u x.i x.w1u x.w1i x.b1 x.w2 x.b2 x.w3 x.b3 :=
  (pdat x d).arrAt_eq_of_cover 9 (mlpAll x.u x.i x.w1u x.w1i x.b1 x.w2 x.b2 x.w3 x.b3) (fun t _ => flushed9_eq x d t) cover9

end Cert.Proof.KB

end
-- ==== Proof.RegionB.lean ====
/-
  The dense layers' kernel region inside the TensorCore's thread of the SparseCore program: from the thread's state
  after the SparseCore call, the region boundary, the staging cells' ghost state and the ten arrays, the call of the
  pipeline's entry runs to the same with the result array at the dense layers' value on the whole batch.

  The region is a segment of the pipeline library's launch by segments (its entry's precondition is assembled there); the thread owes
  nothing after its only SparseCore call, and the pairs its waits have recorded stay within the handshakes' first
  band, where the pipeline's own waits (index `none`, level 0) also sit.
-/
import proofs.«212205_g31413390803091_cont_8to1_b_1662_24_alg».proof.Proof.RegionBodyB
import proofs.«212205_g31413390803091_cont_8to1_b_1662_24_alg».proof.Proof.RegionGhostB
import proofs.«212205_g31413390803091_cont_8to1_b_1662_24_alg».proof.Proof.RegionValueB
import proofs.«212205_g31413390803091_cont_8to1_b_1662_24_alg».proof.Proof.IfaceB

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What the thread owes, and the arrays -/

/-- After its only SparseCore call the TensorCore owes nothing. -/
theorem Otc_one (d : Dev nD) : (K (F := F)).Otc d 1 = 0 := by
  unfold SparseCore.Cfg.Otc
  exact Finset.sum_eq_zero fun q _ => if_neg (by have := q.isLt; omega)

/-- The thread's `owes` after the call: nothing owed, the recorded pairs within the first band. -/
def owesPart (d : Dev nD) : sProp 𝕄 :=
  iprop(∃ W, ⌜(K (F := F)).WBelow (SparseCore.T d) W (8 * 1)⌝ ∗ owes (SparseCore.T d) (0 : CellTallies nD τ sig (HIx 1)) W)

/-- The ten arrays of the region, whole at the full share: the nine inputs at `y`'s contents, the result's at `o`. -/
def tenArrsO (y : Arrs F) (o : FVec F S16384x1 .f32) (d : Dev nD) : sProp 𝕄 :=
  iprop(((SparseCore.T d).loc main_v5_0 ↦{fullShare} y.u)
    ∗ ((SparseCore.T d).loc main_v5_1 ↦{fullShare} y.i)
    ∗ ((SparseCore.T d).loc main_v6 ↦{fullShare} y.w1u)
    ∗ ((SparseCore.T d).loc main_v7 ↦{fullShare} y.w1i)
    ∗ ((SparseCore.T d).loc main_v8 ↦{fullShare} y.b1)
    ∗ ((SparseCore.T d).loc main_arg6 ↦{fullShare} y.w2)
    ∗ ((SparseCore.T d).loc main_v9 ↦{fullShare} y.b2)
    ∗ ((SparseCore.T d).loc main_arg8 ↦{fullShare} y.w3)
    ∗ ((SparseCore.T d).loc main_v10 ↦{fullShare} y.b3)
    ∗ ((SparseCore.T d).loc main_v11 ↦{fullShare} o))

/-- The result array's contents when the region ends: as the write-backs left it. -/
abbrev oEnd (x : Arrs F) (d : Dev nD) : FVec F S16384x1 .f32 := (pdat x d).arrAt 9 (Pipeline.pin (pcfgs (F := F)) adm 0).N

theorem oEnd_eq (x : Arrs F) (d : Dev nD) : oEnd x d = mlpAll x.u x.i x.w1u x.w1i x.b1 x.w2 x.b2 x.w3 x.b3 := final_result x d

/-- The pipeline's proof data, per pipeline (there is one) and device. -/
abbrev pdats (x : Arrs F) : (p : Fin 1) → (c : Dev nD) → Dat τ (Elt F) (HIx 1) ℕ UU ℕ (Pipeline.pin (pcfgs (F := F)) adm p) c :=
  fun _ c => pdat x c

/-- An input array is never written back. -/
theorem arrAt_N0 (x : Arrs F) (d : Dev nD) (n : Nat) : (pdat x d).arrAt 0 n = x.u := ((pdat x d).arrAt_in 0 rfl n).trans rfl
theorem arrAt_N1 (x : Arrs F) (d : Dev nD) (n : Nat) : (pdat x d).arrAt 1 n = x.i := ((pdat x d).arrAt_in 1 rfl n).trans rfl
theorem arrAt_N2 (x : Arrs F) (d : Dev nD) (n : Nat) : (pdat x d).arrAt 2 n = x.w1u := ((pdat x d).arrAt_in 2 rfl n).trans rfl
theorem arrAt_N3 (x : Arrs F) (d : Dev nD) (n : Nat) : (pdat x d).arrAt 3 n = x.w1i := ((pdat x d).arrAt_in 3 rfl n).trans rfl
theorem arrAt_N4 (x : Arrs F) (d : Dev nD) (n : Nat) : (pdat x d).arrAt 4 n = x.b1 := ((pdat x d).arrAt_in 4 rfl n).trans rfl
theorem arrAt_N5 (x : Arrs F) (d : Dev nD) (n : Nat) : (pdat x d).arrAt 5 n = x.w2 := ((pdat x d).arrAt_in 5 rfl n).trans rfl
theorem arrAt_N6 (x : Arrs F) (d : Dev nD) (n : Nat) : (pdat x d).arrAt 6 n = x.b2 := ((pdat x d).arrAt_in 6 rfl n).trans rfl
theorem arrAt_N7 (x : Arrs F) (d : Dev nD) (n : Nat) : (pdat x d).arrAt 7 n = x.w3 := ((pdat x d).arrAt_in 7 rfl n).trans rfl
theorem arrAt_N8 (x : Arrs F) (d : Dev nD) (n : Nat) : (pdat x d).arrAt 8 n = x.b3 := ((pdat x d).arrAt_in 8 rfl n).trans rfl

theorem prefHeld_emp (c : Dev nD) (q) (pf) :
    (Pipeline.prefHeld (Ix := HIx 1) (Name := ℕ) (U := UU) (Lvl := ℕ) (Val := Elt F) (pcfgs (F := F) 0).pre c q pf : sProp 𝕄) = BI.emp := by
  unfold Pipeline.prefHeld
  show bigSep (Finset.univ : Finset (Fin 0)) _ = _
  rw [Finset.univ_eq_empty, BI.bigSep_empty]

theorem scopedRest_emp (c : Dev nD) :
    (Pipeline.scopedRest (Ix := HIx 1) (Name := ℕ) (U := UU) (Lvl := ℕ) (Val := Elt F) (Pipeline.pin (pcfgs (F := F)) adm 0).spec c : sProp 𝕄) = BI.emp :=
  Gen.scopedRest1_eq c

/-- The pipeline's arrays at entry are the ten arrays. -/
theorem arrays_entry (x : Arrs F) (c : Dev nD) :
    ((pdats x 0 c).arrays ((pdats x 0 c).arrAt · 0) : sProp 𝕄) = tenArrsO x x.o c := by
  rw [Pipeline.arrays_eq (Pipeline.pin (pcfgs (F := F)) adm) (pdats x) 0 c Gen.arr_whole1 ((pdat x c).share_full fun _ => rfl), bigSep_W1]
  rfl

/-- The pipeline's arrays at exit are the ten arrays, the result's as the write-backs left it. -/
theorem arrays_exit (x : Arrs F) (c : Dev nD) :
    ((pdats x 0 c).arrays ((pdats x 0 c).arrAt · (Pipeline.pin (pcfgs (F := F)) adm 0).N) : sProp 𝕄) = tenArrsO x (oEnd x c) c := by
  rw [Pipeline.arrays_eq (Pipeline.pin (pcfgs (F := F)) adm) (pdats x) 0 c Gen.arr_whole1 ((pdat x c).share_full fun _ => rfl), bigSep_W1]
  beta_reduce
  rw [arrAt_N0, arrAt_N1, arrAt_N2, arrAt_N3, arrAt_N4, arrAt_N5, arrAt_N6, arrAt_N7, arrAt_N8]
  rfl

/-! ## The region as a segment -/

/-- The region: entered from the thread's `owes` and the ten arrays, it leaves the same with the result array as the
    write-backs left it. Nothing enters the body's invariant, nothing bypasses the region. -/
def reg (x : Arrs F) : Pipeline.RegionSeg (pcfgs (F := F)) adm (pdats x) none defs₀ 𝒱₀ (K (F := F)).L (K (F := F)).lev 0 where
  win := Gen.winFacts1.to₀
  block_pos := Gen.block_pos1
  stage_whole := Gen.stage_whole1
  K := PEmpty
  osem k := k.elim
  ho := Pipeline.OwnSemFacts.none _
  hbody c := (body_obligation x c).loose
  hwaits := Pipeline.hwaits_of_owed_zero _ _ _ _ _ _ 0 fun _ _ => rfl
  pre d := iprop(owesPart d ∗ tenArrsO x x.o d)
  post d := iprop(owesPart d ∗ tenArrsO x (oEnd x d) d)
  X _ := iprop(emp)
  Y _ := iprop(emp)
  Z _ := iprop(emp)
  hentry c := by
    rw [Pipeline.ownSems0_none, prefHeld_emp, arrays_entry]
    unfold owesPart
    iintro ⟨⟨⟨%W, %hW, HO⟩, Ha⟩, -, -⟩
    imodintro
    isplitl [Ha]; · iexact Ha
    isplitr; · iempintro
    isplitl [HO]
    · iexists W; isplitr
      · ipureintro; exact fun p hp => Or.inl (hW p hp)
      iexact HO
    isplitr <;> iempintro
  hin c := by
    iintro -; iempintro
  hout c := by
    rw [Pipeline.ownSems0_none, scopedRest_emp]
    iintro -
    isplitr; · iempintro
    isplitr <;> iempintro
  hexit c := by
    rw [arrays_exit]
    unfold owesPart
    iintro ⟨Ha, ⟨%W, %hW, HO⟩, -, -⟩
    imodintro
    isplitl [HO]
    · iexists W; isplitr
      · ipureintro
        intro p hp
        rcases hW hp with h | ⟨w, s, rfl⟩
        · exact h
        · exact Nat.zero_le _
      iexact HO
    iexact Ha

/-! ## The call -/

set_option backward.isDefEq.respectTransparency.types false in
/-- The region's call in the TensorCore program of the pipeline's labels. -/
theorem region_seg_wp (x : Arrs F) (d : Dev nD) (Φ : PUnit → sProp 𝕄) :
    iprop((iprop(boundary (SparseCore.T d) ∗ owesPart d ∗ tenArrsO x (oEnd x d) d)
            -∗ wp frame (wpE (D (F := F)) 𝒱 (SparseCore.T d) none) Set.univ (.ret ⟨⟩) Φ)
        ∗ boundary (SparseCore.T d) ∗ (owesPart d ∗ tenArrsO x x.o d) ∗ levAts (K (F := F)).L (K (F := F)).lev
        ∗ Pipeline.cellsGhost cfgs (EP : Emb UP 𝕄) 0 d ∗ Pipeline.toksInit cfgs (EP : Emb UP 𝕄) 0 d)
      ⊢ wp frame (wpE (D (F := F)) 𝒱 (SparseCore.T d) none) Set.univ (.op (.customCall (Pipeline.entry (0 : Fin 1)) ()) .ret) Φ :=
  Pipeline.RegionSeg.wp (pcfgs (F := F)) adm (pdats x) none Gen.cellOf_inj (EP : Emb UP 𝕄) defs₀ 𝒱₀
    (K (F := F)).L (K (F := F)).lev (reg x) d none (fun _ h => nomatch h) .ret Φ

set_option maxHeartbeats 1000000 in
/-- The TensorCore's kernel region, in the TensorCore's thread of the SparseCore program. -/
theorem region_wp : RegionWp (F := F) := by
  intro d u i w1u w1i b1 w2 b2 w3 b3 Φ
  unfold SparseCore.Cfg.tcSt
  rw [Otc_one]
  iintro ⟨#Hlev, ⟨HO, Hrest⟩, Hb, Hg, H0, H1, H2, H3, H4, H5, H6, H7, H8, ⟨%f, H9⟩, Hk⟩
  iapply ((K (F := F)).wp_liftProg (D (F := F)) 𝒱 (SparseCore.T d) Set.univ none
    (.op (.customCall (Pipeline.entry (0 : Fin 1)) ()) .ret) Φ)
  unfold RegionGhost
  icases Hg with ⟨Hcg, Htk⟩
  iapply (region_seg_wp (⟨u, i, w1u, w1i, b1, w2, b2, w3, b3, f⟩ : Arrs F) d Φ)
  unfold tenArrsO owesPart
  isplitl [Hk Hrest]
  · iintro ⟨Hb, HO, H0, H1, H2, H3, H4, H5, H6, H7, H8, H9⟩
    rw [wp_ret]
    imodintro
    iapply Hk
    isplitl [HO Hrest]
    · isplitl [HO] <;> iassumption
    isplitl [Hb]; · iexact Hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [← oEnd_eq (⟨u, i, w1u, w1i, b1, w2, b2, w3, b3, f⟩ : Arrs F) d]
    iexact H9
  isplitl [Hb]; · iexact Hb
  isplitl [HO H0 H1 H2 H3 H4 H5 H6 H7 H8 H9]
  · isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitr; · iexact Hlev
  isplitl [Hcg] <;> iassumption

end Cert.Proof.KB

end
-- ==== Proof.AsmB.lean ====
/-
  The frame of the kernel program as printed (at the machine's words), from its run: the same launch, read at the
  word-level instance; the precondition's index ranges are a fact about the integer words and hold at either instance.
-/
import proofs.«212205_g31413390803091_cont_8to1_b_1662_24_alg».proof.Defs
import proofs.«212205_g31413390803091_cont_8to1_b_1662_24_alg».proof.Proof.MainB
import proofs.«212205_g31413390803091_cont_8to1_b_1662_24_alg».proof.Proof.RegionB
import proofs.«212205_g31413390803091_cont_8to1_b_1662_24_alg».proof.Proof.PreRange
import proofs.«212205_g31413390803091_cont_8to1_b_1662_24_alg».proof.Proof.Gen.Pre_input_domain

noncomputable section

namespace Cert.Proof.Asm

open Idealize.ShloMosaic Idealize.SL.Sem
open Cert.Proof

/-- The precondition makes every index name a row. -/
theorem preOK_kb (m : (ℓ : Loc Cert.Kernel.nD Cert.Kernel.τ Cert.Kernel.sig) → Buf (Elt Bits) ℓ) (h : Cert.Pre_Kernel m) :
    KB.PreOK (F := Bits) m := fun d j =>
  ⟨(PreRange.ids_range (F := Bits) _ _ _ _ _ _ _ _ _ _ (h d)).1 j, (PreRange.ids_range (F := Bits) _ _ _ _ _ _ _ _ _ _ (h d)).2 j⟩

/-- The kernel program runs and leaves its arguments unchanged. -/
theorem frame_kb (htile : ∀ m, KB.TileBody (F := Bits) m) : Cert.frame_Kernel := fun m ρ hpre =>
  (θ_run Cert.Kernel.defs _ _).mono (fun _ h c => (h c).2) (KB.run_main (F := Bits) m ρ (htile m) KB.region_wp (preOK_kb m hpre))

end Cert.Proof.Asm

end
-- ==== Proof.OutRows.lean ====
/-
  Rows written through a worker's slice of a gathered matrix.

  Worker `w`'s slice of a gathered matrix is rows `512·w … 512·w + 511`: entry `(r, e)` of the slice is entry
  `(512·w + r, e)` of the matrix. So a block written whole through the slice, whose rows are the table rows that the
  worker's indices name, leaves the matrix with those rows there.
-/
import proofs.«212205_g31413390803091_cont_8to1_b_1662_24_alg».proof.Proof.Common

noncomputable section

namespace Cert.Proof.KI

open Cert.KernelIdeal Cert.KernelIdeal.Gen
open Idealize.ShloMosaic
open Idealize.ShloMosaic.SparseCore (S V T)
open Idealize.ShloMosaic.ValueIdx

variable {F : FTy → Type} [FloatOps F]

/-- The printed offset of a worker's rows is `512·w`. -/
theorem off36_wid (L : grid0.Coords) : k0_off36 L 0 = 512 * (wid (cV L) (jV L)).val := by
  rw [k0_off36_eq]
  show 1024 * (L 1).val + 512 * (L 0).val = 512 * (2 * (L 1).val + (L 0).val)
  omega
theorem off36_one (L : grid0.Coords) : k0_off36 L 1 = 0 := by rw [k0_off36_eq]; rfl
theorem off1_wid (L : grid0.Coords) : k0_off1 L 0 = 512 * (wid (cV L) (jV L)).val := by
  rw [k0_off1_eq]
  show 1024 * (L 1).val + 512 * (L 0).val = 512 * (2 * (L 1).val + (L 0).val)
  omega

/-- A worker's slice of the first gathered matrix, and of the second. -/
abbrev outSlice0 (L : grid0.Coords) : Memref sig .scVector .hbm S512x16 .f32 :=
  (oV0 : Memref sig .scVector .hbm S16384x16 .f32).slice (Rect.unit (s := S16384x16) (k0_off36 L) S512x16.size (k0_off36_inb L)) (fun _ => rfl)
abbrev outSlice1 (L : grid0.Coords) : Memref sig .scVector .hbm S512x16 .f32 :=
  (oV1 : Memref sig .scVector .hbm S16384x16 .f32).slice (Rect.unit (s := S16384x16) (k0_off36 L) S512x16.size (k0_off36_inb L)) (fun _ => rfl)

theorem emb_out0 (L : grid0.Coords) (r : Fin 512) (e : Fin 16) (hr : 512 * (wid (cV L) (jV L)).val + r.val < 16384) :
    (outSlice0 L).view.emb (ix2 r e) = (ix2 (⟨512 * (wid (cV L) (jV L)).val + r.val, hr⟩ : Fin 16384) e : S16384x16.Idx) := by
  funext a; apply Fin.ext
  match a with
  | ⟨0, _⟩ => show k0_off36 L 0 + 1 * r.val = 512 * (wid (cV L) (jV L)).val + r.val; rw [off36_wid]; omega
  | ⟨1, _⟩ => show k0_off36 L 1 + 1 * e.val = e.val; rw [off36_one]; omega
theorem emb_out1 (L : grid0.Coords) (r : Fin 512) (e : Fin 16) (hr : 512 * (wid (cV L) (jV L)).val + r.val < 16384) :
    (outSlice1 L).view.emb (ix2 r e) = (ix2 (⟨512 * (wid (cV L) (jV L)).val + r.val, hr⟩ : Fin 16384) e : S16384x16.Idx) := by
  funext a; apply Fin.ext
  match a with
  | ⟨0, _⟩ => show k0_off36 L 0 + 1 * r.val = 512 * (wid (cV L) (jV L)).val + r.val; rw [off36_wid]; omega
  | ⟨1, _⟩ => show k0_off36 L 1 + 1 * e.val = e.val; rw [off36_one]; omega

/-- A block of 512 rows, each the table row its index names, written whole through the worker's slice. -/
theorem out_rows0 (d : Dev nD) (L : grid0.Coords) (ids : IVec S16384 32) (tab : FVec F S1000000x16 .f32) (fo : Buf (Elt F) (oLoc0 d)) (g : FVec F S512x16 .f32)
    (hg : ∀ (r : Fin 512) (e : Fin 16) (hr : 512 * (wid (cV L) (jV L)).val + r.val < 16384) (h : (ids (ix1 ⟨512 * (wid (cV L) (jV L)).val + r.val, hr⟩)).toNat < 1000000),
      g (ix2 r e) = tab (ix2 ⟨(ids (ix1 ⟨512 * (wid (cV L) (jV L)).val + r.val, hr⟩)).toNat, h⟩ e)) :
    RowsOf ids tab (wid (cV L) (jV L)) ((outSlice0 L).view.write (Elt F) fo g Finset.univ) := by
  intro r e hr h
  rw [← emb_out0 L r e hr, View.write_emb_of_mem _ _ (Finset.mem_univ _), cast_eq]
  exact hg r e hr h
theorem out_rows1 (d : Dev nD) (L : grid0.Coords) (ids : IVec S16384 32) (tab : FVec F S1000000x16 .f32) (fo : Buf (Elt F) (oLoc1 d)) (g : FVec F S512x16 .f32)
    (hg : ∀ (r : Fin 512) (e : Fin 16) (hr : 512 * (wid (cV L) (jV L)).val + r.val < 16384) (h : (ids (ix1 ⟨512 * (wid (cV L) (jV L)).val + r.val, hr⟩)).toNat < 1000000),
      g (ix2 r e) = tab (ix2 ⟨(ids (ix1 ⟨512 * (wid (cV L) (jV L)).val + r.val, hr⟩)).toNat, h⟩ e)) :
    RowsOf ids tab (wid (cV L) (jV L)) ((outSlice1 L).view.write (Elt F) fo g Finset.univ) := by
  intro r e hr h
  rw [← emb_out1 L r e hr, View.write_emb_of_mem _ _ (Finset.mem_univ _), cast_eq]
  exact hg r e hr h

end Cert.Proof.KI

end
-- ==== Proof.TileBase.lean ====
/-
  One vector subcore's task of the gather, the parts both tables share: the subcore's own semaphore cells and scratch
  buffers taken out of what the launch hands it; the blocks of the index vectors and of the results the task copies
  whole, as the program slices them; how a lane of sixteen loaded index words is read; the 512 rows of the row scratch
  (pairwise disjoint, covering it); and the 512 waits of one row's amount on the one semaphore all of a table's row
  copies complete on: none but the last tells the subcore anything, the last hands back every copy's delivery.
-/
import proofs.«212205_g31413390803091_cont_8to1_b_1662_24_alg».proof.Proof.Common
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)

/-! ## One vector subcore's task -/

section Tile

variable (d : Dev nD) (L : grid0.Coords)

/-- The subcore's five DMA cells: the one all 512 row copies of a table complete on, and one per local copy. -/
abbrev cellB : GSem nD τ sig := (SparseCore.V d (cV L) (jV L), .dma cc0_scratch2.sem)
abbrev cell0 : GSem nD τ sig := (SparseCore.V d (cV L) (jV L), .dma cc0_scoped0.sem)
abbrev cell1 : GSem nD τ sig := (SparseCore.V d (cV L) (jV L), .dma cc0_scoped1.sem)
abbrev cell2 : GSem nD τ sig := (SparseCore.V d (cV L) (jV L), .dma cc0_scoped2.sem)
abbrev cell3 : GSem nD τ sig := (SparseCore.V d (cV L) (jV L), .dma cc0_scoped3.sem)

omit m in
theorem own_mem (sm : SemLoc sig) (h : sm.isScoped .scVector = true) :
    ((SparseCore.V d (cV L) (jV L), sm) : GSem nD τ sig) ∈ ownCells (SparseCore.V d (cV L) (jV L)) := mem_ownCells.mpr ⟨rfl, h⟩
omit m in
theorem cell_ne {sm sm' : SemLoc sig} (h : sm ≠ sm') :
    ((SparseCore.V d (cV L) (jV L), sm) : GSem nD τ sig) ≠ (SparseCore.V d (cV L) (jV L), sm') := fun e => h (Prod.mk.inj e).2
omit m in
theorem mem_erase_of {α : Type} [DecidableEq α] {s : Finset α} {a b : α} (h : a ≠ b) (hm : a ∈ s) : a ∈ s.erase b :=
  Finset.mem_erase.mpr ⟨h, hm⟩

/-- The cells a subcore owns that the task never touches. -/
abbrev restCells : Finset (GSem nD τ sig) :=
  (((((ownCells (SparseCore.V d (cV L) (jV L))).erase (cellB d L)).erase (cell0 d L)).erase (cell1 d L)).erase (cell2 d L)).erase (cell3 d L)

omit m in
theorem ownSems0_V :
    (ownSems0 (SparseCore.V d (cV L) (jV L)) : sProp 𝕄)
      = iprop(semVal (cellB d L) 0 ∗ semVal (cell0 d L) 0 ∗ semVal (cell1 d L) 0 ∗ semVal (cell2 d L) 0 ∗ semVal (cell3 d L) 0
          ∗ bigSep (restCells d L) fun g => semVal g 0) := by
  unfold SparseCore.Cfg.ownSems0
  have hB := own_mem d L (SemLoc.dma cc0_scratch2.sem) (by decide)
  have h0 := mem_erase_of (cell_ne d L (sm := .dma cc0_scoped0.sem) (sm' := .dma cc0_scratch2.sem) (by decide)) (own_mem d L (SemLoc.dma cc0_scoped0.sem) (by decide))
  have h1 := mem_erase_of (cell_ne d L (sm := .dma cc0_scoped1.sem) (sm' := .dma cc0_scoped0.sem) (by decide))
    (mem_erase_of (cell_ne d L (sm := .dma cc0_scoped1.sem) (sm' := .dma cc0_scratch2.sem) (by decide)) (own_mem d L (SemLoc.dma cc0_scoped1.sem) (by decide)))
  have h2 := mem_erase_of (cell_ne d L (sm := .dma cc0_scoped2.sem) (sm' := .dma cc0_scoped1.sem) (by decide))
    (mem_erase_of (cell_ne d L (sm := .dma cc0_scoped2.sem) (sm' := .dma cc0_scoped0.sem) (by decide))
      (mem_erase_of (cell_ne d L (sm := .dma cc0_scoped2.sem) (sm' := .dma cc0_scratch2.sem) (by decide)) (own_mem d L (SemLoc.dma cc0_scoped2.sem) (by decide))))
  have h3 := mem_erase_of (cell_ne d L (sm := .dma cc0_scoped3.sem) (sm' := .dma cc0_scoped2.sem) (by decide))
    (mem_erase_of (cell_ne d L (sm := .dma cc0_scoped3.sem) (sm' := .dma cc0_scoped1.sem) (by decide))
      (mem_erase_of (cell_ne d L (sm := .dma cc0_scoped3.sem) (sm' := .dma cc0_scoped0.sem) (by decide))
        (mem_erase_of (cell_ne d L (sm := .dma cc0_scoped3.sem) (sm' := .dma cc0_scratch2.sem) (by decide)) (own_mem d L (SemLoc.dma cc0_scoped3.sem) (by decide)))))
  rw [SparseCore.bigSep_erase' hB, SparseCore.bigSep_erase' h0, SparseCore.bigSep_erase' h1, SparseCore.bigSep_erase' h2, SparseCore.bigSep_erase' h3]

/-- The buffers a subcore owns besides its two scratches. -/
abbrev restRefs : Finset (DevRef τ sig) :=
  ((ownRefs (τ := τ) (.scVector (cV L) (jV L))).erase ((Proc.scVector (cV L) (jV L)).devRef cc0_scratch0)).erase
    ((Proc.scVector (cV L) (jV L)).devRef cc0_scratch1)

omit m in
/-- The two scratches are among the subcore's own buffers: they are them, at some contents, and the rest. -/
theorem ownBufs_V :
    (ownBufs (SparseCore.V d (cV L) (jV L)) : sProp 𝕄)
      = iprop((∃ f, (SparseCore.V d (cV L) (jV L)).loc cc0_scratch0 ↦{fullShare} f) ∗ (∃ f, (SparseCore.V d (cV L) (jV L)).loc cc0_scratch1 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### The blocks the task copies whole, as the program slices them -/

abbrev iBlk0 : Memref sig .scVector .hbm S512 .i32 := (iV0).slice (Rect.unit (s := S16384) (k0_off1 L) S512.size (k0_off1_inb L)) (fun _ => rfl)
abbrev iBlk1 : Memref sig .scVector .hbm S512 .i32 := (iV1).slice (Rect.unit (s := S16384) (k0_off1 L) S512.size (k0_off1_inb L)) (fun _ => rfl)
abbrev oBlk0 : Memref sig .scVector .hbm S512x16 .f32 := (oV0).slice (Rect.unit (s := S16384x16) (k0_off36 L) S512x16.size (k0_off36_inb L)) (fun _ => rfl)
abbrev oBlk1 : Memref sig .scVector .hbm S512x16 .f32 := (oV1).slice (Rect.unit (s := S16384x16) (k0_off36 L) S512x16.size (k0_off36_inb L)) (fun _ => rfl)

omit m in
/-- Entries `512·w …` of a batch vector, `w = 2·s + c`, are the slice at the printed offset `1024·s + 512·c`. -/
theorem rect_iBlk : Rect.unit (s := S16384) (k0_off1 L) S512.size (k0_off1_inb L) = Rect.part (s := S16384) (a₀ := 0) hdiv1 (wid (cV L) (jV L)) := by
  unfold Rect.part Rect.block
  congr 1 <;> funext a
  · rw [k0_off1_eq]
    match a with
    | 0 => simp [Shape.partIx, Shape.partSize, wid]; omega
  · match a with
    | 0 => simp [Shape.partSize]
omit m in
theorem rect_oBlk : Rect.unit (s := S16384x16) (k0_off36 L) S512x16.size (k0_off36_inb L) = Rect.part (s := S16384x16) (a₀ := 0) hdiv2 (wid (cV L) (jV L)) := by
  unfold Rect.part Rect.block
  congr 1 <;> funext a
  · rw [k0_off36_eq]
    match a with
    | 0 => simp [Shape.partIx, Shape.partSize, wid]; omega
    | 1 => simp [Shape.partIx, Shape.partSize]
  · match a with
    | 0 => simp [Shape.partSize]
    | 1 => simp [Shape.partSize]

omit m in
theorem set_iBlk0 : (iBlk0 L).view.set = blk1 (wid (cV L) (jV L)) := by
  show ((View.whole (main_arg0_scv : Ref sig .scVector)).slice (Rect.unit (s := S16384) (k0_off1 L) S512.size (k0_off1_inb L))).set = _
  rw [View.set_slice_whole, rect_iBlk]
omit m in
theorem set_iBlk1 : (iBlk1 L).view.set = blk1 (wid (cV L) (jV L)) := by
  show ((View.whole (main_arg1_scv : Ref sig .scVector)).slice (Rect.unit (s := S16384) (k0_off1 L) S512.size (k0_off1_inb L))).set = _
  rw [View.set_slice_whole, rect_iBlk]
omit m in
theorem set_oBlk0 : (oBlk0 L).view.set = blk2 (wid (cV L) (jV L)) := by
  show ((View.whole (main_v5_0_scv : Ref sig .scVector)).slice (Rect.unit (s := S16384x16) (k0_off36 L) S512x16.size (k0_off36_inb L))).set = _
  rw [View.set_slice_whole, rect_oBlk]
omit m in
theorem set_oBlk1 : (oBlk1 L).view.set = blk2 (wid (cV L) (jV L)) := by
  show ((View.whole (main_v5_1_scv : Ref sig .scVector)).slice (Rect.unit (s := S16384x16) (k0_off36 L) S512x16.size (k0_off36_inb L))).set = _
  rw [View.set_slice_whole, rect_oBlk]

omit m in
theorem pts_iBlk0 (f : Buf (Elt F) (iLoc0 d)) :
    ((iBlk0 L).view.loc (SparseCore.V d (cV L) (jV L)) ↦[(iBlk0 L).view.set]{fullShare} f : sProp 𝕄) = iLoc0 d ↦[blk1 (wid (cV L) (jV L))]{fullShare} f := by
  rw [set_iBlk0]
omit m in
theorem pts_iBlk1 (f : Buf (Elt F) (iLoc1 d)) :
    ((iBlk1 L).view.loc (SparseCore.V d (cV L) (jV L)) ↦[(iBlk1 L).view.set]{fullShare} f : sProp 𝕄) = iLoc1 d ↦[blk1 (wid (cV L) (jV L))]{fullShare} f := by
  rw [set_iBlk1]
omit m in
theorem pts_oBlk0 (f : Buf (Elt F) (oLoc0 d)) :
    ((oBlk0 L).view.loc (SparseCore.V d (cV L) (jV L)) ↦[(oBlk0 L).view.set]{fullShare} f : sProp 𝕄) = oLoc0 d ↦[blk2 (wid (cV L) (jV L))]{fullShare} f := by
  rw [set_oBlk0]
omit m in
theorem pts_oBlk1 (f : Buf (Elt F) (oLoc1 d)) :
    ((oBlk1 L).view.loc (SparseCore.V d (cV L) (jV L)) ↦[(oBlk1 L).view.set]{fullShare} f : sProp 𝕄) = oLoc1 d ↦[blk2 (wid (cV L) (jV L))]{fullShare} f := by
  rw [set_oBlk1]
omit m in
theorem pts_sIdx (f : Buf (Elt F) ((SparseCore.V d (cV L) (jV L)).loc cc0_scratch0)) :
    ((sIdx : Memref sig .scVector .vmem S512 .i32).view.loc (SparseCore.V d (cV L) (jV L)) ↦[(sIdx : Memref sig .scVector .vmem S512 .i32).view.set]{fullShare} f : sProp 𝕄)
      = (SparseCore.V d (cV L) (jV L)).loc cc0_scratch0 ↦{fullShare} f := by
  simp only [Memref.view_whole, View.set_whole]
omit m in
theorem pts_sRows (f : Buf (Elt F) ((SparseCore.V d (cV L) (jV L)).loc cc0_scratch1)) :
    ((sRows : Memref sig .scVector .vmem S512x16 .f32).view.loc (SparseCore.V d (cV L) (jV L)) ↦[(sRows : Memref sig .scVector .vmem S512x16 .f32).view.set]{fullShare} f : sProp 𝕄)
      = (SparseCore.V d (cV L) (jV L)).loc cc0_scratch1 ↦{fullShare} f := by
  simp only [Memref.view_whole, View.set_whole]

/-! ### An index off the scratch -/

omit m in
/-- Lane `l` of sixteen loaded words, as the body extracts it. -/
theorem lane_eq (x : S16.Idx → BitVec 32) (l : Fin 16) (hc : S16.ShapeCasts S16) (hs : S16.Slices ![l.val] S1) (hp : ∀ a, (![0] : Fin S1.rank → ℕ) a < S1.size a) :
    extractAt ![0] (extractStridedSlice S1 ![l.val] (shapeCast S16 x hc) hs) hp = x (ix1 l) := by
  rw [shapeCast_self]
  unfold extractAt
  refine extractStridedSlice_apply _ _ _ _ _ fun a => ?_
  match a with
  | 0 => rfl

/-! ### Reading an index, and the check it must pass -/

omit m in
/-- Lane `l` of sixteen loaded words, as the body extracts it. -/
theorem lane_eq' (x : S16.Idx → BitVec 32) (l : ℕ) (hl : l < 16) (hc : S16.ShapeCasts S16) (hs : S16.Slices ![l] S1) (hp : ∀ a, (![0] : Fin S1.rank → ℕ) a < S1.size a) :
    extractAt ![0] (extractStridedSlice S1 ![l] (shapeCast S16 x hc) hs) hp = x (ix1 (⟨l, hl⟩ : Fin 16)) := by
  rw [shapeCast_self]
  unfold extractAt
  refine extractStridedSlice_apply _ _ _ _ _ fun a => ?_
  match a with
  | 0 => rfl
omit m in
/-- A lane of words that all name rows names a row. -/
theorem lane_le (x : S16.Idx → BitVec 32) (hx : ∀ j, (x j).toNat ≤ 999999) (off : Fin S16.rank → ℕ) (hc : S16.ShapeCasts S16) (hs : S16.Slices off S1)
    (hp : ∀ a, (![0] : Fin S1.rank → ℕ) a < S1.size a) :
    (extractAt ![0] (extractStridedSlice S1 off (shapeCast S16 x hc) hs) hp).toNat ≤ 999999 := by
  rw [shapeCast_self]
  unfold extractAt extractStridedSlice
  exact hx _

omit m in
/-- The transfers issued below `j + 1` are transfer `j` and those below `j`. -/
theorem bigSep_issued_step (Φ : Fin 512 → sProp 𝕄) (j : ℕ) (hj : j < 512) :
    bigSep (Transfers.issued (m := 512) (j + 1)) Φ = iprop(Φ ⟨j, hj⟩ ∗ bigSep (Transfers.issued (m := 512) j) Φ) := by
  rw [Transfers.issued_succ hj, bigSep_insert (Transfers.not_mem_issued hj)]; rfl

omit m in
/-- A wait at the kernel's own index recorded on top of waits that were already admissible. -/
theorem ins_ok {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with hp | hp
  · exact .inr (hp ▸ rfl)
  · exact h p hp

variable [FloatOps F]

/-! ### The 512 row copies of one table: what each delivers -/

omit m in
theorem rowD_inb (t : Fin 512) : ∀ a, (![t.val, 0] : Fin 2 → ℕ) a + S1x16.size a ≤ S512x16.size a := by
  have := t.isLt
  intro a; fin_cases a
  · show t.val + 1 ≤ 512; omega
  · show 0 + 16 ≤ 16; omega
omit m in
theorem rowS_inb (v : BitVec 32) (h : v.toNat ≤ 999999) : ∀ a, (![v.toNat, 0] : Fin 2 → ℕ) a + S1x16.size a ≤ S1000000x16.size a := by
  intro a; fin_cases a
  · show v.toNat + 1 ≤ 1000000; omega
  · show 0 + 16 ≤ 16; omega

/-- Row `t` of the row scratch; row `v` of a table. -/
abbrev rowD (t : Fin 512) : Memref sig .scVector .vmem S1x16 .f32 :=
  (sRows).slice (Rect.unit (s := S512x16) ![t.val, 0] S1x16.size (rowD_inb t)) (fun _ => rfl)
abbrev rowS0 (v : BitVec 32) (h : v.toNat ≤ 999999) : Memref sig .scVector .hbm S1x16 .f32 :=
  (tV0).slice (Rect.unit (s := S1000000x16) ![v.toNat, 0] S1x16.size (rowS_inb v h)) (fun _ => rfl)
abbrev rowS1 (v : BitVec 32) (h : v.toNat ≤ 999999) : Memref sig .scVector .hbm S1x16 .f32 :=
  (tV1).slice (Rect.unit (s := S1000000x16) ![v.toNat, 0] S1x16.size (rowS_inb v h)) (fun _ => rfl)

omit m in
theorem rowD_eq (off : Fin 2 → ℕ) (inb : ∀ a, off a + S1x16.size a ≤ S512x16.size a) (t : Fin 512) (hoff : off = ![t.val, 0]) :
    (sRows : Memref sig .scVector .vmem S512x16 .f32).slice (Rect.unit (s := S512x16) off S1x16.size inb) (fun _ => rfl) = rowD t := by
  subst hoff; rfl
omit m in
theorem rowS0_eq (off : Fin 2 → ℕ) (inb : ∀ a, off a + S1x16.size a ≤ S1000000x16.size a) (v w : BitVec 32) (h : w.toNat ≤ 999999)
    (hoff : off = ![v.toNat, 0]) (hv : v = w) :
    (tV0 : Memref sig .scVector .hbm S1000000x16 .f32).slice (Rect.unit (s := S1000000x16) off S1x16.size inb) (fun _ => rfl) = rowS0 w h := by
  subst hoff; subst hv; rfl
omit m in
theorem rowS1_eq (off : Fin 2 → ℕ) (inb : ∀ a, off a + S1x16.size a ≤ S1000000x16.size a) (v w : BitVec 32) (h : w.toNat ≤ 999999)
    (hoff : off = ![v.toNat, 0]) (hv : v = w) :
    (tV1 : Memref sig .scVector .hbm S1000000x16 .f32).slice (Rect.unit (s := S1000000x16) off S1x16.size inb) (fun _ => rfl) = rowS1 w h := by
  subst hoff; subst hv; rfl

/-- One row's credit on the subcore's batch semaphore. -/
abbrev NR : ℕ := (rowD 0).view.dmaCredit

/-- The share of a table that copy `t` of a worker reads its row through. -/
abbrev tokq (t : Fin 512) : PosShare TreeShare :=
  Transfers.shareTok (Transfers.shareTok fullShare 32 (wid (cV L) (jV L))) 512 t

/-! ### The 512 rows of the row scratch -/

omit m in
theorem rowD_set (t : Fin 512) : (rowD t).view.set = (Rect.unit (s := S512x16) ![t.val, 0] S1x16.size (rowD_inb t)).set := by
  show ((View.whole (cc0_scratch1 : Ref sig .scVector)).slice (Rect.unit (s := S512x16) ![t.val, 0] S1x16.size (rowD_inb t))).set = _
  rw [View.set_slice_whole]
omit m in
/-- Row `t`'s elements, typed as elements of the row scratch. -/
abbrev rowSet (t : Fin 512) : Finset (Idx ((SparseCore.V d (cV L) (jV L)).loc cc0_scratch1)) := (rowD t).view.set
omit m in
theorem rowD_disjoint : ∀ t ∈ (Finset.univ : Finset (Fin 512)), ∀ t' ∈ (Finset.univ : Finset (Fin 512)), t ≠ t' →
    Disjoint (rowSet d L t) (rowSet d L t') := by
  intro t _ t' _ h
  show Disjoint (rowD t).view.set (rowD t').view.set
  rw [rowD_set, rowD_set]
  refine Rect.unit_disjoint 0 ?_
  have : t.val ≠ t'.val := fun e => h (Fin.ext e)
  show t.val + 1 ≤ t'.val ∨ t'.val + 1 ≤ t.val
  omega
omit m in
theorem rowD_cover : (Finset.univ : Finset (Fin 512)).biUnion (rowSet d L) = Finset.univ := by
  ext i
  simp only [Finset.mem_biUnion, Finset.mem_univ, true_and, iff_true]
  have h0 : (i 0).val < 512 := (i 0).isLt
  have h1 : (i 1).val < 16 := (i 1).isLt
  refine ⟨⟨(i 0).val, h0⟩, ?_⟩
  show i ∈ (rowD ⟨(i 0).val, h0⟩).view.set
  rw [rowD_set, Rect.mem_set_unit]
  intro a; fin_cases a
  · show (i 0).val ≤ (i 0).val ∧ (i 0).val < (i 0).val + 1; omega
  · show 0 ≤ (i 1).val ∧ (i 1).val < 0 + 16; omega
omit m in
/-- The row scratch whole is its 512 rows. -/
theorem rows_split (f : Buf (Elt F) ((SparseCore.V d (cV L) (jV L)).loc cc0_scratch1)) :
    ((SparseCore.V d (cV L) (jV L)).loc cc0_scratch1 ↦{fullShare} f : sProp 𝕄)
      = bigSep Finset.univ (fun t : Fin 512 => ((rowD t).view.loc (SparseCore.V d (cV L) (jV L)) ↦[(rowD t).view.set]{fullShare} f : sProp 𝕄)) := by
  show ((SparseCore.V d (cV L) (jV L)).loc cc0_scratch1 ↦[Finset.univ]{fullShare} f : sProp 𝕄)
      = bigSep Finset.univ (fun t : Fin 512 => ((SparseCore.V d (cV L) (jV L)).loc cc0_scratch1 ↦[rowSet d L t]{fullShare} f : sProp 𝕄))
  rw [← pointsTo_biUnion Finset.univ (rowSet d L) (rowD_disjoint d L), rowD_cover]
omit m in
theorem NR_pos : 0 < NR := View.dmaCredit_pos _ (by decide)
omit m in
theorem pending_all : Transfers.pending (n := 512) 512 = ∅ := by
  ext t; simp only [Transfers.pending, Finset.mem_filter, Finset.mem_univ, true_and, Finset.notMem_empty, iff_false]; have := t.isLt; omega

/-! ### The 512 waits -/

section Drain

variable (Dl : Fin 512 → sProp (MT nD τ sig (HIx 1) (Elt F) ℕ UU ℕ)) (O : CellTallies nD τ sig (HIx 1)) (W : Waits sig (HIx 1))

/-- With `k` rows' amounts taken off the counter: the batch, or after the last one every delivery and the counter at zero. -/
def DrainSt (k : ℕ) : sProp 𝕄 :=
  if k < 512 then Transfers.Batch (countersEmb (U := UU)) (SparseCore.V d (cV L) (jV L)) (.dma cc0_scratch2.sem) (none : HIx 1) NR Dl 512 (k * NR)
  else iprop(bigSep Finset.univ Dl ∗ semVal (cellB d L) 0)

omit m in
theorem DrainSt_lt {k : ℕ} (h : k < 512) :
    DrainSt d L Dl k = Transfers.Batch (countersEmb (U := UU)) (SparseCore.V d (cV L) (jV L)) (.dma cc0_scratch2.sem) (none : HIx 1) NR Dl 512 (k * NR) := if_pos h
omit m in
theorem DrainSt_ge {k : ℕ} (h : ¬ k < 512) : DrainSt d L Dl k = iprop(bigSep Finset.univ Dl ∗ semVal (cellB d L) 0) := if_neg h

/-- Before trip `k` of the waiting loop. -/
def Inv2 (k : ℕ) (_ : Unit) : sProp 𝕄 :=
  iprop(Transfers.MayWaits (SparseCore.V d (cV L) (jV L)) (none : HIx 1) O ∗ DrainSt d L Dl k
    ∗ ∃ W', ⌜∀ p ∈ W', p ∈ W ∨ p.2 = none⌝ ∗ owes (SparseCore.V d (cV L) (jV L)) O W')

omit m in
/-- One wait of a row's amount: nothing learnt before the last, everything at the last. -/
theorem drain_step {α : Type} {sp sp' : Space} {s' : Shape} {e' : EltTy} {κ' : Kind} (k : ℕ) (hk : k < 512)
    (srcw : Memref sig (SparseCore.V d (cV L) (jV L)).2.kind sp' s' e') (dstw : Memref sig κ' sp S1x16 .f32) (hcred : dstw.view.dmaCredit = NR)
    {hsrc : srcw.view.WordExact} {hdst : dstw.view.WordExact}
    (kont : PUnit → Prog (TpuEff nD τ sig (Elt F) Λ₀ (SparseCore.V d (cV L) (jV L)).2) α) (Q : α → sProp 𝕄) :
    Inv2 d L Dl O W k ()
      ⊢ iprop((Inv2 d L Dl O W (k + 1) () -∗ wp frame (wpE (defs₀ (F := F)) 𝒱₀ (SparseCore.V d (cV L) (jV L)) none) Set.univ (kont ⟨⟩) Q)
          -∗ wp frame (wpE (defs₀ (F := F)) 𝒱₀ (SparseCore.V d (cV L) (jV L)) none) Set.univ (.op (.waitDma2 cc0_scratch2.sem srcw dstw hsrc hdst) kont) Q) := by
  unfold Inv2
  rw [DrainSt_lt d L Dl hk]
  by_cases h : k + 1 < 512
  · rw [DrainSt_lt d L Dl h, show (k + 1) * NR = k * NR + NR from Nat.succ_mul _ _]
    have hu : k * NR + NR < NR * 512 := by
      have := Nat.mul_lt_mul_of_lt_of_le h (Nat.le_refl NR) NR_pos
      rw [Nat.succ_mul] at this; rw [Nat.mul_comm NR 512]; exact this
    iintro ⟨#Hmw, HB, %W', %hW', HO⟩ Hk
    ihave Hmw1 := (Transfers.MayWaits.elim (SemLoc.dma cc0_scratch2.sem)) $$ Hmw
    iapply (Transfers.wp_waitBatchO (countersEmb (U := UU)) 𝒱₀ (SparseCore.V d (cV L) (jV L)) none (none : HIx 1) hcred (D := Dl) (u := k * NR) hu (O := O) (W := W')) $$ [HB HO Hmw1]
    · isplitl [HB]; · iexact HB
      isplitl [HO]; · iexact HO
      iexact Hmw1
    iintro ⟨HB, HO⟩
    iapply Hk
    isplitr; · iexact Hmw
    isplitl [HB]; · iexact HB
    iexists (insert (SemLoc.dma cc0_scratch2.sem, (none : HIx 1)) W'); isplitr
    · ipureintro; intro p hp
      rcases Finset.mem_insert.mp hp with hp | hp
      · exact .inr (hp ▸ rfl)
      · exact hW' p hp
    · iexact HO
  · rw [DrainSt_ge d L Dl h]
    have hu : k * NR + NR = NR * 512 := by
      rw [← Nat.succ_mul, show k.succ = 512 from by omega, Nat.mul_comm]
    iintro ⟨#Hmw, HB, %W', %hW', HO⟩ Hk
    ihave Hmw1 := (Transfers.MayWaits.elim (SemLoc.dma cc0_scratch2.sem)) $$ Hmw
    iapply (Transfers.wp_waitBatchLastO (countersEmb (U := UU)) 𝒱₀ (SparseCore.V d (cV L) (jV L)) none (none : HIx 1) hcred NR_pos (D := Dl) (u := k * NR) hu (O := O) (W := W')) $$ [HB HO Hmw1]
    · isplitl [HB]; · iexact HB
      isplitl [HO]; · iexact HO
      iexact Hmw1
    iintro ⟨HD, Hv, HO⟩
    iapply Hk
    isplitr; · iexact Hmw
    isplitl [HD Hv]
    · isplitl [HD]; · iexact HD
      iexact Hv
    iexists (insert (SemLoc.dma cc0_scratch2.sem, (none : HIx 1)) W'); isplitr
    · ipureintro; intro p hp
      rcases Finset.mem_insert.mp hp with hp | hp
      · exact .inr (hp ▸ rfl)
      · exact hW' p hp
    · iexact HO

end Drain

omit m in
theorem drain_region0 (Dl : Fin 512 → sProp 𝕄) (O : CellTallies nD τ sig (HIx 1)) (W : Waits sig (HIx 1)) (k : Fin k0_t2_loop.trips) (acc : Unit) :
    Inv2 d L Dl O W k.val acc
      ⊢ wp frame (wpE (defs₀ (F := F)) 𝒱₀ (SparseCore.V d (cV L) (jV L)) none) Set.univ
          (k0_t2_body (F := F) L iV0 (Memref.isWhole_whole _) iV1 (Memref.isWhole_whole _) tV0 (Memref.isWhole_whole _) tV1 (Memref.isWhole_whole _)
            oV0 (Memref.isWhole_whole _) oV1 (Memref.isWhole_whole _) sIdx (Memref.isWhole_whole _) sRows (Memref.isWhole_whole _)
            cc0_scratch2 cc0_scoped0 cc0_scoped1 cc0_scoped2 cc0_scoped3 k acc)
          (Inv2 d L Dl O W (k.val + 1)) := by
  have hk : k.val < 512 := by have := k.isLt; have e : k0_t2_loop.trips = 512 := by decide
                              omega
  unfold k0_t2_body
  simp only [Prog.lift, Prog.bind_op, Prog.bind_ret, Prog.pure_eq_ret]
  iintro HI
  iapply (drain_step d L Dl O W k.val hk _ _ rfl) $$ [HI]
  · iexact HI
  iintro HI
  sl_step
  iexact HI

omit m in
theorem drain_region1 (Dl : Fin 512 → sProp 𝕄) (O : CellTallies nD τ sig (HIx 1)) (W : Waits sig (HIx 1)) (k : Fin k0_t4_loop.trips) (acc : Unit) :
    Inv2 d L Dl O W k.val acc
      ⊢ wp frame (wpE (defs₀ (F := F)) 𝒱₀ (SparseCore.V d (cV L) (jV L)) none) Set.univ
          (k0_t4_body (F := F) L iV0 (Memref.isWhole_whole _) iV1 (Memref.isWhole_whole _) tV1 (Memref.isWhole_whole _) tV1 (Memref.isWhole_whole _)
            oV0 (Memref.isWhole_whole _) oV1 (Memref.isWhole_whole _) sIdx (Memref.isWhole_whole _) sRows (Memref.isWhole_whole _)
            cc0_scratch2 cc0_scoped0 cc0_scoped1 cc0_scoped2 cc0_scoped3 k acc)
          (Inv2 d L Dl O W (k.val + 1)) := by
  have hk : k.val < 512 := by have := k.isLt; have e : k0_t4_loop.trips = 512 := by decide
                              omega
  unfold k0_t4_body
  simp only [Prog.lift, Prog.bind_op, Prog.bind_ret, Prog.pure_eq_ret]
  iintro HI
  iapply (drain_step d L Dl O W k.val hk _ _ rfl) $$ [HI]
  · iexact HI
  iintro HI
  sl_step
  iexact HI

/-! ### Reading an index off the index scratch -/

section Shared

variable (gI : Buf (Elt F) ((SparseCore.V d (cV L) (jV L)).loc cc0_scratch0)) (hb : ∀ j, (gI j).toNat ≤ 999999)

include hb in
/-- Words read off the index scratch are words of it. -/
theorem readAt_le (r : LoadRect S512) (j : r.shape.Idx) : ((sIdx : Memref sig .scVector .vmem S512 .i32).view.readAt (Elt F) r gI j).toNat ≤ 999999 := by
  rw [View.readAt_apply]
  exact ((View.read_apply (v := (sIdx : Memref sig .scVector .vmem S512 .i32).view) gI (r.idx j)).trans (cast_eq _ _)) ▸ hb _

include hb in
/-- The check a trip makes of a lane of the words it loaded: the lane names a row of the table. -/
theorem lane_ok (off2 : Fin S512.rank → ℕ) (inb2 : ∀ a, off2 a + S16.size a ≤ S512.size a) (off : Fin S16.rank → ℕ)
    (hc : S16.ShapeCasts S16) (hs : S16.Slices off S1) (hp : ∀ a, (![0] : Fin S1.rank → ℕ) a < S1.size a) :
    ∀ a, (![(extractAt ![0] (extractStridedSlice S1 off (shapeCast S16
        ((sIdx : Memref sig .scVector .vmem S512 .i32).view.readAt (Elt F) (Rect.unit (s := S512) off2 S16.size inb2).toLoadRect gI) hc) hs) hp).toNat, 0] : Fin 2 → ℕ) a
      + S1x16.size a ≤ S1000000x16.size a :=
  rowS_inb _ (lane_le _ (readAt_le d L gI hb (Rect.unit (s := S512) off2 S16.size inb2).toLoadRect) off hc hs hp)

end Shared

omit m [FloatOps F] in
/-- One write of the whole index scratch leaves what was written. -/
theorem idx_landed (f w : Buf (Elt F) ((SparseCore.V d (cV L) (jV L)).loc cc0_scratch0)) :
    (sIdx : Memref sig .scVector .vmem S512 .i32).view.writes (Elt F) f [⟨Rect.whole S512, w⟩] = w := by
  have h1 := (View.write_univ_eq_writes_whole (View.whole (cc0_scratch0 : Ref sig .scVector)) f [] w).symm
  exact h1.trans (View.write_whole_univ (cc0_scratch0 : Ref sig .scVector) f w)

end Tile

end Cert.Proof.KI

end
-- ==== Proof.TileFire0.lean ====
/-
  One vector subcore's task of the gather, the first table: what each of the 512 row copies delivers (row t of the row
  scratch at the table's row that index t names, and the read share of that row back); the state with j copies issued
  (the batch, the rows and read shares not yet given to a copy, and of each share lent what is left of the table beside
  the row lent); one copy issued, as a single step over (trip, lane); a trip of the issuing loop, sixteen such steps
  between the checks that each index names a row; and, once every copy has landed, the row scratch whole at the
  gathered rows and the table's share whole again.
-/
import proofs.«212205_g31413390803091_cont_8to1_b_1662_24_alg».proof.Proof.TileBase
import proofs.«212205_g31413390803091_cont_8to1_b_1662_24_alg».proof.Proof.OutRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

variable [FloatOps F]

section Table0

variable (gI : Buf (Elt F) ((SparseCore.V d (cV L) (jV L)).loc cc0_scratch0)) (hb : ∀ j, (gI j).toNat ≤ 999999)

/-- What the row scratch holds once every copy has landed: row `r` is the table's row that index `r` names. -/
def G0 : Buf (Elt F) ((SparseCore.V d (cV L) (jV L)).loc cc0_scratch1) :=
  fun y => tab0 m d (ix2 (⟨(gI (ix1 (⟨(y 0).val, (y 0).isLt⟩ : Fin 512))).toNat, Nat.lt_succ_of_le (hb _)⟩ : Fin 1000000) (⟨(y 1).val, (y 1).isLt⟩ : Fin 16))

/-- Copy `t` delivers row `t` of the row scratch at the table's row that index `t` names, and gives its read share of that
    row back. -/
def D0 (t : Fin 512) : sProp 𝕄 :=
  iprop(((rowD t).view.loc (SparseCore.V d (cV L) (jV L)) ↦[(rowD t).view.set]{fullShare} G0 m d L gI hb)
    ∗ ((rowS0 (gI (ix1 t)) (hb _)).view.loc (SparseCore.V d (cV L) (jV L)) ↦[(rowS0 (gI (ix1 t)) (hb _)).view.set]{tokq L t} tab0 m d))

instance D0_storable (t : Fin 512) : BI.Storable (upEmb : UEmb _ 𝕄) (D0 m d L gI hb t) := by unfold D0; infer_instance

/-- With `j` copies issued: the batch; the rows of the scratch not yet given to a copy; the read shares not yet lent; and of
    each share lent, what is left of the table beside the row lent. -/
def Fire0 (f0 : Buf (Elt F) ((SparseCore.V d (cV L) (jV L)).loc cc0_scratch1)) (j : ℕ) : sProp 𝕄 :=
  iprop(Transfers.Batch (countersEmb (U := UU)) (SparseCore.V d (cV L) (jV L)) (.dma cc0_scratch2.sem) (none : HIx 1) NR (D0 m d L gI hb) j 0
    ∗ bigSep (Transfers.pending (n := 512) j) (fun t => (rowD t).view.loc (SparseCore.V d (cV L) (jV L)) ↦[(rowD t).view.set]{fullShare} f0)
    ∗ bigSep (Transfers.pending (n := 512) j) (fun t => tLoc0 d ↦{tokq L t} tab0 m d)
    ∗ bigSep (Transfers.issued (m := 512) j)
        (fun t => tLoc0 d ↦[Finset.univ \ (rowS0 (gI (ix1 t)) (hb _)).view.set]{tokq L t} tab0 m d))

/-- Before trip `k` of the issuing loop: the index scratch, and sixteen copies per trip issued. -/
def Inv1 (f0 : Buf (Elt F) ((SparseCore.V d (cV L) (jV L)).loc cc0_scratch1)) (k : ℕ) (_ : Unit) : sProp 𝕄 :=
  iprop(((sIdx : Memref sig .scVector .vmem S512 .i32).view.loc (SparseCore.V d (cV L) (jV L)) ↦[(sIdx : Memref sig .scVector .vmem S512 .i32).view.set]{fullShare} gI)
    ∗ Fire0 m d L gI hb f0 (16 * k))
omit [FloatOps F] in
/-- Trip `k` loads entries `16·k …` of the index scratch. -/
theorem readAt_val (k : Fin k0_t1_loop.trips) (l : ℕ) (hl : l < 16) (hlt : 16 * k.val + l < 512) :
    (sIdx : Memref sig .scVector .vmem S512 .i32).view.readAt (Elt F) (Rect.unit (s := S512) (k0_off2 k) S16.size (k0_off2_inb k)).toLoadRect gI (ix1 (⟨l, hl⟩ : Fin 16))
      = gI (ix1 (⟨16 * k.val + l, hlt⟩ : Fin 512)) := by
  rw [View.readAt_apply]
  refine ((View.read_apply (v := (sIdx : Memref sig .scVector .vmem S512 .i32).view) gI _).trans (cast_eq _ _)).trans ?_
  refine congrArg gI (funext fun a => Fin.ext ?_)
  match a with
  | 0 =>
    show (k0_off2 k) 0 + 1 * l = 16 * k.val + l
    rw [k0_off2_eq]; simp

omit [FloatOps F] in
/-- Lane `l` of the words trip `k` loads is entry `16·k + l` of the index scratch. -/
theorem lane_val (k : Fin k0_t1_loop.trips) (l : ℕ) (hl : l < 16) (hlt : 16 * k.val + l < 512)
    (hc : S16.ShapeCasts S16) (hs : S16.Slices ![l] S1) (hp : ∀ a, (![0] : Fin S1.rank → ℕ) a < S1.size a) :
    extractAt ![0] (extractStridedSlice S1 ![l] (shapeCast S16
        ((sIdx : Memref sig .scVector .vmem S512 .i32).view.readAt (Elt F) (Rect.unit (s := S512) (k0_off2 k) S16.size (k0_off2_inb k)).toLoadRect gI) hc) hs) hp
      = gI (ix1 (⟨16 * k.val + l, hlt⟩ : Fin 512)) :=
  (lane_eq' _ l hl hc hs hp).trans (readAt_val d L gI k l hl hlt)

/-- Where copy `t` lands, the row scratch holds the table's row that index `t` names. -/
theorem landed_eq (t : Fin 512) (fd : Buf (Elt F) ((rowD t).view.loc (SparseCore.V d (cV L) (jV L)))) :
    ∀ i ∈ (rowD t).view.set,
      (rowD t).view.write (Elt F) fd (ReadAs.same.apply ((rowS0 (gI (ix1 t)) (hb _)).view.read (Elt F) (tab0 m d))) Finset.univ i
        = G0 m d L gI hb i := by
  intro i hi
  obtain ⟨y, rfl⟩ := View.exists_emb_of_mem_set _ hi
  rw [View.write_emb_of_mem _ _ (Finset.mem_univ y), ReadAs.apply_same, View.read_apply]
  have hy : (y 0).val = 0 := by have h1 : (y 0).val < 1 := (y 0).isLt; omega
  have hd0 : ((rowD t).view.emb y 0).val = t.val := by
    show (![t.val, 0] : Fin 2 → ℕ) 0 + 1 * (y 0).val = t.val
    rw [hy]; simp
  have hd1 : ((rowD t).view.emb y 1).val = (y 1).val := by
    show (![t.val, 0] : Fin 2 → ℕ) 1 + 1 * (y 1).val = (y 1).val
    simp
  have hs0 : ((rowS0 (gI (ix1 t)) (hb _)).view.emb y 0).val = (gI (ix1 t)).toNat := by
    show (![(gI (ix1 t)).toNat, 0] : Fin 2 → ℕ) 0 + 1 * (y 0).val = _
    rw [hy]; simp
  have hs1 : ((rowS0 (gI (ix1 t)) (hb _)).view.emb y 1).val = (y 1).val := by
    show (![(gI (ix1 t)).toNat, 0] : Fin 2 → ℕ) 1 + 1 * (y 1).val = (y 1).val
    simp
  refine (cast_eq _ _).trans ((cast_eq _ _).trans ?_)
  unfold G0
  refine congrArg (tab0 m d) (funext fun a => Fin.ext ?_)
  match a with
  | 0 =>
    rw [hs0]
    show (gI (ix1 t)).toNat = (gI (ix1 (⟨((rowD t).view.emb y 0).val, _⟩ : Fin 512))).toNat
    exact congrArg (fun j : Fin 512 => (gI (ix1 j)).toNat) (Fin.ext hd0.symm)
  | 1 =>
    rw [hs1]
    exact hd1.symm

/-- Copy `j` issued: its row of the scratch and its read share go to the copy, the rest of its share stays. -/
theorem fire_one {α : Type} (f0 : Buf (Elt F) ((SparseCore.V d (cV L) (jV L)).loc cc0_scratch1)) (j : ℕ) (hj : j < 512)
    (src : Memref sig (SparseCore.V d (cV L) (jV L)).2.kind .hbm S1x16 .f32) (dst : Memref sig (SparseCore.V d (cV L) (jV L)).2.kind .vmem S1x16 .f32)
    (hsrcE : src = rowS0 (gI (ix1 ⟨j, hj⟩)) (hb _)) (hdstE : dst = rowD ⟨j, hj⟩)
    {hsrc : src.view.WordExact} {hdst : dst.view.WordExact}
    {hsem : DmaTarget.Typed (nD := nD) .hbm (.dma cc0_scratch2.sem) (DmaTarget.here (p := (SparseCore.V d (cV L) (jV L)).2) dst)}
    (kont : PUnit → Prog (TpuEff nD τ sig (Elt F) Λ₀ (SparseCore.V d (cV L) (jV L)).2) α) (Q : α → sProp 𝕄) :
    Fire0 m d L gI hb f0 j
      ⊢ iprop((Fire0 m d L gI hb f0 (j + 1) -∗ wp frame (wpE (defs₀ (F := F)) 𝒱₀ (SparseCore.V d (cV L) (jV L)) none) Set.univ (kont ⟨⟩) Q)
          -∗ wp frame (wpE (defs₀ (F := F)) 𝒱₀ (SparseCore.V d (cV L) (jV L)) none) Set.univ
              (.op (.enqueueDmaAs src (.here dst) ReadAs.same (.dma cc0_scratch2.sem) hsrc hdst hsem) kont) Q) := by
  subst hsrcE; subst hdstE
  unfold Fire0
  iintro ⟨HB, HR, HT, HC⟩ Hk
  ihave HR' := (Entails.of_eq (Transfers.bigSep_pending_step
    (fun t : Fin 512 => ((rowD t).view.loc (SparseCore.V d (cV L) (jV L)) ↦[(rowD t).view.set]{fullShare} f0 : sProp 𝕄)) j hj)) $$ HR
  icases HR' with ⟨Hrow, HR⟩
  ihave HT' := (Entails.of_eq (Transfers.bigSep_pending_step (fun t : Fin 512 => (tLoc0 d ↦{tokq L t} tab0 m d : sProp 𝕄)) j hj)) $$ HT
  icases HT' with ⟨Htok, HT⟩
  ihave Htok' := (pointsTo_split_subset (Finset.subset_univ (rowS0 (gI (ix1 ⟨j, hj⟩)) (hb _)).view.set)).1 $$ Htok
  icases Htok' with ⟨Hsrc, Hrest⟩
  iapply (Transfers.wp_dmaBatch (countersEmb (U := UU)) 𝒱₀ (SparseCore.V d (cV L) (jV L)) none
      (src := rowS0 (gI (ix1 ⟨j, hj⟩)) (hb _)) (dst := rowD ⟨j, hj⟩) (none : HIx 1) NR rfl subset_rfl
      (D := D0 m d L gI hb) (j := j) (u := 0) hj (Nat.zero_le _) ?hD) $$ [Hsrc Hrow HB]
  case hD =>
    unfold D0
    rw [pointsTo_congr (landed_eq m d L gI hb ⟨j, hj⟩ f0)]
  · isplitl [Hsrc]; · iexact Hsrc
    isplitl [Hrow]; · iexact Hrow
    iexact HB
  iintro HB
  iapply Hk
  isplitl [HB]; · iexact HB
  isplitl [HR]; · iexact HR
  isplitl [HT]; · iexact HT
  iapply (Entails.of_eq (bigSep_issued_step
    (fun t : Fin 512 => (tLoc0 d ↦[Finset.univ \ (rowS0 (gI (ix1 t)) (hb _)).view.set]{tokq L t} tab0 m d : sProp 𝕄)) j hj).symm)
  isplitl [Hrest]; · iexact Hrest
  iexact HC

set_option maxHeartbeats 4000000 in
theorem fire_region (f0 : Buf (Elt F) ((SparseCore.V d (cV L) (jV L)).loc cc0_scratch1)) (k : Fin k0_t1_loop.trips) (acc : Unit) :
    Inv1 m d L gI hb f0 k.val acc
      ⊢ wp frame (wpE (defs₀ (F := F)) 𝒱₀ (SparseCore.V d (cV L) (jV L)) none) Set.univ
          (k0_t1_body (F := F) L iV0 (Memref.isWhole_whole _) iV1 (Memref.isWhole_whole _) tV0 (Memref.isWhole_whole _) tV1 (Memref.isWhole_whole _)
            oV0 (Memref.isWhole_whole _) oV1 (Memref.isWhole_whole _) sIdx (Memref.isWhole_whole _) sRows (Memref.isWhole_whole _)
            cc0_scratch2 cc0_scoped0 cc0_scoped1 cc0_scoped2 cc0_scoped3 k acc)
          (Inv1 m d L gI hb f0 (k.val + 1)) := by
  have hk : k.val < 32 := by have := k.isLt; have e : k0_t1_loop.trips = 32 := by decide
                             omega
  unfold k0_t1_body
  unfold Inv1
  rw [show 16 * (k.val + 1) = 16 * k.val + 16 from by omega]
  iintro ⟨HsI, HF⟩
  sl_exec (disch := exact lane_ok d L gI hb _ _ _ (by decide) (by decide) (by decide))
  -- lane 0
  iapply (fire_one m d L gI hb f0 (16 * k.val + 0) (by omega) _ _
    (rowS0_eq _ _ _ _ _ rfl (lane_val d L gI k 0 (by omega) (by omega) (by decide) (by decide) (by decide)))
    (rowD_eq _ _ ⟨16 * k.val + 0, by omega⟩ (k0_off5_eq k ⟨0, by decide⟩))) $$ [HF]
  · iexact HF
  iintro HF
  sl_exec (disch := exact lane_ok d L gI hb _ _ _ (by decide) (by decide) (by decide))
  -- lane 1
  iapply (fire_one m d L gI hb f0 (16 * k.val + 1) (by omega) _ _
    (rowS0_eq _ _ _ _ _ rfl (lane_val d L gI k 1 (by omega) (by omega) (by decide) (by decide) (by decide)))
    (rowD_eq _ _ ⟨16 * k.val + 1, by omega⟩ (k0_off7_eq k ⟨0, by decide⟩))) $$ [HF]
  · iexact HF
  iintro HF
  sl_exec (disch := exact lane_ok d L gI hb _ _ _ (by decide) (by decide) (by decide))
  -- lane 2
  iapply (fire_one m d L gI hb f0 (16 * k.val + 2) (by omega) _ _
    (rowS0_eq _ _ _ _ _ rfl (lane_val d L gI k 2 (by omega) (by omega) (by decide) (by decide) (by decide)))
    (rowD_eq _ _ ⟨16 * k.val + 2, by omega⟩ (k0_off9_eq k ⟨0, by decide⟩))) $$ [HF]
  · iexact HF
  iintro HF
  sl_exec (disch := exact lane_ok d L gI hb _ _ _ (by decide) (by decide) (by decide))
  -- lane 3
  iapply (fire_one m d L gI hb f0 (16 * k.val + 3) (by omega) _ _
    (rowS0_eq _ _ _ _ _ rfl (lane_val d L gI k 3 (by omega) (by omega) (by decide) (by decide) (by decide)))
    (rowD_eq _ _ ⟨16 * k.val + 3, by omega⟩ (k0_off11_eq k ⟨0, by decide⟩))) $$ [HF]
  · iexact HF
  iintro HF
  sl_exec (disch := exact lane_ok d L gI hb _ _ _ (by decide) (by decide) (by decide))
  -- lane 4
  iapply (fire_one m d L gI hb f0 (16 * k.val + 4) (by omega) _ _
    (rowS0_eq _ _ _ _ _ rfl (lane_val d L gI k 4 (by omega) (by omega) (by decide) (by decide) (by decide)))
    (rowD_eq _ _ ⟨16 * k.val + 4, by omega⟩ (k0_off13_eq k ⟨0, by decide⟩))) $$ [HF]
  · iexact HF
  iintro HF
  sl_exec (disch := exact lane_ok d L gI hb _ _ _ (by decide) (by decide) (by decide))
  -- lane 5
  iapply (fire_one m d L gI hb f0 (16 * k.val + 5) (by omega) _ _
    (rowS0_eq _ _ _ _ _ rfl (lane_val d L gI k 5 (by omega) (by omega) (by decide) (by decide) (by decide)))
    (rowD_eq _ _ ⟨16 * k.val + 5, by omega⟩ (k0_off15_eq k ⟨0, by decide⟩))) $$ [HF]
  · iexact HF
  iintro HF
  sl_exec (disch := exact lane_ok d L gI hb _ _ _ (by decide) (by decide) (by decide))
  -- lane 6
  iapply (fire_one m d L gI hb f0 (16 * k.val + 6) (by omega) _ _
    (rowS0_eq _ _ _ _ _ rfl (lane_val d L gI k 6 (by omega) (by omega) (by decide) (by decide) (by decide)))
    (rowD_eq _ _ ⟨16 * k.val + 6, by omega⟩ (k0_off17_eq k ⟨0, by decide⟩))) $$ [HF]
  · iexact HF
  iintro HF
  sl_exec (disch := exact lane_ok d L gI hb _ _ _ (by decide) (by decide) (by decide))
  -- lane 7
  iapply (fire_one m d L gI hb f0 (16 * k.val + 7) (by omega) _ _
    (rowS0_eq _ _ _ _ _ rfl (lane_val d L gI k 7 (by omega) (by omega) (by decide) (by decide) (by decide)))
    (rowD_eq _ _ ⟨16 * k.val + 7, by omega⟩ (k0_off19_eq k ⟨0, by decide⟩))) $$ [HF]
  · iexact HF
  iintro HF
  sl_exec (disch := exact lane_ok d L gI hb _ _ _ (by decide) (by decide) (by decide))
  -- lane 8
  iapply (fire_one m d L gI hb f0 (16 * k.val + 8) (by omega) _ _
    (rowS0_eq _ _ _ _ _ rfl (lane_val d L gI k 8 (by omega) (by omega) (by decide) (by decide) (by decide)))
    (rowD_eq _ _ ⟨16 * k.val + 8, by omega⟩ (k0_off21_eq k ⟨0, by decide⟩))) $$ [HF]
  · iexact HF
  iintro HF
  sl_exec (disch := exact lane_ok d L gI hb _ _ _ (by decide) (by decide) (by decide))
  -- lane 9
  iapply (fire_one m d L gI hb f0 (16 * k.val + 9) (by omega) _ _
    (rowS0_eq _ _ _ _ _ rfl (lane_val d L gI k 9 (by omega) (by omega) (by decide) (by decide) (by decide)))
    (rowD_eq _ _ ⟨16 * k.val + 9, by omega⟩ (k0_off23_eq k ⟨0, by decide⟩))) $$ [HF]
  · iexact HF
  iintro HF
  sl_exec (disch := exact lane_ok d L gI hb _ _ _ (by decide) (by decide) (by decide))
  -- lane 10
  iapply (fire_one m d L gI hb f0 (16 * k.val + 10) (by omega) _ _
    (rowS0_eq _ _ _ _ _ rfl (lane_val d L gI k 10 (by omega) (by omega) (by decide) (by decide) (by decide)))
    (rowD_eq _ _ ⟨16 * k.val + 10, by omega⟩ (k0_off25_eq k ⟨0, by decide⟩))) $$ [HF]
  · iexact HF
  iintro HF
  sl_exec (disch := exact lane_ok d L gI hb _ _ _ (by decide) (by decide) (by decide))
  -- lane 11
  iapply (fire_one m d L gI hb f0 (16 * k.val + 11) (by omega) _ _
    (rowS0_eq _ _ _ _ _ rfl (lane_val d L gI k 11 (by omega) (by omega) (by decide) (by decide) (by decide)))
    (rowD_eq _ _ ⟨16 * k.val + 11, by omega⟩ (k0_off27_eq k ⟨0, by decide⟩))) $$ [HF]
  · iexact HF
  iintro HF
  sl_exec (disch := exact lane_ok d L gI hb _ _ _ (by decide) (by decide) (by decide))
  -- lane 12
  iapply (fire_one m d L gI hb f0 (16 * k.val + 12) (by omega) _ _
    (rowS0_eq _ _ _ _ _ rfl (lane_val d L gI k 12 (by omega) (by omega) (by decide) (by decide) (by decide)))
    (rowD_eq _ _ ⟨16 * k.val + 12, by omega⟩ (k0_off29_eq k ⟨0, by decide⟩))) $$ [HF]
  · iexact HF
  iintro HF
  sl_exec (disch := exact lane_ok d L gI hb _ _ _ (by decide) (by decide) (by decide))
  -- lane 13
  iapply (fire_one m d L gI hb f0 (16 * k.val + 13) (by omega) _ _
    (rowS0_eq _ _ _ _ _ rfl (lane_val d L gI k 13 (by omega) (by omega) (by decide) (by decide) (by decide)))
    (rowD_eq _ _ ⟨16 * k.val + 13, by omega⟩ (k0_off31_eq k ⟨0, by decide⟩))) $$ [HF]
  · iexact HF
  iintro HF
  sl_exec (disch := exact lane_ok d L gI hb _ _ _ (by decide) (by decide) (by decide))
  -- lane 14
  iapply (fire_one m d L gI hb f0 (16 * k.val + 14) (by omega) _ _
    (rowS0_eq _ _ _ _ _ rfl (lane_val d L gI k 14 (by omega) (by omega) (by decide) (by decide) (by decide)))
    (rowD_eq _ _ ⟨16 * k.val + 14, by omega⟩ (k0_off33_eq k ⟨0, by decide⟩))) $$ [HF]
  · iexact HF
  iintro HF
  sl_exec (disch := exact lane_ok d L gI hb _ _ _ (by decide) (by decide) (by decide))
  -- lane 15
  iapply (fire_one m d L gI hb f0 (16 * k.val + 15) (by omega) _ _
    (rowS0_eq _ _ _ _ _ rfl (lane_val d L gI k 15 (by omega) (by omega) (by decide) (by decide) (by decide)))
    (rowD_eq _ _ ⟨16 * k.val + 15, by omega⟩ (k0_off35_eq k))) $$ [HF]
  · iexact HF
  iintro HF
  sl_step
  isplitl [HsI]; · iexact HsI
  iexact HF

/-- Nothing issued yet: the batch just allocated, the row scratch whole, every read share in hand. -/
theorem fire0_intro (f0 : Buf (Elt F) ((SparseCore.V d (cV L) (jV L)).loc cc0_scratch1)) :
    iprop(Transfers.Batch (countersEmb (U := UU)) (SparseCore.V d (cV L) (jV L)) (.dma cc0_scratch2.sem) (none : HIx 1) NR (D0 m d L gI hb) 0 0
        ∗ ((SparseCore.V d (cV L) (jV L)).loc cc0_scratch1 ↦{fullShare} f0)
        ∗ bigSep Finset.univ (fun t : Fin 512 => (tLoc0 d ↦{tokq L t} tab0 m d : sProp 𝕄)))
      ⊢ Fire0 m d L gI hb f0 0 := by
  unfold Fire0
  rw [Transfers.pending_zero, Transfers.issued_zero, bigSep_empty, rows_split]
  iintro ⟨HB, HR, HT⟩
  isplitl [HB]; · iexact HB
  isplitl [HR]; · iexact HR
  isplitl [HT]; · iexact HT
  iempintro

/-- Everything issued: the batch, and what is left of the table beside each row lent. -/
theorem fire0_elim (f0 : Buf (Elt F) ((SparseCore.V d (cV L) (jV L)).loc cc0_scratch1)) :
    Fire0 m d L gI hb f0 512
      ⊢ iprop(Transfers.Batch (countersEmb (U := UU)) (SparseCore.V d (cV L) (jV L)) (.dma cc0_scratch2.sem) (none : HIx 1) NR (D0 m d L gI hb) 512 0
        ∗ bigSep Finset.univ (fun t : Fin 512 => (tLoc0 d ↦[Finset.univ \ (rowS0 (gI (ix1 t)) (hb _)).view.set]{tokq L t} tab0 m d : sProp 𝕄))) := by
  unfold Fire0
  rw [pending_all, bigSep_empty, Transfers.issued_all rfl]
  iintro ⟨HB, -, -, HC⟩
  isplitl [HB]; · iexact HB
  iexact HC

/-- A read share of the table cut at a row and put back, for every copy at once. -/
theorem toks_rejoin0 :
    iprop(bigSep Finset.univ (fun t : Fin 512 => ((rowS0 (gI (ix1 t)) (hb _)).view.loc (SparseCore.V d (cV L) (jV L)) ↦[(rowS0 (gI (ix1 t)) (hb _)).view.set]{tokq L t} tab0 m d : sProp 𝕄))
        ∗ bigSep Finset.univ (fun t : Fin 512 => (tLoc0 d ↦[Finset.univ \ (rowS0 (gI (ix1 t)) (hb _)).view.set]{tokq L t} tab0 m d : sProp 𝕄)))
      ⊢ bigSep Finset.univ (fun t : Fin 512 => (tLoc0 d ↦{tokq L t} tab0 m d : sProp 𝕄)) := by
  rw [← bigSep_sep']
  exact bigSep_mono fun t _ => (pointsTo_split_subset (Finset.subset_univ (rowS0 (gI (ix1 t)) (hb _)).view.set)).2

/-- Every copy landed: the row scratch whole at the gathered rows, and the worker's read share of the table whole again. -/
theorem collect0 :
    iprop(bigSep Finset.univ (D0 m d L gI hb)
        ∗ bigSep Finset.univ (fun t : Fin 512 => (tLoc0 d ↦[Finset.univ \ (rowS0 (gI (ix1 t)) (hb _)).view.set]{tokq L t} tab0 m d : sProp 𝕄))
        ∗ (tLoc0 d ↦{Transfers.shareDrop (Transfers.shareTok fullShare 32 (wid (cV L) (jV L))) 512} tab0 m d))
      ⊢ iprop(((SparseCore.V d (cV L) (jV L)).loc cc0_scratch1 ↦{fullShare} G0 m d L gI hb)
        ∗ (tLoc0 d ↦{Transfers.shareTok fullShare 32 (wid (cV L) (jV L))} tab0 m d)) := by
  rw [show D0 m d L gI hb = fun t => iprop(((rowD t).view.loc (SparseCore.V d (cV L) (jV L)) ↦[(rowD t).view.set]{fullShare} G0 m d L gI hb)
      ∗ ((rowS0 (gI (ix1 t)) (hb _)).view.loc (SparseCore.V d (cV L) (jV L)) ↦[(rowS0 (gI (ix1 t)) (hb _)).view.set]{tokq L t} tab0 m d)) from funext fun t => rfl,
    bigSep_sep', rows_split]
  iintro ⟨⟨HA, HB⟩, HC, Hdrop⟩
  isplitl [HA]; · iexact HA
  iapply (Transfers.pointsTo_toks_join (Transfers.shareTok fullShare 32 (wid (cV L) (jV L))) 512)
  isplitl [Hdrop]; · iexact Hdrop
  iapply (toks_rejoin0 m d L gI hb)
  isplitl [HB]; · iexact HB
  iexact HC

end Table0

/-! ### The index block a worker fetches, and its rows of the result -/

/-- What the fetch leaves in the index scratch: the worker's 512 entries of the first index vector. -/
abbrev gI0 : Buf (Elt F) ((SparseCore.V d (cV L) (jV L)).loc cc0_scratch0) := (iBlk0 L).view.read (Elt F) (m (iLoc0 d))

omit [FloatOps F] in
theorem gI0_le (hpre : PreOK m) : ∀ j, (gI0 m d L j).toNat ≤ 999999 := by
  intro j
  have e := (View.read_apply (v := (iBlk0 L).view) (m (iLoc0 d)) j).trans (cast_eq _ _)
  show ((iBlk0 L).view.read (Elt F) (m (iLoc0 d)) j).toNat ≤ 999999
  rw [e]; exact (hpre d _).1

omit [FloatOps F] in
/-- Entry `t` of it is entry `512·w + t` of the index vector. -/
theorem gI0_val (t : Fin 512) (h : 512 * (wid (cV L) (jV L)).val + t.val < 16384) :
    gI0 m d L (ix1 t) = m (iLoc0 d) (ix1 (⟨512 * (wid (cV L) (jV L)).val + t.val, h⟩ : Fin 16384)) := by
  refine ((View.read_apply (v := (iBlk0 L).view) (m (iLoc0 d)) (ix1 t)).trans (cast_eq _ _)).trans ?_
  refine congrArg (m (iLoc0 d)) (funext fun a => Fin.ext ?_)
  match a with
  | 0 =>
    show (k0_off1 L) 0 + 1 * t.val = 512 * (wid (cV L) (jV L)).val + t.val
    rw [k0_off1_eq]; simp [wid]; omega

/-- After the copy-out the worker's rows of the result are the table's rows its indices name. -/
theorem rows_out0 (hpre : PreOK m) (fo : Buf (Elt F) (oLoc0 d)) :
    RowsOf (m (iLoc0 d)) (tab0 m d) (wid (cV L) (jV L))
      ((oBlk0 L).view.writes (Elt F) fo [⟨Rect.whole S512x16,
        ReadAs.same.apply ((sRows : Memref sig .scVector .vmem S512x16 .f32).view.read (Elt F) (G0 m d L (gI0 m d L) (gI0_le m d L hpre)))⟩]) := by
  have e := (View.write_univ_eq_writes_whole (oBlk0 L).view fo []
    (ReadAs.same.apply ((sRows : Memref sig .scVector .vmem S512x16 .f32).view.read (Elt F) (G0 m d L (gI0 m d L) (gI0_le m d L hpre))))).symm
  refine (congrArg (RowsOf (m (iLoc0 d)) (tab0 m d) (wid (cV L) (jV L))) e).mpr ?_
  refine out_rows0 d L (m (iLoc0 d)) (tab0 m d) fo _ ?_
  intro r e hr h
  refine ((View.read_apply (v := (sRows : Memref sig .scVector .vmem S512x16 .f32).view) (G0 m d L (gI0 m d L) (gI0_le m d L hpre)) (ix2 r e)).trans (cast_eq _ _)).trans ?_
  show G0 m d L (gI0 m d L) (gI0_le m d L hpre) (ix2 r e) = _
  unfold G0
  refine congrArg (tab0 m d) (funext fun a => Fin.ext ?_)
  match a with
  | 0 =>
    show (gI0 m d L (ix1 r)).toNat = (m (iLoc0 d) (ix1 ⟨512 * (wid (cV L) (jV L)).val + r.val, hr⟩)).toNat
    rw [gI0_val m d L r hr]
  | 1 => rfl

end Tile

end Cert.Proof.KI

end
-- ==== Proof.TileFire1.lean ====
/-
  One vector subcore's task of the gather, the second table: what each of the 512 row copies delivers (row t of the row
  scratch at the table's row that index t names, and the read share of that row back); the state with j copies issued
  (the batch, the rows and read shares not yet given to a copy, and of each share lent what is left of the table beside
  the row lent); one copy issued, as a single step over (trip, lane); a trip of the issuing loop, sixteen such steps
  between the checks that each index names a row; and, once every copy has landed, the row scratch whole at the
  gathered rows and the table's share whole again.
-/
import proofs.«212205_g31413390803091_cont_8to1_b_1662_24_alg».proof.Proof.TileBase
import proofs.«212205_g31413390803091_cont_8to1_b_1662_24_alg».proof.Proof.OutRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

variable [FloatOps F]

section Table1

variable (gI : Buf (Elt F) ((SparseCore.V d (cV L) (jV L)).loc cc0_scratch0)) (hb : ∀ j, (gI j).toNat ≤ 999999)

/-- What the row scratch holds once every copy has landed: row `r` is the table's row that index `r` names. -/
def G1 : Buf (Elt F) ((SparseCore.V d (cV L) (jV L)).loc cc0_scratch1) :=
  fun y => tab1 m d (ix2 (⟨(gI (ix1 (⟨(y 0).val, (y 0).isLt⟩ : Fin 512))).toNat, Nat.lt_succ_of_le (hb _)⟩ : Fin 1000000) (⟨(y 1).val, (y 1).isLt⟩ : Fin 16))

/-- Copy `t` delivers row `t` of the row scratch at the table's row that index `t` names, and gives its read share of that
    row back. -/
def D1 (t : Fin 512) : sProp 𝕄 :=
  iprop(((rowD t).view.loc (SparseCore.V d (cV L) (jV L)) ↦[(rowD t).view.set]{fullShare} G1 m d L gI hb)
    ∗ ((rowS1 (gI (ix1 t)) (hb _)).view.loc (SparseCore.V d (cV L) (jV L)) ↦[(rowS1 (gI (ix1 t)) (hb _)).view.set]{tokq L t} tab1 m d))

instance D1_storable (t : Fin 512) : BI.Storable (upEmb : UEmb _ 𝕄) (D1 m d L gI hb t) := by unfold D1; infer_instance

/-- With `j` copies issued: the batch; the rows of the scratch not yet given to a copy; the read shares not yet lent; and of
    each share lent, what is left of the table beside the row lent. -/
def Fire1 (f0 : Buf (Elt F) ((SparseCore.V d (cV L) (jV L)).loc cc0_scratch1)) (j : ℕ) : sProp 𝕄 :=
  iprop(Transfers.Batch (countersEmb (U := UU)) (SparseCore.V d (cV L) (jV L)) (.dma cc0_scratch2.sem) (none : HIx 1) NR (D1 m d L gI hb) j 0
    ∗ bigSep (Transfers.pending (n := 512) j) (fun t => (rowD t).view.loc (SparseCore.V d (cV L) (jV L)) ↦[(rowD t).view.set]{fullShare} f0)
    ∗ bigSep (Transfers.pending (n := 512) j) (fun t => tLoc1 d ↦{tokq L t} tab1 m d)
    ∗ bigSep (Transfers.issued (m := 512) j)
        (fun t => tLoc1 d ↦[Finset.univ \ (rowS1 (gI (ix1 t)) (hb _)).view.set]{tokq L t} tab1 m d))

/-- Before trip `k` of the issuing loop: the index scratch, and sixteen copies per trip issued. -/
def Inv3 (f0 : Buf (Elt F) ((SparseCore.V d (cV L) (jV L)).loc cc0_scratch1)) (k : ℕ) (_ : Unit) : sProp 𝕄 :=
  iprop(((sIdx : Memref sig .scVector .vmem S512 .i32).view.loc (SparseCore.V d (cV L) (jV L)) ↦[(sIdx : Memref sig .scVector .vmem S512 .i32).view.set]{fullShare} gI)
    ∗ Fire1 m d L gI hb f0 (16 * k))
omit [FloatOps F] in
/-- Trip `k` loads entries `16·k …` of the index scratch. -/
theorem readAt_val1 (k : Fin k0_t3_loop.trips) (l : ℕ) (hl : l < 16) (hlt : 16 * k.val + l < 512) :
    (sIdx : Memref sig .scVector .vmem S512 .i32).view.readAt (Elt F) (Rect.unit (s := S512) (k0_off37 k) S16.size (k0_off37_inb k)).toLoadRect gI (ix1 (⟨l, hl⟩ : Fin 16))
      = gI (ix1 (⟨16 * k.val + l, hlt⟩ : Fin 512)) := by
  rw [View.readAt_apply]
  refine ((View.read_apply (v := (sIdx : Memref sig .scVector .vmem S512 .i32).view) gI _).trans (cast_eq _ _)).trans ?_
  refine congrArg gI (funext fun a => Fin.ext ?_)
  match a with
  | 0 =>
    show (k0_off37 k) 0 + 1 * l = 16 * k.val + l
    rw [k0_off37_eq]; simp

omit [FloatOps F] in
/-- Lane `l` of the words trip `k` loads is entry `16·k + l` of the index scratch. -/
theorem lane_val1 (k : Fin k0_t3_loop.trips) (l : ℕ) (hl : l < 16) (hlt : 16 * k.val + l < 512)
    (hc : S16.ShapeCasts S16) (hs : S16.Slices ![l] S1) (hp : ∀ a, (![0] : Fin S1.rank → ℕ) a < S1.size a) :
    extractAt ![0] (extractStridedSlice S1 ![l] (shapeCast S16
        ((sIdx : Memref sig .scVector .vmem S512 .i32).view.readAt (Elt F) (Rect.unit (s := S512) (k0_off37 k) S16.size (k0_off37_inb k)).toLoadRect gI) hc) hs) hp
      = gI (ix1 (⟨16 * k.val + l, hlt⟩ : Fin 512)) :=
  (lane_eq' _ l hl hc hs hp).trans (readAt_val1 d L gI k l hl hlt)

/-- Where copy `t` lands, the row scratch holds the table's row that index `t` names. -/
theorem landed_eq1 (t : Fin 512) (fd : Buf (Elt F) ((rowD t).view.loc (SparseCore.V d (cV L) (jV L)))) :
    ∀ i ∈ (rowD t).view.set,
      (rowD t).view.write (Elt F) fd (ReadAs.same.apply ((rowS1 (gI (ix1 t)) (hb _)).view.read (Elt F) (tab1 m d))) Finset.univ i
        = G1 m d L gI hb i := by
  intro i hi
  obtain ⟨y, rfl⟩ := View.exists_emb_of_mem_set _ hi
  rw [View.write_emb_of_mem _ _ (Finset.mem_univ y), ReadAs.apply_same, View.read_apply]
  have hy : (y 0).val = 0 := by have h1 : (y 0).val < 1 := (y 0).isLt; omega
  have hd0 : ((rowD t).view.emb y 0).val = t.val := by
    show (![t.val, 0] : Fin 2 → ℕ) 0 + 1 * (y 0).val = t.val
    rw [hy]; simp
  have hd1 : ((rowD t).view.emb y 1).val = (y 1).val := by
    show (![t.val, 0] : Fin 2 → ℕ) 1 + 1 * (y 1).val = (y 1).val
    simp
  have hs0 : ((rowS1 (gI (ix1 t)) (hb _)).view.emb y 0).val = (gI (ix1 t)).toNat := by
    show (![(gI (ix1 t)).toNat, 0] : Fin 2 → ℕ) 0 + 1 * (y 0).val = _
    rw [hy]; simp
  have hs1 : ((rowS1 (gI (ix1 t)) (hb _)).view.emb y 1).val = (y 1).val := by
    show (![(gI (ix1 t)).toNat, 0] : Fin 2 → ℕ) 1 + 1 * (y 1).val = (y 1).val
    simp
  refine (cast_eq _ _).trans ((cast_eq _ _).trans ?_)
  unfold G1
  refine congrArg (tab1 m d) (funext fun a => Fin.ext ?_)
  match a with
  | 0 =>
    rw [hs0]
    show (gI (ix1 t)).toNat = (gI (ix1 (⟨((rowD t).view.emb y 0).val, _⟩ : Fin 512))).toNat
    exact congrArg (fun j : Fin 512 => (gI (ix1 j)).toNat) (Fin.ext hd0.symm)
  | 1 =>
    rw [hs1]
    exact hd1.symm

/-- Copy `j` issued: its row of the scratch and its read share go to the copy, the rest of its share stays. -/
theorem fire_one1 {α : Type} (f0 : Buf (Elt F) ((SparseCore.V d (cV L) (jV L)).loc cc0_scratch1)) (j : ℕ) (hj : j < 512)
    (src : Memref sig (SparseCore.V d (cV L) (jV L)).2.kind .hbm S1x16 .f32) (dst : Memref sig (SparseCore.V d (cV L) (jV L)).2.kind .vmem S1x16 .f32)
    (hsrcE : src = rowS1 (gI (ix1 ⟨j, hj⟩)) (hb _)) (hdstE : dst = rowD ⟨j, hj⟩)
    {hsrc : src.view.WordExact} {hdst : dst.view.WordExact}
    {hsem : DmaTarget.Typed (nD := nD) .hbm (.dma cc0_scratch2.sem) (DmaTarget.here (p := (SparseCore.V d (cV L) (jV L)).2) dst)}
    (kont : PUnit → Prog (TpuEff nD τ sig (Elt F) Λ₀ (SparseCore.V d (cV L) (jV L)).2) α) (Q : α → sProp 𝕄) :
    Fire1 m d L gI hb f0 j
      ⊢ iprop((Fire1 m d L gI hb f0 (j + 1) -∗ wp frame (wpE (defs₀ (F := F)) 𝒱₀ (SparseCore.V d (cV L) (jV L)) none) Set.univ (kont ⟨⟩) Q)
          -∗ wp frame (wpE (defs₀ (F := F)) 𝒱₀ (SparseCore.V d (cV L) (jV L)) none) Set.univ
              (.op (.enqueueDmaAs src (.here dst) ReadAs.same (.dma cc0_scratch2.sem) hsrc hdst hsem) kont) Q) := by
  subst hsrcE; subst hdstE
  unfold Fire1
  iintro ⟨HB, HR, HT, HC⟩ Hk
  ihave HR' := (Entails.of_eq (Transfers.bigSep_pending_step
    (fun t : Fin 512 => ((rowD t).view.loc (SparseCore.V d (cV L) (jV L)) ↦[(rowD t).view.set]{fullShare} f0 : sProp 𝕄)) j hj)) $$ HR
  icases HR' with ⟨Hrow, HR⟩
  ihave HT' := (Entails.of_eq (Transfers.bigSep_pending_step (fun t : Fin 512 => (tLoc1 d ↦{tokq L t} tab1 m d : sProp 𝕄)) j hj)) $$ HT
  icases HT' with ⟨Htok, HT⟩
  ihave Htok' := (pointsTo_split_subset (Finset.subset_univ (rowS1 (gI (ix1 ⟨j, hj⟩)) (hb _)).view.set)).1 $$ Htok
  icases Htok' with ⟨Hsrc, Hrest⟩
  iapply (Transfers.wp_dmaBatch (countersEmb (U := UU)) 𝒱₀ (SparseCore.V d (cV L) (jV L)) none
      (src := rowS1 (gI (ix1 ⟨j, hj⟩)) (hb _)) (dst := rowD ⟨j, hj⟩) (none : HIx 1) NR rfl subset_rfl
      (D := D1 m d L gI hb) (j := j) (u := 0) hj (Nat.zero_le _) ?hD) $$ [Hsrc Hrow HB]
  case hD =>
    unfold D1
    rw [pointsTo_congr (landed_eq1 m d L gI hb ⟨j, hj⟩ f0)]
  · isplitl [Hsrc]; · iexact Hsrc
    isplitl [Hrow]; · iexact Hrow
    iexact HB
  iintro HB
  iapply Hk
  isplitl [HB]; · iexact HB
  isplitl [HR]; · iexact HR
  isplitl [HT]; · iexact HT
  iapply (Entails.of_eq (bigSep_issued_step
    (fun t : Fin 512 => (tLoc1 d ↦[Finset.univ \ (rowS1 (gI (ix1 t)) (hb _)).view.set]{tokq L t} tab1 m d : sProp 𝕄)) j hj).symm)
  isplitl [Hrest]; · iexact Hrest
  iexact HC

set_option maxHeartbeats 4000000 in
theorem fire_region1 (f0 : Buf (Elt F) ((SparseCore.V d (cV L) (jV L)).loc cc0_scratch1)) (k : Fin k0_t3_loop.trips) (acc : Unit) :
    Inv3 m d L gI hb f0 k.val acc
      ⊢ wp frame (wpE (defs₀ (F := F)) 𝒱₀ (SparseCore.V d (cV L) (jV L)) none) Set.univ
          (k0_t3_body (F := F) L iV0 (Memref.isWhole_whole _) iV1 (Memref.isWhole_whole _) tV1 (Memref.isWhole_whole _) tV1 (Memref.isWhole_whole _)
            oV0 (Memref.isWhole_whole _) oV1 (Memref.isWhole_whole _) sIdx (Memref.isWhole_whole _) sRows (Memref.isWhole_whole _)
            cc0_scratch2 cc0_scoped0 cc0_scoped1 cc0_scoped2 cc0_scoped3 k acc)
          (Inv3 m d L gI hb f0 (k.val + 1)) := by
  have hk : k.val < 32 := by have := k.isLt; have e : k0_t3_loop.trips = 32 := by decide
                             omega
  unfold k0_t3_body
  unfold Inv3
  rw [show 16 * (k.val + 1) = 16 * k.val + 16 from by omega]
  iintro ⟨HsI, HF⟩
  sl_exec (disch := exact lane_ok d L gI hb _ _ _ (by decide) (by decide) (by decide))
  -- lane 0
  iapply (fire_one1 m d L gI hb f0 (16 * k.val + 0) (by omega) _ _
    (rowS1_eq _ _ _ _ _ rfl (lane_val1 d L gI k 0 (by omega) (by omega) (by decide) (by decide) (by decide)))
    (rowD_eq _ _ ⟨16 * k.val + 0, by omega⟩ (k0_off40_eq k ⟨0, by decide⟩))) $$ [HF]
  · iexact HF
  iintro HF
  sl_exec (disch := exact lane_ok d L gI hb _ _ _ (by decide) (by decide) (by decide))
  -- lane 1
  iapply (fire_one1 m d L gI hb f0 (16 * k.val + 1) (by omega) _ _
    (rowS1_eq _ _ _ _ _ rfl (lane_val1 d L gI k 1 (by omega) (by omega) (by decide) (by decide) (by decide)))
    (rowD_eq _ _ ⟨16 * k.val + 1, by omega⟩ (k0_off42_eq k ⟨0, by decide⟩))) $$ [HF]
  · iexact HF
  iintro HF
  sl_exec (disch := exact lane_ok d L gI hb _ _ _ (by decide) (by decide) (by decide))
  -- lane 2
  iapply (fire_one1 m d L gI hb f0 (16 * k.val + 2) (by omega) _ _
    (rowS1_eq _ _ _ _ _ rfl (lane_val1 d L gI k 2 (by omega) (by omega) (by decide) (by decide) (by decide)))
    (rowD_eq _ _ ⟨16 * k.val + 2, by omega⟩ (k0_off44_eq k ⟨0, by decide⟩))) $$ [HF]
  · iexact HF
  iintro HF
  sl_exec (disch := exact lane_ok d L gI hb _ _ _ (by decide) (by decide) (by decide))
  -- lane 3
  iapply (fire_one1 m d L gI hb f0 (16 * k.val + 3) (by omega) _ _
    (rowS1_eq _ _ _ _ _ rfl (lane_val1 d L gI k 3 (by omega) (by omega) (by decide) (by decide) (by decide)))
    (rowD_eq _ _ ⟨16 * k.val + 3, by omega⟩ (k0_off46_eq k ⟨0, by decide⟩))) $$ [HF]
  · iexact HF
  iintro HF
  sl_exec (disch := exact lane_ok d L gI hb _ _ _ (by decide) (by decide) (by decide))
  -- lane 4
  iapply (fire_one1 m d L gI hb f0 (16 * k.val + 4) (by omega) _ _
    (rowS1_eq _ _ _ _ _ rfl (lane_val1 d L gI k 4 (by omega) (by omega) (by decide) (by decide) (by decide)))
    (rowD_eq _ _ ⟨16 * k.val + 4, by omega⟩ (k0_off48_eq k ⟨0, by decide⟩))) $$ [HF]
  · iexact HF
  iintro HF
  sl_exec (disch := exact lane_ok d L gI hb _ _ _ (by decide) (by decide) (by decide))
  -- lane 5
  iapply (fire_one1 m d L gI hb f0 (16 * k.val + 5) (by omega) _ _
    (rowS1_eq _ _ _ _ _ rfl (lane_val1 d L gI k 5 (by omega) (by omega) (by decide) (by decide) (by decide)))
    (rowD_eq _ _ ⟨16 * k.val + 5, by omega⟩ (k0_off50_eq k ⟨0, by decide⟩))) $$ [HF]
  · iexact HF
  iintro HF
  sl_exec (disch := exact lane_ok d L gI hb _ _ _ (by decide) (by decide) (by decide))
  -- lane 6
  iapply (fire_one1 m d L gI hb f0 (16 * k.val + 6) (by omega) _ _
    (rowS1_eq _ _ _ _ _ rfl (lane_val1 d L gI k 6 (by omega) (by omega) (by decide) (by decide) (by decide)))
    (rowD_eq _ _ ⟨16 * k.val + 6, by omega⟩ (k0_off52_eq k ⟨0, by decide⟩))) $$ [HF]
  · iexact HF
  iintro HF
  sl_exec (disch := exact lane_ok d L gI hb _ _ _ (by decide) (by decide) (by decide))
  -- lane 7
  iapply (fire_one1 m d L gI hb f0 (16 * k.val + 7) (by omega) _ _
    (rowS1_eq _ _ _ _ _ rfl (lane_val1 d L gI k 7 (by omega) (by omega) (by decide) (by decide) (by decide)))
    (rowD_eq _ _ ⟨16 * k.val + 7, by omega⟩ (k0_off54_eq k ⟨0, by decide⟩))) $$ [HF]
  · iexact HF
  iintro HF
  sl_exec (disch := exact lane_ok d L gI hb _ _ _ (by decide) (by decide) (by decide))
  -- lane 8
  iapply (fire_one1 m d L gI hb f0 (16 * k.val + 8) (by omega) _ _
    (rowS1_eq _ _ _ _ _ rfl (lane_val1 d L gI k 8 (by omega) (by omega) (by decide) (by decide) (by decide)))
    (rowD_eq _ _ ⟨16 * k.val + 8, by omega⟩ (k0_off56_eq k ⟨0, by decide⟩))) $$ [HF]
  · iexact HF
  iintro HF
  sl_exec (disch := exact lane_ok d L gI hb _ _ _ (by decide) (by decide) (by decide))
  -- lane 9
  iapply (fire_one1 m d L gI hb f0 (16 * k.val + 9) (by omega) _ _
    (rowS1_eq _ _ _ _ _ rfl (lane_val1 d L gI k 9 (by omega) (by omega) (by decide) (by decide) (by decide)))
    (rowD_eq _ _ ⟨16 * k.val + 9, by omega⟩ (k0_off58_eq k ⟨0, by decide⟩))) $$ [HF]
  · iexact HF
  iintro HF
  sl_exec (disch := exact lane_ok d L gI hb _ _ _ (by decide) (by decide) (by decide))
  -- lane 10
  iapply (fire_one1 m d L gI hb f0 (16 * k.val + 10) (by omega) _ _
    (rowS1_eq _ _ _ _ _ rfl (lane_val1 d L gI k 10 (by omega) (by omega) (by decide) (by decide) (by decide)))
    (rowD_eq _ _ ⟨16 * k.val + 10, by omega⟩ (k0_off60_eq k ⟨0, by decide⟩))) $$ [HF]
  · iexact HF
  iintro HF
  sl_exec (disch := exact lane_ok d L gI hb _ _ _ (by decide) (by decide) (by decide))
  -- lane 11
  iapply (fire_one1 m d L gI hb f0 (16 * k.val + 11) (by omega) _ _
    (rowS1_eq _ _ _ _ _ rfl (lane_val1 d L gI k 11 (by omega) (by omega) (by decide) (by decide) (by decide)))
    (rowD_eq _ _ ⟨16 * k.val + 11, by omega⟩ (k0_off62_eq k ⟨0, by decide⟩))) $$ [HF]
  · iexact HF
  iintro HF
  sl_exec (disch := exact lane_ok d L gI hb _ _ _ (by decide) (by decide) (by decide))
  -- lane 12
  iapply (fire_one1 m d L gI hb f0 (16 * k.val + 12) (by omega) _ _
    (rowS1_eq _ _ _ _ _ rfl (lane_val1 d L gI k 12 (by omega) (by omega) (by decide) (by decide) (by decide)))
    (rowD_eq _ _ ⟨16 * k.val + 12, by omega⟩ (k0_off64_eq k ⟨0, by decide⟩))) $$ [HF]
  · iexact HF
  iintro HF
  sl_exec (disch := exact lane_ok d L gI hb _ _ _ (by decide) (by decide) (by decide))
  -- lane 13
  iapply (fire_one1 m d L gI hb f0 (16 * k.val + 13) (by omega) _ _
    (rowS1_eq _ _ _ _ _ rfl (lane_val1 d L gI k 13 (by omega) (by omega) (by decide) (by decide) (by decide)))
    (rowD_eq _ _ ⟨16 * k.val + 13, by omega⟩ (k0_off66_eq k ⟨0, by decide⟩))) $$ [HF]
  · iexact HF
  iintro HF
  sl_exec (disch := exact lane_ok d L gI hb _ _ _ (by decide) (by decide) (by decide))
  -- lane 14
  iapply (fire_one1 m d L gI hb f0 (16 * k.val + 14) (by omega) _ _
    (rowS1_eq _ _ _ _ _ rfl (lane_val1 d L gI k 14 (by omega) (by omega) (by decide) (by decide) (by decide)))
    (rowD_eq _ _ ⟨16 * k.val + 14, by omega⟩ (k0_off68_eq k ⟨0, by decide⟩))) $$ [HF]
  · iexact HF
  iintro HF
  sl_exec (disch := exact lane_ok d L gI hb _ _ _ (by decide) (by decide) (by decide))
  -- lane 15
  iapply (fire_one1 m d L gI hb f0 (16 * k.val + 15) (by omega) _ _
    (rowS1_eq _ _ _ _ _ rfl (lane_val1 d L gI k 15 (by omega) (by omega) (by decide) (by decide) (by decide)))
    (rowD_eq _ _ ⟨16 * k.val + 15, by omega⟩ (k0_off70_eq k))) $$ [HF]
  · iexact HF
  iintro HF
  sl_step
  isplitl [HsI]; · iexact HsI
  iexact HF

/-- Nothing issued yet: the batch just allocated, the row scratch whole, every read share in hand. -/
theorem fire1_intro (f0 : Buf (Elt F) ((SparseCore.V d (cV L) (jV L)).loc cc0_scratch1)) :
    iprop(Transfers.Batch (countersEmb (U := UU)) (SparseCore.V d (cV L) (jV L)) (.dma cc0_scratch2.sem) (none : HIx 1) NR (D1 m d L gI hb) 0 0
        ∗ ((SparseCore.V d (cV L) (jV L)).loc cc0_scratch1 ↦{fullShare} f0)
        ∗ bigSep Finset.univ (fun t : Fin 512 => (tLoc1 d ↦{tokq L t} tab1 m d : sProp 𝕄)))
      ⊢ Fire1 m d L gI hb f0 0 := by
  unfold Fire1
  rw [Transfers.pending_zero, Transfers.issued_zero, bigSep_empty, rows_split]
  iintro ⟨HB, HR, HT⟩
  isplitl [HB]; · iexact HB
  isplitl [HR]; · iexact HR
  isplitl [HT]; · iexact HT
  iempintro

/-- Everything issued: the batch, and what is left of the table beside each row lent. -/
theorem fire1_elim (f0 : Buf (Elt F) ((SparseCore.V d (cV L) (jV L)).loc cc0_scratch1)) :
    Fire1 m d L gI hb f0 512
      ⊢ iprop(Transfers.Batch (countersEmb (U := UU)) (SparseCore.V d (cV L) (jV L)) (.dma cc0_scratch2.sem) (none : HIx 1) NR (D1 m d L gI hb) 512 0
        ∗ bigSep Finset.univ (fun t : Fin 512 => (tLoc1 d ↦[Finset.univ \ (rowS1 (gI (ix1 t)) (hb _)).view.set]{tokq L t} tab1 m d : sProp 𝕄))) := by
  unfold Fire1
  rw [pending_all, bigSep_empty, Transfers.issued_all rfl]
  iintro ⟨HB, -, -, HC⟩
  isplitl [HB]; · iexact HB
  iexact HC

/-- A read share of the table cut at a row and put back, for every copy at once. -/
theorem toks_rejoin1 :
    iprop(bigSep Finset.univ (fun t : Fin 512 => ((rowS1 (gI (ix1 t)) (hb _)).view.loc (SparseCore.V d (cV L) (jV L)) ↦[(rowS1 (gI (ix1 t)) (hb _)).view.set]{tokq L t} tab1 m d : sProp 𝕄))
        ∗ bigSep Finset.univ (fun t : Fin 512 => (tLoc1 d ↦[Finset.univ \ (rowS1 (gI (ix1 t)) (hb _)).view.set]{tokq L t} tab1 m d : sProp 𝕄)))
      ⊢ bigSep Finset.univ (fun t : Fin 512 => (tLoc1 d ↦{tokq L t} tab1 m d : sProp 𝕄)) := by
  rw [← bigSep_sep']
  exact bigSep_mono fun t _ => (pointsTo_split_subset (Finset.subset_univ (rowS1 (gI (ix1 t)) (hb _)).view.set)).2

/-- Every copy landed: the row scratch whole at the gathered rows, and the worker's read share of the table whole again. -/
theorem collect1 :
    iprop(bigSep Finset.univ (D1 m d L gI hb)
        ∗ bigSep Finset.univ (fun t : Fin 512 => (tLoc1 d ↦[Finset.univ \ (rowS1 (gI (ix1 t)) (hb _)).view.set]{tokq L t} tab1 m d : sProp 𝕄))
        ∗ (tLoc1 d ↦{Transfers.shareDrop (Transfers.shareTok fullShare 32 (wid (cV L) (jV L))) 512} tab1 m d))
      ⊢ iprop(((SparseCore.V d (cV L) (jV L)).loc cc0_scratch1 ↦{fullShare} G1 m d L gI hb)
        ∗ (tLoc1 d ↦{Transfers.shareTok fullShare 32 (wid (cV L) (jV L))} tab1 m d)) := by
  rw [show D1 m d L gI hb = fun t => iprop(((rowD t).view.loc (SparseCore.V d (cV L) (jV L)) ↦[(rowD t).view.set]{fullShare} G1 m d L gI hb)
      ∗ ((rowS1 (gI (ix1 t)) (hb _)).view.loc (SparseCore.V d (cV L) (jV L)) ↦[(rowS1 (gI (ix1 t)) (hb _)).view.set]{tokq L t} tab1 m d)) from funext fun t => rfl,
    bigSep_sep', rows_split]
  iintro ⟨⟨HA, HB⟩, HC, Hdrop⟩
  isplitl [HA]; · iexact HA
  iapply (Transfers.pointsTo_toks_join (Transfers.shareTok fullShare 32 (wid (cV L) (jV L))) 512)
  isplitl [Hdrop]; · iexact Hdrop
  iapply (toks_rejoin1 m d L gI hb)
  isplitl [HB]; · iexact HB
  iexact HC

end Table1

/-! ### The index block a worker fetches, and its rows of the result -/

/-- What the fetch leaves in the index scratch: the worker's 512 entries of the second index vector. -/
abbrev gI1 : Buf (Elt F) ((SparseCore.V d (cV L) (jV L)).loc cc0_scratch0) := (iBlk1 L).view.read (Elt F) (m (iLoc1 d))

omit [FloatOps F] in
theorem gI1_le (hpre : PreOK m) : ∀ j, (gI1 m d L j).toNat ≤ 999999 := by
  intro j
  have e := (View.read_apply (v := (iBlk1 L).view) (m (iLoc1 d)) j).trans (cast_eq _ _)
  show ((iBlk1 L).view.read (Elt F) (m (iLoc1 d)) j).toNat ≤ 999999
  rw [e]; exact (hpre d _).2

omit [FloatOps F] in
/-- Entry `t` of it is entry `512·w + t` of the index vector. -/
theorem gI1_val (t : Fin 512) (h : 512 * (wid (cV L) (jV L)).val + t.val < 16384) :
    gI1 m d L (ix1 t) = m (iLoc1 d) (ix1 (⟨512 * (wid (cV L) (jV L)).val + t.val, h⟩ : Fin 16384)) := by
  refine ((View.read_apply (v := (iBlk1 L).view) (m (iLoc1 d)) (ix1 t)).trans (cast_eq _ _)).trans ?_
  refine congrArg (m (iLoc1 d)) (funext fun a => Fin.ext ?_)
  match a with
  | 0 =>
    show (k0_off1 L) 0 + 1 * t.val = 512 * (wid (cV L) (jV L)).val + t.val
    rw [k0_off1_eq]; simp [wid]; omega

/-- After the copy-out the worker's rows of the result are the table's rows its indices name. -/
theorem rows_out1 (hpre : PreOK m) (fo : Buf (Elt F) (oLoc1 d)) :
    RowsOf (m (iLoc1 d)) (tab1 m d) (wid (cV L) (jV L))
      ((oBlk1 L).view.writes (Elt F) fo [⟨Rect.whole S512x16,
        ReadAs.same.apply ((sRows : Memref sig .scVector .vmem S512x16 .f32).view.read (Elt F) (G1 m d L (gI1 m d L) (gI1_le m d L hpre)))⟩]) := by
  have e := (View.write_univ_eq_writes_whole (oBlk1 L).view fo []
    (ReadAs.same.apply ((sRows : Memref sig .scVector .vmem S512x16 .f32).view.read (Elt F) (G1 m d L (gI1 m d L) (gI1_le m d L hpre))))).symm
  refine (congrArg (RowsOf (m (iLoc1 d)) (tab1 m d) (wid (cV L) (jV L))) e).mpr ?_
  refine out_rows1 d L (m (iLoc1 d)) (tab1 m d) fo _ ?_
  intro r e hr h
  refine ((View.read_apply (v := (sRows : Memref sig .scVector .vmem S512x16 .f32).view) (G1 m d L (gI1 m d L) (gI1_le m d L hpre)) (ix2 r e)).trans (cast_eq _ _)).trans ?_
  show G1 m d L (gI1 m d L) (gI1_le m d L hpre) (ix2 r e) = _
  unfold G1
  refine congrArg (tab1 m d) (funext fun a => Fin.ext ?_)
  match a with
  | 0 =>
    show (gI1 m d L (ix1 r)).toNat = (m (iLoc1 d) (ix1 ⟨512 * (wid (cV L) (jV L)).val + r.val, hr⟩)).toNat
    rw [gI1_val m d L r hr]
  | 1 => rfl

end Tile

end Cert.Proof.KI

end
-- ==== Proof.Tile.lean ====
/-
  One vector subcore's task of the gather, proved once at a symbolic place `(L 0, L 1)` of a device. Worker
  `w = 2·s + c` is handed its 512 entries of each index vector, a read share of each whole table and its 512 rows of
  each result. Per table: the entries are copied into the index scratch; 512 row copies, table row `idx t` into row `t`
  of the row scratch, are all issued on one semaphore before any is waited for, each reading its table row through its
  own 512th of the worker's read share (so equal indices are no obstacle); 512 waits of one row's amount follow, of
  which only the last tells the subcore that every copy has landed; then the row scratch, now whole at the gathered
  rows, is copied out to the worker's rows of the result. Nothing touches a copy's source or destination between the
  first issue and the last wait. What is handed back is what was handed over, the worker's rows of each result now the
  table rows its indices name; the scratches, the semaphore counters (all at zero again) and the recorded waits (all
  the subcore's own) go back to the launch.
-/
import proofs.«212205_g31413390803091_cont_8to1_b_1662_24_alg».proof.Proof.Iface
import proofs.«212205_g31413390803091_cont_8to1_b_1662_24_alg».proof.Proof.OutRows
import proofs.«212205_g31413390803091_cont_8to1_b_1662_24_alg».proof.Proof.TileFire0
import proofs.«212205_g31413390803091_cont_8to1_b_1662_24_alg».proof.Proof.TileFire1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

variable [FloatOps F]

set_option maxHeartbeats 4000000 in
/-- The task of vector subcore `(L 0, L 1)` of device `d`: for each table, the worker's 512 indices into the index scratch,
    512 row copies issued on one semaphore and 512 waits for them, and the gathered rows out to the worker's rows of the
    result. -/
theorem tile_body' (hF : (K (F := F)).Facts) (hpre : PreOK m) (O : CellTallies nD τ sig (HIx 1)) (W : Waits sig (HIx 1)) (hO : ∀ g, O g none = 0) :
    iprop(levAts (K (F := F)).L (K (F := F)).lev ∗ emp ∗ tileGo m d (wid (cV L) (jV L)) ∗ scopedBufs (SparseCore.V d (cV L) (jV L)) ∗ scopedSems0 (SparseCore.V d (cV L) (jV L)) ∗ owes (SparseCore.V d (cV L) (jV L)) O W)
      ⊢ wp frame (wpE (defs₀ (F := F)) 𝒱₀ (SparseCore.V d (cV L) (jV L)) none) Set.univ (tileProg (F := F) L)
          fun _ => iprop(tileTd m d (wid (cV L) (jV L)) ∗ scopedBufs (SparseCore.V d (cV L) (jV L)) ∗ scopedSems0 (SparseCore.V d (cV L) (jV L)) ∗ ∃ W', ⌜∀ p ∈ W', p ∈ W ∨ p.2 = none⌝ ∗ owes (SparseCore.V d (cV L) (jV L)) O W') := by
  unfold tileProg
  simp only [cc0__gather_sc_eq_skeleton]; unfold cc0__gather_sc_skel
  simp only [k0_part9_eq_skeleton]; unfold k0_part9_skel
  rw [(K (F := F)).scopedBufs_V hF d (cV L) (jV L), SparseCore.Cfg.scopedSems0_V (Val := Elt F) d (cV L) (jV L), ownSems0_V, ownBufs_V]
  unfold tileGo tileTd
  iintro ⟨#Hlv, -, ⟨Hi0, Hi1, Ht0, Ht1, ⟨%fo0, Ho0⟩, ⟨%fo1, Ho1⟩⟩, ⟨⟨%fI, HsI⟩, ⟨%fR, HsR⟩, Hbufs⟩, ⟨HsemB, Hsem0, Hsem1, Hsem2, Hsem3, Hsems⟩, HO⟩
  ihave Hmw := ((K (F := F)).mayWaits_none (thr := SparseCore.V d (cV L) (jV L)) hO) $$ Hlv
  ihave Hi0' := (Entails.of_eq (pts_iBlk0 (F := F) d L _).symm) $$ Hi0
  ihave HsI' := (Entails.of_eq (pts_sIdx (F := F) d L _).symm) $$ HsI
  -- the first index block into the index scratch
  sl_exec
  rw [wp_bind]

  -- table one: the index scratch as the worker's 512 entries of the index vector
  ihave HsI := (Entails.of_eq (show
      ((sIdx : Memref sig .scVector .vmem S512 .i32).view.loc (SparseCore.V d (cV L) (jV L)) ↦[(sIdx : Memref sig .scVector .vmem S512 .i32).view.set]{fullShare}
          (sIdx : Memref sig .scVector .vmem S512 .i32).view.writes (Elt F) fI [⟨Rect.whole S512, tile_body'.sl.dma0 m d L⟩] : sProp 𝕄)
        = ((sIdx : Memref sig .scVector .vmem S512 .i32).view.loc (SparseCore.V d (cV L) (jV L)) ↦[(sIdx : Memref sig .scVector .vmem S512 .i32).view.set]{fullShare} gI0 m d L)
      from congrArg (fun g => ((sIdx : Memref sig .scVector .vmem S512 .i32).view.loc (SparseCore.V d (cV L) (jV L)) ↦[(sIdx : Memref sig .scVector .vmem S512 .i32).view.set]{fullShare} g : sProp 𝕄))
        (idx_landed (F := F) d L fI (gI0 m d L)))) $$ HsI'
  -- its 512 row copies, stated before any is issued; its read share cut into 512
  imod (Transfers.batch_alloc' (Lvl := ℕ) (countersEmb (U := UU)) (SparseCore.V d (cV L) (jV L)) (none : HIx 1) NR (D0 m d L (gI0 m d L) (gI0_le m d L hpre))
    (sm := .dma cc0_scratch2.sem) (E := Set.univ)) $$ HsemB with HB
  ihave HT := (Transfers.pointsTo_toks_split (Transfers.shareTok fullShare 32 (wid (cV L) (jV L))) 512) $$ Ht0
  icases HT with ⟨Hdrop0, HT⟩
  ihave HF := (fire0_intro m d L (gI0 m d L) (gI0_le m d L hpre) fR) $$ [HB HsR HT]
  · isplitl [HB]; · iexact HB
    isplitl [HsR]; · iexact HsR
    iexact HT
  -- the issuing loop
  sl_for (Inv1 m d L (gI0 m d L) (gI0_le m d L hpre) fR) $$ [HsI HF]
  case region => exact fun k acc => fire_region m d L (gI0 m d L) (gI0_le m d L hpre) fR k acc
  · unfold Inv1
    isplitl [HsI]; · iexact HsI
    iexact HF
  iintro %_ HI
  unfold Inv1
  rw [show 16 * Scf.trips k0_t1_loop.lb k0_t1_loop.ub k0_t1_loop.st = 512 from by decide]
  icases HI with ⟨HsI, HF⟩
  ihave HF' := (fire0_elim m d L (gI0 m d L) (gI0_le m d L hpre) fR) $$ HF
  icases HF' with ⟨HB, HC0⟩
  -- the 512 waits
  sl_for (Inv2 d L (D0 m d L (gI0 m d L) (gI0_le m d L hpre)) O W) $$ [HB HO]
  case region => exact fun k acc => drain_region0 d L (D0 m d L (gI0 m d L) (gI0_le m d L hpre)) O W k acc
  · unfold Inv2
    rw [DrainSt_lt d L _ (show 0 < 512 by decide), Nat.zero_mul]
    isplitr; · iexact Hmw
    isplitl [HB]; · iexact HB
    iexists _; isplitr
    on_goal 2 => iexact HO
    ipureintro; exact ins_ok (fun p hp => .inl hp) _
  iintro %_ HI
  unfold Inv2
  rw [DrainSt_ge d L _ (show ¬ Scf.trips k0_t2_loop.lb k0_t2_loop.ub k0_t2_loop.st < 512 by decide)]
  icases HI with ⟨-, ⟨HD, HsemB⟩, %W2, %hW2, HO⟩
  -- every row landed: the row scratch whole at the gathered rows, the table's share whole again
  ihave HX := (collect0 m d L (gI0 m d L) (gI0_le m d L hpre)) $$ [HD HC0 Hdrop0]
  · isplitl [HD]; · iexact HD
    isplitl [HC0]; · iexact HC0
    iexact Hdrop0
  icases HX with ⟨HsR, Ht0⟩

  -- the gathered rows out to the worker's rows of the first result; the second index block into the index scratch
  ihave HsR' := (Entails.of_eq (pts_sRows (F := F) d L _).symm) $$ HsR
  ihave Ho0' := (Entails.of_eq (pts_oBlk0 (F := F) d L _).symm) $$ Ho0
  ihave Hi1' := (Entails.of_eq (pts_iBlk1 (F := F) d L _).symm) $$ Hi1
  sl_exec
  ihave HsR := (Entails.of_eq (pts_sRows (F := F) d L _)) $$ HsR'

  -- table two: the index scratch as the worker's 512 entries of the index vector
  ihave HsI := (Entails.of_eq (show
      ((sIdx : Memref sig .scVector .vmem S512 .i32).view.loc (SparseCore.V d (cV L) (jV L)) ↦[(sIdx : Memref sig .scVector .vmem S512 .i32).view.set]{fullShare}
          (sIdx : Memref sig .scVector .vmem S512 .i32).view.writes (Elt F) (sIdx : Memref sig .scVector .vmem S512 .i32).view.junk [⟨Rect.whole S512, tile_body'.sl.dma0_2 m d L⟩] : sProp 𝕄)
        = ((sIdx : Memref sig .scVector .vmem S512 .i32).view.loc (SparseCore.V d (cV L) (jV L)) ↦[(sIdx : Memref sig .scVector .vmem S512 .i32).view.set]{fullShare} gI1 m d L)
      from congrArg (fun g => ((sIdx : Memref sig .scVector .vmem S512 .i32).view.loc (SparseCore.V d (cV L) (jV L)) ↦[(sIdx : Memref sig .scVector .vmem S512 .i32).view.set]{fullShare} g : sProp 𝕄))
        (idx_landed (F := F) d L (sIdx : Memref sig .scVector .vmem S512 .i32).view.junk (gI1 m d L)))) $$ HsI
  -- its 512 row copies, stated before any is issued; its read share cut into 512
  imod (Transfers.batch_alloc' (Lvl := ℕ) (countersEmb (U := UU)) (SparseCore.V d (cV L) (jV L)) (none : HIx 1) NR (D1 m d L (gI1 m d L) (gI1_le m d L hpre))
    (sm := .dma cc0_scratch2.sem) (E := Set.univ)) $$ HsemB with HB
  ihave HT := (Transfers.pointsTo_toks_split (Transfers.shareTok fullShare 32 (wid (cV L) (jV L))) 512) $$ Ht1
  icases HT with ⟨Hdrop1, HT⟩
  ihave HF := (fire1_intro m d L (gI1 m d L) (gI1_le m d L hpre) (G0 m d L (gI0 m d L) (gI0_le m d L hpre))) $$ [HB HsR HT]
  · isplitl [HB]; · iexact HB
    isplitl [HsR]; · iexact HsR
    iexact HT
  -- the issuing loop
  sl_for (Inv3 m d L (gI1 m d L) (gI1_le m d L hpre) (G0 m d L (gI0 m d L) (gI0_le m d L hpre))) $$ [HsI HF]
  case region => exact fun k acc => fire_region1 m d L (gI1 m d L) (gI1_le m d L hpre) (G0 m d L (gI0 m d L) (gI0_le m d L hpre)) k acc
  · unfold Inv3
    isplitl [HsI]; · iexact HsI
    iexact HF
  iintro %_ HI
  unfold Inv3
  rw [show 16 * Scf.trips k0_t3_loop.lb k0_t3_loop.ub k0_t3_loop.st = 512 from by decide]
  icases HI with ⟨HsI, HF⟩
  ihave HF' := (fire1_elim m d L (gI1 m d L) (gI1_le m d L hpre) (G0 m d L (gI0 m d L) (gI0_le m d L hpre))) $$ HF
  icases HF' with ⟨HB, HC1⟩
  -- the 512 waits
  sl_for (Inv2 d L (D1 m d L (gI1 m d L) (gI1_le m d L hpre)) O W) $$ [HB HO]
  case region => exact fun k acc => drain_region1 d L (D1 m d L (gI1 m d L) (gI1_le m d L hpre)) O W k acc
  · unfold Inv2
    rw [DrainSt_lt d L _ (show 0 < 512 by decide), Nat.zero_mul]
    isplitr; · iexact Hmw
    isplitl [HB]; · iexact HB
    iexists _; isplitr
    on_goal 2 => iexact HO
    ipureintro; exact ins_ok (ins_ok hW2 _) _
  iintro %_ HI
  unfold Inv2
  rw [DrainSt_ge d L _ (show ¬ Scf.trips k0_t4_loop.lb k0_t4_loop.ub k0_t4_loop.st < 512 by decide)]
  icases HI with ⟨-, ⟨HD, HsemB⟩, %W4, %hW4, HO⟩
  -- every row landed: the row scratch whole at the gathered rows, the table's share whole again
  ihave HX := (collect1 m d L (gI1 m d L) (gI1_le m d L hpre)) $$ [HD HC1 Hdrop1]
  · isplitl [HD]; · iexact HD
    isplitl [HC1]; · iexact HC1
    iexact Hdrop1
  icases HX with ⟨HsR, Ht1⟩

  -- the gathered rows out to the worker's rows of the second result
  ihave HsR' := (Entails.of_eq (pts_sRows (F := F) d L _).symm) $$ HsR
  ihave Ho1' := (Entails.of_eq (pts_oBlk1 (F := F) d L _).symm) $$ Ho1
  sl_exec
  sl_step
  -- what the worker hands back
  isplitl [Hi0' Hi1' Ht0 Ht1 Ho0' Ho1']
  · isplitl [Hi0']; · iapply (Entails.of_eq (pts_iBlk0 (F := F) d L _)); iexact Hi0'
    isplitl [Hi1']; · iapply (Entails.of_eq (pts_iBlk1 (F := F) d L _)); iexact Hi1'
    isplitl [Ht0]; · iexact Ht0
    isplitl [Ht1]; · iexact Ht1
    isplitl [Ho0']
    · iexists _; isplitr
      on_goal 2 => (iapply (Entails.of_eq (pts_oBlk0 (F := F) d L _)); iexact Ho0')
      ipureintro; exact rows_out0 m d L hpre _
    · iexists _; isplitr
      on_goal 2 => (iapply (Entails.of_eq (pts_oBlk1 (F := F) d L _)); iexact Ho1')
      ipureintro; exact rows_out1 m d L hpre _
  -- its two scratches, at whatever they hold, and its other buffers
  isplitl [HsI HsR' Hbufs]
  · isplitl [HsI]; · iexists _; iapply (Entails.of_eq (pts_sIdx (F := F) d L _)); iexact HsI
    isplitl [HsR']; · iexists _; iapply (Entails.of_eq (pts_sRows (F := F) d L _)); iexact HsR'
    iexact Hbufs
  -- its cells, every counter at zero again
  isplitl [HsemB Hsem0 Hsem1 Hsem2 Hsem3 Hsems]
  · isplitl [HsemB]; · iexact HsemB
    isplitl [Hsem0]; · iexact Hsem0
    isplitl [Hsem1]; · iexact Hsem1
    isplitl [Hsem2]; · iexact Hsem2
    isplitl [Hsem3]; · iexact Hsem3
    iexact Hsems
  -- the waits it recorded are its own
  iexists _; isplitr
  on_goal 2 => iexact HO
  ipureintro; exact ins_ok hW4 _

/-- The task, as the launch cites it. -/
theorem tile_body : TileBody m := by
  intro hF hpre d L O W hO
  exact tile_body' m d L hF hpre O W hO

end Tile

end Cert.Proof.KI

end
-- ==== Proof.OutRowsB.lean ====
/-
  Rows written through a worker's slice of a gathered matrix.

  Worker `w`'s slice of a gathered matrix is rows `512·w … 512·w + 511`: entry `(r, e)` of the slice is entry
  `(512·w + r, e)` of the matrix. So a block written whole through the slice, whose rows are the table rows that the
  worker's indices name, leaves the matrix with those rows there.
-/
import proofs.«212205_g31413390803091_cont_8to1_b_1662_24_alg».proof.Proof.CommonB

noncomputable section

namespace Cert.Proof.KB

open Cert.Kernel Cert.Kernel.Gen
open Idealize.ShloMosaic
open Idealize.ShloMosaic.SparseCore (S V T)
open Idealize.ShloMosaic.ValueIdx

variable {F : FTy → Type} [FloatOps F]

/-- The printed offset of a worker's rows is `512·w`. -/
theorem off36_wid (L : grid0.Coords) : k0_off36 L 0 = 512 * (wid (cV L) (jV L)).val := by
  rw [k0_off36_eq]
  show 1024 * (L 1).val + 512 * (L 0).val = 512 * (2 * (L 1).val + (L 0).val)
  omega
theorem off36_one (L : grid0.Coords) : k0_off36 L 1 = 0 := by rw [k0_off36_eq]; rfl
theorem off1_wid (L : grid0.Coords) : k0_off1 L 0 = 512 * (wid (cV L) (jV L)).val := by
  rw [k0_off1_eq]
  show 1024 * (L 1).val + 512 * (L 0).val = 512 * (2 * (L 1).val + (L 0).val)
  omega

/-- A worker's slice of the first gathered matrix, and of the second. -/
abbrev outSlice0 (L : grid0.Coords) : Memref sig .scVector .hbm S512x16 .f32 :=
  (oV0 : Memref sig .scVector .hbm S16384x16 .f32).slice (Rect.unit (s := S16384x16) (k0_off36 L) S512x16.size (k0_off36_inb L)) (fun _ => rfl)
abbrev outSlice1 (L : grid0.Coords) : Memref sig .scVector .hbm S512x16 .f32 :=
  (oV1 : Memref sig .scVector .hbm S16384x16 .f32).slice (Rect.unit (s := S16384x16) (k0_off36 L) S512x16.size (k0_off36_inb L)) (fun _ => rfl)

theorem emb_out0 (L : grid0.Coords) (r : Fin 512) (e : Fin 16) (hr : 512 * (wid (cV L) (jV L)).val + r.val < 16384) :
    (outSlice0 L).view.emb (ix2 r e) = (ix2 (⟨512 * (wid (cV L) (jV L)).val + r.val, hr⟩ : Fin 16384) e : S16384x16.Idx) := by
  funext a; apply Fin.ext
  match a with
  | ⟨0, _⟩ => show k0_off36 L 0 + 1 * r.val = 512 * (wid (cV L) (jV L)).val + r.val; rw [off36_wid]; omega
  | ⟨1, _⟩ => show k0_off36 L 1 + 1 * e.val = e.val; rw [off36_one]; omega
theorem emb_out1 (L : grid0.Coords) (r : Fin 512) (e : Fin 16) (hr : 512 * (wid (cV L) (jV L)).val + r.val < 16384) :
    (outSlice1 L).view.emb (ix2 r e) = (ix2 (⟨512 * (wid (cV L) (jV L)).val + r.val, hr⟩ : Fin 16384) e : S16384x16.Idx) := by
  funext a; apply Fin.ext
  match a with
  | ⟨0, _⟩ => show k0_off36 L 0 + 1 * r.val = 512 * (wid (cV L) (jV L)).val + r.val; rw [off36_wid]; omega
  | ⟨1, _⟩ => show k0_off36 L 1 + 1 * e.val = e.val; rw [off36_one]; omega

/-- A block of 512 rows, each the table row its index names, written whole through the worker's slice. -/
theorem out_rows0 (d : Dev nD) (L : grid0.Coords) (ids : IVec S16384 32) (tab : FVec F S1000000x16 .f32) (fo : Buf (Elt F) (oLoc0 d)) (g : FVec F S512x16 .f32)
    (hg : ∀ (r : Fin 512) (e : Fin 16) (hr : 512 * (wid (cV L) (jV L)).val + r.val < 16384) (h : (ids (ix1 ⟨512 * (wid (cV L) (jV L)).val + r.val, hr⟩)).toNat < 1000000),
      g (ix2 r e) = tab (ix2 ⟨(ids (ix1 ⟨512 * (wid (cV L) (jV L)).val + r.val, hr⟩)).toNat, h⟩ e)) :
    RowsOf ids tab (wid (cV L) (jV L)) ((outSlice0 L).view.write (Elt F) fo g Finset.univ) := by
  intro r e hr h
  rw [← emb_out0 L r e hr, View.write_emb_of_mem _ _ (Finset.mem_univ _), cast_eq]
  exact hg r e hr h
theorem out_rows1 (d : Dev nD) (L : grid0.Coords) (ids : IVec S16384 32) (tab : FVec F S1000000x16 .f32) (fo : Buf (Elt F) (oLoc1 d)) (g : FVec F S512x16 .f32)
    (hg : ∀ (r : Fin 512) (e : Fin 16) (hr : 512 * (wid (cV L) (jV L)).val + r.val < 16384) (h : (ids (ix1 ⟨512 * (wid (cV L) (jV L)).val + r.val, hr⟩)).toNat < 1000000),
      g (ix2 r e) = tab (ix2 ⟨(ids (ix1 ⟨512 * (wid (cV L) (jV L)).val + r.val, hr⟩)).toNat, h⟩ e)) :
    RowsOf ids tab (wid (cV L) (jV L)) ((outSlice1 L).view.write (Elt F) fo g Finset.univ) := by
  intro r e hr h
  rw [← emb_out1 L r e hr, View.write_emb_of_mem _ _ (Finset.mem_univ _), cast_eq]
  exact hg r e hr h

end Cert.Proof.KB

end
-- ==== Proof.TileBaseB.lean ====
/-
  One vector subcore's task of the gather, the parts both tables share: the subcore's own semaphore cells and scratch
  buffers taken out of what the launch hands it; the blocks of the index vectors and of the results the task copies
  whole, as the program slices them; how a lane of sixteen loaded index words is read; the 512 rows of the row scratch
  (pairwise disjoint, covering it); and the 512 waits of one row's amount on the one semaphore all of a table's row
  copies complete on: none but the last tells the subcore anything, the last hands back every copy's delivery.
-/
import proofs.«212205_g31413390803091_cont_8to1_b_1662_24_alg».proof.Proof.CommonB
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)

/-! ## One vector subcore's task -/

section Tile

variable (d : Dev nD) (L : grid0.Coords)

/-- The subcore's five DMA cells: the one all 512 row copies of a table complete on, and one per local copy. -/
abbrev cellB : GSem nD τ sig := (SparseCore.V d (cV L) (jV L), .dma cc0_scratch2.sem)
abbrev cell0 : GSem nD τ sig := (SparseCore.V d (cV L) (jV L), .dma cc0_scoped0.sem)
abbrev cell1 : GSem nD τ sig := (SparseCore.V d (cV L) (jV L), .dma cc0_scoped1.sem)
abbrev cell2 : GSem nD τ sig := (SparseCore.V d (cV L) (jV L), .dma cc0_scoped2.sem)
abbrev cell3 : GSem nD τ sig := (SparseCore.V d (cV L) (jV L), .dma cc0_scoped3.sem)

omit m in
theorem own_mem (sm : SemLoc sig) (h : sm.isScoped .scVector = true) :
    ((SparseCore.V d (cV L) (jV L), sm) : GSem nD τ sig) ∈ ownCells (SparseCore.V d (cV L) (jV L)) := mem_ownCells.mpr ⟨rfl, h⟩
omit m in
theorem cell_ne {sm sm' : SemLoc sig} (h : sm ≠ sm') :
    ((SparseCore.V d (cV L) (jV L), sm) : GSem nD τ sig) ≠ (SparseCore.V d (cV L) (jV L), sm') := fun e => h (Prod.mk.inj e).2
omit m in
theorem mem_erase_of {α : Type} [DecidableEq α] {s : Finset α} {a b : α} (h : a ≠ b) (hm : a ∈ s) : a ∈ s.erase b :=
  Finset.mem_erase.mpr ⟨h, hm⟩

/-- The cells a subcore owns that the task never touches. -/
abbrev restCells : Finset (GSem nD τ sig) :=
  (((((ownCells (SparseCore.V d (cV L) (jV L))).erase (cellB d L)).erase (cell0 d L)).erase (cell1 d L)).erase (cell2 d L)).erase (cell3 d L)

omit m in
theorem ownSems0_V :
    (ownSems0 (SparseCore.V d (cV L) (jV L)) : sProp 𝕄)
      = iprop(semVal (cellB d L) 0 ∗ semVal (cell0 d L) 0 ∗ semVal (cell1 d L) 0 ∗ semVal (cell2 d L) 0 ∗ semVal (cell3 d L) 0
          ∗ bigSep (restCells d L) fun g => semVal g 0) := by
  unfold SparseCore.Cfg.ownSems0
  have hB := own_mem d L (SemLoc.dma cc0_scratch2.sem) (by decide)
  have h0 := mem_erase_of (cell_ne d L (sm := .dma cc0_scoped0.sem) (sm' := .dma cc0_scratch2.sem) (by decide)) (own_mem d L (SemLoc.dma cc0_scoped0.sem) (by decide))
  have h1 := mem_erase_of (cell_ne d L (sm := .dma cc0_scoped1.sem) (sm' := .dma cc0_scoped0.sem) (by decide))
    (mem_erase_of (cell_ne d L (sm := .dma cc0_scoped1.sem) (sm' := .dma cc0_scratch2.sem) (by decide)) (own_mem d L (SemLoc.dma cc0_scoped1.sem) (by decide)))
  have h2 := mem_erase_of (cell_ne d L (sm := .dma cc0_scoped2.sem) (sm' := .dma cc0_scoped1.sem) (by decide))
    (mem_erase_of (cell_ne d L (sm := .dma cc0_scoped2.sem) (sm' := .dma cc0_scoped0.sem) (by decide))
      (mem_erase_of (cell_ne d L (sm := .dma cc0_scoped2.sem) (sm' := .dma cc0_scratch2.sem) (by decide)) (own_mem d L (SemLoc.dma cc0_scoped2.sem) (by decide))))
  have h3 := mem_erase_of (cell_ne d L (sm := .dma cc0_scoped3.sem) (sm' := .dma cc0_scoped2.sem) (by decide))
    (mem_erase_of (cell_ne d L (sm := .dma cc0_scoped3.sem) (sm' := .dma cc0_scoped1.sem) (by decide))
      (mem_erase_of (cell_ne d L (sm := .dma cc0_scoped3.sem) (sm' := .dma cc0_scoped0.sem) (by decide))
        (mem_erase_of (cell_ne d L (sm := .dma cc0_scoped3.sem) (sm' := .dma cc0_scratch2.sem) (by decide)) (own_mem d L (SemLoc.dma cc0_scoped3.sem) (by decide)))))
  rw [SparseCore.bigSep_erase' hB, SparseCore.bigSep_erase' h0, SparseCore.bigSep_erase' h1, SparseCore.bigSep_erase' h2, SparseCore.bigSep_erase' h3]

/-- The buffers a subcore owns besides its two scratches. -/
abbrev restRefs : Finset (DevRef τ sig) :=
  ((ownRefs (τ := τ) (.scVector (cV L) (jV L))).erase ((Proc.scVector (cV L) (jV L)).devRef cc0_scratch0)).erase
    ((Proc.scVector (cV L) (jV L)).devRef cc0_scratch1)

omit m in
/-- The two scratches are among the subcore's own buffers: they are them, at some contents, and the rest. -/
theorem ownBufs_V :
    (ownBufs (SparseCore.V d (cV L) (jV L)) : sProp 𝕄)
      = iprop((∃ f, (SparseCore.V d (cV L) (jV L)).loc cc0_scratch0 ↦{fullShare} f) ∗ (∃ f, (SparseCore.V d (cV L) (jV L)).loc cc0_scratch1 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### The blocks the task copies whole, as the program slices them -/

abbrev iBlk0 : Memref sig .scVector .hbm S512 .i32 := (iV0).slice (Rect.unit (s := S16384) (k0_off1 L) S512.size (k0_off1_inb L)) (fun _ => rfl)
abbrev iBlk1 : Memref sig .scVector .hbm S512 .i32 := (iV1).slice (Rect.unit (s := S16384) (k0_off1 L) S512.size (k0_off1_inb L)) (fun _ => rfl)
abbrev oBlk0 : Memref sig .scVector .hbm S512x16 .f32 := (oV0).slice (Rect.unit (s := S16384x16) (k0_off36 L) S512x16.size (k0_off36_inb L)) (fun _ => rfl)
abbrev oBlk1 : Memref sig .scVector .hbm S512x16 .f32 := (oV1).slice (Rect.unit (s := S16384x16) (k0_off36 L) S512x16.size (k0_off36_inb L)) (fun _ => rfl)

omit m in
/-- Entries `512·w …` of a batch vector, `w = 2·s + c`, are the slice at the printed offset `1024·s + 512·c`. -/
theorem rect_iBlk : Rect.unit (s := S16384) (k0_off1 L) S512.size (k0_off1_inb L) = Rect.part (s := S16384) (a₀ := 0) hdiv1 (wid (cV L) (jV L)) := by
  unfold Rect.part Rect.block
  congr 1 <;> funext a
  · rw [k0_off1_eq]
    match a with
    | 0 => simp [Shape.partIx, Shape.partSize, wid]; omega
  · match a with
    | 0 => simp [Shape.partSize]
omit m in
theorem rect_oBlk : Rect.unit (s := S16384x16) (k0_off36 L) S512x16.size (k0_off36_inb L) = Rect.part (s := S16384x16) (a₀ := 0) hdiv2 (wid (cV L) (jV L)) := by
  unfold Rect.part Rect.block
  congr 1 <;> funext a
  · rw [k0_off36_eq]
    match a with
    | 0 => simp [Shape.partIx, Shape.partSize, wid]; omega
    | 1 => simp [Shape.partIx, Shape.partSize]
  · match a with
    | 0 => simp [Shape.partSize]
    | 1 => simp [Shape.partSize]

omit m in
theorem set_iBlk0 : (iBlk0 L).view.set = blk1 (wid (cV L) (jV L)) := by
  show ((View.whole (main_arg0_scv : Ref sig .scVector)).slice (Rect.unit (s := S16384) (k0_off1 L) S512.size (k0_off1_inb L))).set = _
  rw [View.set_slice_whole, rect_iBlk]
omit m in
theorem set_iBlk1 : (iBlk1 L).view.set = blk1 (wid (cV L) (jV L)) := by
  show ((View.whole (main_arg1_scv : Ref sig .scVector)).slice (Rect.unit (s := S16384) (k0_off1 L) S512.size (k0_off1_inb L))).set = _
  rw [View.set_slice_whole, rect_iBlk]
omit m in
theorem set_oBlk0 : (oBlk0 L).view.set = blk2 (wid (cV L) (jV L)) := by
  show ((View.whole (main_v5_0_scv : Ref sig .scVector)).slice (Rect.unit (s := S16384x16) (k0_off36 L) S512x16.size (k0_off36_inb L))).set = _
  rw [View.set_slice_whole, rect_oBlk]
omit m in
theorem set_oBlk1 : (oBlk1 L).view.set = blk2 (wid (cV L) (jV L)) := by
  show ((View.whole (main_v5_1_scv : Ref sig .scVector)).slice (Rect.unit (s := S16384x16) (k0_off36 L) S512x16.size (k0_off36_inb L))).set = _
  rw [View.set_slice_whole, rect_oBlk]

omit m in
theorem pts_iBlk0 (f : Buf (Elt F) (iLoc0 d)) :
    ((iBlk0 L).view.loc (SparseCore.V d (cV L) (jV L)) ↦[(iBlk0 L).view.set]{fullShare} f : sProp 𝕄) = iLoc0 d ↦[blk1 (wid (cV L) (jV L))]{fullShare} f := by
  rw [set_iBlk0]
omit m in
theorem pts_iBlk1 (f : Buf (Elt F) (iLoc1 d)) :
    ((iBlk1 L).view.loc (SparseCore.V d (cV L) (jV L)) ↦[(iBlk1 L).view.set]{fullShare} f : sProp 𝕄) = iLoc1 d ↦[blk1 (wid (cV L) (jV L))]{fullShare} f := by
  rw [set_iBlk1]
omit m in
theorem pts_oBlk0 (f : Buf (Elt F) (oLoc0 d)) :
    ((oBlk0 L).view.loc (SparseCore.V d (cV L) (jV L)) ↦[(oBlk0 L).view.set]{fullShare} f : sProp 𝕄) = oLoc0 d ↦[blk2 (wid (cV L) (jV L))]{fullShare} f := by
  rw [set_oBlk0]
omit m in
theorem pts_oBlk1 (f : Buf (Elt F) (oLoc1 d)) :
    ((oBlk1 L).view.loc (SparseCore.V d (cV L) (jV L)) ↦[(oBlk1 L).view.set]{fullShare} f : sProp 𝕄) = oLoc1 d ↦[blk2 (wid (cV L) (jV L))]{fullShare} f := by
  rw [set_oBlk1]
omit m in
theorem pts_sIdx (f : Buf (Elt F) ((SparseCore.V d (cV L) (jV L)).loc cc0_scratch0)) :
    ((sIdx : Memref sig .scVector .vmem S512 .i32).view.loc (SparseCore.V d (cV L) (jV L)) ↦[(sIdx : Memref sig .scVector .vmem S512 .i32).view.set]{fullShare} f : sProp 𝕄)
      = (SparseCore.V d (cV L) (jV L)).loc cc0_scratch0 ↦{fullShare} f := by
  simp only [Memref.view_whole, View.set_whole]
omit m in
theorem pts_sRows (f : Buf (Elt F) ((SparseCore.V d (cV L) (jV L)).loc cc0_scratch1)) :
    ((sRows : Memref sig .scVector .vmem S512x16 .f32).view.loc (SparseCore.V d (cV L) (jV L)) ↦[(sRows : Memref sig .scVector .vmem S512x16 .f32).view.set]{fullShare} f : sProp 𝕄)
      = (SparseCore.V d (cV L) (jV L)).loc cc0_scratch1 ↦{fullShare} f := by
  simp only [Memref.view_whole, View.set_whole]

/-! ### An index off the scratch -/

omit m in
/-- Lane `l` of sixteen loaded words, as the body extracts it. -/
theorem lane_eq (x : S16.Idx → BitVec 32) (l : Fin 16) (hc : S16.ShapeCasts S16) (hs : S16.Slices ![l.val] S1) (hp : ∀ a, (![0] : Fin S1.rank → ℕ) a < S1.size a) :
    extractAt ![0] (extractStridedSlice S1 ![l.val] (shapeCast S16 x hc) hs) hp = x (ix1 l) := by
  rw [shapeCast_self]
  unfold extractAt
  refine extractStridedSlice_apply _ _ _ _ _ fun a => ?_
  match a with
  | 0 => rfl

/-! ### Reading an index, and the check it must pass -/

omit m in
/-- Lane `l` of sixteen loaded words, as the body extracts it. -/
theorem lane_eq' (x : S16.Idx → BitVec 32) (l : ℕ) (hl : l < 16) (hc : S16.ShapeCasts S16) (hs : S16.Slices ![l] S1) (hp : ∀ a, (![0] : Fin S1.rank → ℕ) a < S1.size a) :
    extractAt ![0] (extractStridedSlice S1 ![l] (shapeCast S16 x hc) hs) hp = x (ix1 (⟨l, hl⟩ : Fin 16)) := by
  rw [shapeCast_self]
  unfold extractAt
  refine extractStridedSlice_apply _ _ _ _ _ fun a => ?_
  match a with
  | 0 => rfl
omit m in
/-- A lane of words that all name rows names a row. -/
theorem lane_le (x : S16.Idx → BitVec 32) (hx : ∀ j, (x j).toNat ≤ 999999) (off : Fin S16.rank → ℕ) (hc : S16.ShapeCasts S16) (hs : S16.Slices off S1)
    (hp : ∀ a, (![0] : Fin S1.rank → ℕ) a < S1.size a) :
    (extractAt ![0] (extractStridedSlice S1 off (shapeCast S16 x hc) hs) hp).toNat ≤ 999999 := by
  rw [shapeCast_self]
  unfold extractAt extractStridedSlice
  exact hx _

omit m in
/-- The transfers issued below `j + 1` are transfer `j` and those below `j`. -/
theorem bigSep_issued_step (Φ : Fin 512 → sProp 𝕄) (j : ℕ) (hj : j < 512) :
    bigSep (Transfers.issued (m := 512) (j + 1)) Φ = iprop(Φ ⟨j, hj⟩ ∗ bigSep (Transfers.issued (m := 512) j) Φ) := by
  rw [Transfers.issued_succ hj, bigSep_insert (Transfers.not_mem_issued hj)]; rfl

omit m in
/-- A wait at the kernel's own index recorded on top of waits that were already admissible. -/
theorem ins_ok {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with hp | hp
  · exact .inr (hp ▸ rfl)
  · exact h p hp

variable [FloatOps F]

/-! ### The 512 row copies of one table: what each delivers -/

omit m in
theorem rowD_inb (t : Fin 512) : ∀ a, (![t.val, 0] : Fin 2 → ℕ) a + S1x16.size a ≤ S512x16.size a := by
  have := t.isLt
  intro a; fin_cases a
  · show t.val + 1 ≤ 512; omega
  · show 0 + 16 ≤ 16; omega
omit m in
theorem rowS_inb (v : BitVec 32) (h : v.toNat ≤ 999999) : ∀ a, (![v.toNat, 0] : Fin 2 → ℕ) a + S1x16.size a ≤ S1000000x16.size a := by
  intro a; fin_cases a
  · show v.toNat + 1 ≤ 1000000; omega
  · show 0 + 16 ≤ 16; omega

/-- Row `t` of the row scratch; row `v` of a table. -/
abbrev rowD (t : Fin 512) : Memref sig .scVector .vmem S1x16 .f32 :=
  (sRows).slice (Rect.unit (s := S512x16) ![t.val, 0] S1x16.size (rowD_inb t)) (fun _ => rfl)
abbrev rowS0 (v : BitVec 32) (h : v.toNat ≤ 999999) : Memref sig .scVector .hbm S1x16 .f32 :=
  (tV0).slice (Rect.unit (s := S1000000x16) ![v.toNat, 0] S1x16.size (rowS_inb v h)) (fun _ => rfl)
abbrev rowS1 (v : BitVec 32) (h : v.toNat ≤ 999999) : Memref sig .scVector .hbm S1x16 .f32 :=
  (tV1).slice (Rect.unit (s := S1000000x16) ![v.toNat, 0] S1x16.size (rowS_inb v h)) (fun _ => rfl)

omit m in
theorem rowD_eq (off : Fin 2 → ℕ) (inb : ∀ a, off a + S1x16.size a ≤ S512x16.size a) (t : Fin 512) (hoff : off = ![t.val, 0]) :
    (sRows : Memref sig .scVector .vmem S512x16 .f32).slice (Rect.unit (s := S512x16) off S1x16.size inb) (fun _ => rfl) = rowD t := by
  subst hoff; rfl
omit m in
theorem rowS0_eq (off : Fin 2 → ℕ) (inb : ∀ a, off a + S1x16.size a ≤ S1000000x16.size a) (v w : BitVec 32) (h : w.toNat ≤ 999999)
    (hoff : off = ![v.toNat, 0]) (hv : v = w) :
    (tV0 : Memref sig .scVector .hbm S1000000x16 .f32).slice (Rect.unit (s := S1000000x16) off S1x16.size inb) (fun _ => rfl) = rowS0 w h := by
  subst hoff; subst hv; rfl
omit m in
theorem rowS1_eq (off : Fin 2 → ℕ) (inb : ∀ a, off a + S1x16.size a ≤ S1000000x16.size a) (v w : BitVec 32) (h : w.toNat ≤ 999999)
    (hoff : off = ![v.toNat, 0]) (hv : v = w) :
    (tV1 : Memref sig .scVector .hbm S1000000x16 .f32).slice (Rect.unit (s := S1000000x16) off S1x16.size inb) (fun _ => rfl) = rowS1 w h := by
  subst hoff; subst hv; rfl

/-- One row's credit on the subcore's batch semaphore. -/
abbrev NR : ℕ := (rowD 0).view.dmaCredit

/-- The share of a table that copy `t` of a worker reads its row through. -/
abbrev tokq (t : Fin 512) : PosShare TreeShare :=
  Transfers.shareTok (Transfers.shareTok fullShare 32 (wid (cV L) (jV L))) 512 t

/-! ### The 512 rows of the row scratch -/

omit m in
theorem rowD_set (t : Fin 512) : (rowD t).view.set = (Rect.unit (s := S512x16) ![t.val, 0] S1x16.size (rowD_inb t)).set := by
  show ((View.whole (cc0_scratch1 : Ref sig .scVector)).slice (Rect.unit (s := S512x16) ![t.val, 0] S1x16.size (rowD_inb t))).set = _
  rw [View.set_slice_whole]
omit m in
/-- Row `t`'s elements, typed as elements of the row scratch. -/
abbrev rowSet (t : Fin 512) : Finset (Idx ((SparseCore.V d (cV L) (jV L)).loc cc0_scratch1)) := (rowD t).view.set
omit m in
theorem rowD_disjoint : ∀ t ∈ (Finset.univ : Finset (Fin 512)), ∀ t' ∈ (Finset.univ : Finset (Fin 512)), t ≠ t' →
    Disjoint (rowSet d L t) (rowSet d L t') := by
  intro t _ t' _ h
  show Disjoint (rowD t).view.set (rowD t').view.set
  rw [rowD_set, rowD_set]
  refine Rect.unit_disjoint 0 ?_
  have : t.val ≠ t'.val := fun e => h (Fin.ext e)
  show t.val + 1 ≤ t'.val ∨ t'.val + 1 ≤ t.val
  omega
omit m in
theorem rowD_cover : (Finset.univ : Finset (Fin 512)).biUnion (rowSet d L) = Finset.univ := by
  ext i
  simp only [Finset.mem_biUnion, Finset.mem_univ, true_and, iff_true]
  have h0 : (i 0).val < 512 := (i 0).isLt
  have h1 : (i 1).val < 16 := (i 1).isLt
  refine ⟨⟨(i 0).val, h0⟩, ?_⟩
  show i ∈ (rowD ⟨(i 0).val, h0⟩).view.set
  rw [rowD_set, Rect.mem_set_unit]
  intro a; fin_cases a
  · show (i 0).val ≤ (i 0).val ∧ (i 0).val < (i 0).val + 1; omega
  · show 0 ≤ (i 1).val ∧ (i 1).val < 0 + 16; omega
omit m in
/-- The row scratch whole is its 512 rows. -/
theorem rows_split (f : Buf (Elt F) ((SparseCore.V d (cV L) (jV L)).loc cc0_scratch1)) :
    ((SparseCore.V d (cV L) (jV L)).loc cc0_scratch1 ↦{fullShare} f : sProp 𝕄)
      = bigSep Finset.univ (fun t : Fin 512 => ((rowD t).view.loc (SparseCore.V d (cV L) (jV L)) ↦[(rowD t).view.set]{fullShare} f : sProp 𝕄)) := by
  show ((SparseCore.V d (cV L) (jV L)).loc cc0_scratch1 ↦[Finset.univ]{fullShare} f : sProp 𝕄)
      = bigSep Finset.univ (fun t : Fin 512 => ((SparseCore.V d (cV L) (jV L)).loc cc0_scratch1 ↦[rowSet d L t]{fullShare} f : sProp 𝕄))
  rw [← pointsTo_biUnion Finset.univ (rowSet d L) (rowD_disjoint d L), rowD_cover]
omit m in
theorem NR_pos : 0 < NR := View.dmaCredit_pos _ (by decide)
omit m in
theorem pending_all : Transfers.pending (n := 512) 512 = ∅ := by
  ext t; simp only [Transfers.pending, Finset.mem_filter, Finset.mem_univ, true_and, Finset.notMem_empty, iff_false]; have := t.isLt; omega

/-! ### The 512 waits -/

section Drain

variable (Dl : Fin 512 → sProp (MT nD τ sig (HIx 1) (Elt F) ℕ UU ℕ)) (O : CellTallies nD τ sig (HIx 1)) (W : Waits sig (HIx 1))

/-- With `k` rows' amounts taken off the counter: the batch, or after the last one every delivery and the counter at zero. -/
def DrainSt (k : ℕ) : sProp 𝕄 :=
  if k < 512 then Transfers.Batch (countersEmb (U := UU)) (SparseCore.V d (cV L) (jV L)) (.dma cc0_scratch2.sem) (none : HIx 1) NR Dl 512 (k * NR)
  else iprop(bigSep Finset.univ Dl ∗ semVal (cellB d L) 0)

omit m in
theorem DrainSt_lt {k : ℕ} (h : k < 512) :
    DrainSt d L Dl k = Transfers.Batch (countersEmb (U := UU)) (SparseCore.V d (cV L) (jV L)) (.dma cc0_scratch2.sem) (none : HIx 1) NR Dl 512 (k * NR) := if_pos h
omit m in
theorem DrainSt_ge {k : ℕ} (h : ¬ k < 512) : DrainSt d L Dl k = iprop(bigSep Finset.univ Dl ∗ semVal (cellB d L) 0) := if_neg h

/-- Before trip `k` of the waiting loop. -/
def Inv2 (k : ℕ) (_ : Unit) : sProp 𝕄 :=
  iprop(Transfers.MayWaits (SparseCore.V d (cV L) (jV L)) (none : HIx 1) O ∗ DrainSt d L Dl k
    ∗ ∃ W', ⌜∀ p ∈ W', p ∈ W ∨ p.2 = none⌝ ∗ owes (SparseCore.V d (cV L) (jV L)) O W')

omit m in
/-- One wait of a row's amount: nothing learnt before the last, everything at the last. -/
theorem drain_step {α : Type} {sp sp' : Space} {s' : Shape} {e' : EltTy} {κ' : Kind} (k : ℕ) (hk : k < 512)
    (srcw : Memref sig (SparseCore.V d (cV L) (jV L)).2.kind sp' s' e') (dstw : Memref sig κ' sp S1x16 .f32) (hcred : dstw.view.dmaCredit = NR)
    {hsrc : srcw.view.WordExact} {hdst : dstw.view.WordExact}
    (kont : PUnit → Prog (TpuEff nD τ sig (Elt F) Λ₀ (SparseCore.V d (cV L) (jV L)).2) α) (Q : α → sProp 𝕄) :
    Inv2 d L Dl O W k ()
      ⊢ iprop((Inv2 d L Dl O W (k + 1) () -∗ wp frame (wpE (defs₀ (F := F)) 𝒱₀ (SparseCore.V d (cV L) (jV L)) none) Set.univ (kont ⟨⟩) Q)
          -∗ wp frame (wpE (defs₀ (F := F)) 𝒱₀ (SparseCore.V d (cV L) (jV L)) none) Set.univ (.op (.waitDma2 cc0_scratch2.sem srcw dstw hsrc hdst) kont) Q) := by
  unfold Inv2
  rw [DrainSt_lt d L Dl hk]
  by_cases h : k + 1 < 512
  · rw [DrainSt_lt d L Dl h, show (k + 1) * NR = k * NR + NR from Nat.succ_mul _ _]
    have hu : k * NR + NR < NR * 512 := by
      have := Nat.mul_lt_mul_of_lt_of_le h (Nat.le_refl NR) NR_pos
      rw [Nat.succ_mul] at this; rw [Nat.mul_comm NR 512]; exact this
    iintro ⟨#Hmw, HB, %W', %hW', HO⟩ Hk
    ihave Hmw1 := (Transfers.MayWaits.elim (SemLoc.dma cc0_scratch2.sem)) $$ Hmw
    iapply (Transfers.wp_waitBatchO (countersEmb (U := UU)) 𝒱₀ (SparseCore.V d (cV L) (jV L)) none (none : HIx 1) hcred (D := Dl) (u := k * NR) hu (O := O) (W := W')) $$ [HB HO Hmw1]
    · isplitl [HB]; · iexact HB
      isplitl [HO]; · iexact HO
      iexact Hmw1
    iintro ⟨HB, HO⟩
    iapply Hk
    isplitr; · iexact Hmw
    isplitl [HB]; · iexact HB
    iexists (insert (SemLoc.dma cc0_scratch2.sem, (none : HIx 1)) W'); isplitr
    · ipureintro; intro p hp
      rcases Finset.mem_insert.mp hp with hp | hp
      · exact .inr (hp ▸ rfl)
      · exact hW' p hp
    · iexact HO
  · rw [DrainSt_ge d L Dl h]
    have hu : k * NR + NR = NR * 512 := by
      rw [← Nat.succ_mul, show k.succ = 512 from by omega, Nat.mul_comm]
    iintro ⟨#Hmw, HB, %W', %hW', HO⟩ Hk
    ihave Hmw1 := (Transfers.MayWaits.elim (SemLoc.dma cc0_scratch2.sem)) $$ Hmw
    iapply (Transfers.wp_waitBatchLastO (countersEmb (U := UU)) 𝒱₀ (SparseCore.V d (cV L) (jV L)) none (none : HIx 1) hcred NR_pos (D := Dl) (u := k * NR) hu (O := O) (W := W')) $$ [HB HO Hmw1]
    · isplitl [HB]; · iexact HB
      isplitl [HO]; · iexact HO
      iexact Hmw1
    iintro ⟨HD, Hv, HO⟩
    iapply Hk
    isplitr; · iexact Hmw
    isplitl [HD Hv]
    · isplitl [HD]; · iexact HD
      iexact Hv
    iexists (insert (SemLoc.dma cc0_scratch2.sem, (none : HIx 1)) W'); isplitr
    · ipureintro; intro p hp
      rcases Finset.mem_insert.mp hp with hp | hp
      · exact .inr (hp ▸ rfl)
      · exact hW' p hp
    · iexact HO

end Drain

omit m in
theorem drain_region0 (Dl : Fin 512 → sProp 𝕄) (O : CellTallies nD τ sig (HIx 1)) (W : Waits sig (HIx 1)) (k : Fin k0_t2_loop.trips) (acc : Unit) :
    Inv2 d L Dl O W k.val acc
      ⊢ wp frame (wpE (defs₀ (F := F)) 𝒱₀ (SparseCore.V d (cV L) (jV L)) none) Set.univ
          (k0_t2_body (F := F) L iV0 (Memref.isWhole_whole _) iV1 (Memref.isWhole_whole _) tV0 (Memref.isWhole_whole _) tV1 (Memref.isWhole_whole _)
            oV0 (Memref.isWhole_whole _) oV1 (Memref.isWhole_whole _) sIdx (Memref.isWhole_whole _) sRows (Memref.isWhole_whole _)
            cc0_scratch2 cc0_scoped0 cc0_scoped1 cc0_scoped2 cc0_scoped3 k acc)
          (Inv2 d L Dl O W (k.val + 1)) := by
  have hk : k.val < 512 := by have := k.isLt; have e : k0_t2_loop.trips = 512 := by decide
                              omega
  unfold k0_t2_body
  simp only [Prog.lift, Prog.bind_op, Prog.bind_ret, Prog.pure_eq_ret]
  iintro HI
  iapply (drain_step d L Dl O W k.val hk _ _ rfl) $$ [HI]
  · iexact HI
  iintro HI
  sl_step
  iexact HI

omit m in
theorem drain_region1 (Dl : Fin 512 → sProp 𝕄) (O : CellTallies nD τ sig (HIx 1)) (W : Waits sig (HIx 1)) (k : Fin k0_t4_loop.trips) (acc : Unit) :
    Inv2 d L Dl O W k.val acc
      ⊢ wp frame (wpE (defs₀ (F := F)) 𝒱₀ (SparseCore.V d (cV L) (jV L)) none) Set.univ
          (k0_t4_body (F := F) L iV0 (Memref.isWhole_whole _) iV1 (Memref.isWhole_whole _) tV1 (Memref.isWhole_whole _) tV1 (Memref.isWhole_whole _)
            oV0 (Memref.isWhole_whole _) oV1 (Memref.isWhole_whole _) sIdx (Memref.isWhole_whole _) sRows (Memref.isWhole_whole _)
            cc0_scratch2 cc0_scoped0 cc0_scoped1 cc0_scoped2 cc0_scoped3 k acc)
          (Inv2 d L Dl O W (k.val + 1)) := by
  have hk : k.val < 512 := by have := k.isLt; have e : k0_t4_loop.trips = 512 := by decide
                              omega
  unfold k0_t4_body
  simp only [Prog.lift, Prog.bind_op, Prog.bind_ret, Prog.pure_eq_ret]
  iintro HI
  iapply (drain_step d L Dl O W k.val hk _ _ rfl) $$ [HI]
  · iexact HI
  iintro HI
  sl_step
  iexact HI

/-! ### Reading an index off the index scratch -/

section Shared

variable (gI : Buf (Elt F) ((SparseCore.V d (cV L) (jV L)).loc cc0_scratch0)) (hb : ∀ j, (gI j).toNat ≤ 999999)

include hb in
/-- Words read off the index scratch are words of it. -/
theorem readAt_le (r : LoadRect S512) (j : r.shape.Idx) : ((sIdx : Memref sig .scVector .vmem S512 .i32).view.readAt (Elt F) r gI j).toNat ≤ 999999 := by
  rw [View.readAt_apply]
  exact ((View.read_apply (v := (sIdx : Memref sig .scVector .vmem S512 .i32).view) gI (r.idx j)).trans (cast_eq _ _)) ▸ hb _

include hb in
/-- The check a trip makes of a lane of the words it loaded: the lane names a row of the table. -/
theorem lane_ok (off2 : Fin S512.rank → ℕ) (inb2 : ∀ a, off2 a + S16.size a ≤ S512.size a) (off : Fin S16.rank → ℕ)
    (hc : S16.ShapeCasts S16) (hs : S16.Slices off S1) (hp : ∀ a, (![0] : Fin S1.rank → ℕ) a < S1.size a) :
    ∀ a, (![(extractAt ![0] (extractStridedSlice S1 off (shapeCast S16
        ((sIdx : Memref sig .scVector .vmem S512 .i32).view.readAt (Elt F) (Rect.unit (s := S512) off2 S16.size inb2).toLoadRect gI) hc) hs) hp).toNat, 0] : Fin 2 → ℕ) a
      + S1x16.size a ≤ S1000000x16.size a :=
  rowS_inb _ (lane_le _ (readAt_le d L gI hb (Rect.unit (s := S512) off2 S16.size inb2).toLoadRect) off hc hs hp)

end Shared

omit m [FloatOps F] in
/-- One write of the whole index scratch leaves what was written. -/
theorem idx_landed (f w : Buf (Elt F) ((SparseCore.V d (cV L) (jV L)).loc cc0_scratch0)) :
    (sIdx : Memref sig .scVector .vmem S512 .i32).view.writes (Elt F) f [⟨Rect.whole S512, w⟩] = w := by
  have h1 := (View.write_univ_eq_writes_whole (View.whole (cc0_scratch0 : Ref sig .scVector)) f [] w).symm
  exact h1.trans (View.write_whole_univ (cc0_scratch0 : Ref sig .scVector) f w)

end Tile

end Cert.Proof.KB

end
-- ==== Proof.TileFire0B.lean ====
/-
  One vector subcore's task of the gather, the first table: what each of the 512 row copies delivers (row t of the row
  scratch at the table's row that index t names, and the read share of that row back); the state with j copies issued
  (the batch, the rows and read shares not yet given to a copy, and of each share lent what is left of the table beside
  the row lent); one copy issued, as a single step over (trip, lane); a trip of the issuing loop, sixteen such steps
  between the checks that each index names a row; and, once every copy has landed, the row scratch whole at the
  gathered rows and the table's share whole again.
-/
import proofs.«212205_g31413390803091_cont_8to1_b_1662_24_alg».proof.Proof.TileBaseB
import proofs.«212205_g31413390803091_cont_8to1_b_1662_24_alg».proof.Proof.OutRowsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

variable [FloatOps F]

section Table0

variable (gI : Buf (Elt F) ((SparseCore.V d (cV L) (jV L)).loc cc0_scratch0)) (hb : ∀ j, (gI j).toNat ≤ 999999)

/-- What the row scratch holds once every copy has landed: row `r` is the table's row that index `r` names. -/
def G0 : Buf (Elt F) ((SparseCore.V d (cV L) (jV L)).loc cc0_scratch1) :=
  fun y => tab0 m d (ix2 (⟨(gI (ix1 (⟨(y 0).val, (y 0).isLt⟩ : Fin 512))).toNat, Nat.lt_succ_of_le (hb _)⟩ : Fin 1000000) (⟨(y 1).val, (y 1).isLt⟩ : Fin 16))

/-- Copy `t` delivers row `t` of the row scratch at the table's row that index `t` names, and gives its read share of that
    row back. -/
def D0 (t : Fin 512) : sProp 𝕄 :=
  iprop(((rowD t).view.loc (SparseCore.V d (cV L) (jV L)) ↦[(rowD t).view.set]{fullShare} G0 m d L gI hb)
    ∗ ((rowS0 (gI (ix1 t)) (hb _)).view.loc (SparseCore.V d (cV L) (jV L)) ↦[(rowS0 (gI (ix1 t)) (hb _)).view.set]{tokq L t} tab0 m d))

instance D0_storable (t : Fin 512) : BI.Storable (upEmb : UEmb _ 𝕄) (D0 m d L gI hb t) := by unfold D0; infer_instance

/-- With `j` copies issued: the batch; the rows of the scratch not yet given to a copy; the read shares not yet lent; and of
    each share lent, what is left of the table beside the row lent. -/
def Fire0 (f0 : Buf (Elt F) ((SparseCore.V d (cV L) (jV L)).loc cc0_scratch1)) (j : ℕ) : sProp 𝕄 :=
  iprop(Transfers.Batch (countersEmb (U := UU)) (SparseCore.V d (cV L) (jV L)) (.dma cc0_scratch2.sem) (none : HIx 1) NR (D0 m d L gI hb) j 0
    ∗ bigSep (Transfers.pending (n := 512) j) (fun t => (rowD t).view.loc (SparseCore.V d (cV L) (jV L)) ↦[(rowD t).view.set]{fullShare} f0)
    ∗ bigSep (Transfers.pending (n := 512) j) (fun t => tLoc0 d ↦{tokq L t} tab0 m d)
    ∗ bigSep (Transfers.issued (m := 512) j)
        (fun t => tLoc0 d ↦[Finset.univ \ (rowS0 (gI (ix1 t)) (hb _)).view.set]{tokq L t} tab0 m d))

/-- Before trip `k` of the issuing loop: the index scratch, and sixteen copies per trip issued. -/
def Inv1 (f0 : Buf (Elt F) ((SparseCore.V d (cV L) (jV L)).loc cc0_scratch1)) (k : ℕ) (_ : Unit) : sProp 𝕄 :=
  iprop(((sIdx : Memref sig .scVector .vmem S512 .i32).view.loc (SparseCore.V d (cV L) (jV L)) ↦[(sIdx : Memref sig .scVector .vmem S512 .i32).view.set]{fullShare} gI)
    ∗ Fire0 m d L gI hb f0 (16 * k))
omit [FloatOps F] in
/-- Trip `k` loads entries `16·k …` of the index scratch. -/
theorem readAt_val (k : Fin k0_t1_loop.trips) (l : ℕ) (hl : l < 16) (hlt : 16 * k.val + l < 512) :
    (sIdx : Memref sig .scVector .vmem S512 .i32).view.readAt (Elt F) (Rect.unit (s := S512) (k0_off2 k) S16.size (k0_off2_inb k)).toLoadRect gI (ix1 (⟨l, hl⟩ : Fin 16))
      = gI (ix1 (⟨16 * k.val + l, hlt⟩ : Fin 512)) := by
  rw [View.readAt_apply]
  refine ((View.read_apply (v := (sIdx : Memref sig .scVector .vmem S512 .i32).view) gI _).trans (cast_eq _ _)).trans ?_
  refine congrArg gI (funext fun a => Fin.ext ?_)
  match a with
  | 0 =>
    show (k0_off2 k) 0 + 1 * l = 16 * k.val + l
    rw [k0_off2_eq]; simp

omit [FloatOps F] in
/-- Lane `l` of the words trip `k` loads is entry `16·k + l` of the index scratch. -/
theorem lane_val (k : Fin k0_t1_loop.trips) (l : ℕ) (hl : l < 16) (hlt : 16 * k.val + l < 512)
    (hc : S16.ShapeCasts S16) (hs : S16.Slices ![l] S1) (hp : ∀ a, (![0] : Fin S1.rank → ℕ) a < S1.size a) :
    extractAt ![0] (extractStridedSlice S1 ![l] (shapeCast S16
        ((sIdx : Memref sig .scVector .vmem S512 .i32).view.readAt (Elt F) (Rect.unit (s := S512) (k0_off2 k) S16.size (k0_off2_inb k)).toLoadRect gI) hc) hs) hp
      = gI (ix1 (⟨16 * k.val + l, hlt⟩ : Fin 512)) :=
  (lane_eq' _ l hl hc hs hp).trans (readAt_val d L gI k l hl hlt)

/-- Where copy `t` lands, the row scratch holds the table's row that index `t` names. -/
theorem landed_eq (t : Fin 512) (fd : Buf (Elt F) ((rowD t).view.loc (SparseCore.V d (cV L) (jV L)))) :
    ∀ i ∈ (rowD t).view.set,
      (rowD t).view.write (Elt F) fd (ReadAs.same.apply ((rowS0 (gI (ix1 t)) (hb _)).view.read (Elt F) (tab0 m d))) Finset.univ i
        = G0 m d L gI hb i := by
  intro i hi
  obtain ⟨y, rfl⟩ := View.exists_emb_of_mem_set _ hi
  rw [View.write_emb_of_mem _ _ (Finset.mem_univ y), ReadAs.apply_same, View.read_apply]
  have hy : (y 0).val = 0 := by have h1 : (y 0).val < 1 := (y 0).isLt; omega
  have hd0 : ((rowD t).view.emb y 0).val = t.val := by
    show (![t.val, 0] : Fin 2 → ℕ) 0 + 1 * (y 0).val = t.val
    rw [hy]; simp
  have hd1 : ((rowD t).view.emb y 1).val = (y 1).val := by
    show (![t.val, 0] : Fin 2 → ℕ) 1 + 1 * (y 1).val = (y 1).val
    simp
  have hs0 : ((rowS0 (gI (ix1 t)) (hb _)).view.emb y 0).val = (gI (ix1 t)).toNat := by
    show (![(gI (ix1 t)).toNat, 0] : Fin 2 → ℕ) 0 + 1 * (y 0).val = _
    rw [hy]; simp
  have hs1 : ((rowS0 (gI (ix1 t)) (hb _)).view.emb y 1).val = (y 1).val := by
    show (![(gI (ix1 t)).toNat, 0] : Fin 2 → ℕ) 1 + 1 * (y 1).val = (y 1).val
    simp
  refine (cast_eq _ _).trans ((cast_eq _ _).trans ?_)
  unfold G0
  refine congrArg (tab0 m d) (funext fun a => Fin.ext ?_)
  match a with
  | 0 =>
    rw [hs0]
    show (gI (ix1 t)).toNat = (gI (ix1 (⟨((rowD t).view.emb y 0).val, _⟩ : Fin 512))).toNat
    exact congrArg (fun j : Fin 512 => (gI (ix1 j)).toNat) (Fin.ext hd0.symm)
  | 1 =>
    rw [hs1]
    exact hd1.symm

/-- Copy `j` issued: its row of the scratch and its read share go to the copy, the rest of its share stays. -/
theorem fire_one {α : Type} (f0 : Buf (Elt F) ((SparseCore.V d (cV L) (jV L)).loc cc0_scratch1)) (j : ℕ) (hj : j < 512)
    (src : Memref sig (SparseCore.V d (cV L) (jV L)).2.kind .hbm S1x16 .f32) (dst : Memref sig (SparseCore.V d (cV L) (jV L)).2.kind .vmem S1x16 .f32)
    (hsrcE : src = rowS0 (gI (ix1 ⟨j, hj⟩)) (hb _)) (hdstE : dst = rowD ⟨j, hj⟩)
    {hsrc : src.view.WordExact} {hdst : dst.view.WordExact}
    {hsem : DmaTarget.Typed (nD := nD) .hbm (.dma cc0_scratch2.sem) (DmaTarget.here (p := (SparseCore.V d (cV L) (jV L)).2) dst)}
    (kont : PUnit → Prog (TpuEff nD τ sig (Elt F) Λ₀ (SparseCore.V d (cV L) (jV L)).2) α) (Q : α → sProp 𝕄) :
    Fire0 m d L gI hb f0 j
      ⊢ iprop((Fire0 m d L gI hb f0 (j + 1) -∗ wp frame (wpE (defs₀ (F := F)) 𝒱₀ (SparseCore.V d (cV L) (jV L)) none) Set.univ (kont ⟨⟩) Q)
          -∗ wp frame (wpE (defs₀ (F := F)) 𝒱₀ (SparseCore.V d (cV L) (jV L)) none) Set.univ
              (.op (.enqueueDmaAs src (.here dst) ReadAs.same (.dma cc0_scratch2.sem) hsrc hdst hsem) kont) Q) := by
  subst hsrcE; subst hdstE
  unfold Fire0
  iintro ⟨HB, HR, HT, HC⟩ Hk
  ihave HR' := (Entails.of_eq (Transfers.bigSep_pending_step
    (fun t : Fin 512 => ((rowD t).view.loc (SparseCore.V d (cV L) (jV L)) ↦[(rowD t).view.set]{fullShare} f0 : sProp 𝕄)) j hj)) $$ HR
  icases HR' with ⟨Hrow, HR⟩
  ihave HT' := (Entails.of_eq (Transfers.bigSep_pending_step (fun t : Fin 512 => (tLoc0 d ↦{tokq L t} tab0 m d : sProp 𝕄)) j hj)) $$ HT
  icases HT' with ⟨Htok, HT⟩
  ihave Htok' := (pointsTo_split_subset (Finset.subset_univ (rowS0 (gI (ix1 ⟨j, hj⟩)) (hb _)).view.set)).1 $$ Htok
  icases Htok' with ⟨Hsrc, Hrest⟩
  iapply (Transfers.wp_dmaBatch (countersEmb (U := UU)) 𝒱₀ (SparseCore.V d (cV L) (jV L)) none
      (src := rowS0 (gI (ix1 ⟨j, hj⟩)) (hb _)) (dst := rowD ⟨j, hj⟩) (none : HIx 1) NR rfl subset_rfl
      (D := D0 m d L gI hb) (j := j) (u := 0) hj (Nat.zero_le _) ?hD) $$ [Hsrc Hrow HB]
  case hD =>
    unfold D0
    rw [pointsTo_congr (landed_eq m d L gI hb ⟨j, hj⟩ f0)]
  · isplitl [Hsrc]; · iexact Hsrc
    isplitl [Hrow]; · iexact Hrow
    iexact HB
  iintro HB
  iapply Hk
  isplitl [HB]; · iexact HB
  isplitl [HR]; · iexact HR
  isplitl [HT]; · iexact HT
  iapply (Entails.of_eq (bigSep_issued_step
    (fun t : Fin 512 => (tLoc0 d ↦[Finset.univ \ (rowS0 (gI (ix1 t)) (hb _)).view.set]{tokq L t} tab0 m d : sProp 𝕄)) j hj).symm)
  isplitl [Hrest]; · iexact Hrest
  iexact HC

set_option maxHeartbeats 4000000 in
theorem fire_region (f0 : Buf (Elt F) ((SparseCore.V d (cV L) (jV L)).loc cc0_scratch1)) (k : Fin k0_t1_loop.trips) (acc : Unit) :
    Inv1 m d L gI hb f0 k.val acc
      ⊢ wp frame (wpE (defs₀ (F := F)) 𝒱₀ (SparseCore.V d (cV L) (jV L)) none) Set.univ
          (k0_t1_body (F := F) L iV0 (Memref.isWhole_whole _) iV1 (Memref.isWhole_whole _) tV0 (Memref.isWhole_whole _) tV1 (Memref.isWhole_whole _)
            oV0 (Memref.isWhole_whole _) oV1 (Memref.isWhole_whole _) sIdx (Memref.isWhole_whole _) sRows (Memref.isWhole_whole _)
            cc0_scratch2 cc0_scoped0 cc0_scoped1 cc0_scoped2 cc0_scoped3 k acc)
          (Inv1 m d L gI hb f0 (k.val + 1)) := by
  have hk : k.val < 32 := by have := k.isLt; have e : k0_t1_loop.trips = 32 := by decide
                             omega
  unfold k0_t1_body
  unfold Inv1
  rw [show 16 * (k.val + 1) = 16 * k.val + 16 from by omega]
  iintro ⟨HsI, HF⟩
  sl_exec (disch := exact lane_ok d L gI hb _ _ _ (by decide) (by decide) (by decide))
  -- lane 0
  iapply (fire_one m d L gI hb f0 (16 * k.val + 0) (by omega) _ _
    (rowS0_eq _ _ _ _ _ rfl (lane_val d L gI k 0 (by omega) (by omega) (by decide) (by decide) (by decide)))
    (rowD_eq _ _ ⟨16 * k.val + 0, by omega⟩ (k0_off5_eq k ⟨0, by decide⟩))) $$ [HF]
  · iexact HF
  iintro HF
  sl_exec (disch := exact lane_ok d L gI hb _ _ _ (by decide) (by decide) (by decide))
  -- lane 1
  iapply (fire_one m d L gI hb f0 (16 * k.val + 1) (by omega) _ _
    (rowS0_eq _ _ _ _ _ rfl (lane_val d L gI k 1 (by omega) (by omega) (by decide) (by decide) (by decide)))
    (rowD_eq _ _ ⟨16 * k.val + 1, by omega⟩ (k0_off7_eq k ⟨0, by decide⟩))) $$ [HF]
  · iexact HF
  iintro HF
  sl_exec (disch := exact lane_ok d L gI hb _ _ _ (by decide) (by decide) (by decide))
  -- lane 2
  iapply (fire_one m d L gI hb f0 (16 * k.val + 2) (by omega) _ _
    (rowS0_eq _ _ _ _ _ rfl (lane_val d L gI k 2 (by omega) (by omega) (by decide) (by decide) (by decide)))
    (rowD_eq _ _ ⟨16 * k.val + 2, by omega⟩ (k0_off9_eq k ⟨0, by decide⟩))) $$ [HF]
  · iexact HF
  iintro HF
  sl_exec (disch := exact lane_ok d L gI hb _ _ _ (by decide) (by decide) (by decide))
  -- lane 3
  iapply (fire_one m d L gI hb f0 (16 * k.val + 3) (by omega) _ _
    (rowS0_eq _ _ _ _ _ rfl (lane_val d L gI k 3 (by omega) (by omega) (by decide) (by decide) (by decide)))
    (rowD_eq _ _ ⟨16 * k.val + 3, by omega⟩ (k0_off11_eq k ⟨0, by decide⟩))) $$ [HF]
  · iexact HF
  iintro HF
  sl_exec (disch := exact lane_ok d L gI hb _ _ _ (by decide) (by decide) (by decide))
  -- lane 4
  iapply (fire_one m d L gI hb f0 (16 * k.val + 4) (by omega) _ _
    (rowS0_eq _ _ _ _ _ rfl (lane_val d L gI k 4 (by omega) (by omega) (by decide) (by decide) (by decide)))
    (rowD_eq _ _ ⟨16 * k.val + 4, by omega⟩ (k0_off13_eq k ⟨0, by decide⟩))) $$ [HF]
  · iexact HF
  iintro HF
  sl_exec (disch := exact lane_ok d L gI hb _ _ _ (by decide) (by decide) (by decide))
  -- lane 5
  iapply (fire_one m d L gI hb f0 (16 * k.val + 5) (by omega) _ _
    (rowS0_eq _ _ _ _ _ rfl (lane_val d L gI k 5 (by omega) (by omega) (by decide) (by decide) (by decide)))
    (rowD_eq _ _ ⟨16 * k.val + 5, by omega⟩ (k0_off15_eq k ⟨0, by decide⟩))) $$ [HF]
  · iexact HF
  iintro HF
  sl_exec (disch := exact lane_ok d L gI hb _ _ _ (by decide) (by decide) (by decide))
  -- lane 6
  iapply (fire_one m d L gI hb f0 (16 * k.val + 6) (by omega) _ _
    (rowS0_eq _ _ _ _ _ rfl (lane_val d L gI k 6 (by omega) (by omega) (by decide) (by decide) (by decide)))
    (rowD_eq _ _ ⟨16 * k.val + 6, by omega⟩ (k0_off17_eq k ⟨0, by decide⟩))) $$ [HF]
  · iexact HF
  iintro HF
  sl_exec (disch := exact lane_ok d L gI hb _ _ _ (by decide) (by decide) (by decide))
  -- lane 7
  iapply (fire_one m d L gI hb f0 (16 * k.val + 7) (by omega) _ _
    (rowS0_eq _ _ _ _ _ rfl (lane_val d L gI k 7 (by omega) (by omega) (by decide) (by decide) (by decide)))
    (rowD_eq _ _ ⟨16 * k.val + 7, by omega⟩ (k0_off19_eq k ⟨0, by decide⟩))) $$ [HF]
  · iexact HF
  iintro HF
  sl_exec (disch := exact lane_ok d L gI hb _ _ _ (by decide) (by decide) (by decide))
  -- lane 8
  iapply (fire_one m d L gI hb f0 (16 * k.val + 8) (by omega) _ _
    (rowS0_eq _ _ _ _ _ rfl (lane_val d L gI k 8 (by omega) (by omega) (by decide) (by decide) (by decide)))
    (rowD_eq _ _ ⟨16 * k.val + 8, by omega⟩ (k0_off21_eq k ⟨0, by decide⟩))) $$ [HF]
  · iexact HF
  iintro HF
  sl_exec (disch := exact lane_ok d L gI hb _ _ _ (by decide) (by decide) (by decide))
  -- lane 9
  iapply (fire_one m d L gI hb f0 (16 * k.val + 9) (by omega) _ _
    (rowS0_eq _ _ _ _ _ rfl (lane_val d L gI k 9 (by omega) (by omega) (by decide) (by decide) (by decide)))
    (rowD_eq _ _ ⟨16 * k.val + 9, by omega⟩ (k0_off23_eq k ⟨0, by decide⟩))) $$ [HF]
  · iexact HF
  iintro HF
  sl_exec (disch := exact lane_ok d L gI hb _ _ _ (by decide) (by decide) (by decide))
  -- lane 10
  iapply (fire_one m d L gI hb f0 (16 * k.val + 10) (by omega) _ _
    (rowS0_eq _ _ _ _ _ rfl (lane_val d L gI k 10 (by omega) (by omega) (by decide) (by decide) (by decide)))
    (rowD_eq _ _ ⟨16 * k.val + 10, by omega⟩ (k0_off25_eq k ⟨0, by decide⟩))) $$ [HF]
  · iexact HF
  iintro HF
  sl_exec (disch := exact lane_ok d L gI hb _ _ _ (by decide) (by decide) (by decide))
  -- lane 11
  iapply (fire_one m d L gI hb f0 (16 * k.val + 11) (by omega) _ _
    (rowS0_eq _ _ _ _ _ rfl (lane_val d L gI k 11 (by omega) (by omega) (by decide) (by decide) (by decide)))
    (rowD_eq _ _ ⟨16 * k.val + 11, by omega⟩ (k0_off27_eq k ⟨0, by decide⟩))) $$ [HF]
  · iexact HF
  iintro HF
  sl_exec (disch := exact lane_ok d L gI hb _ _ _ (by decide) (by decide) (by decide))
  -- lane 12
  iapply (fire_one m d L gI hb f0 (16 * k.val + 12) (by omega) _ _
    (rowS0_eq _ _ _ _ _ rfl (lane_val d L gI k 12 (by omega) (by omega) (by decide) (by decide) (by decide)))
    (rowD_eq _ _ ⟨16 * k.val + 12, by omega⟩ (k0_off29_eq k ⟨0, by decide⟩))) $$ [HF]
  · iexact HF
  iintro HF
  sl_exec (disch := exact lane_ok d L gI hb _ _ _ (by decide) (by decide) (by decide))
  -- lane 13
  iapply (fire_one m d L gI hb f0 (16 * k.val + 13) (by omega) _ _
    (rowS0_eq _ _ _ _ _ rfl (lane_val d L gI k 13 (by omega) (by omega) (by decide) (by decide) (by decide)))
    (rowD_eq _ _ ⟨16 * k.val + 13, by omega⟩ (k0_off31_eq k ⟨0, by decide⟩))) $$ [HF]
  · iexact HF
  iintro HF
  sl_exec (disch := exact lane_ok d L gI hb _ _ _ (by decide) (by decide) (by decide))
  -- lane 14
  iapply (fire_one m d L gI hb f0 (16 * k.val + 14) (by omega) _ _
    (rowS0_eq _ _ _ _ _ rfl (lane_val d L gI k 14 (by omega) (by omega) (by decide) (by decide) (by decide)))
    (rowD_eq _ _ ⟨16 * k.val + 14, by omega⟩ (k0_off33_eq k ⟨0, by decide⟩))) $$ [HF]
  · iexact HF
  iintro HF
  sl_exec (disch := exact lane_ok d L gI hb _ _ _ (by decide) (by decide) (by decide))
  -- lane 15
  iapply (fire_one m d L gI hb f0 (16 * k.val + 15) (by omega) _ _
    (rowS0_eq _ _ _ _ _ rfl (lane_val d L gI k 15 (by omega) (by omega) (by decide) (by decide) (by decide)))
    (rowD_eq _ _ ⟨16 * k.val + 15, by omega⟩ (k0_off35_eq k))) $$ [HF]
  · iexact HF
  iintro HF
  sl_step
  isplitl [HsI]; · iexact HsI
  iexact HF

/-- Nothing issued yet: the batch just allocated, the row scratch whole, every read share in hand. -/
theorem fire0_intro (f0 : Buf (Elt F) ((SparseCore.V d (cV L) (jV L)).loc cc0_scratch1)) :
    iprop(Transfers.Batch (countersEmb (U := UU)) (SparseCore.V d (cV L) (jV L)) (.dma cc0_scratch2.sem) (none : HIx 1) NR (D0 m d L gI hb) 0 0
        ∗ ((SparseCore.V d (cV L) (jV L)).loc cc0_scratch1 ↦{fullShare} f0)
        ∗ bigSep Finset.univ (fun t : Fin 512 => (tLoc0 d ↦{tokq L t} tab0 m d : sProp 𝕄)))
      ⊢ Fire0 m d L gI hb f0 0 := by
  unfold Fire0
  rw [Transfers.pending_zero, Transfers.issued_zero, bigSep_empty, rows_split]
  iintro ⟨HB, HR, HT⟩
  isplitl [HB]; · iexact HB
  isplitl [HR]; · iexact HR
  isplitl [HT]; · iexact HT
  iempintro

/-- Everything issued: the batch, and what is left of the table beside each row lent. -/
theorem fire0_elim (f0 : Buf (Elt F) ((SparseCore.V d (cV L) (jV L)).loc cc0_scratch1)) :
    Fire0 m d L gI hb f0 512
      ⊢ iprop(Transfers.Batch (countersEmb (U := UU)) (SparseCore.V d (cV L) (jV L)) (.dma cc0_scratch2.sem) (none : HIx 1) NR (D0 m d L gI hb) 512 0
        ∗ bigSep Finset.univ (fun t : Fin 512 => (tLoc0 d ↦[Finset.univ \ (rowS0 (gI (ix1 t)) (hb _)).view.set]{tokq L t} tab0 m d : sProp 𝕄))) := by
  unfold Fire0
  rw [pending_all, bigSep_empty, Transfers.issued_all rfl]
  iintro ⟨HB, -, -, HC⟩
  isplitl [HB]; · iexact HB
  iexact HC

/-- A read share of the table cut at a row and put back, for every copy at once. -/
theorem toks_rejoin0 :
    iprop(bigSep Finset.univ (fun t : Fin 512 => ((rowS0 (gI (ix1 t)) (hb _)).view.loc (SparseCore.V d (cV L) (jV L)) ↦[(rowS0 (gI (ix1 t)) (hb _)).view.set]{tokq L t} tab0 m d : sProp 𝕄))
        ∗ bigSep Finset.univ (fun t : Fin 512 => (tLoc0 d ↦[Finset.univ \ (rowS0 (gI (ix1 t)) (hb _)).view.set]{tokq L t} tab0 m d : sProp 𝕄)))
      ⊢ bigSep Finset.univ (fun t : Fin 512 => (tLoc0 d ↦{tokq L t} tab0 m d : sProp 𝕄)) := by
  rw [← bigSep_sep']
  exact bigSep_mono fun t _ => (pointsTo_split_subset (Finset.subset_univ (rowS0 (gI (ix1 t)) (hb _)).view.set)).2

/-- Every copy landed: the row scratch whole at the gathered rows, and the worker's read share of the table whole again. -/
theorem collect0 :
    iprop(bigSep Finset.univ (D0 m d L gI hb)
        ∗ bigSep Finset.univ (fun t : Fin 512 => (tLoc0 d ↦[Finset.univ \ (rowS0 (gI (ix1 t)) (hb _)).view.set]{tokq L t} tab0 m d : sProp 𝕄))
        ∗ (tLoc0 d ↦{Transfers.shareDrop (Transfers.shareTok fullShare 32 (wid (cV L) (jV L))) 512} tab0 m d))
      ⊢ iprop(((SparseCore.V d (cV L) (jV L)).loc cc0_scratch1 ↦{fullShare} G0 m d L gI hb)
        ∗ (tLoc0 d ↦{Transfers.shareTok fullShare 32 (wid (cV L) (jV L))} tab0 m d)) := by
  rw [show D0 m d L gI hb = fun t => iprop(((rowD t).view.loc (SparseCore.V d (cV L) (jV L)) ↦[(rowD t).view.set]{fullShare} G0 m d L gI hb)
      ∗ ((rowS0 (gI (ix1 t)) (hb _)).view.loc (SparseCore.V d (cV L) (jV L)) ↦[(rowS0 (gI (ix1 t)) (hb _)).view.set]{tokq L t} tab0 m d)) from funext fun t => rfl,
    bigSep_sep', rows_split]
  iintro ⟨⟨HA, HB⟩, HC, Hdrop⟩
  isplitl [HA]; · iexact HA
  iapply (Transfers.pointsTo_toks_join (Transfers.shareTok fullShare 32 (wid (cV L) (jV L))) 512)
  isplitl [Hdrop]; · iexact Hdrop
  iapply (toks_rejoin0 m d L gI hb)
  isplitl [HB]; · iexact HB
  iexact HC

end Table0

/-! ### The index block a worker fetches, and its rows of the result -/

/-- What the fetch leaves in the index scratch: the worker's 512 entries of the first index vector. -/
abbrev gI0 : Buf (Elt F) ((SparseCore.V d (cV L) (jV L)).loc cc0_scratch0) := (iBlk0 L).view.read (Elt F) (m (iLoc0 d))

omit [FloatOps F] in
theorem gI0_le (hpre : PreOK m) : ∀ j, (gI0 m d L j).toNat ≤ 999999 := by
  intro j
  have e := (View.read_apply (v := (iBlk0 L).view) (m (iLoc0 d)) j).trans (cast_eq _ _)
  show ((iBlk0 L).view.read (Elt F) (m (iLoc0 d)) j).toNat ≤ 999999
  rw [e]; exact (hpre d _).1

omit [FloatOps F] in
/-- Entry `t` of it is entry `512·w + t` of the index vector. -/
theorem gI0_val (t : Fin 512) (h : 512 * (wid (cV L) (jV L)).val + t.val < 16384) :
    gI0 m d L (ix1 t) = m (iLoc0 d) (ix1 (⟨512 * (wid (cV L) (jV L)).val + t.val, h⟩ : Fin 16384)) := by
  refine ((View.read_apply (v := (iBlk0 L).view) (m (iLoc0 d)) (ix1 t)).trans (cast_eq _ _)).trans ?_
  refine congrArg (m (iLoc0 d)) (funext fun a => Fin.ext ?_)
  match a with
  | 0 =>
    show (k0_off1 L) 0 + 1 * t.val = 512 * (wid (cV L) (jV L)).val + t.val
    rw [k0_off1_eq]; simp [wid]; omega

/-- After the copy-out the worker's rows of the result are the table's rows its indices name. -/
theorem rows_out0 (hpre : PreOK m) (fo : Buf (Elt F) (oLoc0 d)) :
    RowsOf (m (iLoc0 d)) (tab0 m d) (wid (cV L) (jV L))
      ((oBlk0 L).view.writes (Elt F) fo [⟨Rect.whole S512x16,
        ReadAs.same.apply ((sRows : Memref sig .scVector .vmem S512x16 .f32).view.read (Elt F) (G0 m d L (gI0 m d L) (gI0_le m d L hpre)))⟩]) := by
  have e := (View.write_univ_eq_writes_whole (oBlk0 L).view fo []
    (ReadAs.same.apply ((sRows : Memref sig .scVector .vmem S512x16 .f32).view.read (Elt F) (G0 m d L (gI0 m d L) (gI0_le m d L hpre))))).symm
  refine (congrArg (RowsOf (m (iLoc0 d)) (tab0 m d) (wid (cV L) (jV L))) e).mpr ?_
  refine out_rows0 d L (m (iLoc0 d)) (tab0 m d) fo _ ?_
  intro r e hr h
  refine ((View.read_apply (v := (sRows : Memref sig .scVector .vmem S512x16 .f32).view) (G0 m d L (gI0 m d L) (gI0_le m d L hpre)) (ix2 r e)).trans (cast_eq _ _)).trans ?_
  show G0 m d L (gI0 m d L) (gI0_le m d L hpre) (ix2 r e) = _
  unfold G0
  refine congrArg (tab0 m d) (funext fun a => Fin.ext ?_)
  match a with
  | 0 =>
    show (gI0 m d L (ix1 r)).toNat = (m (iLoc0 d) (ix1 ⟨512 * (wid (cV L) (jV L)).val + r.val, hr⟩)).toNat
    rw [gI0_val m d L r hr]
  | 1 => rfl

end Tile

end Cert.Proof.KB

end
-- ==== Proof.TileFire1B.lean ====
/-
  One vector subcore's task of the gather, the second table: what each of the 512 row copies delivers (row t of the row
  scratch at the table's row that index t names, and the read share of that row back); the state with j copies issued
  (the batch, the rows and read shares not yet given to a copy, and of each share lent what is left of the table beside
  the row lent); one copy issued, as a single step over (trip, lane); a trip of the issuing loop, sixteen such steps
  between the checks that each index names a row; and, once every copy has landed, the row scratch whole at the
  gathered rows and the table's share whole again.
-/
import proofs.«212205_g31413390803091_cont_8to1_b_1662_24_alg».proof.Proof.TileBaseB
import proofs.«212205_g31413390803091_cont_8to1_b_1662_24_alg».proof.Proof.OutRowsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

variable [FloatOps F]

section Table1

variable (gI : Buf (Elt F) ((SparseCore.V d (cV L) (jV L)).loc cc0_scratch0)) (hb : ∀ j, (gI j).toNat ≤ 999999)

/-- What the row scratch holds once every copy has landed: row `r` is the table's row that index `r` names. -/
def G1 : Buf (Elt F) ((SparseCore.V d (cV L) (jV L)).loc cc0_scratch1) :=
  fun y => tab1 m d (ix2 (⟨(gI (ix1 (⟨(y 0).val, (y 0).isLt⟩ : Fin 512))).toNat, Nat.lt_succ_of_le (hb _)⟩ : Fin 1000000) (⟨(y 1).val, (y 1).isLt⟩ : Fin 16))

/-- Copy `t` delivers row `t` of the row scratch at the table's row that index `t` names, and gives its read share of that
    row back. -/
def D1 (t : Fin 512) : sProp 𝕄 :=
  iprop(((rowD t).view.loc (SparseCore.V d (cV L) (jV L)) ↦[(rowD t).view.set]{fullShare} G1 m d L gI hb)
    ∗ ((rowS1 (gI (ix1 t)) (hb _)).view.loc (SparseCore.V d (cV L) (jV L)) ↦[(rowS1 (gI (ix1 t)) (hb _)).view.set]{tokq L t} tab1 m d))

instance D1_storable (t : Fin 512) : BI.Storable (upEmb : UEmb _ 𝕄) (D1 m d L gI hb t) := by unfold D1; infer_instance

/-- With `j` copies issued: the batch; the rows of the scratch not yet given to a copy; the read shares not yet lent; and of
    each share lent, what is left of the table beside the row lent. -/
def Fire1 (f0 : Buf (Elt F) ((SparseCore.V d (cV L) (jV L)).loc cc0_scratch1)) (j : ℕ) : sProp 𝕄 :=
  iprop(Transfers.Batch (countersEmb (U := UU)) (SparseCore.V d (cV L) (jV L)) (.dma cc0_scratch2.sem) (none : HIx 1) NR (D1 m d L gI hb) j 0
    ∗ bigSep (Transfers.pending (n := 512) j) (fun t => (rowD t).view.loc (SparseCore.V d (cV L) (jV L)) ↦[(rowD t).view.set]{fullShare} f0)
    ∗ bigSep (Transfers.pending (n := 512) j) (fun t => tLoc1 d ↦{tokq L t} tab1 m d)
    ∗ bigSep (Transfers.issued (m := 512) j)
        (fun t => tLoc1 d ↦[Finset.univ \ (rowS1 (gI (ix1 t)) (hb _)).view.set]{tokq L t} tab1 m d))

/-- Before trip `k` of the issuing loop: the index scratch, and sixteen copies per trip issued. -/
def Inv3 (f0 : Buf (Elt F) ((SparseCore.V d (cV L) (jV L)).loc cc0_scratch1)) (k : ℕ) (_ : Unit) : sProp 𝕄 :=
  iprop(((sIdx : Memref sig .scVector .vmem S512 .i32).view.loc (SparseCore.V d (cV L) (jV L)) ↦[(sIdx : Memref sig .scVector .vmem S512 .i32).view.set]{fullShare} gI)
    ∗ Fire1 m d L gI hb f0 (16 * k))
omit [FloatOps F] in
/-- Trip `k` loads entries `16·k …` of the index scratch. -/
theorem readAt_val1 (k : Fin k0_t3_loop.trips) (l : ℕ) (hl : l < 16) (hlt : 16 * k.val + l < 512) :
    (sIdx : Memref sig .scVector .vmem S512 .i32).view.readAt (Elt F) (Rect.unit (s := S512) (k0_off37 k) S16.size (k0_off37_inb k)).toLoadRect gI (ix1 (⟨l, hl⟩ : Fin 16))
      = gI (ix1 (⟨16 * k.val + l, hlt⟩ : Fin 512)) := by
  rw [View.readAt_apply]
  refine ((View.read_apply (v := (sIdx : Memref sig .scVector .vmem S512 .i32).view) gI _).trans (cast_eq _ _)).trans ?_
  refine congrArg gI (funext fun a => Fin.ext ?_)
  match a with
  | 0 =>
    show (k0_off37 k) 0 + 1 * l = 16 * k.val + l
    rw [k0_off37_eq]; simp

omit [FloatOps F] in
/-- Lane `l` of the words trip `k` loads is entry `16·k + l` of the index scratch. -/
theorem lane_val1 (k : Fin k0_t3_loop.trips) (l : ℕ) (hl : l < 16) (hlt : 16 * k.val + l < 512)
    (hc : S16.ShapeCasts S16) (hs : S16.Slices ![l] S1) (hp : ∀ a, (![0] : Fin S1.rank → ℕ) a < S1.size a) :
    extractAt ![0] (extractStridedSlice S1 ![l] (shapeCast S16
        ((sIdx : Memref sig .scVector .vmem S512 .i32).view.readAt (Elt F) (Rect.unit (s := S512) (k0_off37 k) S16.size (k0_off37_inb k)).toLoadRect gI) hc) hs) hp
      = gI (ix1 (⟨16 * k.val + l, hlt⟩ : Fin 512)) :=
  (lane_eq' _ l hl hc hs hp).trans (readAt_val1 d L gI k l hl hlt)

/-- Where copy `t` lands, the row scratch holds the table's row that index `t` names. -/
theorem landed_eq1 (t : Fin 512) (fd : Buf (Elt F) ((rowD t).view.loc (SparseCore.V d (cV L) (jV L)))) :
    ∀ i ∈ (rowD t).view.set,
      (rowD t).view.write (Elt F) fd (ReadAs.same.apply ((rowS1 (gI (ix1 t)) (hb _)).view.read (Elt F) (tab1 m d))) Finset.univ i
        = G1 m d L gI hb i := by
  intro i hi
  obtain ⟨y, rfl⟩ := View.exists_emb_of_mem_set _ hi
  rw [View.write_emb_of_mem _ _ (Finset.mem_univ y), ReadAs.apply_same, View.read_apply]
  have hy : (y 0).val = 0 := by have h1 : (y 0).val < 1 := (y 0).isLt; omega
  have hd0 : ((rowD t).view.emb y 0).val = t.val := by
    show (![t.val, 0] : Fin 2 → ℕ) 0 + 1 * (y 0).val = t.val
    rw [hy]; simp
  have hd1 : ((rowD t).view.emb y 1).val = (y 1).val := by
    show (![t.val, 0] : Fin 2 → ℕ) 1 + 1 * (y 1).val = (y 1).val
    simp
  have hs0 : ((rowS1 (gI (ix1 t)) (hb _)).view.emb y 0).val = (gI (ix1 t)).toNat := by
    show (![(gI (ix1 t)).toNat, 0] : Fin 2 → ℕ) 0 + 1 * (y 0).val = _
    rw [hy]; simp
  have hs1 : ((rowS1 (gI (ix1 t)) (hb _)).view.emb y 1).val = (y 1).val := by
    show (![(gI (ix1 t)).toNat, 0] : Fin 2 → ℕ) 1 + 1 * (y 1).val = (y 1).val
    simp
  refine (cast_eq _ _).trans ((cast_eq _ _).trans ?_)
  unfold G1
  refine congrArg (tab1 m d) (funext fun a => Fin.ext ?_)
  match a with
  | 0 =>
    rw [hs0]
    show (gI (ix1 t)).toNat = (gI (ix1 (⟨((rowD t).view.emb y 0).val, _⟩ : Fin 512))).toNat
    exact congrArg (fun j : Fin 512 => (gI (ix1 j)).toNat) (Fin.ext hd0.symm)
  | 1 =>
    rw [hs1]
    exact hd1.symm

/-- Copy `j` issued: its row of the scratch and its read share go to the copy, the rest of its share stays. -/
theorem fire_one1 {α : Type} (f0 : Buf (Elt F) ((SparseCore.V d (cV L) (jV L)).loc cc0_scratch1)) (j : ℕ) (hj : j < 512)
    (src : Memref sig (SparseCore.V d (cV L) (jV L)).2.kind .hbm S1x16 .f32) (dst : Memref sig (SparseCore.V d (cV L) (jV L)).2.kind .vmem S1x16 .f32)
    (hsrcE : src = rowS1 (gI (ix1 ⟨j, hj⟩)) (hb _)) (hdstE : dst = rowD ⟨j, hj⟩)
    {hsrc : src.view.WordExact} {hdst : dst.view.WordExact}
    {hsem : DmaTarget.Typed (nD := nD) .hbm (.dma cc0_scratch2.sem) (DmaTarget.here (p := (SparseCore.V d (cV L) (jV L)).2) dst)}
    (kont : PUnit → Prog (TpuEff nD τ sig (Elt F) Λ₀ (SparseCore.V d (cV L) (jV L)).2) α) (Q : α → sProp 𝕄) :
    Fire1 m d L gI hb f0 j
      ⊢ iprop((Fire1 m d L gI hb f0 (j + 1) -∗ wp frame (wpE (defs₀ (F := F)) 𝒱₀ (SparseCore.V d (cV L) (jV L)) none) Set.univ (kont ⟨⟩) Q)
          -∗ wp frame (wpE (defs₀ (F := F)) 𝒱₀ (SparseCore.V d (cV L) (jV L)) none) Set.univ
              (.op (.enqueueDmaAs src (.here dst) ReadAs.same (.dma cc0_scratch2.sem) hsrc hdst hsem) kont) Q) := by
  subst hsrcE; subst hdstE
  unfold Fire1
  iintro ⟨HB, HR, HT, HC⟩ Hk
  ihave HR' := (Entails.of_eq (Transfers.bigSep_pending_step
    (fun t : Fin 512 => ((rowD t).view.loc (SparseCore.V d (cV L) (jV L)) ↦[(rowD t).view.set]{fullShare} f0 : sProp 𝕄)) j hj)) $$ HR
  icases HR' with ⟨Hrow, HR⟩
  ihave HT' := (Entails.of_eq (Transfers.bigSep_pending_step (fun t : Fin 512 => (tLoc1 d ↦{tokq L t} tab1 m d : sProp 𝕄)) j hj)) $$ HT
  icases HT' with ⟨Htok, HT⟩
  ihave Htok' := (pointsTo_split_subset (Finset.subset_univ (rowS1 (gI (ix1 ⟨j, hj⟩)) (hb _)).view.set)).1 $$ Htok
  icases Htok' with ⟨Hsrc, Hrest⟩
  iapply (Transfers.wp_dmaBatch (countersEmb (U := UU)) 𝒱₀ (SparseCore.V d (cV L) (jV L)) none
      (src := rowS1 (gI (ix1 ⟨j, hj⟩)) (hb _)) (dst := rowD ⟨j, hj⟩) (none : HIx 1) NR rfl subset_rfl
      (D := D1 m d L gI hb) (j := j) (u := 0) hj (Nat.zero_le _) ?hD) $$ [Hsrc Hrow HB]
  case hD =>
    unfold D1
    rw [pointsTo_congr (landed_eq1 m d L gI hb ⟨j, hj⟩ f0)]
  · isplitl [Hsrc]; · iexact Hsrc
    isplitl [Hrow]; · iexact Hrow
    iexact HB
  iintro HB
  iapply Hk
  isplitl [HB]; · iexact HB
  isplitl [HR]; · iexact HR
  isplitl [HT]; · iexact HT
  iapply (Entails.of_eq (bigSep_issued_step
    (fun t : Fin 512 => (tLoc1 d ↦[Finset.univ \ (rowS1 (gI (ix1 t)) (hb _)).view.set]{tokq L t} tab1 m d : sProp 𝕄)) j hj).symm)
  isplitl [Hrest]; · iexact Hrest
  iexact HC

set_option maxHeartbeats 4000000 in
theorem fire_region1 (f0 : Buf (Elt F) ((SparseCore.V d (cV L) (jV L)).loc cc0_scratch1)) (k : Fin k0_t3_loop.trips) (acc : Unit) :
    Inv3 m d L gI hb f0 k.val acc
      ⊢ wp frame (wpE (defs₀ (F := F)) 𝒱₀ (SparseCore.V d (cV L) (jV L)) none) Set.univ
          (k0_t3_body (F := F) L iV0 (Memref.isWhole_whole _) iV1 (Memref.isWhole_whole _) tV1 (Memref.isWhole_whole _) tV1 (Memref.isWhole_whole _)
            oV0 (Memref.isWhole_whole _) oV1 (Memref.isWhole_whole _) sIdx (Memref.isWhole_whole _) sRows (Memref.isWhole_whole _)
            cc0_scratch2 cc0_scoped0 cc0_scoped1 cc0_scoped2 cc0_scoped3 k acc)
          (Inv3 m d L gI hb f0 (k.val + 1)) := by
  have hk : k.val < 32 := by have := k.isLt; have e : k0_t3_loop.trips = 32 := by decide
                             omega
  unfold k0_t3_body
  unfold Inv3
  rw [show 16 * (k.val + 1) = 16 * k.val + 16 from by omega]
  iintro ⟨HsI, HF⟩
  sl_exec (disch := exact lane_ok d L gI hb _ _ _ (by decide) (by decide) (by decide))
  -- lane 0
  iapply (fire_one1 m d L gI hb f0 (16 * k.val + 0) (by omega) _ _
    (rowS1_eq _ _ _ _ _ rfl (lane_val1 d L gI k 0 (by omega) (by omega) (by decide) (by decide) (by decide)))
    (rowD_eq _ _ ⟨16 * k.val + 0, by omega⟩ (k0_off40_eq k ⟨0, by decide⟩))) $$ [HF]
  · iexact HF
  iintro HF
  sl_exec (disch := exact lane_ok d L gI hb _ _ _ (by decide) (by decide) (by decide))
  -- lane 1
  iapply (fire_one1 m d L gI hb f0 (16 * k.val + 1) (by omega) _ _
    (rowS1_eq _ _ _ _ _ rfl (lane_val1 d L gI k 1 (by omega) (by omega) (by decide) (by decide) (by decide)))
    (rowD_eq _ _ ⟨16 * k.val + 1, by omega⟩ (k0_off42_eq k ⟨0, by decide⟩))) $$ [HF]
  · iexact HF
  iintro HF
  sl_exec (disch := exact lane_ok d L gI hb _ _ _ (by decide) (by decide) (by decide))
  -- lane 2
  iapply (fire_one1 m d L gI hb f0 (16 * k.val + 2) (by omega) _ _
    (rowS1_eq _ _ _ _ _ rfl (lane_val1 d L gI k 2 (by omega) (by omega) (by decide) (by decide) (by decide)))
    (rowD_eq _ _ ⟨16 * k.val + 2, by omega⟩ (k0_off44_eq k ⟨0, by decide⟩))) $$ [HF]
  · iexact HF
  iintro HF
  sl_exec (disch := exact lane_ok d L gI hb _ _ _ (by decide) (by decide) (by decide))
  -- lane 3
  iapply (fire_one1 m d L gI hb f0 (16 * k.val + 3) (by omega) _ _
    (rowS1_eq _ _ _ _ _ rfl (lane_val1 d L gI k 3 (by omega) (by omega) (by decide) (by decide) (by decide)))
    (rowD_eq _ _ ⟨16 * k.val + 3, by omega⟩ (k0_off46_eq k ⟨0, by decide⟩))) $$ [HF]
  · iexact HF
  iintro HF
  sl_exec (disch := exact lane_ok d L gI hb _ _ _ (by decide) (by decide) (by decide))
  -- lane 4
  iapply (fire_one1 m d L gI hb f0 (16 * k.val + 4) (by omega) _ _
    (rowS1_eq _ _ _ _ _ rfl (lane_val1 d L gI k 4 (by omega) (by omega) (by decide) (by decide) (by decide)))
    (rowD_eq _ _ ⟨16 * k.val + 4, by omega⟩ (k0_off48_eq k ⟨0, by decide⟩))) $$ [HF]
  · iexact HF
  iintro HF
  sl_exec (disch := exact lane_ok d L gI hb _ _ _ (by decide) (by decide) (by decide))
  -- lane 5
  iapply (fire_one1 m d L gI hb f0 (16 * k.val + 5) (by omega) _ _
    (rowS1_eq _ _ _ _ _ rfl (lane_val1 d L gI k 5 (by omega) (by omega) (by decide) (by decide) (by decide)))
    (rowD_eq _ _ ⟨16 * k.val + 5, by omega⟩ (k0_off50_eq k ⟨0, by decide⟩))) $$ [HF]
  · iexact HF
  iintro HF
  sl_exec (disch := exact lane_ok d L gI hb _ _ _ (by decide) (by decide) (by decide))
  -- lane 6
  iapply (fire_one1 m d L gI hb f0 (16 * k.val + 6) (by omega) _ _
    (rowS1_eq _ _ _ _ _ rfl (lane_val1 d L gI k 6 (by omega) (by omega) (by decide) (by decide) (by decide)))
    (rowD_eq _ _ ⟨16 * k.val + 6, by omega⟩ (k0_off52_eq k ⟨0, by decide⟩))) $$ [HF]
  · iexact HF
  iintro HF
  sl_exec (disch := exact lane_ok d L gI hb _ _ _ (by decide) (by decide) (by decide))
  -- lane 7
  iapply (fire_one1 m d L gI hb f0 (16 * k.val + 7) (by omega) _ _
    (rowS1_eq _ _ _ _ _ rfl (lane_val1 d L gI k 7 (by omega) (by omega) (by decide) (by decide) (by decide)))
    (rowD_eq _ _ ⟨16 * k.val + 7, by omega⟩ (k0_off54_eq k ⟨0, by decide⟩))) $$ [HF]
  · iexact HF
  iintro HF
  sl_exec (disch := exact lane_ok d L gI hb _ _ _ (by decide) (by decide) (by decide))
  -- lane 8
  iapply (fire_one1 m d L gI hb f0 (16 * k.val + 8) (by omega) _ _
    (rowS1_eq _ _ _ _ _ rfl (lane_val1 d L gI k 8 (by omega) (by omega) (by decide) (by decide) (by decide)))
    (rowD_eq _ _ ⟨16 * k.val + 8, by omega⟩ (k0_off56_eq k ⟨0, by decide⟩))) $$ [HF]
  · iexact HF
  iintro HF
  sl_exec (disch := exact lane_ok d L gI hb _ _ _ (by decide) (by decide) (by decide))
  -- lane 9
  iapply (fire_one1 m d L gI hb f0 (16 * k.val + 9) (by omega) _ _
    (rowS1_eq _ _ _ _ _ rfl (lane_val1 d L gI k 9 (by omega) (by omega) (by decide) (by decide) (by decide)))
    (rowD_eq _ _ ⟨16 * k.val + 9, by omega⟩ (k0_off58_eq k ⟨0, by decide⟩))) $$ [HF]
  · iexact HF
  iintro HF
  sl_exec (disch := exact lane_ok d L gI hb _ _ _ (by decide) (by decide) (by decide))
  -- lane 10
  iapply (fire_one1 m d L gI hb f0 (16 * k.val + 10) (by omega) _ _
    (rowS1_eq _ _ _ _ _ rfl (lane_val1 d L gI k 10 (by omega) (by omega) (by decide) (by decide) (by decide)))
    (rowD_eq _ _ ⟨16 * k.val + 10, by omega⟩ (k0_off60_eq k ⟨0, by decide⟩))) $$ [HF]
  · iexact HF
  iintro HF
  sl_exec (disch := exact lane_ok d L gI hb _ _ _ (by decide) (by decide) (by decide))
  -- lane 11
  iapply (fire_one1 m d L gI hb f0 (16 * k.val + 11) (by omega) _ _
    (rowS1_eq _ _ _ _ _ rfl (lane_val1 d L gI k 11 (by omega) (by omega) (by decide) (by decide) (by decide)))
    (rowD_eq _ _ ⟨16 * k.val + 11, by omega⟩ (k0_off62_eq k ⟨0, by decide⟩))) $$ [HF]
  · iexact HF
  iintro HF
  sl_exec (disch := exact lane_ok d L gI hb _ _ _ (by decide) (by decide) (by decide))
  -- lane 12
  iapply (fire_one1 m d L gI hb f0 (16 * k.val + 12) (by omega) _ _
    (rowS1_eq _ _ _ _ _ rfl (lane_val1 d L gI k 12 (by omega) (by omega) (by decide) (by decide) (by decide)))
    (rowD_eq _ _ ⟨16 * k.val + 12, by omega⟩ (k0_off64_eq k ⟨0, by decide⟩))) $$ [HF]
  · iexact HF
  iintro HF
  sl_exec (disch := exact lane_ok d L gI hb _ _ _ (by decide) (by decide) (by decide))
  -- lane 13
  iapply (fire_one1 m d L gI hb f0 (16 * k.val + 13) (by omega) _ _
    (rowS1_eq _ _ _ _ _ rfl (lane_val1 d L gI k 13 (by omega) (by omega) (by decide) (by decide) (by decide)))
    (rowD_eq _ _ ⟨16 * k.val + 13, by omega⟩ (k0_off66_eq k ⟨0, by decide⟩))) $$ [HF]
  · iexact HF
  iintro HF
  sl_exec (disch := exact lane_ok d L gI hb _ _ _ (by decide) (by decide) (by decide))
  -- lane 14
  iapply (fire_one1 m d L gI hb f0 (16 * k.val + 14) (by omega) _ _
    (rowS1_eq _ _ _ _ _ rfl (lane_val1 d L gI k 14 (by omega) (by omega) (by decide) (by decide) (by decide)))
    (rowD_eq _ _ ⟨16 * k.val + 14, by omega⟩ (k0_off68_eq k ⟨0, by decide⟩))) $$ [HF]
  · iexact HF
  iintro HF
  sl_exec (disch := exact lane_ok d L gI hb _ _ _ (by decide) (by decide) (by decide))
  -- lane 15
  iapply (fire_one1 m d L gI hb f0 (16 * k.val + 15) (by omega) _ _
    (rowS1_eq _ _ _ _ _ rfl (lane_val1 d L gI k 15 (by omega) (by omega) (by decide) (by decide) (by decide)))
    (rowD_eq _ _ ⟨16 * k.val + 15, by omega⟩ (k0_off70_eq k))) $$ [HF]
  · iexact HF
  iintro HF
  sl_step
  isplitl [HsI]; · iexact HsI
  iexact HF

/-- Nothing issued yet: the batch just allocated, the row scratch whole, every read share in hand. -/
theorem fire1_intro (f0 : Buf (Elt F) ((SparseCore.V d (cV L) (jV L)).loc cc0_scratch1)) :
    iprop(Transfers.Batch (countersEmb (U := UU)) (SparseCore.V d (cV L) (jV L)) (.dma cc0_scratch2.sem) (none : HIx 1) NR (D1 m d L gI hb) 0 0
        ∗ ((SparseCore.V d (cV L) (jV L)).loc cc0_scratch1 ↦{fullShare} f0)
        ∗ bigSep Finset.univ (fun t : Fin 512 => (tLoc1 d ↦{tokq L t} tab1 m d : sProp 𝕄)))
      ⊢ Fire1 m d L gI hb f0 0 := by
  unfold Fire1
  rw [Transfers.pending_zero, Transfers.issued_zero, bigSep_empty, rows_split]
  iintro ⟨HB, HR, HT⟩
  isplitl [HB]; · iexact HB
  isplitl [HR]; · iexact HR
  isplitl [HT]; · iexact HT
  iempintro

/-- Everything issued: the batch, and what is left of the table beside each row lent. -/
theorem fire1_elim (f0 : Buf (Elt F) ((SparseCore.V d (cV L) (jV L)).loc cc0_scratch1)) :
    Fire1 m d L gI hb f0 512
      ⊢ iprop(Transfers.Batch (countersEmb (U := UU)) (SparseCore.V d (cV L) (jV L)) (.dma cc0_scratch2.sem) (none : HIx 1) NR (D1 m d L gI hb) 512 0
        ∗ bigSep Finset.univ (fun t : Fin 512 => (tLoc1 d ↦[Finset.univ \ (rowS1 (gI (ix1 t)) (hb _)).view.set]{tokq L t} tab1 m d : sProp 𝕄))) := by
  unfold Fire1
  rw [pending_all, bigSep_empty, Transfers.issued_all rfl]
  iintro ⟨HB, -, -, HC⟩
  isplitl [HB]; · iexact HB
  iexact HC

/-- A read share of the table cut at a row and put back, for every copy at once. -/
theorem toks_rejoin1 :
    iprop(bigSep Finset.univ (fun t : Fin 512 => ((rowS1 (gI (ix1 t)) (hb _)).view.loc (SparseCore.V d (cV L) (jV L)) ↦[(rowS1 (gI (ix1 t)) (hb _)).view.set]{tokq L t} tab1 m d : sProp 𝕄))
        ∗ bigSep Finset.univ (fun t : Fin 512 => (tLoc1 d ↦[Finset.univ \ (rowS1 (gI (ix1 t)) (hb _)).view.set]{tokq L t} tab1 m d : sProp 𝕄)))
      ⊢ bigSep Finset.univ (fun t : Fin 512 => (tLoc1 d ↦{tokq L t} tab1 m d : sProp 𝕄)) := by
  rw [← bigSep_sep']
  exact bigSep_mono fun t _ => (pointsTo_split_subset (Finset.subset_univ (rowS1 (gI (ix1 t)) (hb _)).view.set)).2

/-- Every copy landed: the row scratch whole at the gathered rows, and the worker's read share of the table whole again. -/
theorem collect1 :
    iprop(bigSep Finset.univ (D1 m d L gI hb)
        ∗ bigSep Finset.univ (fun t : Fin 512 => (tLoc1 d ↦[Finset.univ \ (rowS1 (gI (ix1 t)) (hb _)).view.set]{tokq L t} tab1 m d : sProp 𝕄))
        ∗ (tLoc1 d ↦{Transfers.shareDrop (Transfers.shareTok fullShare 32 (wid (cV L) (jV L))) 512} tab1 m d))
      ⊢ iprop(((SparseCore.V d (cV L) (jV L)).loc cc0_scratch1 ↦{fullShare} G1 m d L gI hb)
        ∗ (tLoc1 d ↦{Transfers.shareTok fullShare 32 (wid (cV L) (jV L))} tab1 m d)) := by
  rw [show D1 m d L gI hb = fun t => iprop(((rowD t).view.loc (SparseCore.V d (cV L) (jV L)) ↦[(rowD t).view.set]{fullShare} G1 m d L gI hb)
      ∗ ((rowS1 (gI (ix1 t)) (hb _)).view.loc (SparseCore.V d (cV L) (jV L)) ↦[(rowS1 (gI (ix1 t)) (hb _)).view.set]{tokq L t} tab1 m d)) from funext fun t => rfl,
    bigSep_sep', rows_split]
  iintro ⟨⟨HA, HB⟩, HC, Hdrop⟩
  isplitl [HA]; · iexact HA
  iapply (Transfers.pointsTo_toks_join (Transfers.shareTok fullShare 32 (wid (cV L) (jV L))) 512)
  isplitl [Hdrop]; · iexact Hdrop
  iapply (toks_rejoin1 m d L gI hb)
  isplitl [HB]; · iexact HB
  iexact HC

end Table1

/-! ### The index block a worker fetches, and its rows of the result -/

/-- What the fetch leaves in the index scratch: the worker's 512 entries of the second index vector. -/
abbrev gI1 : Buf (Elt F) ((SparseCore.V d (cV L) (jV L)).loc cc0_scratch0) := (iBlk1 L).view.read (Elt F) (m (iLoc1 d))

omit [FloatOps F] in
theorem gI1_le (hpre : PreOK m) : ∀ j, (gI1 m d L j).toNat ≤ 999999 := by
  intro j
  have e := (View.read_apply (v := (iBlk1 L).view) (m (iLoc1 d)) j).trans (cast_eq _ _)
  show ((iBlk1 L).view.read (Elt F) (m (iLoc1 d)) j).toNat ≤ 999999
  rw [e]; exact (hpre d _).2

omit [FloatOps F] in
/-- Entry `t` of it is entry `512·w + t` of the index vector. -/
theorem gI1_val (t : Fin 512) (h : 512 * (wid (cV L) (jV L)).val + t.val < 16384) :
    gI1 m d L (ix1 t) = m (iLoc1 d) (ix1 (⟨512 * (wid (cV L) (jV L)).val + t.val, h⟩ : Fin 16384)) := by
  refine ((View.read_apply (v := (iBlk1 L).view) (m (iLoc1 d)) (ix1 t)).trans (cast_eq _ _)).trans ?_
  refine congrArg (m (iLoc1 d)) (funext fun a => Fin.ext ?_)
  match a with
  | 0 =>
    show (k0_off1 L) 0 + 1 * t.val = 512 * (wid (cV L) (jV L)).val + t.val
    rw [k0_off1_eq]; simp [wid]; omega

/-- After the copy-out the worker's rows of the result are the table's rows its indices name. -/
theorem rows_out1 (hpre : PreOK m) (fo : Buf (Elt F) (oLoc1 d)) :
    RowsOf (m (iLoc1 d)) (tab1 m d) (wid (cV L) (jV L))
      ((oBlk1 L).view.writes (Elt F) fo [⟨Rect.whole S512x16,
        ReadAs.same.apply ((sRows : Memref sig .scVector .vmem S512x16 .f32).view.read (Elt F) (G1 m d L (gI1 m d L) (gI1_le m d L hpre)))⟩]) := by
  have e := (View.write_univ_eq_writes_whole (oBlk1 L).view fo []
    (ReadAs.same.apply ((sRows : Memref sig .scVector .vmem S512x16 .f32).view.read (Elt F) (G1 m d L (gI1 m d L) (gI1_le m d L hpre))))).symm
  refine (congrArg (RowsOf (m (iLoc1 d)) (tab1 m d) (wid (cV L) (jV L))) e).mpr ?_
  refine out_rows1 d L (m (iLoc1 d)) (tab1 m d) fo _ ?_
  intro r e hr h
  refine ((View.read_apply (v := (sRows : Memref sig .scVector .vmem S512x16 .f32).view) (G1 m d L (gI1 m d L) (gI1_le m d L hpre)) (ix2 r e)).trans (cast_eq _ _)).trans ?_
  show G1 m d L (gI1 m d L) (gI1_le m d L hpre) (ix2 r e) = _
  unfold G1
  refine congrArg (tab1 m d) (funext fun a => Fin.ext ?_)
  match a with
  | 0 =>
    show (gI1 m d L (ix1 r)).toNat = (m (iLoc1 d) (ix1 ⟨512 * (wid (cV L) (jV L)).val + r.val, hr⟩)).toNat
    rw [gI1_val m d L r hr]
  | 1 => rfl

end Tile

end Cert.Proof.KB

end
-- ==== Proof.TileB.lean ====
/-
  One vector subcore's task of the gather, proved once at a symbolic place `(L 0, L 1)` of a device. Worker
  `w = 2·s + c` is handed its 512 entries of each index vector, a read share of each whole table and its 512 rows of
  each result. Per table: the entries are copied into the index scratch; 512 row copies, table row `idx t` into row `t`
  of the row scratch, are all issued on one semaphore before any is waited for, each reading its table row through its
  own 512th of the worker's read share (so equal indices are no obstacle); 512 waits of one row's amount follow, of
  which only the last tells the subcore that every copy has landed; then the row scratch, now whole at the gathered
  rows, is copied out to the worker's rows of the result. Nothing touches a copy's source or destination between the
  first issue and the last wait. What is handed back is what was handed over, the worker's rows of each result now the
  table rows its indices name; the scratches, the semaphore counters (all at zero again) and the recorded waits (all
  the subcore's own) go back to the launch.
-/
import proofs.«212205_g31413390803091_cont_8to1_b_1662_24_alg».proof.Proof.IfaceB
import proofs.«212205_g31413390803091_cont_8to1_b_1662_24_alg».proof.Proof.OutRowsB
import proofs.«212205_g31413390803091_cont_8to1_b_1662_24_alg».proof.Proof.TileFire0B
import proofs.«212205_g31413390803091_cont_8to1_b_1662_24_alg».proof.Proof.TileFire1B

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

variable [FloatOps F]

set_option maxHeartbeats 4000000 in
/-- The task of vector subcore `(L 0, L 1)` of device `d`: for each table, the worker's 512 indices into the index scratch,
    512 row copies issued on one semaphore and 512 waits for them, and the gathered rows out to the worker's rows of the
    result. -/
theorem tile_body' (hF : (K (F := F)).Facts) (hpre : PreOK m) (O : CellTallies nD τ sig (HIx 1)) (W : Waits sig (HIx 1)) (hO : ∀ g, O g none = 0) :
    iprop(levAts (K (F := F)).L (K (F := F)).lev ∗ emp ∗ tileGo m d (wid (cV L) (jV L)) ∗ scopedBufs (SparseCore.V d (cV L) (jV L)) ∗ scopedSems0 (SparseCore.V d (cV L) (jV L)) ∗ owes (SparseCore.V d (cV L) (jV L)) O W)
      ⊢ wp frame (wpE (defs₀ (F := F)) 𝒱₀ (SparseCore.V d (cV L) (jV L)) none) Set.univ (tileProg (F := F) L)
          fun _ => iprop(tileTd m d (wid (cV L) (jV L)) ∗ scopedBufs (SparseCore.V d (cV L) (jV L)) ∗ scopedSems0 (SparseCore.V d (cV L) (jV L)) ∗ ∃ W', ⌜∀ p ∈ W', p ∈ W ∨ p.2 = none⌝ ∗ owes (SparseCore.V d (cV L) (jV L)) O W') := by
  unfold tileProg
  simp only [cc0__gather_sc_eq_skeleton]; unfold cc0__gather_sc_skel
  simp only [k0_part9_eq_skeleton]; unfold k0_part9_skel
  rw [(K (F := F)).scopedBufs_V hF d (cV L) (jV L), SparseCore.Cfg.scopedSems0_V (Val := Elt F) d (cV L) (jV L), ownSems0_V, ownBufs_V]
  unfold tileGo tileTd
  iintro ⟨#Hlv, -, ⟨Hi0, Hi1, Ht0, Ht1, ⟨%fo0, Ho0⟩, ⟨%fo1, Ho1⟩⟩, ⟨⟨%fI, HsI⟩, ⟨%fR, HsR⟩, Hbufs⟩, ⟨HsemB, Hsem0, Hsem1, Hsem2, Hsem3, Hsems⟩, HO⟩
  ihave Hmw := ((K (F := F)).mayWaits_none (thr := SparseCore.V d (cV L) (jV L)) hO) $$ Hlv
  ihave Hi0' := (Entails.of_eq (pts_iBlk0 (F := F) d L _).symm) $$ Hi0
  ihave HsI' := (Entails.of_eq (pts_sIdx (F := F) d L _).symm) $$ HsI
  -- the first index block into the index scratch
  sl_exec
  rw [wp_bind]

  -- table one: the index scratch as the worker's 512 entries of the index vector
  ihave HsI := (Entails.of_eq (show
      ((sIdx : Memref sig .scVector .vmem S512 .i32).view.loc (SparseCore.V d (cV L) (jV L)) ↦[(sIdx : Memref sig .scVector .vmem S512 .i32).view.set]{fullShare}
          (sIdx : Memref sig .scVector .vmem S512 .i32).view.writes (Elt F) fI [⟨Rect.whole S512, tile_body'.sl.dma0 m d L⟩] : sProp 𝕄)
        = ((sIdx : Memref sig .scVector .vmem S512 .i32).view.loc (SparseCore.V d (cV L) (jV L)) ↦[(sIdx : Memref sig .scVector .vmem S512 .i32).view.set]{fullShare} gI0 m d L)
      from congrArg (fun g => ((sIdx : Memref sig .scVector .vmem S512 .i32).view.loc (SparseCore.V d (cV L) (jV L)) ↦[(sIdx : Memref sig .scVector .vmem S512 .i32).view.set]{fullShare} g : sProp 𝕄))
        (idx_landed (F := F) d L fI (gI0 m d L)))) $$ HsI'
  -- its 512 row copies, stated before any is issued; its read share cut into 512
  imod (Transfers.batch_alloc' (Lvl := ℕ) (countersEmb (U := UU)) (SparseCore.V d (cV L) (jV L)) (none : HIx 1) NR (D0 m d L (gI0 m d L) (gI0_le m d L hpre))
    (sm := .dma cc0_scratch2.sem) (E := Set.univ)) $$ HsemB with HB
  ihave HT := (Transfers.pointsTo_toks_split (Transfers.shareTok fullShare 32 (wid (cV L) (jV L))) 512) $$ Ht0
  icases HT with ⟨Hdrop0, HT⟩
  ihave HF := (fire0_intro m d L (gI0 m d L) (gI0_le m d L hpre) fR) $$ [HB HsR HT]
  · isplitl [HB]; · iexact HB
    isplitl [HsR]; · iexact HsR
    iexact HT
  -- the issuing loop
  sl_for (Inv1 m d L (gI0 m d L) (gI0_le m d L hpre) fR) $$ [HsI HF]
  case region => exact fun k acc => fire_region m d L (gI0 m d L) (gI0_le m d L hpre) fR k acc
  · unfold Inv1
    isplitl [HsI]; · iexact HsI
    iexact HF
  iintro %_ HI
  unfold Inv1
  rw [show 16 * Scf.trips k0_t1_loop.lb k0_t1_loop.ub k0_t1_loop.st = 512 from by decide]
  icases HI with ⟨HsI, HF⟩
  ihave HF' := (fire0_elim m d L (gI0 m d L) (gI0_le m d L hpre) fR) $$ HF
  icases HF' with ⟨HB, HC0⟩
  -- the 512 waits
  sl_for (Inv2 d L (D0 m d L (gI0 m d L) (gI0_le m d L hpre)) O W) $$ [HB HO]
  case region => exact fun k acc => drain_region0 d L (D0 m d L (gI0 m d L) (gI0_le m d L hpre)) O W k acc
  · unfold Inv2
    rw [DrainSt_lt d L _ (show 0 < 512 by decide), Nat.zero_mul]
    isplitr; · iexact Hmw
    isplitl [HB]; · iexact HB
    iexists _; isplitr
    on_goal 2 => iexact HO
    ipureintro; exact ins_ok (fun p hp => .inl hp) _
  iintro %_ HI
  unfold Inv2
  rw [DrainSt_ge d L _ (show ¬ Scf.trips k0_t2_loop.lb k0_t2_loop.ub k0_t2_loop.st < 512 by decide)]
  icases HI with ⟨-, ⟨HD, HsemB⟩, %W2, %hW2, HO⟩
  -- every row landed: the row scratch whole at the gathered rows, the table's share whole again
  ihave HX := (collect0 m d L (gI0 m d L) (gI0_le m d L hpre)) $$ [HD HC0 Hdrop0]
  · isplitl [HD]; · iexact HD
    isplitl [HC0]; · iexact HC0
    iexact Hdrop0
  icases HX with ⟨HsR, Ht0⟩

  -- the gathered rows out to the worker's rows of the first result; the second index block into the index scratch
  ihave HsR' := (Entails.of_eq (pts_sRows (F := F) d L _).symm) $$ HsR
  ihave Ho0' := (Entails.of_eq (pts_oBlk0 (F := F) d L _).symm) $$ Ho0
  ihave Hi1' := (Entails.of_eq (pts_iBlk1 (F := F) d L _).symm) $$ Hi1
  sl_exec
  ihave HsR := (Entails.of_eq (pts_sRows (F := F) d L _)) $$ HsR'

  -- table two: the index scratch as the worker's 512 entries of the index vector
  ihave HsI := (Entails.of_eq (show
      ((sIdx : Memref sig .scVector .vmem S512 .i32).view.loc (SparseCore.V d (cV L) (jV L)) ↦[(sIdx : Memref sig .scVector .vmem S512 .i32).view.set]{fullShare}
          (sIdx : Memref sig .scVector .vmem S512 .i32).view.writes (Elt F) (sIdx : Memref sig .scVector .vmem S512 .i32).view.junk [⟨Rect.whole S512, tile_body'.sl.dma0_2 m d L⟩] : sProp 𝕄)
        = ((sIdx : Memref sig .scVector .vmem S512 .i32).view.loc (SparseCore.V d (cV L) (jV L)) ↦[(sIdx : Memref sig .scVector .vmem S512 .i32).view.set]{fullShare} gI1 m d L)
      from congrArg (fun g => ((sIdx : Memref sig .scVector .vmem S512 .i32).view.loc (SparseCore.V d (cV L) (jV L)) ↦[(sIdx : Memref sig .scVector .vmem S512 .i32).view.set]{fullShare} g : sProp 𝕄))
        (idx_landed (F := F) d L (sIdx : Memref sig .scVector .vmem S512 .i32).view.junk (gI1 m d L)))) $$ HsI
  -- its 512 row copies, stated before any is issued; its read share cut into 512
  imod (Transfers.batch_alloc' (Lvl := ℕ) (countersEmb (U := UU)) (SparseCore.V d (cV L) (jV L)) (none : HIx 1) NR (D1 m d L (gI1 m d L) (gI1_le m d L hpre))
    (sm := .dma cc0_scratch2.sem) (E := Set.univ)) $$ HsemB with HB
  ihave HT := (Transfers.pointsTo_toks_split (Transfers.shareTok fullShare 32 (wid (cV L) (jV L))) 512) $$ Ht1
  icases HT with ⟨Hdrop1, HT⟩
  ihave HF := (fire1_intro m d L (gI1 m d L) (gI1_le m d L hpre) (G0 m d L (gI0 m d L) (gI0_le m d L hpre))) $$ [HB HsR HT]
  · isplitl [HB]; · iexact HB
    isplitl [HsR]; · iexact HsR
    iexact HT
  -- the issuing loop
  sl_for (Inv3 m d L (gI1 m d L) (gI1_le m d L hpre) (G0 m d L (gI0 m d L) (gI0_le m d L hpre))) $$ [HsI HF]
  case region => exact fun k acc => fire_region1 m d L (gI1 m d L) (gI1_le m d L hpre) (G0 m d L (gI0 m d L) (gI0_le m d L hpre)) k acc
  · unfold Inv3
    isplitl [HsI]; · iexact HsI
    iexact HF
  iintro %_ HI
  unfold Inv3
  rw [show 16 * Scf.trips k0_t3_loop.lb k0_t3_loop.ub k0_t3_loop.st = 512 from by decide]
  icases HI with ⟨HsI, HF⟩
  ihave HF' := (fire1_elim m d L (gI1 m d L) (gI1_le m d L hpre) (G0 m d L (gI0 m d L) (gI0_le m d L hpre))) $$ HF
  icases HF' with ⟨HB, HC1⟩
  -- the 512 waits
  sl_for (Inv2 d L (D1 m d L (gI1 m d L) (gI1_le m d L hpre)) O W) $$ [HB HO]
  case region => exact fun k acc => drain_region1 d L (D1 m d L (gI1 m d L) (gI1_le m d L hpre)) O W k acc
  · unfold Inv2
    rw [DrainSt_lt d L _ (show 0 < 512 by decide), Nat.zero_mul]
    isplitr; · iexact Hmw
    isplitl [HB]; · iexact HB
    iexists _; isplitr
    on_goal 2 => iexact HO
    ipureintro; exact ins_ok (ins_ok hW2 _) _
  iintro %_ HI
  unfold Inv2
  rw [DrainSt_ge d L _ (show ¬ Scf.trips k0_t4_loop.lb k0_t4_loop.ub k0_t4_loop.st < 512 by decide)]
  icases HI with ⟨-, ⟨HD, HsemB⟩, %W4, %hW4, HO⟩
  -- every row landed: the row scratch whole at the gathered rows, the table's share whole again
  ihave HX := (collect1 m d L (gI1 m d L) (gI1_le m d L hpre)) $$ [HD HC1 Hdrop1]
  · isplitl [HD]; · iexact HD
    isplitl [HC1]; · iexact HC1
    iexact Hdrop1
  icases HX with ⟨HsR, Ht1⟩

  -- the gathered rows out to the worker's rows of the second result
  ihave HsR' := (Entails.of_eq (pts_sRows (F := F) d L _).symm) $$ HsR
  ihave Ho1' := (Entails.of_eq (pts_oBlk1 (F := F) d L _).symm) $$ Ho1
  sl_exec
  sl_step
  -- what the worker hands back
  isplitl [Hi0' Hi1' Ht0 Ht1 Ho0' Ho1']
  · isplitl [Hi0']; · iapply (Entails.of_eq (pts_iBlk0 (F := F) d L _)); iexact Hi0'
    isplitl [Hi1']; · iapply (Entails.of_eq (pts_iBlk1 (F := F) d L _)); iexact Hi1'
    isplitl [Ht0]; · iexact Ht0
    isplitl [Ht1]; · iexact Ht1
    isplitl [Ho0']
    · iexists _; isplitr
      on_goal 2 => (iapply (Entails.of_eq (pts_oBlk0 (F := F) d L _)); iexact Ho0')
      ipureintro; exact rows_out0 m d L hpre _
    · iexists _; isplitr
      on_goal 2 => (iapply (Entails.of_eq (pts_oBlk1 (F := F) d L _)); iexact Ho1')
      ipureintro; exact rows_out1 m d L hpre _
  -- its two scratches, at whatever they hold, and its other buffers
  isplitl [HsI HsR' Hbufs]
  · isplitl [HsI]; · iexists _; iapply (Entails.of_eq (pts_sIdx (F := F) d L _)); iexact HsI
    isplitl [HsR']; · iexists _; iapply (Entails.of_eq (pts_sRows (F := F) d L _)); iexact HsR'
    iexact Hbufs
  -- its cells, every counter at zero again
  isplitl [HsemB Hsem0 Hsem1 Hsem2 Hsem3 Hsems]
  · isplitl [HsemB]; · iexact HsemB
    isplitl [Hsem0]; · iexact Hsem0
    isplitl [Hsem1]; · iexact Hsem1
    isplitl [Hsem2]; · iexact Hsem2
    isplitl [Hsem3]; · iexact Hsem3
    iexact Hsems
  -- the waits it recorded are its own
  iexists _; isplitr
  on_goal 2 => iexact HO
  ipureintro; exact ins_ok hW4 _

/-- The task, as the launch cites it. -/
theorem tile_body : TileBody m := by
  intro hF hpre d L O W hO
  exact tile_body' m d L hF hpre O W hO

end Tile

end Cert.Proof.KB

end
-- ==== Proof.lean ====
/-
  The certificate of a two-tower recommendation score: an embedding lookup on the SparseCore followed by three dense
  layers on the TensorCore, against `jnp.take`, a concatenation and three matrix products on the host.

  THE KERNEL PROGRAM. Thirty-two vector subcores (two SparseCores of sixteen) each own 512 consecutive batch rows.
  A subcore copies its 512 user indices into its scratch, starts 512 row copies `table[index] → rows[k]` on ONE
  semaphore, waits 512 times for one row's amount, and only then copies its 512 gathered rows out; the same again
  for the item table. No source or destination of the 512 copies is touched between the first start and the last
  wait, so the counted-batch protocol applies: the last wait hands back every delivery. The TensorCore then runs the
  dense layers over the batch in eight blocks of 2048 rows: `σ(relu(relu(u·W1[0:16] + i·W1[16:32] + b1)·W2 + b2)·W3 + b3)`.

  THE FRAMES. Every weakly fair execution of the thirty-five threads terminates and leaves the ten arguments
  unchanged: the launch theorem for SparseCore programs, from one subcore's task proved at a symbolic place, the
  TensorCore kernel's region, and @main's three straight lines of host operations; the same text at the word-level
  instance and at the ideal one. The precondition's index ranges (`0 ≤ id ≤ 999999`) are what make every row copy
  name a row. The reference is a host-only program: its run is its operations' fold.

  THE EQUIVALENCE, on the extended reals. Both programs end at `Spec.G U I W1 b1 W2 b2 W3 b3`, the score of every
  row, where `U` and `I` hold the table rows that the indices name (`Spec.Gathered`): the kernel's subcores wrote
  exactly those rows (two transpositions of a table undo each other), the reference's fill-mode `take` returns them
  because every index is in range; indices in range determine such a matrix. The first layer's product with the
  concatenated row is the sum over thirty-two entries, the kernel's is the two sums over sixteen: one finite sum split
  in two, with no use of finiteness of the inputs. The logistic function is one function at both programs.
  The idealization rewrote nothing, so `preserves` has no conjunct.
-/
import proofs.«212205_g31413390803091_cont_8to1_b_1662_24_alg».proof.Defs
import proofs.«212205_g31413390803091_cont_8to1_b_1662_24_alg».proof.Proof.Gen.Kernel
import proofs.«212205_g31413390803091_cont_8to1_b_1662_24_alg».proof.Proof.Gen.Kernel.Skeleton
import proofs.«212205_g31413390803091_cont_8to1_b_1662_24_alg».proof.Proof.Gen.Kernel.Launch
import proofs.«212205_g31413390803091_cont_8to1_b_1662_24_alg».proof.Proof.Gen.Kernel.Points
import proofs.«212205_g31413390803091_cont_8to1_b_1662_24_alg».proof.Proof.Gen.KernelIdeal
import proofs.«212205_g31413390803091_cont_8to1_b_1662_24_alg».proof.Proof.Gen.KernelIdeal.Skeleton
import proofs.«212205_g31413390803091_cont_8to1_b_1662_24_alg».proof.Proof.Gen.KernelIdeal.Launch
import proofs.«212205_g31413390803091_cont_8to1_b_1662_24_alg».proof.Proof.Gen.KernelIdeal.Points
import proofs.«212205_g31413390803091_cont_8to1_b_1662_24_alg».proof.Proof.Gen.ReferenceIdeal
import proofs.«212205_g31413390803091_cont_8to1_b_1662_24_alg».proof.Proof.Gen.Pre_input_domain
import proofs.«212205_g31413390803091_cont_8to1_b_1662_24_alg».proof.Proof.Asm
import proofs.«212205_g31413390803091_cont_8to1_b_1662_24_alg».proof.Proof.AsmB
import proofs.«212205_g31413390803091_cont_8to1_b_1662_24_alg».proof.Proof.Tile
import proofs.«212205_g31413390803091_cont_8to1_b_1662_24_alg».proof.Proof.TileB
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Asm.frame_kb (fun m => KB.tile_body (m := m)), Asm.frame_ki (fun m => KI.tile_body (m := m)), Asm.frame_ri, trivial,
    Asm.algebraic (fun m => KI.tile_body (m := m))⟩

end Cert.Proof

end
